-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S1x1x2048 : Shape := ⟨3, ![1, 1, 2048]⟩
abbrev S8192x2048 : Shape := ⟨2, ![8192, 2048]⟩
abbrev S2048x2048 : Shape := ⟨2, ![2048, 2048]⟩
abbrev S2048x8192 : Shape := ⟨2, ![2048, 8192]⟩
abbrev S2048 : Shape := ⟨1, ![2048]⟩
abbrev S8192 : Shape := ⟨1, ![8192]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S1x1x2048 : S_.BroadcastsInDim S1x1x2048 (![] : Fin 0 → Fin S1x1x2048.rank)
  reducesTo_S1x1x2048_S_d0_1_2 : S1x1x2048.ReducesTo [0, 1, 2] S_
  bcast_S_S8192x2048 : S_.BroadcastsInDim S8192x2048 (![] : Fin 0 → Fin S8192x2048.rank)
  reducesTo_S8192x2048_S_d0_1 : S8192x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x8192 : S_.BroadcastsInDim S2048x8192 (![] : Fin 0 → Fin S2048x8192.rank)
  reducesTo_S2048x8192_S_d0_1 : S2048x8192.ReducesTo [0, 1] S_
  bcast_S_S2048 : S_.BroadcastsInDim S2048 (![] : Fin 0 → Fin S2048.rank)
  reducesTo_S2048_S_d0 : S2048.ReducesTo [0] S_
  bcast_S_S8192 : S_.BroadcastsInDim S8192 (![] : Fin 0 → Fin S8192.rank)
  reducesTo_S8192_S_d0 : S8192.ReducesTo [0] S_

variable [Facts]

def fn_part2 {F : FTy → Type} [FloatOps F] (main_arg7 : FVec F S2048 .f32) (main_arg8 : FVec F S8192 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S8192 .f32 := Host.absf main_arg8
  let main_cst_14 : FVec F S_ .f32 := constant S_ .f32 0x7F800000#32
  let main_v40 : FVec F S8192 .f32 := broadcastInDim S8192 ![] bcast_S_S8192 main_cst_14
  let main_v41 : IVec S8192 1 := cmpf .olt main_v39 main_v40
  let main_c_15 : IVec S_ 1 := constantI S_ 1 1#1
  let main_v42 : IVec S_ 1 := (fun x v => Host.reduce IntOp.andi x v reducesTo_S8192_S_d0 h_S_) main_v41 main_c_15
  let main_v43 : IVec S_ 1 := andi main_v38 main_v42
  main_v43

def fn_part1 {F : FTy → Type} [FloatOps F] (main_arg4 : FVec F S2048x2048 .f32) (main_arg5 : FVec F S2048x8192 .f32) (main_arg6 : FVec F S2048 .f32) (main_arg7 : FVec F S2048 .f32) (main_arg8 : FVec F S8192 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x8192 .f32 := Host.absf main_arg5
  let main_cst_8 : FVec F S_ .f32 := constant S_ .f32 0x7F800000#32
  let main_v25 : FVec F S2048x8192 .f32 := broadcastInDim S2048x8192 ![] bcast_S_S2048x8192 main_cst_8
  let main_v26 : IVec S2048x8192 1 := cmpf .olt main_v24 main_v25
  let main_c_9 : IVec S_ 1 := constantI S_ 1 1#1
  let main_v27 : IVec S_ 1 := (fun x v => Host.reduce IntOp.andi x v reducesTo_S2048x8192_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_v33

def fn {F : FTy → Type} [FloatOps F] (main_arg0 : FVec F S4x2048x2048 .f32) (main_arg1 : FVec F S1x1x2048 .f32) (main_arg2 : FVec F S1x1x2048 .f32) (main_arg3 : FVec F S8192x2048 .f32) (main_arg4 : FVec F S2048x2048 .f32) (main_arg5 : FVec F S2048x8192 .f32) (main_arg6 : FVec F S2048 .f32) (main_arg7 : FVec F S2048 .f32) (main_arg8 : FVec F S8192 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S1x1x2048 .f32 := Host.absf main_arg1
  let main_cst_0 : FVec F S_ .f32 := constant S_ .f32 0x7F800000#32
  let main_v5 : FVec F S1x1x2048 .f32 := broadcastInDim S1x1x2048 ![] bcast_S_S1x1x2048 main_cst_0
  let main_v6 : IVec S1x1x2048 1 := cmpf .olt main_v4 main_v5
  let main_c_1 : IVec S_ 1 := constantI S_ 1 1#1
  let main_v7 : IVec S_ 1 := (fun x v => Host.reduce IntOp.andi x v reducesTo_S1x1x2048_S_d0_1_2 h_S_) main_v6 main_c_1
  let main_v8 : IVec S_ 1 := andi main_v3 main_v7
  let main_v9 : FVec F S1x1x2048 .f32 := Host.absf main_arg2
  let main_cst_2 : FVec F S_ .f32 := constant S_ .f32 0x7F800000#32
  let main_v10 : FVec F S1x1x2048 .f32 := broadcastInDim S1x1x2048 ![] bcast_S_S1x1x2048 main_cst_2
  let main_v11 : IVec S1x1x2048 1 := cmpf .olt main_v9 main_v10
  let main_c_3 : IVec S_ 1 := constantI S_ 1 1#1
  let main_v12 : IVec S_ 1 := (fun x v => Host.reduce IntOp.andi x v reducesTo_S1x1x2048_S_d0_1_2 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_arg7 main_arg8 main_v13 main_v16
-- ==== Kernel.lean ====
abbrev S4x2048x2048 : Shape := ⟨3, ![4, 2048, 2048]⟩
abbrev S1x1x2048 : Shape := ⟨3, ![1, 1, 2048]⟩
abbrev S8192x2048 : Shape := ⟨2, ![8192, 2048]⟩
abbrev S2048x2048 : Shape := ⟨2, ![2048, 2048]⟩
abbrev S2048x8192 : Shape := ⟨2, ![2048, 8192]⟩
abbrev S2048 : Shape := ⟨1, ![2048]⟩
abbrev S8192 : Shape := ⟨1, ![8192]⟩
abbrev S4x2047x2048 : Shape := ⟨3, ![4, 2047, 2048]⟩
abbrev S_ : Shape := ⟨0, ![]⟩
abbrev S1x2048 : Shape := ⟨2, ![1, 2048]⟩
abbrev S1x8192 : Shape := ⟨2, ![1, 8192]⟩
abbrev S512x2048 : Shape := ⟨2, ![512, 2048]⟩
abbrev S512 : Shape := ⟨1, ![512]⟩
abbrev S512x1 : Shape := ⟨2, ![512, 1]⟩
abbrev S8192x8192 : Shape := ⟨2, ![8192, 8192]⟩
abbrev S2048x512 : Shape := ⟨2, ![2048, 512]⟩
abbrev S128x8192 : Shape := ⟨2, ![128, 8192]⟩
abbrev S128 : Shape := ⟨1, ![128]⟩
abbrev S128x1 : Shape := ⟨2, ![128, 1]⟩
abbrev S1024x2048 : Shape := ⟨2, ![1024, 2048]⟩
abbrev S1024x1024 : Shape := ⟨2, ![1024, 1024]⟩
abbrev S256x2048 : Shape := ⟨2, ![256, 2048]⟩

abbrev nBuf : Space → Nat
  | .hbm => 113
  | .vmem => 37
  | .smem => 0
  | _ => 0

abbrev bufTy : (tb : Table) → Fin (tcTables nBuf tb) → BufTy
  | .hbm, ⟨0, _⟩ => ⟨S4x2048x2048, .f32⟩
  | .hbm, ⟨1, _⟩ => ⟨S1x1x2048, .f32⟩
  | .hbm, ⟨2, _⟩ => ⟨S1x1x2048, .f32⟩
  | .hbm, ⟨3, _⟩ => ⟨S8192x2048, .f32⟩
  | .hbm, ⟨4, _⟩ => ⟨S2048x2048, .f32⟩
  | .hbm, ⟨5, _⟩ => ⟨S2048x8192, .f32⟩
  | .hbm, ⟨6, _⟩ => ⟨S2048, .f32⟩
  | .hbm, ⟨7, _⟩ => ⟨S2048, .f32⟩
  | .hbm, ⟨8, _⟩ => ⟨S8192, .f32⟩
  | .hbm, ⟨9, _⟩ => ⟨S4x2047x2048, .f32⟩
  | .hbm, ⟨10, _⟩ => ⟨S_, .i32⟩
  | .hbm, ⟨11, _⟩ => ⟨S_, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S_, .f32⟩
  | .hbm, ⟨16, _⟩ => ⟨S1x1x2048, .f32⟩
  | .hbm, ⟨17, _⟩ => ⟨S1x1x2048, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S1x1x2048, .f32⟩
  | .hbm, ⟨25, _⟩ => ⟨S1x1x2048, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .i32⟩
  | .hbm, ⟨45, _⟩ => ⟨S_, .i32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S2048x8192, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S2048x8192, .f32⟩
  | .hbm, ⟨65, _⟩ => ⟨S2048x8192, .f32⟩
  | .hbm, ⟨66, _⟩ => ⟨S2048x8192, .f32⟩
  | .hbm, ⟨67, _⟩ => ⟨S_, .i32⟩
  | .hbm, ⟨68, _⟩ => ⟨S_, .i32⟩
  | .hbm, ⟨69, _⟩ => ⟨S_, .f32⟩
  | .hbm, ⟨70, _⟩ => ⟨S2048x8192, .f32⟩
  | .hbm, ⟨71, _⟩ => ⟨S2048x8192, .f32⟩
  | .hbm, ⟨72, _⟩ => ⟨S_, .f32⟩
  | .hbm, ⟨73, _⟩ => ⟨S2048x8192, .f32⟩
  | .hbm, ⟨74, _⟩ => ⟨S2048x8192, .f32⟩
  | .hbm, ⟨75, _⟩ => ⟨S2048x8192, .f32⟩
  | .hbm, ⟨76, _⟩ => ⟨S2048x8192, .f32⟩
  | .hbm, ⟨77, _⟩ => ⟨S2048x2048, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S2048x2048, .f32⟩
  | .hbm, ⟨88, _⟩ => ⟨S2048x2048, .f32⟩
  | .hbm, ⟨89, _⟩ => ⟨S2048x2048, .f32⟩
  | .hbm, ⟨90, _⟩ => ⟨S_, .i32⟩
  | .hbm, ⟨91, _⟩ => ⟨S_, .i32⟩
  | .hbm, ⟨92, _⟩ => ⟨S_, .f32⟩
  | .hbm, ⟨93, _⟩ => ⟨S2048x2048, .f32⟩
  | .hbm, ⟨94, _⟩ => ⟨S2048x2048, .f32⟩
  | .hbm, ⟨95, _⟩ => ⟨S_, .f32⟩
  | .hbm, ⟨96, _⟩ => ⟨S2048x2048, .f32⟩
  | .hbm, ⟨97, _⟩ => ⟨S2048x2048, .f32⟩
  | .hbm, ⟨98, _⟩ => ⟨S2048x2048, .f32⟩
  | .hbm, ⟨99, _⟩ => ⟨S2048x2048, .f32⟩
  | .hbm, ⟨100, _⟩ => ⟨S1x2048, .f32⟩
  | .hbm, ⟨101, _⟩ => ⟨S1x2048, .f32⟩
  | .hbm, ⟨102, _⟩ => ⟨S1x8192, .f32⟩
  | .hbm, ⟨103, _⟩ => ⟨S8192x2048, .bf16⟩
  | .hbm, ⟨104, _⟩ => ⟨S8192x2048, .bf16⟩
  | .hbm, ⟨105, _⟩ => ⟨S8192x8192, .f32⟩
  | .hbm, ⟨106, _⟩ => ⟨S8192x8192, .bf16⟩
  | .hbm, ⟨107, _⟩ => ⟨S2048x8192, .bf16⟩
  | .hbm, ⟨108, _⟩ => ⟨S8192x2048, .f32⟩
  | .hbm, ⟨109, _⟩ => ⟨S8192x2048, .bf16⟩
  | .hbm, ⟨110, _⟩ => ⟨S2048x2048, .bf16⟩
  | .hbm, ⟨111, _⟩ => ⟨S8192x2048, .f32⟩
  | .hbm, ⟨112, _⟩ => ⟨S4x2048x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S2048x2048, .bf16⟩
  | .local _ .vmem, ⟨6, _⟩ => ⟨S2048x2048, .bf16⟩
  | .local _ .vmem, ⟨7, _⟩ => ⟨S512x2048, .bf16⟩
  | .local _ .vmem, ⟨8, _⟩ => ⟨S512x2048, .bf16⟩
  | .local _ .vmem, ⟨9, _⟩ => ⟨S2048x512, .f32⟩
  | .local _ .vmem, ⟨10, _⟩ => ⟨S2048x512, .f32⟩
  | .local _ .vmem, ⟨11, _⟩ => ⟨S2048x512, .f32⟩
  | .local _ .vmem, ⟨12, _⟩ => ⟨S128x8192, .f32⟩
  | .local _ .vmem, ⟨13, _⟩ => ⟨S128x8192, .f32⟩
  | .local _ .vmem, ⟨14, _⟩ => ⟨S1x8192, .f32⟩
  | .local _ .vmem, ⟨15, _⟩ => ⟨S128x8192, .bf16⟩
  | .local _ .vmem, ⟨16, _⟩ => ⟨S128x8192, .bf16⟩
  | .local _ .vmem, ⟨17, _⟩ => ⟨S1024x2048, .bf16⟩
  | .local _ .vmem, ⟨18, _⟩ => ⟨S1024x2048, .bf16⟩
  | .local _ .vmem, ⟨19, _⟩ => ⟨S1024x2048, .bf16⟩
  | .local _ .vmem, ⟨20, _⟩ => ⟨S1024x2048, .bf16⟩
  | .local _ .vmem, ⟨21, _⟩ => ⟨S1024x1024, .f32⟩
  | .local _ .vmem, ⟨22, _⟩ => ⟨S1024x1024, .f32⟩
  | .local _ .vmem, ⟨23, _⟩ => ⟨S1024x1024, .f32⟩
  | .local _ .vmem, ⟨24, _⟩ => ⟨S512x2048, .f32⟩
  | .local _ .vmem, ⟨25, _⟩ => ⟨S512x2048, .f32⟩
  | .local _ .vmem, ⟨26, _⟩ => ⟨S1x2048, .f32⟩
  | .local _ .vmem, ⟨27, _⟩ => ⟨S512x2048, .bf16⟩
  | .local _ .vmem, ⟨28, _⟩ => ⟨S512x2048, .bf16⟩
  | .local _ .vmem, ⟨29, _⟩ => ⟨S256x2048, .bf16⟩
  | .local _ .vmem, ⟨30, _⟩ => ⟨S256x2048, .bf16⟩
  | .local _ .vmem, ⟨31, _⟩ => ⟨S2048x2048, .bf16⟩
  | .local _ .vmem, ⟨32, _⟩ => ⟨S256x2048, .f32⟩
  | .local _ .vmem, ⟨33, _⟩ => ⟨S256x2048, .f32⟩
  | .local _ .vmem, ⟨34, _⟩ => ⟨S256x2048, .f32⟩
  | .local _ .vmem, ⟨35, _⟩ => ⟨S256x2048, .f32⟩
  | .local _ .vmem, ⟨36, _⟩ => ⟨S256x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_cst_3 : Ref sig .tc := ⟨.hbm, 36, rfl⟩
abbrev main_call1_v0 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_c_6 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_cst_8 : Ref sig .tc := ⟨.hbm, 57, rfl⟩
abbrev main_v31 : Ref sig .tc := ⟨.hbm, 58, rfl⟩
abbrev main_cst_9 : Ref sig .tc := ⟨.hbm, 59, rfl⟩
abbrev main_call4_v0 : Ref sig .tc := ⟨.hbm, 60, rfl⟩
abbrev main_v32 : Ref sig .tc := ⟨.hbm, 61, rfl⟩
abbrev main_cst_10 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_11 : Ref sig .tc := ⟨.hbm, 67, rfl⟩
abbrev main_c_12 : Ref sig .tc := ⟨.hbm, 68, rfl⟩
abbrev main_call6_v0 : Ref sig .tc := ⟨.hbm, 69, rfl⟩
abbrev main_call6_v1 : Ref sig .tc := ⟨.hbm, 70, rfl⟩
abbrev main_call6_v2 : Ref sig .tc := ⟨.hbm, 71, rfl⟩
abbrev main_call6_v3 : Ref sig .tc := ⟨.hbm, 72, rfl⟩
abbrev main_call6_v4 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_13 : Ref sig .tc := ⟨.hbm, 78, rfl⟩
abbrev main_v41 : Ref sig .tc := ⟨.hbm, 79, rfl⟩
abbrev main_cst_14 : Ref sig .tc := ⟨.hbm, 80, rfl⟩
abbrev main_v42 : Ref sig .tc := ⟨.hbm, 81, rfl⟩
abbrev main_cst_15 : Ref sig .tc := ⟨.hbm, 82, rfl⟩
abbrev main_call7_v0 : Ref sig .tc := ⟨.hbm, 83, rfl⟩
abbrev main_v43 : Ref sig .tc := ⟨.hbm, 84, rfl⟩
abbrev main_cst_16 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_c_17 : Ref sig .tc := ⟨.hbm, 90, rfl⟩
abbrev main_c_18 : Ref sig .tc := ⟨.hbm, 91, rfl⟩
abbrev main_call9_v0 : Ref sig .tc := ⟨.hbm, 92, rfl⟩
abbrev main_call9_v1 : Ref sig .tc := ⟨.hbm, 93, rfl⟩
abbrev main_call9_v2 : Ref sig .tc := ⟨.hbm, 94, rfl⟩
abbrev main_call9_v3 : Ref sig .tc := ⟨.hbm, 95, rfl⟩
abbrev main_call9_v4 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_scratch0 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc5_stg3_0 : Ref sig .tc := ⟨.vmem, 34, rfl⟩
abbrev cc5_stg3_1 : Ref sig .tc := ⟨.vmem, 35, rfl⟩
abbrev cc5_scratch0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc5_sem3_0 : DmaSem sig := 32
abbrev cc5_sem3_1 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 16, 1], ![false, false, false]⟩

def k1_cond2 (i : grid1.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x8192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S128x8192 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨3, ![8, 2, 4], ![false, false, false]⟩

def k3_cond2 (i : grid3.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x2048 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x2048 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨3, ![32, 1, 1], ![false, false, false]⟩

def k5_cond2 (i : grid5.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S256x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S2048x2048 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S256x2048 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev stage5_3 : Fin 2 → Memref sig .tc .vmem S256x2048 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]

class Facts₀ : Prop where
  slices_S4x2048x2048_S4x2047x2048_0_0_0 : S4x2048x2048.Slices ![0, 0, 0] S4x2047x2048
  pads_S4x2047x2048_S4x2048x2048_000_100_000 : S4x2047x2048.Pads (![0, 1, 0] : Fin 3 → Nat) ![0, 0, 0] ![0, 0, 0] S4x2048x2048
  h_S_ : 0 < S_.numel
  bcast_S1x1x2048_S4x2048x2048_0_1_2 : S1x1x2048.BroadcastsInDim S4x2048x2048 (![0, 1, 2] : Fin 3 → Fin S4x2048x2048.rank)
  bcast_S_S1x1x2048 : S_.BroadcastsInDim S1x1x2048 (![] : Fin 0 → Fin S1x1x2048.rank)
  shapeCasts_S4x2048x2048_S8192x2048 : S4x2048x2048.ShapeCasts S8192x2048
  reducesTo_S8192x2048_S_d0_1 : S8192x2048.ReducesTo [0, 1] S_
  bcast_S_S8192x2048 : S_.BroadcastsInDim S8192x2048 (![] : Fin 0 → Fin S8192x2048.rank)
  reducesTo_S2048x8192_S_d0_1 : S2048x8192.ReducesTo [0, 1] S_
  bcast_S_S2048x8192 : S_.BroadcastsInDim S2048x8192 (![] : Fin 0 → Fin S2048x8192.rank)
  reducesTo_S2048x2048_S_d0_1 : S2048x2048.ReducesTo [0, 1] S_
  bcast_S_S2048x2048 : S_.BroadcastsInDim S2048x2048 (![] : Fin 0 → Fin S2048x2048.rank)
  shapeCasts_S2048_S1x2048 : S2048.ShapeCasts S1x2048
  shapeCasts_S8192_S1x8192 : S8192.ShapeCasts S1x8192
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  reduces_S128x8192_S128 : S128x8192.Reduces [1] S128
  shapeCasts_S128_S128x1 : S128.ShapeCasts S128x1
  broadcasts_S128x1_S128x8192 : S128x1.Broadcasts S128x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S128x8192 : S1x8192.Broadcasts S128x8192
  packedbf16_S128x8192_S128x8192_0_0 : (Rect.unit (s := S128x8192) ![0, 0] S128x8192.size inb_S128x8192_S128x8192_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  shapeCasts_S8192x2048_S4x2048x2048 : S8192x2048.ShapeCasts S4x2048x2048
  dot_S2048x2048_S512x2048_S2048x512_1_1_0_0_n_n_wf : DotDims.WF S2048x2048 S512x2048 S2048x512 [1] [1] [0] [0] [] []
  dot_S1024x2048_S1024x2048_S1024x1024_1_1_0_0_n_n_wf : DotDims.WF S1024x2048 S1024x2048 S1024x1024 [1] [1] [0] [0] [] []
  dot_S256x2048_S2048x2048_S256x2048_1_1_0_0_n_n_wf : DotDims.WF S256x2048 S2048x2048 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .bf16 = 32 ∨ (Rect.block (s := S8192x2048) S512x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S8192x2048.size a
  hwx1_0 : ∀ i : grid1.Coords, EltTy.bits .bf16 = 32 ∨ (Rect.block (s := S8192x2048) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S8192x2048.size a
  hwx1_1 : ∀ i : grid1.Coords, EltTy.bits .bf16 = 32 ∨ (Rect.block (s := S8192x2048) S512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x512.size a ≤ S8192x8192.size a
  hwx1_2 : ∀ i : grid1.Coords, EltTy.bits .f32 = 32 ∨ (Rect.block (s := S8192x8192) S2048x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x8192.size a ≤ S8192x8192.size a
  hwx2_0 : ∀ i : grid2.Coords, EltTy.bits .f32 = 32 ∨ (Rect.block (s := S8192x8192) S128x8192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x8192.size a ≤ S1x8192.size a
  hwx2_1 : ∀ i : grid2.Coords, EltTy.bits .f32 = 32 ∨ (Rect.block (s := S1x8192) S1x8192.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x8192.size a ≤ S8192x8192.size a
  hwx2_2 : ∀ i : grid2.Coords, EltTy.bits .bf16 = 32 ∨ (Rect.block (s := S8192x8192) S128x8192.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S8192x8192.size a
  hwx3_0 : ∀ i : grid3.Coords, EltTy.bits .bf16 = 32 ∨ (Rect.block (s := S8192x8192) S1024x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x2048.size a ≤ S2048x8192.size a
  hwx3_1 : ∀ i : grid3.Coords, EltTy.bits .bf16 = 32 ∨ (Rect.block (s := S2048x8192) S1024x2048.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S8192x2048.size a
  hwx3_2 : ∀ i : grid3.Coords, EltTy.bits .f32 = 32 ∨ (Rect.block (s := S8192x2048) S1024x1024.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x2048.size a ≤ S8192x2048.size a
  hwx4_0 : ∀ i : grid4.Coords, EltTy.bits .f32 = 32 ∨ (Rect.block (s := S8192x2048) S512x2048.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x2048.size a ≤ S1x2048.size a
  hwx4_1 : ∀ i : grid4.Coords, EltTy.bits .f32 = 32 ∨ (Rect.block (s := S1x2048) S1x2048.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x2048.size a ≤ S8192x2048.size a
  hwx4_2 : ∀ i : grid4.Coords, EltTy.bits .bf16 = 32 ∨ (Rect.block (s := S8192x2048) S512x2048.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x2048.size a ≤ S8192x2048.size a
  hwx5_0 : ∀ i : grid5.Coords, EltTy.bits .bf16 = 32 ∨ (Rect.block (s := S8192x2048) S256x2048.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S2048x2048.size a ≤ S2048x2048.size a
  hwx5_1 : ∀ i : grid5.Coords, EltTy.bits .bf16 = 32 ∨ (Rect.block (s := S2048x2048) S2048x2048.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S256x2048.size a ≤ S8192x2048.size a
  hwx5_2 : ∀ i : grid5.Coords, EltTy.bits .f32 = 32 ∨ (Rect.block (s := S8192x2048) S256x2048.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S256x2048.size a ≤ S8192x2048.size a
  hwx5_3 : ∀ i : grid5.Coords, EltTy.bits .f32 = 32 ∨ (Rect.block (s := S8192x2048) S256x2048.size (cc5_transform_3 i) (hinb5_3 i)).WholeWords (EltTy.packing .f32)

variable [Facts₀]

def dot_S2048x2048_S512x2048_S2048x512_1_1_0_0_n_n : DotDims S2048x2048 S512x2048 S2048x512 where
  lhsContracting := [1]
  rhsContracting := [1]
  lhsNonContracting := [0]
  rhsNonContracting := [0]
  lhsBatch := []
  rhsBatch := []
  wf := dot_S2048x2048_S512x2048_S2048x512_1_1_0_0_n_n_wf
def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf
def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_v16) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v51) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v54) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v54) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v56) S2048x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v56) S128x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S1x8192.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S128x8192.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S1024x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S1024x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v17) S512x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v52) S1x2048.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S512x2048.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v60) S256x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S2048x2048.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v59) S256x2048.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v62) S256x2048.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S1x1x2048 : Shape := ⟨3, ![1, 1, 2048]⟩
abbrev S8192x2048 : Shape := ⟨2, ![8192, 2048]⟩
abbrev S2048x2048 : Shape := ⟨2, ![2048, 2048]⟩
abbrev S2048x8192 : Shape := ⟨2, ![2048, 8192]⟩
abbrev S2048 : Shape := ⟨1, ![2048]⟩
abbrev S8192 : Shape := ⟨1, ![8192]⟩
abbrev S4x2047x2048 : Shape := ⟨3, ![4, 2047, 2048]⟩
abbrev S_ : Shape := ⟨0, ![]⟩
abbrev S4x2048 : Shape := ⟨2, ![4, 2048]⟩
abbrev S4x2048x1 : Shape := ⟨3, ![4, 2048, 1]⟩
abbrev S4x2048x8192 : Shape := ⟨3, ![4, 2048, 8192]⟩
abbrev S1x1x8192 : Shape := ⟨3, ![1, 1, 8192]⟩

abbrev nBuf : Space → Nat
  | .hbm => 246
  | .vmem => 0
  | .smem => 0
  | _ => 0

abbrev hbmTy0_0 (i : Nat) : BufTy := match i % 128 with
  | 0 => ⟨S4x2048x2048, .f32⟩
  | 1 => ⟨S1x1x2048, .f32⟩
  | 2 => ⟨S1x1x2048, .f32⟩
  | 3 => ⟨S8192x2048, .f32⟩
  | 4 => ⟨S2048x2048, .f32⟩
  | 5 => ⟨S2048x8192, .f32⟩
  | 6 => ⟨S2048, .f32⟩
  | 7 => ⟨S2048, .f32⟩
  | 8 => ⟨S8192, .f32⟩
  | 9 => ⟨S4x2047x2048, .f32⟩
  | 10 => ⟨S_, .i32⟩
  | 11 => ⟨S_, .f32⟩
  | 12 => ⟨S4x2048x2048, .f32⟩
  | 13 => ⟨S4x2048x2048, .f32⟩
  | 14 => ⟨S4x2048x2048, .f32⟩
  | 15 => ⟨S_, .f32⟩
  | 16 => ⟨S1x1x2048, .f32⟩
  | 17 => ⟨S1x1x2048, .f32⟩
  | 18 => ⟨S4x2048x2048, .f32⟩
  | 19 => ⟨S4x2048x2048, .f32⟩
  | 20 => ⟨S4x2048x2048, .f32⟩
  | 21 => ⟨S4x2048x2048, .f32⟩
  | 22 => ⟨S4x2048x2048, .f32⟩
  | 23 => ⟨S_, .f32⟩
  | 24 => ⟨S1x1x2048, .f32⟩
  | 25 => ⟨S1x1x2048, .f32⟩
  | 26 => ⟨S4x2048x2048, .f32⟩
  | 27 => ⟨S4x2048x2048, .f32⟩
  | 28 => ⟨S4x2048x2048, .f32⟩
  | 29 => ⟨S4x2048x2048, .f32⟩
  | 30 => ⟨S_, .f32⟩
  | 31 => ⟨S4x2048, .f32⟩
  | 32 => ⟨S4x2048x1, .f32⟩
  | 33 => ⟨S_, .f32⟩
  | 34 => ⟨S4x2048x1, .f32⟩
  | 35 => ⟨S4x2048x1, .f32⟩
  | 36 => ⟨S_, .f32⟩
  | 37 => ⟨S4x2048x1, .f32⟩
  | 38 => ⟨S4x2048x1, .f32⟩
  | 39 => ⟨S4x2048x1, .f32⟩
  | 40 => ⟨S4x2048x2048, .f32⟩
  | 41 => ⟨S4x2048x2048, .f32⟩
  | 42 => ⟨S1x1x2048, .f32⟩
  | 43 => ⟨S4x2048x2048, .f32⟩
  | 44 => ⟨S4x2048x2048, .f32⟩
  | 45 => ⟨S4x2048x2048, .f32⟩
  | 46 => ⟨S_, .f32⟩
  | 47 => ⟨S4x2048, .f32⟩
  | 48 => ⟨S4x2048x1, .f32⟩
  | 49 => ⟨S_, .f32⟩
  | 50 => ⟨S_, .f32⟩
  | 51 => ⟨S4x2048x1, .f32⟩
  | 52 => ⟨S4x2048x1, .f32⟩
  | 53 => ⟨S_, .f32⟩
  | 54 => ⟨S4x2048x1, .f32⟩
  | 55 => ⟨S4x2048x1, .f32⟩
  | 56 => ⟨S4x2048x2048, .f32⟩
  | 57 => ⟨S4x2048x2048, .f32⟩
  | 58 => ⟨S4x2048x2048, .f32⟩
  | 59 => ⟨S_, .i32⟩
  | 60 => ⟨S_, .i32⟩
  | 61 => ⟨S_, .f32⟩
  | 62 => ⟨S4x2048x2048, .f32⟩
  | 63 => ⟨S4x2048x2048, .f32⟩
  | 64 => ⟨S_, .f32⟩
  | 65 => ⟨S4x2048x2048, .f32⟩
  | 66 => ⟨S4x2048x2048, .f32⟩
  | 67 => ⟨S4x2048x2048, .f32⟩
  | 68 => ⟨S4x2048x2048, .f32⟩
  | 69 => ⟨S4x2048x2048, .f32⟩
  | 70 => ⟨S4x2048x2048, .f32⟩
  | 71 => ⟨S8192x2048, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S8192x2048, .f32⟩
  | 82 => ⟨S8192x2048, .f32⟩
  | 83 => ⟨S8192x2048, .f32⟩
  | 84 => ⟨S_, .i32⟩
  | 85 => ⟨S_, .i32⟩
  | 86 => ⟨S_, .f32⟩
  | 87 => ⟨S8192x2048, .f32⟩
  | 88 => ⟨S8192x2048, .f32⟩
  | 89 => ⟨S_, .f32⟩
  | 90 => ⟨S8192x2048, .f32⟩
  | 91 => ⟨S8192x2048, .f32⟩
  | 92 => ⟨S8192x2048, .f32⟩
  | 93 => ⟨S8192x2048, .f32⟩
  | 94 => ⟨S8192x2048, .f32⟩
  | 95 => ⟨S8192x2048, .f32⟩
  | 96 => ⟨S4x2048x8192, .f32⟩
  | 97 => ⟨S_, .f32⟩
  | 98 => ⟨S4x2048x8192, .f32⟩
  | 99 => ⟨S4x2048x8192, .f32⟩
  | 100 => ⟨S4x2048x8192, .f32⟩
  | 101 => ⟨S4x2048x8192, .f32⟩
  | 102 => ⟨S_, .f32⟩
  | 103 => ⟨S4x2048, .f32⟩
  | 104 => ⟨S4x2048x1, .f32⟩
  | 105 => ⟨S_, .f32⟩
  | 106 => ⟨S4x2048x1, .f32⟩
  | 107 => ⟨S4x2048x1, .f32⟩
  | 108 => ⟨S_, .f32⟩
  | 109 => ⟨S4x2048x1, .f32⟩
  | 110 => ⟨S4x2048x1, .f32⟩
  | 111 => ⟨S4x2048x1, .f32⟩
  | 112 => ⟨S4x2048x8192, .f32⟩
  | 113 => ⟨S4x2048x8192, .f32⟩
  | 114 => ⟨S1x1x8192, .f32⟩
  | 115 => ⟨S4x2048x8192, .f32⟩
  | 116 => ⟨S4x2048x8192, .f32⟩
  | 117 => ⟨S4x2048x8192, .f32⟩
  | 118 => ⟨S_, .f32⟩
  | 119 => ⟨S4x2048, .f32⟩
  | 120 => ⟨S4x2048x1, .f32⟩
  | 121 => ⟨S_, .f32⟩
  | 122 => ⟨S_, .f32⟩
  | 123 => ⟨S4x2048x1, .f32⟩
  | 124 => ⟨S4x2048x1, .f32⟩
  | 125 => ⟨S_, .f32⟩
  | 126 => ⟨S4x2048x1, .f32⟩
  | 127 => ⟨S4x2048x1, .f32⟩
  | _ => ⟨S4x2048x2048, .f32⟩

abbrev hbmTy0_1 (i : Nat) : BufTy := match i % 128 with
  | 0 => ⟨S4x2048x8192, .f32⟩
  | 1 => ⟨S4x2048x8192, .f32⟩
  | 2 => ⟨S4x2048x8192, .f32⟩
  | 3 => ⟨S_, .i32⟩
  | 4 => ⟨S_, .i32⟩
  | 5 => ⟨S_, .f32⟩
  | 6 => ⟨S4x2048x8192, .f32⟩
  | 7 => ⟨S4x2048x8192, .f32⟩
  | 8 => ⟨S_, .f32⟩
  | 9 => ⟨S4x2048x8192, .f32⟩
  | 10 => ⟨S4x2048x8192, .f32⟩
  | 11 => ⟨S4x2048x8192, .f32⟩
  | 12 => ⟨S4x2048x8192, .f32⟩
  | 13 => ⟨S4x2048x8192, .f32⟩
  | 14 => ⟨S4x2048x8192, .f32⟩
  | 15 => ⟨S2048x8192, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S2048x8192, .f32⟩
  | 26 => ⟨S2048x8192, .f32⟩
  | 27 => ⟨S2048x8192, .f32⟩
  | 28 => ⟨S_, .i32⟩
  | 29 => ⟨S_, .i32⟩
  | 30 => ⟨S_, .f32⟩
  | 31 => ⟨S2048x8192, .f32⟩
  | 32 => ⟨S2048x8192, .f32⟩
  | 33 => ⟨S_, .f32⟩
  | 34 => ⟨S2048x8192, .f32⟩
  | 35 => ⟨S2048x8192, .f32⟩
  | 36 => ⟨S2048x8192, .f32⟩
  | 37 => ⟨S2048x8192, .f32⟩
  | 38 => ⟨S2048x8192, .f32⟩
  | 39 => ⟨S2048x8192, .f32⟩
  | 40 => ⟨S4x2048x2048, .f32⟩
  | 41 => ⟨S4x2048x2048, .f32⟩
  | 42 => ⟨S_, .f32⟩
  | 43 => ⟨S4x2048, .f32⟩
  | 44 => ⟨S4x2048x1, .f32⟩
  | 45 => ⟨S_, .f32⟩
  | 46 => ⟨S4x2048x1, .f32⟩
  | 47 => ⟨S4x2048x1, .f32⟩
  | 48 => ⟨S_, .f32⟩
  | 49 => ⟨S4x2048x1, .f32⟩
  | 50 => ⟨S4x2048x1, .f32⟩
  | 51 => ⟨S4x2048x1, .f32⟩
  | 52 => ⟨S4x2048x2048, .f32⟩
  | 53 => ⟨S4x2048x2048, .f32⟩
  | 54 => ⟨S1x1x2048, .f32⟩
  | 55 => ⟨S4x2048x2048, .f32⟩
  | 56 => ⟨S4x2048x2048, .f32⟩
  | 57 => ⟨S4x2048x2048, .f32⟩
  | 58 => ⟨S_, .f32⟩
  | 59 => ⟨S4x2048, .f32⟩
  | 60 => ⟨S4x2048x1, .f32⟩
  | 61 => ⟨S_, .f32⟩
  | 62 => ⟨S_, .f32⟩
  | 63 => ⟨S4x2048x1, .f32⟩
  | 64 => ⟨S4x2048x1, .f32⟩
  | 65 => ⟨S_, .f32⟩
  | 66 => ⟨S4x2048x1, .f32⟩
  | 67 => ⟨S4x2048x1, .f32⟩
  | 68 => ⟨S4x2048x2048, .f32⟩
  | 69 => ⟨S4x2048x2048, .f32⟩
  | 70 => ⟨S4x2048x2048, .f32⟩
  | 71 => ⟨S_, .i32⟩
  | 72 => ⟨S_, .i32⟩
  | 73 => ⟨S_, .f32⟩
  | 74 => ⟨S4x2048x2048, .f32⟩
  | 75 => ⟨S4x2048x2048, .f32⟩
  | 76 => ⟨S_, .f32⟩
  | 77 => ⟨S4x2048x2048, .f32⟩
  | 78 => ⟨S4x2048x2048, .f32⟩
  | 79 => ⟨S4x2048x2048, .f32⟩
  | 80 => ⟨S4x2048x2048, .f32⟩
  | 81 => ⟨S4x2048x2048, .f32⟩
  | 82 => ⟨S4x2048x2048, .f32⟩
  | 83 => ⟨S2048x2048, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S2048x2048, .f32⟩
  | 94 => ⟨S2048x2048, .f32⟩
  | 95 => ⟨S2048x2048, .f32⟩
  | 96 => ⟨S_, .i32⟩
  | 97 => ⟨S_, .i32⟩
  | 98 => ⟨S_, .f32⟩
  | 99 => ⟨S2048x2048, .f32⟩
  | 100 => ⟨S2048x2048, .f32⟩
  | 101 => ⟨S_, .f32⟩
  | 102 => ⟨S2048x2048, .f32⟩
  | 103 => ⟨S2048x2048, .f32⟩
  | 104 => ⟨S2048x2048, .f32⟩
  | 105 => ⟨S2048x2048, .f32⟩
  | 106 => ⟨S2048x2048, .f32⟩
  | 107 => ⟨S2048x2048, .f32⟩
  | 108 => ⟨S4x2048x2048, .f32⟩
  | 109 => ⟨S4x2048x2048, .f32⟩
  | 110 => ⟨S4x2048x2048, .f32⟩
  | 111 => ⟨S_, .f32⟩
  | 112 => ⟨S4x2048x2048, .f32⟩
  | 113 => ⟨S4x2048x2048, .f32⟩
  | 114 => ⟨S_, .f32⟩
  | 115 => ⟨S4x2048x2048, .f32⟩
  | 116 => ⟨S4x2048x2048, .f32⟩
  | 117 => ⟨S4x2048x2048, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_call1_v0 : Ref sig .tc := ⟨.hbm, 50, rfl⟩
abbrev main_call1_v1 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_c_8 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_9 : Ref sig .tc := ⟨.hbm, 72, rfl⟩
abbrev main_v44 : Ref sig .tc := ⟨.hbm, 73, rfl⟩
abbrev main_cst_10 : Ref sig .tc := ⟨.hbm, 74, rfl⟩
abbrev main_v45 : Ref sig .tc := ⟨.hbm, 75, rfl⟩
abbrev main_cst_11 : Ref sig .tc := ⟨.hbm, 76, rfl⟩
abbrev main_call4_v0 : Ref sig .tc := ⟨.hbm, 77, rfl⟩
abbrev main_v46 : Ref sig .tc := ⟨.hbm, 78, rfl⟩
abbrev main_cst_12 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_c_13 : Ref sig .tc := ⟨.hbm, 84, rfl⟩
abbrev main_c_14 : Ref sig .tc := ⟨.hbm, 85, rfl⟩
abbrev main_call6_v0 : Ref sig .tc := ⟨.hbm, 86, rfl⟩
abbrev main_call6_v1 : Ref sig .tc := ⟨.hbm, 87, rfl⟩
abbrev main_call6_v2 : Ref sig .tc := ⟨.hbm, 88, rfl⟩
abbrev main_call6_v3 : Ref sig .tc := ⟨.hbm, 89, rfl⟩
abbrev main_call6_v4 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_call7_cst : Ref sig .tc := ⟨.hbm, 97, rfl⟩
abbrev main_call7_v0 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_cst_15 : Ref sig .tc := ⟨.hbm, 102, rfl⟩
abbrev main_v60 : Ref sig .tc := ⟨.hbm, 103, rfl⟩
abbrev main_v61 : Ref sig .tc := ⟨.hbm, 104, rfl⟩
abbrev main_cst_16 : Ref sig .tc := ⟨.hbm, 105, rfl⟩
abbrev main_v62 : Ref sig .tc := ⟨.hbm, 106, rfl⟩
abbrev main_v63 : Ref sig .tc := ⟨.hbm, 107, rfl⟩
abbrev main_cst_17 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_cst_18 : Ref sig .tc := ⟨.hbm, 118, rfl⟩
abbrev main_v73 : Ref sig .tc := ⟨.hbm, 119, rfl⟩
abbrev main_v74 : Ref sig .tc := ⟨.hbm, 120, rfl⟩
abbrev main_cst_19 : Ref sig .tc := ⟨.hbm, 121, rfl⟩
abbrev main_call8_v0 : Ref sig .tc := ⟨.hbm, 122, rfl⟩
abbrev main_call8_v1 : Ref sig .tc := ⟨.hbm, 123, rfl⟩
abbrev main_v75 : Ref sig .tc := ⟨.hbm, 124, rfl⟩
abbrev main_cst_20 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_c_21 : Ref sig .tc := ⟨.hbm, 131, rfl⟩
abbrev main_c_22 : Ref sig .tc := ⟨.hbm, 132, rfl⟩
abbrev main_call10_v0 : Ref sig .tc := ⟨.hbm, 133, rfl⟩
abbrev main_call10_v1 : Ref sig .tc := ⟨.hbm, 134, rfl⟩
abbrev main_call10_v2 : Ref sig .tc := ⟨.hbm, 135, rfl⟩
abbrev main_call10_v3 : Ref sig .tc := ⟨.hbm, 136, rfl⟩
abbrev main_call10_v4 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_cst_23 : Ref sig .tc := ⟨.hbm, 144, rfl⟩
abbrev main_v87 : Ref sig .tc := ⟨.hbm, 145, rfl⟩
abbrev main_cst_24 : Ref sig .tc := ⟨.hbm, 146, rfl⟩
abbrev main_v88 : Ref sig .tc := ⟨.hbm, 147, rfl⟩
abbrev main_cst_25 : Ref sig .tc := ⟨.hbm, 148, rfl⟩
abbrev main_call11_v0 : Ref sig .tc := ⟨.hbm, 149, rfl⟩
abbrev main_v89 : Ref sig .tc := ⟨.hbm, 150, rfl⟩
abbrev main_cst_26 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_c_27 : Ref sig .tc := ⟨.hbm, 156, rfl⟩
abbrev main_c_28 : Ref sig .tc := ⟨.hbm, 157, rfl⟩
abbrev main_call13_v0 : Ref sig .tc := ⟨.hbm, 158, rfl⟩
abbrev main_call13_v1 : Ref sig .tc := ⟨.hbm, 159, rfl⟩
abbrev main_call13_v2 : Ref sig .tc := ⟨.hbm, 160, rfl⟩
abbrev main_call13_v3 : Ref sig .tc := ⟨.hbm, 161, rfl⟩
abbrev main_call13_v4 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_cst_29 : Ref sig .tc := ⟨.hbm, 170, rfl⟩
abbrev main_v101 : Ref sig .tc := ⟨.hbm, 171, rfl⟩
abbrev main_v102 : Ref sig .tc := ⟨.hbm, 172, rfl⟩
abbrev main_cst_30 : Ref sig .tc := ⟨.hbm, 173, rfl⟩
abbrev main_v103 : Ref sig .tc := ⟨.hbm, 174, rfl⟩
abbrev main_v104 : Ref sig .tc := ⟨.hbm, 175, rfl⟩
abbrev main_cst_31 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_cst_32 : Ref sig .tc := ⟨.hbm, 186, rfl⟩
abbrev main_v114 : Ref sig .tc := ⟨.hbm, 187, rfl⟩
abbrev main_v115 : Ref sig .tc := ⟨.hbm, 188, rfl⟩
abbrev main_cst_33 : Ref sig .tc := ⟨.hbm, 189, rfl⟩
abbrev main_call14_v0 : Ref sig .tc := ⟨.hbm, 190, rfl⟩
abbrev main_call14_v1 : Ref sig .tc := ⟨.hbm, 191, rfl⟩
abbrev main_v116 : Ref sig .tc := ⟨.hbm, 192, rfl⟩
abbrev main_cst_34 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_c_35 : Ref sig .tc := ⟨.hbm, 199, rfl⟩
abbrev main_c_36 : Ref sig .tc := ⟨.hbm, 200, rfl⟩
abbrev main_call16_v0 : Ref sig .tc := ⟨.hbm, 201, rfl⟩
abbrev main_call16_v1 : Ref sig .tc := ⟨.hbm, 202, rfl⟩
abbrev main_call16_v2 : Ref sig .tc := ⟨.hbm, 203, rfl⟩
abbrev main_call16_v3 : Ref sig .tc := ⟨.hbm, 204, rfl⟩
abbrev main_call16_v4 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_cst_37 : Ref sig .tc := ⟨.hbm, 212, rfl⟩
abbrev main_v128 : Ref sig .tc := ⟨.hbm, 213, rfl⟩
abbrev main_cst_38 : Ref sig .tc := ⟨.hbm, 214, rfl⟩
abbrev main_v129 : Ref sig .tc := ⟨.hbm, 215, rfl⟩
abbrev main_cst_39 : Ref sig .tc := ⟨.hbm, 216, rfl⟩
abbrev main_call17_v0 : Ref sig .tc := ⟨.hbm, 217, rfl⟩
abbrev main_v130 : Ref sig .tc := ⟨.hbm, 218, rfl⟩
abbrev main_cst_40 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_c_41 : Ref sig .tc := ⟨.hbm, 224, rfl⟩
abbrev main_c_42 : Ref sig .tc := ⟨.hbm, 225, rfl⟩
abbrev main_call19_v0 : Ref sig .tc := ⟨.hbm, 226, rfl⟩
abbrev main_call19_v1 : Ref sig .tc := ⟨.hbm, 227, rfl⟩
abbrev main_call19_v2 : Ref sig .tc := ⟨.hbm, 228, rfl⟩
abbrev main_call19_v3 : Ref sig .tc := ⟨.hbm, 229, rfl⟩
abbrev main_call19_v4 : Ref sig .tc := ⟨.hbm, 230, rfl⟩
abbrev main_v135 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_cst_43 : Ref sig .tc := ⟨.hbm, 239, rfl⟩
abbrev main_v143 : Ref sig .tc := ⟨.hbm, 240, rfl⟩
abbrev main_v144 : Ref sig .tc := ⟨.hbm, 241, rfl⟩
abbrev main_cst_44 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩

abbrev nD : Nat := 1
abbrev τ : Topo := Topo.v7x

variable {F : FTy → Type} [FloatOps F]

class Facts₀ : Prop where
  slices_S4x2048x2048_S4x2047x2048_0_0_0 : S4x2048x2048.Slices ![0, 0, 0] S4x2047x2048
  pads_S4x2047x2048_S4x2048x2048_000_100_000 : S4x2047x2048.Pads (![0, 1, 0] : Fin 3 → Nat) ![0, 0, 0] ![0, 0, 0] S4x2048x2048
  h_S_ : 0 < S_.numel
  bcast_S1x1x2048_S4x2048x2048_0_1_2 : S1x1x2048.BroadcastsInDim S4x2048x2048 (![0, 1, 2] : Fin 3 → Fin S4x2048x2048.rank)
  bcast_S_S1x1x2048 : S_.BroadcastsInDim S1x1x2048 (![] : Fin 0 → Fin S1x1x2048.rank)
  reducesTo_S4x2048x2048_S4x2048_d2 : S4x2048x2048.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S2048_S1x1x2048_2 : S2048.BroadcastsInDim S1x1x2048 (![2] : Fin 1 → Fin S1x1x2048.rank)
  bcast_S_S4x2048x2048 : S_.BroadcastsInDim S4x2048x2048 (![] : Fin 0 → Fin S4x2048x2048.rank)
  reducesTo_S8192x2048_S_d0_1 : S8192x2048.ReducesTo [0, 1] S_
  bcast_S_S8192x2048 : S_.BroadcastsInDim S8192x2048 (![] : Fin 0 → Fin S8192x2048.rank)
  bcast_S_S4x2048x8192 : S_.BroadcastsInDim S4x2048x8192 (![] : Fin 0 → Fin S4x2048x8192.rank)
  reducesTo_S4x2048x8192_S4x2048_d2 : S4x2048x8192.ReducesTo [2] S4x2048
  bcast_S4x2048x1_S4x2048x8192_0_1_2 : S4x2048x1.BroadcastsInDim S4x2048x8192 (![0, 1, 2] : Fin 3 → Fin S4x2048x8192.rank)
  bcast_S8192_S1x1x8192_2 : S8192.BroadcastsInDim S1x1x8192 (![2] : Fin 1 → Fin S1x1x8192.rank)
  bcast_S1x1x8192_S4x2048x8192_0_1_2 : S1x1x8192.BroadcastsInDim S4x2048x8192 (![0, 1, 2] : Fin 3 → Fin S4x2048x8192.rank)
  reducesTo_S2048x8192_S_d0_1 : S2048x8192.ReducesTo [0, 1] S_
  bcast_S_S2048x8192 : S_.BroadcastsInDim S2048x8192 (![] : Fin 0 → Fin S2048x8192.rank)
  reducesTo_S2048x2048_S_d0_1 : S2048x2048.ReducesTo [0, 1] S_
  bcast_S_S2048x2048 : S_.BroadcastsInDim S2048x2048 (![] : Fin 0 → Fin S2048x2048.rank)
  dot_S4x2048x2048_S8192x2048_S4x2048x8192_2_1_01_0_n_n_wf : DotDims.WF S4x2048x2048 S8192x2048 S4x2048x8192 [2] [1] [0, 1] [0] [] []
  dot_S4x2048x8192_S2048x8192_S4x2048x2048_2_1_01_0_n_n_wf : DotDims.WF S4x2048x8192 S2048x8192 S4x2048x2048 [2] [1] [0, 1] [0] [] []
  dot_S4x2048x2048_S2048x2048_S4x2048x2048_2_1_01_0_n_n_wf : DotDims.WF S4x2048x2048 S2048x2048 S4x2048x2048 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf
def dot_S4x2048x8192_S2048x8192_S4x2048x2048_2_1_01_0_n_n : DotDims S4x2048x8192 S2048x8192 S4x2048x2048 where
  lhsContracting := [2]
  rhsContracting := [1]
  lhsNonContracting := [0, 1]
  rhsNonContracting := [0]
  lhsBatch := []
  rhsBatch := []
  wf := dot_S4x2048x8192_S2048x8192_S4x2048x2048_2_1_01_0_n_n_wf
def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf

class Facts : Prop extends Facts₀ where

variable [Facts]
-- ==== Proof.K_Run.lean ====
/-
  The run of the kernel's program as printed, at any float instance: @main as thirty-one segments — twenty-five stretches of host
  operations and six kernel regions — from the launch memory to the return, the contents of every unscoped buffer named at each
  boundary (a stretch folds its operations over the contents before it; a region leaves its windows' arrays at what its
  write-backs leave and every other buffer as entered). Each region's half (its proof data at the contents it is entered from, the
  body obligation, how the scratch enters and leaves the invariant) is a parameter; the run reads every unscoped buffer off the last
  boundary, so both the frame (each argument walks back to the launch memory: no stretch and no region writes one) and the result's
  value follow from it.
-/
import proofs.«174982_j50740743635387_2_alg».proof.Proof.Gen.Kernel.Launch
import proofs.«174982_j50740743635387_2_alg».proof.Proof.Gen.Kernel.Points
import proofs.«174982_j50740743635387_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCore's buffer contents on every core: what a region's half is stated at. -/
abbrev Val (F : FTy → Type) [FloatOps F] : Type := (c : Dev nD) → (b : Ref sig .tc) → Buf (Elt F) ((c : Thread nD τ).loc b)

/-- A region's half, at any entry contents: the proof data (its arrays the entry contents, full shares, nothing owed), the body
    obligation at every point, and the invariant's two ends — entered from the generator register and the scoped buffers no
    window stages, and giving them back. -/
structure Half (cfg : Pipeline.Cfg sig Λ₀) where
  dat : (V : Val F) → (c : Dev nD) → Dat τ (Elt F) Unit ℕ (UR sig nD τ) ℕ cfg c
  hA : ∀ V c w, (dat V c).A w = V c (Pipeline.arrRef (fun w => (cfg.win w).toWinSpec) w)
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, iprop((∃ r, prngReg c r) ∗ Pipeline.scopedRest (fun w => (cfg.win w).toWinSpec) c) ⊢ ((dat V c).Φ 0 : sProp 𝕄)
  hout : ∀ V c, ((dat V c).Φ (Fin.last cfg.N) : sProp 𝕄) ⊢ iprop((∃ r, prngReg c r) ∗ Pipeline.scopedRest (fun w => (cfg.win w).toWinSpec) c)

variable (h0 : Half (F := F) cfg0) (h1 : Half (F := F) cfg1) (h2 : Half (F := F) cfg2) (h3 : Half (F := F) cfg3) (h4 : Half (F := F) cfg4) (h5 : Half (F := F) cfg5)
variable (m : (ℓ : Loc nD τ sig) → Buf (Elt F) ℓ) (ρ : Dev nD → PrngReg)

/-! ## The buffers' contents at each boundary: a fold through @main -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev W6 : Dev nD → Valuation τ sig (Elt F) := fun c => StableHlo.after hostOps0_5 (W5 m ρ c)
abbrev W7 : Dev nD → Valuation τ sig (Elt F) := fun c => StableHlo.after hostOps0_6 (W6 m ρ c)
abbrev W8 : Dev nD → Valuation τ sig (Elt F) := fun c => StableHlo.after hostOps0_7 (W7 m ρ c)
abbrev W9 : Dev nD → Valuation τ sig (Elt F) := fun c => StableHlo.after hostOps0_8 (W8 m ρ c)
abbrev W10 : Dev nD → Valuation τ sig (Elt F) := fun c => StableHlo.after hostOps0_9 (W9 m ρ c)
abbrev W11 : Dev nD → Valuation τ sig (Elt F) := fun c => StableHlo.after hostOps0_10 (W10 m ρ c)
abbrev W12 : Dev nD → Valuation τ sig (Elt F) := fun c => StableHlo.after hostOps0_11 (W11 m ρ c)
abbrev W13 : Dev nD → Valuation τ sig (Elt F) := fun c => StableHlo.after hostOps0_12 (W12 m ρ c)
abbrev W14 : Dev nD → Valuation τ sig (Elt F) := fun c => StableHlo.after hostOps0_13 (W13 m ρ c)
abbrev W15 : Dev nD → Valuation τ sig (Elt F) := fun c => StableHlo.after hostOps0_14 (W14 m ρ c)
abbrev W16 : Dev nD → Valuation τ sig (Elt F) := fun c => StableHlo.after hostOps0_15 (W15 m ρ c)
abbrev W17 : Dev nD → Valuation τ sig (Elt F) := fun c => StableHlo.after hostOps0_16 (W16 m ρ c)
abbrev W18 : Dev nD → Valuation τ sig (Elt F) := fun c => StableHlo.after hostOps0_17 (W17 m ρ c)
abbrev W19 : Dev nD → Valuation τ sig (Elt F) := fun c => StableHlo.after hostOps0_18 (W18 m ρ c)
abbrev W20 : Dev nD → Valuation τ sig (Elt F) := fun c => StableHlo.after hostOps0_19 (W19 m ρ c)
/-- Region 0's entry. -/
abbrev W21 : Dev nD → Valuation τ sig (Elt F) := fun c => StableHlo.after hostOps0_20 (W20 m ρ c)
abbrev V21 : Val F := fun c b => W21 m ρ c b
/-- Region 0's exit: its arrays at what the pipeline leaves, every other buffer as entered. -/
def W22 (c : Dev nD) : Valuation τ sig (Elt F) :=
  Pipeline.withArrays spec0 c (W21 m ρ c) fun w => (h0.dat (V21 m ρ) c).arrAt w cfg0.N
theorem W22_arr (c : Dev nD) (w : Fin cfg0.W) :
    W22 h0 m ρ c (Proc.devRef .tc (Pipeline.arrRef spec0 w)) = (h0.dat (V21 m ρ) c).arrAt w cfg0.N := by
  unfold W22; exact Pipeline.withArrays_arr spec0 launch0.win.arr_inj c _ _ w
theorem W22_of_ne (c : Dev nD) (b : Ref sig .tc) (hb : ∀ w, Pipeline.arrRef spec0 w ≠ b) :
    W22 h0 m ρ c (Proc.devRef .tc b) = W21 m ρ c (Proc.devRef .tc b) := by
  unfold W22; exact Pipeline.withArrays_of_ne spec0 c _ _ b hb
abbrev V22 : Val F := fun c b => W22 h0 m ρ c b
theorem hF0 (c : Dev nD) (w : Fin cfg0.W) : (h0.dat (V21 m ρ) c).arrAt w cfg0.N = V22 h0 m ρ c (Pipeline.arrRef spec0 w) :=
  (W22_arr h0 m ρ c w).symm
theorem hrest0 (c : Dev nD) : ∀ b, b ∉ Finset.univ.image (Pipeline.arrRef spec0) → V22 h0 m ρ c b = V21 m ρ c b :=
  fun b hb => W22_of_ne h0 m ρ c b fun w e => hb (Finset.mem_image.mpr ⟨w, Finset.mem_univ _, e⟩)

abbrev W23 : Dev nD → Valuation τ sig (Elt F) := fun c => StableHlo.after hostOps1 (W22 h0 m ρ c)
/-- Region 1's entry. -/
abbrev V23 : Val F := fun c b => W23 h0 m ρ c b
def W24 (c : Dev nD) : Valuation τ sig (Elt F) :=
  Pipeline.withArrays spec1 c (W23 h0 m ρ c) fun w => (h1.dat (V23 h0 m ρ) c).arrAt w cfg1.N
theorem W24_arr (c : Dev nD) (w : Fin cfg1.W) :
    W24 h0 h1 m ρ c (Proc.devRef .tc (Pipeline.arrRef spec1 w)) = (h1.dat (V23 h0 m ρ) c).arrAt w cfg1.N := by
  unfold W24; exact Pipeline.withArrays_arr spec1 launch1.win.arr_inj c _ _ w
theorem W24_of_ne (c : Dev nD) (b : Ref sig .tc) (hb : ∀ w, Pipeline.arrRef spec1 w ≠ b) :
    W24 h0 h1 m ρ c (Proc.devRef .tc b) = W23 h0 m ρ c (Proc.devRef .tc b) := by
  unfold W24; exact Pipeline.withArrays_of_ne spec1 c _ _ b hb
/-- Region 1's exit and region 2's entry. -/
abbrev V24 : Val F := fun c b => W24 h0 h1 m ρ c b
theorem hF1 (c : Dev nD) (w : Fin cfg1.W) : (h1.dat (V23 h0 m ρ) c).arrAt w cfg1.N = V24 h0 h1 m ρ c (Pipeline.arrRef spec1 w) :=
  (W24_arr h0 h1 m ρ c w).symm
theorem hrest1 (c : Dev nD) : ∀ b, b ∉ Finset.univ.image (Pipeline.arrRef spec1) → V24 h0 h1 m ρ c b = V23 h0 m ρ c b :=
  fun b hb => W24_of_ne h0 h1 m ρ c b fun w e => hb (Finset.mem_image.mpr ⟨w, Finset.mem_univ _, e⟩)

def W25 (c : Dev nD) : Valuation τ sig (Elt F) :=
  Pipeline.withArrays spec2 c (W24 h0 h1 m ρ c) fun w => (h2.dat (V24 h0 h1 m ρ) c).arrAt w cfg2.N
theorem W25_arr (c : Dev nD) (w : Fin cfg2.W) :
    W25 h0 h1 h2 m ρ c (Proc.devRef .tc (Pipeline.arrRef spec2 w)) = (h2.dat (V24 h0 h1 m ρ) c).arrAt w cfg2.N := by
  unfold W25; exact Pipeline.withArrays_arr spec2 launch2.win.arr_inj c _ _ w
theorem W25_of_ne (c : Dev nD) (b : Ref sig .tc) (hb : ∀ w, Pipeline.arrRef spec2 w ≠ b) :
    W25 h0 h1 h2 m ρ c (Proc.devRef .tc b) = W24 h0 h1 m ρ c (Proc.devRef .tc b) := by
  unfold W25; exact Pipeline.withArrays_of_ne spec2 c _ _ b hb
abbrev V25 : Val F := fun c b => W25 h0 h1 h2 m ρ c b
theorem hF2 (c : Dev nD) (w : Fin cfg2.W) : (h2.dat (V24 h0 h1 m ρ) c).arrAt w cfg2.N = V25 h0 h1 h2 m ρ c (Pipeline.arrRef spec2 w) :=
  (W25_arr h0 h1 h2 m ρ c w).symm
theorem hrest2 (c : Dev nD) : ∀ b, b ∉ Finset.univ.image (Pipeline.arrRef spec2) → V25 h0 h1 h2 m ρ c b = V24 h0 h1 m ρ c b :=
  fun b hb => W25_of_ne h0 h1 h2 m ρ c b fun w e => hb (Finset.mem_image.mpr ⟨w, Finset.mem_univ _, e⟩)

abbrev W26 : Dev nD → Valuation τ sig (Elt F) := fun c => StableHlo.after hostOps3 (W25 h0 h1 h2 m ρ c)
/-- Region 3's entry. -/
abbrev V26 : Val F := fun c b => W26 h0 h1 h2 m ρ c b
def W27 (c : Dev nD) : Valuation τ sig (Elt F) :=
  Pipeline.withArrays spec3 c (W26 h0 h1 h2 m ρ c) fun w => (h3.dat (V26 h0 h1 h2 m ρ) c).arrAt w cfg3.N
theorem W27_arr (c : Dev nD) (w : Fin cfg3.W) :
    W27 h0 h1 h2 h3 m ρ c (Proc.devRef .tc (Pipeline.arrRef spec3 w)) = (h3.dat (V26 h0 h1 h2 m ρ) c).arrAt w cfg3.N := by
  unfold W27; exact Pipeline.withArrays_arr spec3 launch3.win.arr_inj c _ _ w
theorem W27_of_ne (c : Dev nD) (b : Ref sig .tc) (hb : ∀ w, Pipeline.arrRef spec3 w ≠ b) :
    W27 h0 h1 h2 h3 m ρ c (Proc.devRef .tc b) = W26 h0 h1 h2 m ρ c (Proc.devRef .tc b) := by
  unfold W27; exact Pipeline.withArrays_of_ne spec3 c _ _ b hb
abbrev V27 : Val F := fun c b => W27 h0 h1 h2 h3 m ρ c b
theorem hF3 (c : Dev nD) (w : Fin cfg3.W) : (h3.dat (V26 h0 h1 h2 m ρ) c).arrAt w cfg3.N = V27 h0 h1 h2 h3 m ρ c (Pipeline.arrRef spec3 w) :=
  (W27_arr h0 h1 h2 h3 m ρ c w).symm
theorem hrest3 (c : Dev nD) : ∀ b, b ∉ Finset.univ.image (Pipeline.arrRef spec3) → V27 h0 h1 h2 h3 m ρ c b = V26 h0 h1 h2 m ρ c b :=
  fun b hb => W27_of_ne h0 h1 h2 h3 m ρ c b fun w e => hb (Finset.mem_image.mpr ⟨w, Finset.mem_univ _, e⟩)

def W28 (c : Dev nD) : Valuation τ sig (Elt F) :=
  Pipeline.withArrays spec4 c (W27 h0 h1 h2 h3 m ρ c) fun w => (h4.dat (V27 h0 h1 h2 h3 m ρ) c).arrAt w cfg4.N
theorem W28_arr (c : Dev nD) (w : Fin cfg4.W) :
    W28 h0 h1 h2 h3 h4 m ρ c (Proc.devRef .tc (Pipeline.arrRef spec4 w)) = (h4.dat (V27 h0 h1 h2 h3 m ρ) c).arrAt w cfg4.N := by
  unfold W28; exact Pipeline.withArrays_arr spec4 launch4.win.arr_inj c _ _ w
theorem W28_of_ne (c : Dev nD) (b : Ref sig .tc) (hb : ∀ w, Pipeline.arrRef spec4 w ≠ b) :
    W28 h0 h1 h2 h3 h4 m ρ c (Proc.devRef .tc b) = W27 h0 h1 h2 h3 m ρ c (Proc.devRef .tc b) := by
  unfold W28; exact Pipeline.withArrays_of_ne spec4 c _ _ b hb
abbrev V28 : Val F := fun c b => W28 h0 h1 h2 h3 h4 m ρ c b
theorem hF4 (c : Dev nD) (w : Fin cfg4.W) : (h4.dat (V27 h0 h1 h2 h3 m ρ) c).arrAt w cfg4.N = V28 h0 h1 h2 h3 h4 m ρ c (Pipeline.arrRef spec4 w) :=
  (W28_arr h0 h1 h2 h3 h4 m ρ c w).symm
theorem hrest4 (c : Dev nD) : ∀ b, b ∉ Finset.univ.image (Pipeline.arrRef spec4) → V28 h0 h1 h2 h3 h4 m ρ c b = V27 h0 h1 h2 h3 m ρ c b :=
  fun b hb => W28_of_ne h0 h1 h2 h3 h4 m ρ c b fun w e => hb (Finset.mem_image.mpr ⟨w, Finset.mem_univ _, e⟩)

abbrev W29 : Dev nD → Valuation τ sig (Elt F) := fun c => StableHlo.after hostOps5 (W28 h0 h1 h2 h3 h4 m ρ c)
/-- Region 5's entry. -/
abbrev V29 : Val F := fun c b => W29 h0 h1 h2 h3 h4 m ρ c b
def W30 (c : Dev nD) : Valuation τ sig (Elt F) :=
  Pipeline.withArrays spec5 c (W29 h0 h1 h2 h3 h4 m ρ c) fun w => (h5.dat (V29 h0 h1 h2 h3 h4 m ρ) c).arrAt w cfg5.N
theorem W30_arr (c : Dev nD) (w : Fin cfg5.W) :
    W30 h0 h1 h2 h3 h4 h5 m ρ c (Proc.devRef .tc (Pipeline.arrRef spec5 w)) = (h5.dat (V29 h0 h1 h2 h3 h4 m ρ) c).arrAt w cfg5.N := by
  unfold W30; exact Pipeline.withArrays_arr spec5 launch5.win.arr_inj c _ _ w
theorem W30_of_ne (c : Dev nD) (b : Ref sig .tc) (hb : ∀ w, Pipeline.arrRef spec5 w ≠ b) :
    W30 h0 h1 h2 h3 h4 h5 m ρ c (Proc.devRef .tc b) = W29 h0 h1 h2 h3 h4 m ρ c (Proc.devRef .tc b) := by
  unfold W30; exact Pipeline.withArrays_of_ne spec5 c _ _ b hb
abbrev V30 : Val F := fun c b => W30 h0 h1 h2 h3 h4 h5 m ρ c b
theorem hF5 (c : Dev nD) (w : Fin cfg5.W) : (h5.dat (V29 h0 h1 h2 h3 h4 m ρ) c).arrAt w cfg5.N = V30 h0 h1 h2 h3 h4 h5 m ρ c (Pipeline.arrRef spec5 w) :=
  (W30_arr h0 h1 h2 h3 h4 h5 m ρ c w).symm
theorem hrest5 (c : Dev nD) : ∀ b, b ∉ Finset.univ.image (Pipeline.arrRef spec5) → V30 h0 h1 h2 h3 h4 h5 m ρ c b = V29 h0 h1 h2 h3 h4 m ρ c b :=
  fun b hb => W30_of_ne h0 h1 h2 h3 h4 h5 m ρ c b fun w e => hb (Finset.mem_image.mpr ⟨w, Finset.mem_univ _, e⟩)
/-- The contents at the return. -/
abbrev W31 : Dev nD → Valuation τ sig (Elt F) := fun c => StableHlo.after hostOps6 (W30 h0 h1 h2 h3 h4 h5 m ρ c)

/-! ## The proof data family and the thread state -/

abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => h0.dat (V21 m ρ) c
  | ⟨1, _⟩ => fun c => h1.dat (V23 h0 m ρ) c
  | ⟨2, _⟩ => fun c => h2.dat (V24 h0 h1 m ρ) c
  | ⟨3, _⟩ => fun c => h3.dat (V26 h0 h1 h2 m ρ) c
  | ⟨4, _⟩ => fun c => h4.dat (V27 h0 h1 h2 h3 m ρ) c
  | ⟨5, _⟩ => fun c => h5.dat (V29 h0 h1 h2 h3 h4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)

/-- A host stretch as a segment: its operations over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0 over the thread state: entered from every unscoped buffer at `W21`, left at `W22`. Its arrays are split out of
    the unscoped buffers and put back at the exit contents; the generator register and the scoped rest go into the invariant and
    come out of it; nothing is owed; the kernel has no semaphore of its own. -/
def reg0 : Pipeline.RegionSeg (pcfgs (F := F)) adm (pdats h0 h1 h2 h3 h4 h5 m ρ) () defs₀ 𝒱₀ L lv 0 where
  win := launch0.win.to₀
  block_pos := launch0.block_pos
  stage_whole := launch0.stage_whole
  K := PEmpty
  osem k := k.elim
  ho := Pipeline.OwnSemFacts.none _
  hbody c := (h0.hbody (V21 m ρ) c).loose
  hwaits := Pipeline.hwaits_of_owed_zero _ _ _ _ L lv 0 fun c t => h0.howed (V21 m ρ) c t
  pre c := iprop(StableHlo.held (c : Thread nD τ) (Pipeline.ucRefs τ sig) (W21 m ρ c) ∗ R c)
  post c := iprop(StableHlo.held (c : Thread nD τ) (Pipeline.ucRefs τ sig) (W22 h0 m ρ c) ∗ R c)
  X c := iprop(∃ r, prngReg c r)
  Y c := iprop(∃ r, prngReg c r)
  Z c := Pipeline.unscopedRest (Ix := Unit) (Name := ℕ) (U := UR sig nD τ) (Lvl := ℕ) spec0 c (V21 m ρ c)
  hentry c := by
    rw [Pipeline.ownSems0_none]
    have hsplit := Pipeline.arrays_of_unscopedBufs (p := 0) (pcfgs (F := F)) adm (pdats h0 h1 h2 h3 h4 h5 m ρ) launch0.win launch0.arr_whole c
      ((pdats h0 h1 h2 h3 h4 h5 m ρ 0 c).share_full fun w => h0.hq (V21 m ρ) c w) (V21 m ρ c) fun w => h0.hA (V21 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats h0 h1 h2 h3 h4 h5 m ρ 0 c).owed 0 = (h0.dat (V21 m ρ) c).owed 0 from rfl, h0.howed,
        show (pdats h0 h1 h2 h3 h4 h5 m ρ 0 c).bound () 0 = (h0.dat (V21 m ρ) c).bound () 0 from rfl]
      icases HO with ⟨%W, HO⟩; iexists W; isplitr
      · ipureintro; exact fun _ _ => Or.inl (by rw [h0.hrec]; trivial)
      iexact HO
    isplitl [Hp]; · iexact Hp
    iexact Hrest
  hin c := by
    have hh := h0.hin (V21 m ρ) c
    rw [show (pdats h0 h1 h2 h3 h4 h5 m ρ 0 c).Φ 0 = (h0.dat (V21 m ρ) c).Φ 0 from rfl]
    iintro ⟨Hp, -, Hr⟩
    iapply hh
    isplitl [Hp]; · iexact Hp
    iexact Hr
  hout c := by
    rw [Pipeline.ownSems0_none]
    have hh := h0.hout (V21 m ρ) c
    rw [show (pdats h0 h1 h2 h3 h4 h5 m ρ 0 c).Φ (Fin.last _) = (h0.dat (V21 m ρ) c).Φ (Fin.last cfg0.N) from rfl]
    iintro H
    ihave H' := hh $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats h0 h1 h2 h3 h4 h5 m ρ) ((pdats h0 h1 h2 h3 h4 h5 m ρ 0 c).share_full fun w => h0.hq (V21 m ρ) c w)
      (V21 m ρ c) (V22 h0 m ρ c) ((pdats h0 h1 h2 h3 h4 h5 m ρ 0 c).arrAt · cfg0.N) (hF0 h0 m ρ c) (hrest0 h0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats h0 h1 h2 h3 h4 h5 m ρ 0 c).owed (Fin.last _) = (h0.dat (V21 m ρ) c).owed (Fin.last cfg0.N) from rfl, h0.howed]
    icases HO with ⟨%W, -, HO⟩; iexists W; iexact HO

set_option backward.isDefEq.respectTransparency.types false in
/-- REGION 1 over the thread state: entered from every unscoped buffer at `W23`, left at `W24`. Its arrays are split out of
    the unscoped buffers and put back at the exit contents; the generator register and the scoped rest go into the invariant and
    come out of it; nothing is owed; the kernel has no semaphore of its own. -/
def reg1 : Pipeline.RegionSeg (pcfgs (F := F)) adm (pdats h0 h1 h2 h3 h4 h5 m ρ) () defs₀ 𝒱₀ L lv 1 where
  win := launch1.win.to₀
  block_pos := launch1.block_pos
  stage_whole := launch1.stage_whole
  K := PEmpty
  osem k := k.elim
  ho := Pipeline.OwnSemFacts.none _
  hbody c := (h1.hbody (V23 h0 m ρ) c).loose
  hwaits := Pipeline.hwaits_of_owed_zero _ _ _ _ L lv 1 fun c t => h1.howed (V23 h0 m ρ) c t
  pre c := iprop(StableHlo.held (c : Thread nD τ) (Pipeline.ucRefs τ sig) (W23 h0 m ρ c) ∗ R c)
  post c := iprop(StableHlo.held (c : Thread nD τ) (Pipeline.ucRefs τ sig) (W24 h0 h1 m ρ c) ∗ R c)
  X c := iprop(∃ r, prngReg c r)
  Y c := iprop(∃ r, prngReg c r)
  Z c := Pipeline.unscopedRest (Ix := Unit) (Name := ℕ) (U := UR sig nD τ) (Lvl := ℕ) spec1 c (V23 h0 m ρ c)
  hentry c := by
    rw [Pipeline.ownSems0_none]
    have hsplit := Pipeline.arrays_of_unscopedBufs (p := 1) (pcfgs (F := F)) adm (pdats h0 h1 h2 h3 h4 h5 m ρ) launch1.win launch1.arr_whole c
      ((pdats h0 h1 h2 h3 h4 h5 m ρ 1 c).share_full fun w => h1.hq (V23 h0 m ρ) c w) (V23 h0 m ρ c) fun w => h1.hA (V23 h0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats h0 h1 h2 h3 h4 h5 m ρ 1 c).owed 0 = (h1.dat (V23 h0 m ρ) c).owed 0 from rfl, h1.howed,
        show (pdats h0 h1 h2 h3 h4 h5 m ρ 1 c).bound () 0 = (h1.dat (V23 h0 m ρ) c).bound () 0 from rfl]
      icases HO with ⟨%W, HO⟩; iexists W; isplitr
      · ipureintro; exact fun _ _ => Or.inl (by rw [h1.hrec]; trivial)
      iexact HO
    isplitl [Hp]; · iexact Hp
    iexact Hrest
  hin c := by
    have hh := h1.hin (V23 h0 m ρ) c
    rw [show (pdats h0 h1 h2 h3 h4 h5 m ρ 1 c).Φ 0 = (h1.dat (V23 h0 m ρ) c).Φ 0 from rfl]
    iintro ⟨Hp, -, Hr⟩
    iapply hh
    isplitl [Hp]; · iexact Hp
    iexact Hr
  hout c := by
    rw [Pipeline.ownSems0_none]
    have hh := h1.hout (V23 h0 m ρ) c
    rw [show (pdats h0 h1 h2 h3 h4 h5 m ρ 1 c).Φ (Fin.last _) = (h1.dat (V23 h0 m ρ) c).Φ (Fin.last cfg1.N) from rfl]
    iintro H
    ihave H' := hh $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats h0 h1 h2 h3 h4 h5 m ρ) ((pdats h0 h1 h2 h3 h4 h5 m ρ 1 c).share_full fun w => h1.hq (V23 h0 m ρ) c w)
      (V23 h0 m ρ c) (V24 h0 h1 m ρ c) ((pdats h0 h1 h2 h3 h4 h5 m ρ 1 c).arrAt · cfg1.N) (hF1 h0 h1 m ρ c) (hrest1 h0 h1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats h0 h1 h2 h3 h4 h5 m ρ 1 c).owed (Fin.last _) = (h1.dat (V23 h0 m ρ) c).owed (Fin.last cfg1.N) from rfl, h1.howed]
    icases HO with ⟨%W, -, HO⟩; iexists W; iexact HO

set_option backward.isDefEq.respectTransparency.types false in
/-- REGION 2 over the thread state: entered from every unscoped buffer at `W24`, left at `W25`. Its arrays are split out of
    the unscoped buffers and put back at the exit contents; the generator register and the scoped rest go into the invariant and
    come out of it; nothing is owed; the kernel has no semaphore of its own. -/
def reg2 : Pipeline.RegionSeg (pcfgs (F := F)) adm (pdats h0 h1 h2 h3 h4 h5 m ρ) () defs₀ 𝒱₀ L lv 2 where
  win := launch2.win.to₀
  block_pos := launch2.block_pos
  stage_whole := launch2.stage_whole
  K := PEmpty
  osem k := k.elim
  ho := Pipeline.OwnSemFacts.none _
  hbody c := (h2.hbody (V24 h0 h1 m ρ) c).loose
  hwaits := Pipeline.hwaits_of_owed_zero _ _ _ _ L lv 2 fun c t => h2.howed (V24 h0 h1 m ρ) c t
  pre c := iprop(StableHlo.held (c : Thread nD τ) (Pipeline.ucRefs τ sig) (W24 h0 h1 m ρ c) ∗ R c)
  post c := iprop(StableHlo.held (c : Thread nD τ) (Pipeline.ucRefs τ sig) (W25 h0 h1 h2 m ρ c) ∗ R c)
  X c := iprop(∃ r, prngReg c r)
  Y c := iprop(∃ r, prngReg c r)
  Z c := Pipeline.unscopedRest (Ix := Unit) (Name := ℕ) (U := UR sig nD τ) (Lvl := ℕ) spec2 c (V24 h0 h1 m ρ c)
  hentry c := by
    rw [Pipeline.ownSems0_none]
    have hsplit := Pipeline.arrays_of_unscopedBufs (p := 2) (pcfgs (F := F)) adm (pdats h0 h1 h2 h3 h4 h5 m ρ) launch2.win launch2.arr_whole c
      ((pdats h0 h1 h2 h3 h4 h5 m ρ 2 c).share_full fun w => h2.hq (V24 h0 h1 m ρ) c w) (V24 h0 h1 m ρ c) fun w => h2.hA (V24 h0 h1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats h0 h1 h2 h3 h4 h5 m ρ 2 c).owed 0 = (h2.dat (V24 h0 h1 m ρ) c).owed 0 from rfl, h2.howed,
        show (pdats h0 h1 h2 h3 h4 h5 m ρ 2 c).bound () 0 = (h2.dat (V24 h0 h1 m ρ) c).bound () 0 from rfl]
      icases HO with ⟨%W, HO⟩; iexists W; isplitr
      · ipureintro; exact fun _ _ => Or.inl (by rw [h2.hrec]; trivial)
      iexact HO
    isplitl [Hp]; · iexact Hp
    iexact Hrest
  hin c := by
    have hh := h2.hin (V24 h0 h1 m ρ) c
    rw [show (pdats h0 h1 h2 h3 h4 h5 m ρ 2 c).Φ 0 = (h2.dat (V24 h0 h1 m ρ) c).Φ 0 from rfl]
    iintro ⟨Hp, -, Hr⟩
    iapply hh
    isplitl [Hp]; · iexact Hp
    iexact Hr
  hout c := by
    rw [Pipeline.ownSems0_none]
    have hh := h2.hout (V24 h0 h1 m ρ) c
    rw [show (pdats h0 h1 h2 h3 h4 h5 m ρ 2 c).Φ (Fin.last _) = (h2.dat (V24 h0 h1 m ρ) c).Φ (Fin.last cfg2.N) from rfl]
    iintro H
    ihave H' := hh $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats h0 h1 h2 h3 h4 h5 m ρ) ((pdats h0 h1 h2 h3 h4 h5 m ρ 2 c).share_full fun w => h2.hq (V24 h0 h1 m ρ) c w)
      (V24 h0 h1 m ρ c) (V25 h0 h1 h2 m ρ c) ((pdats h0 h1 h2 h3 h4 h5 m ρ 2 c).arrAt · cfg2.N) (hF2 h0 h1 h2 m ρ c) (hrest2 h0 h1 h2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats h0 h1 h2 h3 h4 h5 m ρ 2 c).owed (Fin.last _) = (h2.dat (V24 h0 h1 m ρ) c).owed (Fin.last cfg2.N) from rfl, h2.howed]
    icases HO with ⟨%W, -, HO⟩; iexists W; iexact HO

set_option backward.isDefEq.respectTransparency.types false in
/-- REGION 3 over the thread state: entered from every unscoped buffer at `W26`, left at `W27`. Its arrays are split out of
    the unscoped buffers and put back at the exit contents; the generator register and the scoped rest go into the invariant and
    come out of it; nothing is owed; the kernel has no semaphore of its own. -/
def reg3 : Pipeline.RegionSeg (pcfgs (F := F)) adm (pdats h0 h1 h2 h3 h4 h5 m ρ) () defs₀ 𝒱₀ L lv 3 where
  win := launch3.win.to₀
  block_pos := launch3.block_pos
  stage_whole := launch3.stage_whole
  K := PEmpty
  osem k := k.elim
  ho := Pipeline.OwnSemFacts.none _
  hbody c := (h3.hbody (V26 h0 h1 h2 m ρ) c).loose
  hwaits := Pipeline.hwaits_of_owed_zero _ _ _ _ L lv 3 fun c t => h3.howed (V26 h0 h1 h2 m ρ) c t
  pre c := iprop(StableHlo.held (c : Thread nD τ) (Pipeline.ucRefs τ sig) (W26 h0 h1 h2 m ρ c) ∗ R c)
  post c := iprop(StableHlo.held (c : Thread nD τ) (Pipeline.ucRefs τ sig) (W27 h0 h1 h2 h3 m ρ c) ∗ R c)
  X c := iprop(∃ r, prngReg c r)
  Y c := iprop(∃ r, prngReg c r)
  Z c := Pipeline.unscopedRest (Ix := Unit) (Name := ℕ) (U := UR sig nD τ) (Lvl := ℕ) spec3 c (V26 h0 h1 h2 m ρ c)
  hentry c := by
    rw [Pipeline.ownSems0_none]
    have hsplit := Pipeline.arrays_of_unscopedBufs (p := 3) (pcfgs (F := F)) adm (pdats h0 h1 h2 h3 h4 h5 m ρ) launch3.win launch3.arr_whole c
      ((pdats h0 h1 h2 h3 h4 h5 m ρ 3 c).share_full fun w => h3.hq (V26 h0 h1 h2 m ρ) c w) (V26 h0 h1 h2 m ρ c) fun w => h3.hA (V26 h0 h1 h2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats h0 h1 h2 h3 h4 h5 m ρ 3 c).owed 0 = (h3.dat (V26 h0 h1 h2 m ρ) c).owed 0 from rfl, h3.howed,
        show (pdats h0 h1 h2 h3 h4 h5 m ρ 3 c).bound () 0 = (h3.dat (V26 h0 h1 h2 m ρ) c).bound () 0 from rfl]
      icases HO with ⟨%W, HO⟩; iexists W; isplitr
      · ipureintro; exact fun _ _ => Or.inl (by rw [h3.hrec]; trivial)
      iexact HO
    isplitl [Hp]; · iexact Hp
    iexact Hrest
  hin c := by
    have hh := h3.hin (V26 h0 h1 h2 m ρ) c
    rw [show (pdats h0 h1 h2 h3 h4 h5 m ρ 3 c).Φ 0 = (h3.dat (V26 h0 h1 h2 m ρ) c).Φ 0 from rfl]
    iintro ⟨Hp, -, Hr⟩
    iapply hh
    isplitl [Hp]; · iexact Hp
    iexact Hr
  hout c := by
    rw [Pipeline.ownSems0_none]
    have hh := h3.hout (V26 h0 h1 h2 m ρ) c
    rw [show (pdats h0 h1 h2 h3 h4 h5 m ρ 3 c).Φ (Fin.last _) = (h3.dat (V26 h0 h1 h2 m ρ) c).Φ (Fin.last cfg3.N) from rfl]
    iintro H
    ihave H' := hh $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats h0 h1 h2 h3 h4 h5 m ρ) ((pdats h0 h1 h2 h3 h4 h5 m ρ 3 c).share_full fun w => h3.hq (V26 h0 h1 h2 m ρ) c w)
      (V26 h0 h1 h2 m ρ c) (V27 h0 h1 h2 h3 m ρ c) ((pdats h0 h1 h2 h3 h4 h5 m ρ 3 c).arrAt · cfg3.N) (hF3 h0 h1 h2 h3 m ρ c) (hrest3 h0 h1 h2 h3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats h0 h1 h2 h3 h4 h5 m ρ 3 c).owed (Fin.last _) = (h3.dat (V26 h0 h1 h2 m ρ) c).owed (Fin.last cfg3.N) from rfl, h3.howed]
    icases HO with ⟨%W, -, HO⟩; iexists W; iexact HO

set_option backward.isDefEq.respectTransparency.types false in
/-- REGION 4 over the thread state: entered from every unscoped buffer at `W27`, left at `W28`. Its arrays are split out of
    the unscoped buffers and put back at the exit contents; the generator register and the scoped rest go into the invariant and
    come out of it; nothing is owed; the kernel has no semaphore of its own. -/
def reg4 : Pipeline.RegionSeg (pcfgs (F := F)) adm (pdats h0 h1 h2 h3 h4 h5 m ρ) () defs₀ 𝒱₀ L lv 4 where
  win := launch4.win.to₀
  block_pos := launch4.block_pos
  stage_whole := launch4.stage_whole
  K := PEmpty
  osem k := k.elim
  ho := Pipeline.OwnSemFacts.none _
  hbody c := (h4.hbody (V27 h0 h1 h2 h3 m ρ) c).loose
  hwaits := Pipeline.hwaits_of_owed_zero _ _ _ _ L lv 4 fun c t => h4.howed (V27 h0 h1 h2 h3 m ρ) c t
  pre c := iprop(StableHlo.held (c : Thread nD τ) (Pipeline.ucRefs τ sig) (W27 h0 h1 h2 h3 m ρ c) ∗ R c)
  post c := iprop(StableHlo.held (c : Thread nD τ) (Pipeline.ucRefs τ sig) (W28 h0 h1 h2 h3 h4 m ρ c) ∗ R c)
  X c := iprop(∃ r, prngReg c r)
  Y c := iprop(∃ r, prngReg c r)
  Z c := Pipeline.unscopedRest (Ix := Unit) (Name := ℕ) (U := UR sig nD τ) (Lvl := ℕ) spec4 c (V27 h0 h1 h2 h3 m ρ c)
  hentry c := by
    rw [Pipeline.ownSems0_none]
    have hsplit := Pipeline.arrays_of_unscopedBufs (p := 4) (pcfgs (F := F)) adm (pdats h0 h1 h2 h3 h4 h5 m ρ) launch4.win launch4.arr_whole c
      ((pdats h0 h1 h2 h3 h4 h5 m ρ 4 c).share_full fun w => h4.hq (V27 h0 h1 h2 h3 m ρ) c w) (V27 h0 h1 h2 h3 m ρ c) fun w => h4.hA (V27 h0 h1 h2 h3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats h0 h1 h2 h3 h4 h5 m ρ 4 c).owed 0 = (h4.dat (V27 h0 h1 h2 h3 m ρ) c).owed 0 from rfl, h4.howed,
        show (pdats h0 h1 h2 h3 h4 h5 m ρ 4 c).bound () 0 = (h4.dat (V27 h0 h1 h2 h3 m ρ) c).bound () 0 from rfl]
      icases HO with ⟨%W, HO⟩; iexists W; isplitr
      · ipureintro; exact fun _ _ => Or.inl (by rw [h4.hrec]; trivial)
      iexact HO
    isplitl [Hp]; · iexact Hp
    iexact Hrest
  hin c := by
    have hh := h4.hin (V27 h0 h1 h2 h3 m ρ) c
    rw [show (pdats h0 h1 h2 h3 h4 h5 m ρ 4 c).Φ 0 = (h4.dat (V27 h0 h1 h2 h3 m ρ) c).Φ 0 from rfl]
    iintro ⟨Hp, -, Hr⟩
    iapply hh
    isplitl [Hp]; · iexact Hp
    iexact Hr
  hout c := by
    rw [Pipeline.ownSems0_none]
    have hh := h4.hout (V27 h0 h1 h2 h3 m ρ) c
    rw [show (pdats h0 h1 h2 h3 h4 h5 m ρ 4 c).Φ (Fin.last _) = (h4.dat (V27 h0 h1 h2 h3 m ρ) c).Φ (Fin.last cfg4.N) from rfl]
    iintro H
    ihave H' := hh $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats h0 h1 h2 h3 h4 h5 m ρ) ((pdats h0 h1 h2 h3 h4 h5 m ρ 4 c).share_full fun w => h4.hq (V27 h0 h1 h2 h3 m ρ) c w)
      (V27 h0 h1 h2 h3 m ρ c) (V28 h0 h1 h2 h3 h4 m ρ c) ((pdats h0 h1 h2 h3 h4 h5 m ρ 4 c).arrAt · cfg4.N) (hF4 h0 h1 h2 h3 h4 m ρ c) (hrest4 h0 h1 h2 h3 h4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats h0 h1 h2 h3 h4 h5 m ρ 4 c).owed (Fin.last _) = (h4.dat (V27 h0 h1 h2 h3 m ρ) c).owed (Fin.last cfg4.N) from rfl, h4.howed]
    icases HO with ⟨%W, -, HO⟩; iexists W; iexact HO

set_option backward.isDefEq.respectTransparency.types false in
/-- REGION 5 over the thread state: entered from every unscoped buffer at `W29`, left at `W30`. Its arrays are split out of
    the unscoped buffers and put back at the exit contents; the generator register and the scoped rest go into the invariant and
    come out of it; nothing is owed; the kernel has no semaphore of its own. -/
def reg5 : Pipeline.RegionSeg (pcfgs (F := F)) adm (pdats h0 h1 h2 h3 h4 h5 m ρ) () defs₀ 𝒱₀ L lv 5 where
  win := launch5.win.to₀
  block_pos := launch5.block_pos
  stage_whole := launch5.stage_whole
  K := PEmpty
  osem k := k.elim
  ho := Pipeline.OwnSemFacts.none _
  hbody c := (h5.hbody (V29 h0 h1 h2 h3 h4 m ρ) c).loose
  hwaits := Pipeline.hwaits_of_owed_zero _ _ _ _ L lv 5 fun c t => h5.howed (V29 h0 h1 h2 h3 h4 m ρ) c t
  pre c := iprop(StableHlo.held (c : Thread nD τ) (Pipeline.ucRefs τ sig) (W29 h0 h1 h2 h3 h4 m ρ c) ∗ R c)
  post c := iprop(StableHlo.held (c : Thread nD τ) (Pipeline.ucRefs τ sig) (W30 h0 h1 h2 h3 h4 h5 m ρ c) ∗ R c)
  X c := iprop(∃ r, prngReg c r)
  Y c := iprop(∃ r, prngReg c r)
  Z c := Pipeline.unscopedRest (Ix := Unit) (Name := ℕ) (U := UR sig nD τ) (Lvl := ℕ) spec5 c (V29 h0 h1 h2 h3 h4 m ρ c)
  hentry c := by
    rw [Pipeline.ownSems0_none]
    have hsplit := Pipeline.arrays_of_unscopedBufs (p := 5) (pcfgs (F := F)) adm (pdats h0 h1 h2 h3 h4 h5 m ρ) launch5.win launch5.arr_whole c
      ((pdats h0 h1 h2 h3 h4 h5 m ρ 5 c).share_full fun w => h5.hq (V29 h0 h1 h2 h3 h4 m ρ) c w) (V29 h0 h1 h2 h3 h4 m ρ c) fun w => h5.hA (V29 h0 h1 h2 h3 h4 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats h0 h1 h2 h3 h4 h5 m ρ 5 c).owed 0 = (h5.dat (V29 h0 h1 h2 h3 h4 m ρ) c).owed 0 from rfl, h5.howed,
        show (pdats h0 h1 h2 h3 h4 h5 m ρ 5 c).bound () 0 = (h5.dat (V29 h0 h1 h2 h3 h4 m ρ) c).bound () 0 from rfl]
      icases HO with ⟨%W, HO⟩; iexists W; isplitr
      · ipureintro; exact fun _ _ => Or.inl (by rw [h5.hrec]; trivial)
      iexact HO
    isplitl [Hp]; · iexact Hp
    iexact Hrest
  hin c := by
    have hh := h5.hin (V29 h0 h1 h2 h3 h4 m ρ) c
    rw [show (pdats h0 h1 h2 h3 h4 h5 m ρ 5 c).Φ 0 = (h5.dat (V29 h0 h1 h2 h3 h4 m ρ) c).Φ 0 from rfl]
    iintro ⟨Hp, -, Hr⟩
    iapply hh
    isplitl [Hp]; · iexact Hp
    iexact Hr
  hout c := by
    rw [Pipeline.ownSems0_none]
    have hh := h5.hout (V29 h0 h1 h2 h3 h4 m ρ) c
    rw [show (pdats h0 h1 h2 h3 h4 h5 m ρ 5 c).Φ (Fin.last _) = (h5.dat (V29 h0 h1 h2 h3 h4 m ρ) c).Φ (Fin.last cfg5.N) from rfl]
    iintro H
    ihave H' := hh $$ H
    icases H' with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats h0 h1 h2 h3 h4 h5 m ρ) ((pdats h0 h1 h2 h3 h4 h5 m ρ 5 c).share_full fun w => h5.hq (V29 h0 h1 h2 h3 h4 m ρ) c w)
      (V29 h0 h1 h2 h3 h4 m ρ c) (V30 h0 h1 h2 h3 h4 h5 m ρ c) ((pdats h0 h1 h2 h3 h4 h5 m ρ 5 c).arrAt · cfg5.N) (hF5 h0 h1 h2 h3 h4 h5 m ρ c) (hrest5 h0 h1 h2 h3 h4 h5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats h0 h1 h2 h3 h4 h5 m ρ 5 c).owed (Fin.last _) = (h5.dat (V29 h0 h1 h2 h3 h4 m ρ) c).owed (Fin.last cfg5.N) from rfl, h5.howed]
    icases HO with ⟨%W, -, HO⟩; iexists W; iexact HO

/-! ## @main as segments, and the launch -/

/-- @main's thirty-one segments in order. -/
abbrev segs : List (Pipeline.Seg (pcfgs (F := F)) adm (pdats h0 h1 h2 h3 h4 h5 m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .host (hseg hostOps0_12 hostOps0_12_sub hostOps0_12_fresh (W12 m ρ)),
    .host (hseg hostOps0_13 hostOps0_13_sub hostOps0_13_fresh (W13 m ρ)),
    .host (hseg hostOps0_14 hostOps0_14_sub hostOps0_14_fresh (W14 m ρ)),
    .host (hseg hostOps0_15 hostOps0_15_sub hostOps0_15_fresh (W15 m ρ)),
    .host (hseg hostOps0_16 hostOps0_16_sub hostOps0_16_fresh (W16 m ρ)),
    .host (hseg hostOps0_17 hostOps0_17_sub hostOps0_17_fresh (W17 m ρ)),
    .host (hseg hostOps0_18 hostOps0_18_sub hostOps0_18_fresh (W18 m ρ)),
    .host (hseg hostOps0_19 hostOps0_19_sub hostOps0_19_fresh (W19 m ρ)),
    .host (hseg hostOps0_20 hostOps0_20_sub hostOps0_20_fresh (W20 m ρ)),
    .region (reg0 h0 h1 h2 h3 h4 h5 m ρ),
    .host (hseg hostOps1 hostOps1_sub hostOps1_fresh (W22 h0 m ρ)),
    .region (reg1 h0 h1 h2 h3 h4 h5 m ρ),
    .region (reg2 h0 h1 h2 h3 h4 h5 m ρ),
    .host (hseg hostOps3 hostOps3_sub hostOps3_fresh (W25 h0 h1 h2 m ρ)),
    .region (reg3 h0 h1 h2 h3 h4 h5 m ρ),
    .region (reg4 h0 h1 h2 h3 h4 h5 m ρ),
    .host (hseg hostOps5 hostOps5_sub hostOps5_fresh (W28 h0 h1 h2 h3 h4 m ρ)),
    .region (reg5 h0 h1 h2 h3 h4 h5 m ρ),
    .host (hseg hostOps6 hostOps6_sub hostOps6_fresh (W30 h0 h1 h2 h3 h4 h5 m ρ)) ]

/-- @main is the run of the segments. -/
theorem main_run (c : Dev nD) : main (F := F) c = Pipeline.Seg.run (segs h0 h1 h2 h3 h4 h5 m ρ) := (main_chain c).trans (by chain_rfl)

/-- The last thread state without the `owes`: every unscoped buffer at the last boundary's contents, the generator register at some state. -/
abbrev Tₙ (c : Dev nD) : sProp 𝕄 := iprop(StableHlo.held (c : Thread nD τ) (Pipeline.ucRefs τ sig) (W31 h0 h1 h2 h3 h4 h5 m ρ c) ∗ ∃ r, prngReg c r)

set_option backward.isDefEq.respectTransparency.types false in
/-- THE RUN: from any memory with zero counters every weakly fair execution of @main terminates, nothing faulting, and every final
    state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W31 h0 h1 h2 h3 h4 h5 m ρ c b) :=
  Pipeline.θ_run_regions_kit (pcfgs (F := F)) adm (pdats h0 h1 h2 h3 h4 h5 m ρ) () cellOf_inj emb₁ defs₀ 𝒱₀ L lv m ρ main (segs h0 h1 h2 h3 h4 h5 m ρ)
    (fun c Q => by rw [main_run h0 h1 h2 h3 h4 h5 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ h0 h1 h2 h3 h4 h5 m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show (iprop(StableHlo.held (c : Thread nD τ) (Pipeline.ucRefs τ sig) (W31 h0 h1 h2 h3 h4 h5 m ρ c) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W31 h0 h1 h2 h3 h4 h5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W31 h0 h1 h2 h3 h4 h5 m ρ c) s')
      isplitl [Hh] <;> iassumption)
    (hQ := fun s h c => h c)

/-! ## What no segment writes reaches the return as launched -/

/-- A buffer that no host stretch writes and that is no region's window array holds at the return what it held at the launch. -/
theorem W31_keep (c : Dev nD) (b : Ref sig .tc)
    (k0 : b ∉ hostOps0_W) (k1 : b ∉ hostOps0_1_W) (k2 : b ∉ hostOps0_2_W) (k3 : b ∉ hostOps0_3_W) (k4 : b ∉ hostOps0_4_W)
    (k5 : b ∉ hostOps0_5_W) (k6 : b ∉ hostOps0_6_W) (k7 : b ∉ hostOps0_7_W) (k8 : b ∉ hostOps0_8_W) (k9 : b ∉ hostOps0_9_W)
    (k10 : b ∉ hostOps0_10_W) (k11 : b ∉ hostOps0_11_W) (k12 : b ∉ hostOps0_12_W) (k13 : b ∉ hostOps0_13_W) (k14 : b ∉ hostOps0_14_W)
    (k15 : b ∉ hostOps0_15_W) (k16 : b ∉ hostOps0_16_W) (k17 : b ∉ hostOps0_17_W) (k18 : b ∉ hostOps0_18_W) (k19 : b ∉ hostOps0_19_W)
    (k20 : b ∉ hostOps0_20_W) (j1 : b ∉ hostOps1_W) (j3 : b ∉ hostOps3_W) (j5 : b ∉ hostOps5_W) (j6 : b ∉ hostOps6_W)
    (a0 : ∀ w, Pipeline.arrRef spec0 w ≠ b) (a1 : ∀ w, Pipeline.arrRef spec1 w ≠ b) (a2 : ∀ w, Pipeline.arrRef spec2 w ≠ b)
    (a3 : ∀ w, Pipeline.arrRef spec3 w ≠ b) (a4 : ∀ w, Pipeline.arrRef spec4 w ≠ b) (a5 : ∀ w, Pipeline.arrRef spec5 w ≠ b) :
    W31 h0 h1 h2 h3 h4 h5 m ρ c (Proc.devRef .tc b) = m ((c : Thread nD τ).loc b) :=
  calc W31 h0 h1 h2 h3 h4 h5 m ρ c (Proc.devRef .tc b)
    _ = W30 h0 h1 h2 h3 h4 h5 m ρ c (Proc.devRef .tc b) := StableHlo.after_of_writes_sub hostOps6 _ hostOps6_writes j6
    _ = W29 h0 h1 h2 h3 h4 m ρ c (Proc.devRef .tc b) := W30_of_ne h0 h1 h2 h3 h4 h5 m ρ c b a5
    _ = W28 h0 h1 h2 h3 h4 m ρ c (Proc.devRef .tc b) := StableHlo.after_of_writes_sub hostOps5 _ hostOps5_writes j5
    _ = W27 h0 h1 h2 h3 m ρ c (Proc.devRef .tc b) := W28_of_ne h0 h1 h2 h3 h4 m ρ c b a4
    _ = W26 h0 h1 h2 m ρ c (Proc.devRef .tc b) := W27_of_ne h0 h1 h2 h3 m ρ c b a3
    _ = W25 h0 h1 h2 m ρ c (Proc.devRef .tc b) := StableHlo.after_of_writes_sub hostOps3 _ hostOps3_writes j3
    _ = W24 h0 h1 m ρ c (Proc.devRef .tc b) := W25_of_ne h0 h1 h2 m ρ c b a2
    _ = W23 h0 m ρ c (Proc.devRef .tc b) := W24_of_ne h0 h1 m ρ c b a1
    _ = W22 h0 m ρ c (Proc.devRef .tc b) := StableHlo.after_of_writes_sub hostOps1 _ hostOps1_writes j1
    _ = W21 m ρ c (Proc.devRef .tc b) := W22_of_ne h0 m ρ c b a0
    _ = W20 m ρ c (Proc.devRef .tc b) := StableHlo.after_of_writes_sub hostOps0_20 _ hostOps0_20_writes k20
    _ = W19 m ρ c (Proc.devRef .tc b) := StableHlo.after_of_writes_sub hostOps0_19 _ hostOps0_19_writes k19
    _ = W18 m ρ c (Proc.devRef .tc b) := StableHlo.after_of_writes_sub hostOps0_18 _ hostOps0_18_writes k18
    _ = W17 m ρ c (Proc.devRef .tc b) := StableHlo.after_of_writes_sub hostOps0_17 _ hostOps0_17_writes k17
    _ = W16 m ρ c (Proc.devRef .tc b) := StableHlo.after_of_writes_sub hostOps0_16 _ hostOps0_16_writes k16
    _ = W15 m ρ c (Proc.devRef .tc b) := StableHlo.after_of_writes_sub hostOps0_15 _ hostOps0_15_writes k15
    _ = W14 m ρ c (Proc.devRef .tc b) := StableHlo.after_of_writes_sub hostOps0_14 _ hostOps0_14_writes k14
    _ = W13 m ρ c (Proc.devRef .tc b) := StableHlo.after_of_writes_sub hostOps0_13 _ hostOps0_13_writes k13
    _ = W12 m ρ c (Proc.devRef .tc b) := StableHlo.after_of_writes_sub hostOps0_12 _ hostOps0_12_writes k12
    _ = W11 m ρ c (Proc.devRef .tc b) := StableHlo.after_of_writes_sub hostOps0_11 _ hostOps0_11_writes k11
    _ = W10 m ρ c (Proc.devRef .tc b) := StableHlo.after_of_writes_sub hostOps0_10 _ hostOps0_10_writes k10
    _ = W9 m ρ c (Proc.devRef .tc b) := StableHlo.after_of_writes_sub hostOps0_9 _ hostOps0_9_writes k9
    _ = W8 m ρ c (Proc.devRef .tc b) := StableHlo.after_of_writes_sub hostOps0_8 _ hostOps0_8_writes k8
    _ = W7 m ρ c (Proc.devRef .tc b) := StableHlo.after_of_writes_sub hostOps0_7 _ hostOps0_7_writes k7
    _ = W6 m ρ c (Proc.devRef .tc b) := StableHlo.after_of_writes_sub hostOps0_6 _ hostOps0_6_writes k6
    _ = W5 m ρ c (Proc.devRef .tc b) := StableHlo.after_of_writes_sub hostOps0_5 _ hostOps0_5_writes k5
    _ = W4 m ρ c (Proc.devRef .tc b) := StableHlo.after_of_writes_sub hostOps0_4 _ hostOps0_4_writes k4
    _ = W3 m ρ c (Proc.devRef .tc b) := StableHlo.after_of_writes_sub hostOps0_3 _ hostOps0_3_writes k3
    _ = W2 m ρ c (Proc.devRef .tc b) := StableHlo.after_of_writes_sub hostOps0_2 _ hostOps0_2_writes k2
    _ = W1 m ρ c (Proc.devRef .tc b) := StableHlo.after_of_writes_sub hostOps0_1 _ hostOps0_1_writes k1
    _ = W0 m ρ c (Proc.devRef .tc b) := StableHlo.after_of_writes_sub hostOps0 _ hostOps0_writes k0
    _ = m ((c : Thread nD τ).loc b) := rfl

end Cert.Kernel.H
end
-- ==== Proof.K_R0.lean ====
import proofs.«174982_j50740743635387_2_alg».proof.Proof.Gen.Kernel.Launch
import proofs.«174982_j50740743635387_2_alg».proof.Proof.Gen.Kernel.Skeleton
import proofs.«174982_j50740743635387_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The activation-quantisation region 0

One grid point takes a block of rows `x` (window 0) and the gain row `g` (window 1, the whole array at every point)
and writes one block of the same rows (window 2): each row is normalised by the reciprocal root of its mean square
plus a small constant, multiplied by `g`, scaled so that its largest magnitude becomes 127, rounded to the nearest
integer, clamped to [-128, 127] and scaled back. Everything here is stated at a parameter `V`, the contents of the
buffers when the region is entered. -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' staging buffer holds the rows' block at every point, for any proof data whose array is `V`'s and
    whose body leaves the block in place: the window is an input, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The gain row's staging buffer holds the gain row at every point, fetched there or not: where it is not fetched
    its block index has not moved, so the block of the point before is the block of this one. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer as one rectangle, the whole of it -/

abbrev r0_0 : Rect S512x2048 := Rect.unit (s := S512x2048) ![0, 0] S512x2048.size inb_S512x2048_S512x2048_0_0
abbrev r0_1 : Rect S1x2048 := Rect.unit (s := S1x2048) ![0, 0] S1x2048.size inb_S1x2048_S1x2048_0_0

/-! ## What the body leaves in the output window's buffer -/

/-- The output buffer after the body, as a function of the two input blocks: the one store, over the whole buffer,
    of the quantised rows computed from the whole of both inputs. -/
def out0_2 (x0 : Vec F S512x2048 .f32) (x1 : Vec F S1x2048 .f32) : Vec F S512x2048 .bf16 :=
  View.canon [⟨r0_0, k0_pay1 (View.ld x0 r0_0) (View.ld x1 r0_1)⟩]

/-- The one store's rectangle is the whole buffer, so it covers every index. -/
theorem cover0_2 (p0 : Vec F S512x2048 .bf16) (y : S512x2048.Idx) :
    ∃ pc ∈ ([⟨r0_0, p0⟩] : List (View.Piece (Elt F) S512x2048 .bf16)), y ∈ pc.1.set :=
  View.cover_of_tiled [⟨r0_0, p0⟩] S512x2048.size (by rfl) y

/-! ## The body's triple -/

set_option maxHeartbeats 1000000 in
/-- The body on whole staging memrefs — the inputs' holding `x0` and `x1`, the output's holding anything — runs to a
    continuation that holds the inputs' as they were and the output's at `out0_2 x0 x1`. -/
theorem sound_kernel0 (c : Dev nD) (E : Set ℕ) (i : grid0.Coords) (arg1 : Memref sig .tc .vmem S512x2048 .f32) (harg1 : arg1.IsWhole) (arg2 : Memref sig .tc .vmem S1x2048 .f32) (harg2 : arg2.IsWhole) (arg3 : Memref sig .tc .vmem S512x2048 .bf16) (harg3 : arg3.IsWhole)
    (x0 : Vec F S512x2048 .f32) (x1 : Vec F S1x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__act_quant_kernel i arg1 harg1 arg2 harg2 arg3 harg3) K := by
  simp only [cc0__act_quant_kernel_eq_skeleton]; unfold cc0__act_quant_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them; after the body at point `t`
    each input's buffer at its block and the output's at `out0_2` of the two input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.H

end
-- ==== Proof.K_R1.lean ====
/-
  Region 1 of the program, the key product, at any float instance. A grid point takes a block of 2048 rows of the
  activations and a block of 512 rows of the weights and writes the 2048 × 512 block of the squared positive part of
  their products. Here: each window's block at a point; what the body leaves in the output block as a function of the
  two input blocks (its accumulator is rebuilt from zero at every point, so the region's invariant does not name what
  it holds); the body's triple; the proof data; the body obligation at every point; and that the invariant is what
  the launch hands the region and what the region hands back.
-/
import proofs.«174982_j50740743635387_2_alg».proof.Proof.Gen.Kernel.Launch
import proofs.«174982_j50740743635387_2_alg».proof.Proof.Gen.Kernel.Skeleton
import proofs.«174982_j50740743635387_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384
noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 1: the key matmul, `cc1__matmul_key_kernel`, at the entry contents `V`

Grid 4 × 16 × 1. At a point the body zeroes its accumulator (grid coordinate 2 is 0), adds to it the product of
the point's block of the activations with the transpose of the point's block of the weights, reads it back
(grid coordinate 2 is the last, 0), takes the positive part, squares it and stores the result into the output
block. The third grid axis has one point, so both conditions hold everywhere and the accumulator is rebuilt
from zero at every point: what it held before the body does not matter, and the region invariant need not name
its contents. -/

/-! ## The two conditions, decided over the grid -/

/-- The first conditional's condition (grid coordinate 2 is zero), as the body computes it. -/
abbrev cond1_0 (i : grid1.Coords) : Prop := (Scalar.cmpi .ne (Scalar.extui (Scalar.cmpi .eq (BitVec.ofNat 32 (i 2).val) 0#32)) 0#32) = 1#1
/-- It holds at every point: axis 2 has one point. -/
theorem hcond1_0 : ∀ t : Fin cfg1.N, cond1_0 (grid1.coords t) :=
  (by decide +kernel : ∀ t : Fin grid1.N, cond1_0 (grid1.coords t))
/-- The second conditional's condition (grid coordinate 2 is the last). -/
abbrev cond1_1 (i : grid1.Coords) : Prop := k1_cond2 i = 1#1
/-- It holds at every point. -/
theorem hcond1_1 : ∀ t : Fin cfg1.N, cond1_1 (grid1.coords t) :=
  (by decide +kernel : ∀ t : Fin grid1.N, cond1_1 (grid1.coords t))
/-- So the output window is idle at no point. -/
theorem liveAt1_2 : ∀ t : Fin cfg1.N, cfg1.idle 2 (grid1.coords t) = false := by decide +kernel

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_0 : Rect S2048x2048 := Rect.unit (s := S2048x2048) ![0, 0] S2048x2048.size inb_S2048x2048_S2048x2048_0_0
abbrev r1_1 : Rect S512x2048 := Rect.unit (s := S512x2048) ![0, 0] S512x2048.size inb_S512x2048_S512x2048_0_0
abbrev r1_2 : Rect S2048x512 := Rect.unit (s := S2048x512) ![0, 0] S2048x512.size inb_S2048x512_S2048x512_0_0

theorem hz1 : (![0, 0] : Fin 2 → Nat) = fun _ => 0 := funext fun a => by fin_cases a <;> rfl

/-! ## What the body leaves -/

/-- The accumulator after the body's second store, from the two input blocks: zero plus the product. -/
def acc1 (x0 : Vec F S2048x2048 .bf16) (x1 : Vec F S512x2048 .bf16) : Vec F S2048x512 .f32 :=
  k1_pay2 (k1_pay1 (F := F)) (View.ld x0 r1_0) (View.ld x1 r1_1)

/-- The output window's staging buffer after the body, from the two input blocks: its one store, the positive part
    of the accumulator squared. -/
def out1_2 (x0 : Vec F S2048x2048 .bf16) (x1 : Vec F S512x2048 .bf16) : Vec F S2048x512 .f32 :=
  View.canon [⟨r1_2, k1_pay3 (acc1 x0 x1)⟩]

/-- The store covers the buffer. -/
theorem cover1_2 (p0 : Vec F S2048x512 .f32) (y : S2048x512.Idx) :
    ∃ pc ∈ ([⟨r1_2, p0⟩] : List (View.Piece (Elt F) S2048x512 .f32)), y ∈ pc.1.set :=
  ⟨_, List.mem_singleton_self _, View.mem_set_unit_zero hz1 inb_S2048x512_S2048x512_0_0 y⟩

/-- A load of the whole buffer after a list of stores whose last is of the whole buffer reads that store's payload,
    whatever the earlier ones were. -/
theorem readCov_cons_unit_zero1 {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-! ## The body's triple -/

set_option maxHeartbeats 1000000 in
/-- The body on whole memrefs — the two inputs' at read contents, the output's and the accumulator's at anything —
    runs to the continuation holding the inputs' as they were, the output's at `out1_2` of the inputs' and the
    accumulator's at some contents. Both conditionals are decided by the hypotheses. -/
theorem sound_kernel1 (c : Dev nD) (E : Set ℕ) (i : grid1.Coords)
    (arg3 : Memref sig .tc .vmem S2048x2048 .bf16) (harg3 : arg3.IsWhole)
    (arg4 : Memref sig .tc .vmem S512x2048 .bf16) (harg4 : arg4.IsWhole)
    (arg5 : Memref sig .tc .vmem S2048x512 .f32) (harg5 : arg5.IsWhole)
    (arg6 : Memref sig .tc .vmem S2048x512 .f32) (harg6 : arg6.IsWhole)
    (hc0 : cond1_0 i) (hc1 : cond1_1 i)
    (x0 : Vec F S2048x2048 .bf16) (x1 : Vec F S512x2048 .bf16) (K : PUnit → sProp 𝕄) :
    iprop(owns (c : Thread nD τ) arg3 fullShare x0 ∗ owns (c : Thread nD τ) arg4 fullShare x1
        ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1
            ∗ owns (c : Thread nD τ) arg5 fullShare (out1_2 x0 x1) ∗ (∃ d, owns (c : Thread nD τ) arg6 fullShare d)) -∗ K ⟨⟩))
      ⊢ wp frame (wpE (defs₀ (F := F)) Variants.none c none) E (cc1__matmul_key_kernel i arg3 harg3 arg4 harg4 arg5 harg5 arg6 harg6) K := by
  simp only [cc1__matmul_key_kernel_eq_skeleton]; unfold cc1__matmul_key_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (cover1_2 _)]
    sl_unfold_run_names
    rw [View.readCov_unit_zero _ hz1, readCov_cons_unit_zero1 _ hz1]
    rfl
  iexists _; iexists _; isplitr
  swap; · iexact H3
  ipureintro; rfl

/-! ## The pipeline's proof data -/

/-- The proof data of pipeline 1 on core `c`: the arrays as the region finds them (`V`); after the body at point `t`
    each input's buffer at its block and the output's at `out1_2` of the two input blocks; the invariant is the scoped
    rest — the accumulator among it, at any contents — and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The accumulator, a whole scoped buffer of the kernel's own, passed beside the windows. -/
abbrev scM1 : Memref sig .tc .vmem S2048x512 .f32 := Memref.whole cc1_scratch0

/-- The invariant with the accumulator split out of the scoped rest as a memref owned at some contents. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ (dat1 V c).leavesExact 2 t)

/-- The body at any point: the inputs' memrefs hold their blocks, both conditions hold there, the invariant lends
    the accumulator at whatever it holds and takes it back at whatever the body left; the core owes nothing. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).leavesExact 2 t = owns (c : Thread nD τ) (st1_2 t) fullShare ((dat1 V c).after 2 t) from by
    unfold Dat.leavesExact; rw [liveAt1_2 t]]
  rw [show (dat1 V c).Φ t.succ = Pipeline.ΦA spec1 c from rfl,
    show (dat1 V c).Φ t.castSucc = Pipeline.ΦA spec1 c from rfl,
    show (dat1 V c).owesAt () t.succ = (dat1 V c).owesAt () t.castSucc from rfl,
    after1_0, after1_1, after1_2, PhiA1_eq]
  iintro ⟨⟨⟨HS, HR⟩, Hg⟩, Ho, ⟨%d0, H0⟩, ⟨%d1, H1⟩, ⟨%d2, H2⟩⟩
  iapply (sound_kernel1 c Set.univ (grid1.coords t) _ _ _ _ _ _ _ _ (hcond1_0 t) (hcond1_1 t) (iblk1 V c 0 t) (iblk1 V c 1 t) _)
  isplitl [H0]; · iexact H0
  isplitl [H1]; · iexact H1
  isplitl [H2]; · iexists _; iexact H2
  isplitl [HS]; · iexact HS
  iintro ⟨H0, H1, H2, HS⟩
  isplitl [HS HR Hg]
  · isplitl [HS HR]
    · isplitl [HS]; · iexact HS
      iexact HR
    iexact Hg
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : iprop((∃ r, prngReg c r) ∗ Pipeline.scopedRest spec1 c) ⊢ ((dat1 V c).Φ 0 : sProp 𝕄) := by
  rw [show (dat1 V c).Φ 0 = Pipeline.ΦA spec1 c from rfl]
  unfold Pipeline.ΦA
  iintro ⟨Hg, HR⟩
  isplitl [HR]; · iexact HR
  iexact Hg

/-- and the invariant after the last point gives it back. -/
theorem hout1 (c : Dev nD) : ((dat1 V c).Φ (Fin.last cfg1.N) : sProp 𝕄) ⊢ iprop((∃ r, prngReg c r) ∗ Pipeline.scopedRest spec1 c) := by
  rw [show (dat1 V c).Φ (Fin.last cfg1.N) = Pipeline.ΦA spec1 c from rfl]
  unfold Pipeline.ΦA
  iintro ⟨HR, Hg⟩
  isplitl [Hg]; · iexact Hg
  iexact HR

end Cert.Kernel.H
end
-- ==== Proof.K_R2.lean ====
import proofs.«174982_j50740743635387_2_alg».proof.Proof.Gen.Kernel.Launch
import proofs.«174982_j50740743635387_2_alg».proof.Proof.Gen.Kernel.Skeleton
import proofs.«174982_j50740743635387_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The activation-quantisation region 2

One grid point takes a block of rows `x` (window 0) and the gain row `g` (window 1, the whole array at every point)
and writes one block of the same rows (window 2): each row is normalised by the reciprocal root of its mean square
plus a small constant, multiplied by `g`, scaled so that its largest magnitude becomes 127, rounded to the nearest
integer, clamped to [-128, 127] and scaled back. Everything here is stated at a parameter `V`, the contents of the
buffers when the region is entered. -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows' staging buffer holds the rows' block at every point, for any proof data whose array is `V`'s and
    whose body leaves the block in place: the window is an input, uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The gain row's staging buffer holds the gain row at every point, fetched there or not: where it is not fetched
    its block index has not moved, so the block of the point before is the block of this one. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer as one rectangle, the whole of it -/

abbrev r2_0 : Rect S128x8192 := Rect.unit (s := S128x8192) ![0, 0] S128x8192.size inb_S128x8192_S128x8192_0_0
abbrev r2_1 : Rect S1x8192 := Rect.unit (s := S1x8192) ![0, 0] S1x8192.size inb_S1x8192_S1x8192_0_0

/-! ## What the body leaves in the output window's buffer -/

/-- The output buffer after the body, as a function of the two input blocks: the one store, over the whole buffer,
    of the quantised rows computed from the whole of both inputs. -/
def out2_2 (x0 : Vec F S128x8192 .f32) (x1 : Vec F S1x8192 .f32) : Vec F S128x8192 .bf16 :=
  View.canon [⟨r2_0, k2_pay1 (View.ld x0 r2_0) (View.ld x1 r2_1)⟩]

/-- The one store's rectangle is the whole buffer, so it covers every index. -/
theorem cover2_2 (p0 : Vec F S128x8192 .bf16) (y : S128x8192.Idx) :
    ∃ pc ∈ ([⟨r2_0, p0⟩] : List (View.Piece (Elt F) S128x8192 .bf16)), y ∈ pc.1.set :=
  View.cover_of_tiled [⟨r2_0, p0⟩] S128x8192.size (by rfl) y

/-! ## The body's triple -/

set_option maxHeartbeats 1000000 in
/-- The body on whole staging memrefs — the inputs' holding `x0` and `x1`, the output's holding anything — runs to a
    continuation that holds the inputs' as they were and the output's at `out2_2 x0 x1`. -/
theorem sound_kernel2 (c : Dev nD) (E : Set ℕ) (i : grid2.Coords) (arg1 : Memref sig .tc .vmem S128x8192 .f32) (harg1 : arg1.IsWhole) (arg2 : Memref sig .tc .vmem S1x8192 .f32) (harg2 : arg2.IsWhole) (arg3 : Memref sig .tc .vmem S128x8192 .bf16) (harg3 : arg3.IsWhole)
    (x0 : Vec F S128x8192 .f32) (x1 : Vec F S1x8192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__act_quant_kernel i arg1 harg1 arg2 harg2 arg3 harg3) K := by
  simp only [cc2__act_quant_kernel_eq_skeleton]; unfold cc2__act_quant_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this pipeline on core `c`: the arrays as the region finds them; after the body at point `t`
    each input's buffer at its block and the output's at `out2_2` of the two input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.H

end
-- ==== Proof.K_R3.lean ====
import proofs.«174982_j50740743635387_2_alg».proof.Proof.Gen.Kernel.Launch
import proofs.«174982_j50740743635387_2_alg».proof.Proof.Gen.Kernel.Skeleton
import proofs.«174982_j50740743635387_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 3: the value matmul, its accumulator carried over the contraction axis of the grid -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, for any proof data whose array is the
    entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions, over the grid -/

/-- The first condition of the body: the point is the first of its run along the contraction axis (coordinate 2 is 0). -/
abbrev cond3_0 (i : grid3.Coords) : Prop := (Scalar.cmpi .ne (Scalar.extui (Scalar.cmpi .eq (BitVec.ofNat 32 (i 2).val) 0#32)) 0#32) = 1#1
/-- It holds at the points ≡ 0 (mod 4). -/
theorem hcond3_0 : ∀ t : Fin cfg3.N, cond3_0 (grid3.coords t) ↔ t.val % 4 = 0 :=
  (by decide +kernel : ∀ t : Fin grid3.N, cond3_0 (grid3.coords t) ↔ t.val % 4 = 0)

/-- The second condition: the point is the last of its run (coordinate 2 is 3). -/
abbrev cond3_1 (i : grid3.Coords) : Prop := k3_cond2 i = 1#1
/-- It holds at the points ≡ 3 (mod 4). -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 (t : Fin cfg3.N) : cfg3.idle 0 (grid3.coords t) = false := rfl
theorem liveAt3_1 (t : Fin cfg3.N) : cfg3.idle 1 (grid3.coords t) = false := rfl
/-- Away from the last point of a run the body stores nothing into the output window, -/
theorem idleAt3_2 (i : grid3.Coords) (h : ¬cond3_1 i) : cfg3.idle 2 i = true := by
  show (!(k3_cond2 i == 1#1)) = true
  rw [Bool.not_eq_true', beq_eq_false_iff_ne]; exact h
/-- and the pipeline does not write its block back there. -/
theorem noFlush3_2 (t : Fin cfg3.N) (h : ¬cond3_1 (grid3.coords t)) : (cfg3.win 2).flush t = false :=
  Bool.eq_false_iff.mpr fun hf => h ((hcond3_1 t).mpr ((flush3_2 t).mp hf))
/-- At the last point of a run the output window is live. -/
theorem liveAt3_2 (i : grid3.Coords) (h : cond3_1 i) : cfg3.idle 2 i = false := by
  show (!(k3_cond2 i == 1#1)) = false
  rw [Bool.not_eq_false', beq_iff_eq]; exact h

/-! ## The memrefs the body is called with -/

/-- One staging buffer of the output window, through which its contents are stated. -/
abbrev VO3_2 : View sig .tc .vmem S1024x1024 .f32 := (Memref.whole cc3_stg2_0 : Memref sig .tc .vmem S1024x1024 .f32).view
abbrev ms3_0 (t : Fin cfg3.N) : Memref sig .tc .vmem S1024x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x2048 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x1024 .f32 := win3_2.stage (cfg3.slots t 2)
abbrev hs3_2 (t : Fin cfg3.N) : (ms3_2 t).IsWhole := hstage3_2 ((cfg3.slots t 2).cast nbuf3_2)
/-- The accumulator: a whole scoped buffer of the kernel's own, passed beside the windows. -/
abbrev scM3 : Memref sig .tc .vmem S1024x1024 .f32 := Memref.whole cc3_scratch0
/-- The accumulator as a view: what it holds is stated through it. -/
abbrev VS3 : View sig .tc .vmem S1024x1024 .f32 := scM3.view

/-! ## The body on any staging memrefs, case by case

The body zeroes the accumulator when the first condition holds, adds the product of the two input blocks to it, and
copies it into the output block when the second condition holds. Three assignments of the two conditions are met on
the grid: first point of a run (A), inner point (B), last point (C). In each, what the stores leave in the accumulator
and in the output block is a list of pieces, last first. -/

set_option maxHeartbeats 4000000 in
/-- Case A: the accumulator, found at anything, is zeroed and the product added; the output block is handed back as found. -/
noncomputable def kernelRun3_A (c : Dev nD) (i : grid3.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (hc1 : ¬cond3_1 i)
    (x0 : Vec F S1024x2048 .bf16) (x1 : Vec F S1024x2048 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc3__matmul_value_kernel i arg3 harg3 arg4 harg4 arg5 harg5 arg6 harg6) K } := by
  refine ⟨[], ?_, fun xi2 E K => ?run⟩
  case run =>
    simp only [cc3__matmul_value_kernel_eq_skeleton]; unfold cc3__matmul_value_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 4000000 in
/-- Case B: the accumulator, found at `xs0`, has the product added; the output block is handed back as found. -/
noncomputable def kernelRun3_B (c : Dev nD) (i : grid3.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : ¬cond3_1 i)
    (x0 : Vec F S1024x2048 .bf16) (x1 : Vec F S1024x2048 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc3__matmul_value_kernel i arg3 harg3 arg4 harg4 arg5 harg5 arg6 harg6) K } := by
  refine ⟨[], ?_, fun xi2 E K => ?run⟩
  case run =>
    simp only [cc3__matmul_value_kernel_eq_skeleton]; unfold cc3__matmul_value_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 4000000 in
/-- Case C: the accumulator, found at `xs0`, has the product added, and is copied into the output block, found at anything. -/
noncomputable def kernelRun3_C (c : Dev nD) (i : grid3.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S1024x2048 .bf16) (x1 : Vec F S1024x2048 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc3__matmul_value_kernel i arg3 harg3 arg4 harg4 arg5 harg5 arg6 harg6) K } := by
  refine ⟨?_, ?_, fun E K => ?run⟩
  case run =>
    simp only [cc3__matmul_value_kernel_eq_skeleton]; unfold cc3__matmul_value_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What each case leaves in the accumulator and in the output block -/

/-- Case A's pieces for the accumulator tile it, so they cover it. -/
theorem scover3_A (c : Dev nD) (i : grid3.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (hc1 : ¬cond3_1 i)
    (x0 : Vec F S1024x2048 .bf16) (x1 : Vec F S1024x2048 .bf16) (y : S1024x1024.Idx) :
    ∃ pc ∈ (kernelRun3_A c i arg3 harg3 arg4 harg4 arg5 harg5 arg6 harg6 hc0 hc1 x0 x1).2.1, y ∈ pc.1.set :=
  View.cover_of_tiledL (kernelRun3_A c i arg3 harg3 arg4 harg4 arg5 harg5 arg6 harg6 hc0 hc1 x0 x1).2.1 S1024x1024.size (by sl_kernel_rfl) y

/-- What case A leaves in the accumulator: its pieces read back. -/
def sout3_A (c : Dev nD) (i : grid3.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (hc1 : ¬cond3_1 i)
    (x0 : Vec F S1024x2048 .bf16) (x1 : Vec F S1024x2048 .bf16) : Vec F S1024x1024 .f32 :=
  VS3.read (Elt F) (VS3.writes (Elt F) VS3.junk (kernelRun3_A c i arg3 harg3 arg4 harg4 arg5 harg5 arg6 harg6 hc0 hc1 x0 x1).2.1)

/-- Case B's pieces for the accumulator tile it, so they cover it. -/
theorem scover3_B (c : Dev nD) (i : grid3.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : ¬cond3_1 i)
    (x0 : Vec F S1024x2048 .bf16) (x1 : Vec F S1024x2048 .bf16) (xs0 : Vec F S1024x1024 .f32) (y : S1024x1024.Idx) :
    ∃ pc ∈ (kernelRun3_B c i arg3 harg3 arg4 harg4 arg5 harg5 arg6 harg6 hc0 hc1 x0 x1 xs0).2.1, y ∈ pc.1.set :=
  View.cover_of_tiledL (kernelRun3_B c i arg3 harg3 arg4 harg4 arg5 harg5 arg6 harg6 hc0 hc1 x0 x1 xs0).2.1 S1024x1024.size (by sl_kernel_rfl) y

/-- What case B leaves in the accumulator: its pieces read back. -/
def sout3_B (c : Dev nD) (i : grid3.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : ¬cond3_1 i)
    (x0 : Vec F S1024x2048 .bf16) (x1 : Vec F S1024x2048 .bf16) (xs0 : Vec F S1024x1024 .f32) : Vec F S1024x1024 .f32 :=
  VS3.read (Elt F) (VS3.writes (Elt F) VS3.junk (kernelRun3_B c i arg3 harg3 arg4 harg4 arg5 harg5 arg6 harg6 hc0 hc1 x0 x1 xs0).2.1)

/-- Case C's pieces for the accumulator tile it, so they cover it. -/
theorem scover3_C (c : Dev nD) (i : grid3.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S1024x2048 .bf16) (x1 : Vec F S1024x2048 .bf16) (xs0 : Vec F S1024x1024 .f32) (y : S1024x1024.Idx) :
    ∃ pc ∈ (kernelRun3_C c i arg3 harg3 arg4 harg4 arg5 harg5 arg6 harg6 hc0 hc1 x0 x1 xs0).2.1, y ∈ pc.1.set :=
  View.cover_of_tiledL (kernelRun3_C c i arg3 harg3 arg4 harg4 arg5 harg5 arg6 harg6 hc0 hc1 x0 x1 xs0).2.1 S1024x1024.size (by sl_kernel_rfl) y

/-- What case C leaves in the accumulator: its pieces read back. -/
def sout3_C (c : Dev nD) (i : grid3.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S1024x2048 .bf16) (x1 : Vec F S1024x2048 .bf16) (xs0 : Vec F S1024x1024 .f32) : Vec F S1024x1024 .f32 :=
  VS3.read (Elt F) (VS3.writes (Elt F) VS3.junk (kernelRun3_C c i arg3 harg3 arg4 harg4 arg5 harg5 arg6 harg6 hc0 hc1 x0 x1 xs0).2.1)

/-- Case C's pieces for the output block tile it, so they cover it. -/
theorem cover3_C_2 (c : Dev nD) (i : grid3.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S1024x2048 .bf16) (x1 : Vec F S1024x2048 .bf16) (xs0 : Vec F S1024x1024 .f32) (y : S1024x1024.Idx) :
    ∃ pc ∈ (kernelRun3_C c i arg3 harg3 arg4 harg4 arg5 harg5 arg6 harg6 hc0 hc1 x0 x1 xs0).1, y ∈ pc.1.set :=
  View.cover_of_tiledL (kernelRun3_C c i arg3 harg3 arg4 harg4 arg5 harg5 arg6 harg6 hc0 hc1 x0 x1 xs0).1 S1024x1024.size (by sl_kernel_rfl) y

/-- What case C leaves in the output block: its pieces read back. -/
def out3_C (c : Dev nD) (i : grid3.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S1024x2048 .bf16) (x1 : Vec F S1024x2048 .bf16) (xs0 : Vec F S1024x1024 .f32) : Vec F S1024x1024 .f32 :=
  VO3_2.read (Elt F) (VO3_2.writes (Elt F) VO3_2.junk (kernelRun3_C c i arg3 harg3 arg4 harg4 arg5 harg5 arg6 harg6 hc0 hc1 x0 x1 xs0).1)

/-! ## The accumulator and the output block, point by point -/

/-- THE ACCUMULATION. What the accumulator holds after the body at position `n`: at the first point of a run the product of
    the point's blocks added to zero, at a later point of the run the product added to what the point before left. -/
def acc3 (c : Dev nD) : (n : ℕ) → n < cfg3.N → Vec F S1024x1024 .f32
  | 0, hn => sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩)
  | n + 1, hn =>
    if h0 : (n + 1) % 4 = 0 then
      if h1 : (n + 1) % 4 = 3 then
        False.elim (by omega)
      else
        sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩)
    else
      if h1 : (n + 1) % 4 = 3 then
        sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (acc3 c n (Nat.lt_of_succ_lt hn))
      else
        sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (acc3 c n (Nat.lt_of_succ_lt hn))

/-- The accumulator after a first point of a run. -/
theorem acc3_A (c : Dev nD) (t : Fin cfg3.N) (h0 : t.val % 4 = 0) (h1 : ¬t.val % 4 = 3) :
    acc3 V c t.val t.isLt = sout3_A c (grid3.coords t) (ms3_0 t) (hs3_0 t) (ms3_1 t) (hs3_1 t) (ms3_2 t) (hs3_2 t) scM3 (Memref.isWhole_whole _) ((hcond3_0 t).mpr h0) (fun h => h1 ((hcond3_1 t).mp h)) (iblk3 V c 0 t) (iblk3 V c 1 t) := by
  obtain ⟨n, hn⟩ := t
  cases n with
  | zero => exact rfl
  | succ n => exact (dif_pos h0).trans ((dif_neg h1).trans rfl)

/-- The accumulator after an inner point of a run: over what the point before left. -/
theorem acc3_B (c : Dev nD) (t : Fin cfg3.N) (h0 : ¬t.val % 4 = 0) (h1 : ¬t.val % 4 = 3) :
    acc3 V c t.val t.isLt = sout3_B c (grid3.coords t) (ms3_0 t) (hs3_0 t) (ms3_1 t) (hs3_1 t) (ms3_2 t) (hs3_2 t) scM3 (Memref.isWhole_whole _) (fun h => h0 ((hcond3_0 t).mp h)) (fun h => h1 ((hcond3_1 t).mp h)) (iblk3 V c 0 t) (iblk3 V c 1 t) (acc3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- The accumulator after the last point of a run: over what the point before left. -/
theorem acc3_C (c : Dev nD) (t : Fin cfg3.N) (h0 : ¬t.val % 4 = 0) (h1 : t.val % 4 = 3) :
    acc3 V c t.val t.isLt = sout3_C c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) (acc3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block holds after the body at point `t`: at the last point of a run the accumulator's final
    contents, copied; elsewhere the body stores nothing into it and the value here is never consulted. -/
def out3 (c : Dev nD) (t : Fin cfg3.N) : Vec F S1024x1024 .f32 :=
  if h1 : t.val % 4 = 3 then
    out3_C c (grid3.coords t) (ms3_0 t) (hs3_0 t) (ms3_1 t) (hs3_1 t) (ms3_2 t) (hs3_2 t) scM3 (Memref.isWhole_whole _) (fun h => (by omega : ¬t.val % 4 = 0) ((hcond3_0 t).mp h)) ((hcond3_1 t).mpr h1) (iblk3 V c 0 t) (iblk3 V c 1 t) (acc3 V c (t.val - 1) (Nat.lt_of_le_of_lt (Nat.sub_le _ _) t.isLt))
  else k3_pay1

theorem out3_last (c : Dev nD) (t : Fin cfg3.N) (h0 : ¬t.val % 4 = 0) (h1 : t.val % 4 = 3) :
    out3 V c t = out3_C c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) (acc3 V c (t.val - 1) (Nat.lt_of_le_of_lt (Nat.sub_le _ _) t.isLt)) :=
  (dif_pos h1).trans rfl

/-! ## The region's invariant -/

/-- Every scoped buffer of the program that is neither a staging buffer of this region nor its accumulator, whole at some contents. -/
abbrev rest3 (c : Dev nD) : sProp 𝕄 :=
  Pipeline.scopedRestBut (Ix := Unit) (Name := ℕ) (U := UR sig nD τ) (Lvl := ℕ) (Val := Elt F) spec3 c [cc3_scratch0]

/-- The invariant before position `n`: the accumulator owned — at anything before the first point of a run (the body
    zeroes it there), and inside a run at the sum the points before left —, the other scoped buffers, and the
    generator register at some state. -/
def PhiS3 (c : Dev nD) (n : ℕ) (hn : n ≤ cfg3.N) : sProp 𝕄 :=
  if h : n % 4 = 0 then
    iprop(iprop(∃ d, owns (c : Thread nD τ) scM3 fullShare d) ∗ rest3 c ∗ (∃ r, prngReg c r))
  else
    iprop(owns (c : Thread nD τ) scM3 fullShare (acc3 V c (n - 1) (by omega)) ∗ rest3 c ∗ (∃ r, prngReg c r))

theorem PhiS3_first (c : Dev nD) (n : ℕ) (hn : n ≤ cfg3.N) (h : n % 4 = 0) :
    PhiS3 V c n hn = iprop(iprop(∃ d, owns (c : Thread nD τ) scM3 fullShare d) ∗ rest3 c ∗ (∃ r, prngReg c r)) := dif_pos h

theorem PhiS3_inner (c : Dev nD) (n : ℕ) (hn : n ≤ cfg3.N) (h : ¬n % 4 = 0) :
    PhiS3 V c n hn = iprop(owns (c : Thread nD τ) scM3 fullShare (acc3 V c (n - 1) (by omega)) ∗ rest3 c ∗ (∃ r, prngReg c r)) := dif_neg h

theorem PhiS3_succ (c : Dev nD) (n : ℕ) (hn : n < cfg3.N) (h : ¬(n + 1) % 4 = 0) :
    PhiS3 V c (n + 1) hn = iprop(owns (c : Thread nD τ) scM3 fullShare (acc3 V c n hn) ∗ rest3 c ∗ (∃ r, prngReg c r)) := (dif_neg h).trans rfl

/-! ## The pipeline's proof data -/

/-- The proof data of the region on core `c`: the arrays as the region finds them; after the body at a point each input's
    buffer at its block and the output's at `out3`; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the inputs' memrefs hold their blocks; the closed forms of the two conditions say which case
    the point is in; the invariant hands the body the accumulator (at anything at the first point of a run, at the
    partial sum inside one) and takes it back at this point's contents (forgotten after the last point of a run);
    the output block is handed back untouched away from the last point of a run, and at the accumulator's contents there. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_castSucc]
  have hN : t.val < 64 := lt_of_lt_of_eq t.isLt (show cfg3.N = 64 from N_3)
  by_cases h0 : t.val % 4 = 0
  · have h1 : ¬t.val % 4 = 3 := by omega
    have hn : ¬(t.val + 1) % 4 = 0 := by omega
    rw [show (dat3 V c).leavesExact 0 t = owns (c : Thread nD τ) (ms3_0 t) fullShare ((dat3 V c).after 0 t) from by
      unfold Dat.leavesExact; rw [liveAt3_0 t], after3_0]
    rw [show (dat3 V c).leavesExact 1 t = owns (c : Thread nD τ) (ms3_1 t) fullShare ((dat3 V c).after 1 t) from by
      unfold Dat.leavesExact; rw [liveAt3_1 t], after3_1]
    rw [Dat.leavesExact_idle (dat3 V c) 2 t (idleAt3_2 _ (fun h => h1 ((hcond3_1 t).mp h))) (noFlush3_2 t (fun h => h1 ((hcond3_1 t).mp h)))]
    rw [PhiS3_first V c _ _ h0, PhiS3_succ V c _ _ hn, acc3_A V c t h0 h1]
    unfold sout3_A; (try dsimp only)
    iintro ⟨⟨⟨%ds, HS0⟩, Hr, Hg⟩, Ho, ⟨%d0, H0⟩, ⟨%d1, H1⟩, ⟨%d2, H2⟩⟩
    iapply ((kernelRun3_A c (grid3.coords t) _ _ _ _ _ _ _ _ ((hcond3_0 t).mpr h0) (fun h => h1 ((hcond3_1 t).mp h)) (iblk3 V c 0 t) (iblk3 V c 1 t)).2.2 _ Set.univ _)
    isplitl [H0]; · iexact H0
    isplitl [H1]; · iexact H1
    isplitl [H2]; · iexact H2
    isplitl [HS0]; · iexists _; iexact HS0
    iintro ⟨H0, H1, H2, ⟨%es0, HS0⟩⟩
    isplitl [HS0 Hr Hg]
    · isplitl [HS0]
      · unfold owns; iexists _; isplitr
        swap; · iexact HS0
        ipureintro; exact View.read_writes_of_cover _ _ _ _ _ (scover3_A c _ _ _ _ _ _ _ _ _ _ _ _ _)
      isplitl [Hr]; · iexact Hr
      iexact Hg
    isplitl [Ho]; · iexact Ho
    isplitl [H0]; · iexact H0
    isplitl [H1]; · iexact H1
    iexists _; iexact H2
  · by_cases h1 : t.val % 4 = 3
    · have hn : (t.val + 1) % 4 = 0 := by omega
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 _ ((hcond3_1 t).mpr h1)], after3_2]
      rw [PhiS3_inner V c _ _ h0, PhiS3_first V c _ _ hn, out3_last V c t h0 h1]
      unfold out3_C; (try dsimp only)
      iintro ⟨⟨HS0, Hr, Hg⟩, Ho, ⟨%d0, H0⟩, ⟨%d1, H1⟩, ⟨%d2, H2⟩⟩
      iapply ((kernelRun3_C c (grid3.coords t) _ _ _ _ _ _ _ _ (fun h => h0 ((hcond3_0 t).mp h)) ((hcond3_1 t).mpr h1) (iblk3 V c 0 t) (iblk3 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0]
        · iexists (VS3.read (Elt F) _); unfold owns; iexists _; isplitr
          swap; · iexact HS0
          ipureintro; rfl
        isplitl [Hr]; · iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _)
    · have hn : ¬(t.val + 1) % 4 = 0 := by omega
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2 _ (fun h => h1 ((hcond3_1 t).mp h))) (noFlush3_2 t (fun h => h1 ((hcond3_1 t).mp h)))]
      rw [PhiS3_inner V c _ _ h0, PhiS3_succ V c _ _ hn, acc3_B V c t h0 h1]
      unfold sout3_B; (try dsimp only)
      iintro ⟨⟨HS0, Hr, Hg⟩, Ho, ⟨%d0, H0⟩, ⟨%d1, H1⟩, ⟨%d2, H2⟩⟩
      iapply ((kernelRun3_B c (grid3.coords t) _ _ _ _ _ _ _ _ (fun h => h0 ((hcond3_0 t).mp h)) (fun h => h1 ((hcond3_1 t).mp h)) (iblk3 V c 0 t) (iblk3 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0]
        · unfold owns; iexists _; isplitr
          swap; · iexact HS0
          ipureintro; exact View.read_writes_of_cover _ _ _ _ _ (scover3_B c _ _ _ _ _ _ _ _ _ _ _ _ _ _)
        isplitl [Hr]; · iexact Hr
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Entering and leaving the region -/

/-- What the launch hands the region — the generator register and every scoped buffer that is no staging buffer of the
    region, the accumulator among them, each at some contents — is the invariant before the first point. -/
theorem hin3 (c : Dev nD) : iprop((∃ r, prngReg c r) ∗ Pipeline.scopedRest spec3 c) ⊢ ((dat3 V c).Φ 0 : sProp 𝕄) := by
  rw [show (dat3 V c).Φ 0 = PhiS3 V c 0 (Nat.zero_le _) from rfl, PhiS3_first V c 0 _ rfl, scopedRest3_split]
  simp only [scM3, owns_whole]
  iintro ⟨Hg, HS, Hr⟩
  isplitl [HS]; · iexact HS
  isplitl [Hr]; · iexact Hr
  iexact Hg

/-- After the last point (the last of a run) the invariant gives the same back: the accumulator's contents are forgotten. -/
theorem hout3 (c : Dev nD) : ((dat3 V c).Φ (Fin.last cfg3.N) : sProp 𝕄) ⊢ iprop((∃ r, prngReg c r) ∗ Pipeline.scopedRest spec3 c) := by
  rw [show (dat3 V c).Φ (Fin.last cfg3.N) = PhiS3 V c cfg3.N (Nat.le_refl _) from rfl,
    PhiS3_first V c cfg3.N _ (by rw [show cfg3.N = 64 from N_3]), scopedRest3_split]
  simp only [scM3, owns_whole]
  iintro ⟨HS, Hr, Hg⟩
  isplitl [Hg]; · iexact Hg
  isplitl [HS]; · iexact HS
  iexact Hr

end Cert.Kernel.H
end
-- ==== Proof.K_R4.lean ====
import proofs.«174982_j50740743635387_2_alg».proof.Proof.Gen.Kernel.Launch
import proofs.«174982_j50740743635387_2_alg».proof.Proof.Gen.Kernel.Skeleton
import proofs.«174982_j50740743635387_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The activation-quantisation region 4

One grid point takes a block of rows `x` (window 0) and the gain row `g` (window 1, the whole array at every point)
and writes one block of the same rows (window 2): each row is normalised by the reciprocal root of its mean square
plus a small constant, multiplied by `g`, scaled so that its largest magnitude becomes 127, rounded to the nearest
integer, clamped to [-128, 127] and scaled back. Everything here is stated at a parameter `V`, the contents of the
buffers when the region is entered. -/

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The rows' staging buffer holds the rows' block at every point, for any proof data whose array is `V`'s and
    whose body leaves the block in place: the window is an input, uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The gain row's staging buffer holds the gain row at every point, fetched there or not: where it is not fetched
    its block index has not moved, so the block of the point before is the block of this one. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer as one rectangle, the whole of it -/

abbrev r4_0 : Rect S512x2048 := Rect.unit (s := S512x2048) ![0, 0] S512x2048.size inb_S512x2048_S512x2048_0_0
abbrev r4_1 : Rect S1x2048 := Rect.unit (s := S1x2048) ![0, 0] S1x2048.size inb_S1x2048_S1x2048_0_0

/-! ## What the body leaves in the output window's buffer -/

/-- The output buffer after the body, as a function of the two input blocks: the one store, over the whole buffer,
    of the quantised rows computed from the whole of both inputs. -/
def out4_2 (x0 : Vec F S512x2048 .f32) (x1 : Vec F S1x2048 .f32) : Vec F S512x2048 .bf16 :=
  View.canon [⟨r4_0, k4_pay1 (View.ld x0 r4_0) (View.ld x1 r4_1)⟩]

/-- The one store's rectangle is the whole buffer, so it covers every index. -/
theorem cover4_2 (p0 : Vec F S512x2048 .bf16) (y : S512x2048.Idx) :
    ∃ pc ∈ ([⟨r4_0, p0⟩] : List (View.Piece (Elt F) S512x2048 .bf16)), y ∈ pc.1.set :=
  View.cover_of_tiled [⟨r4_0, p0⟩] S512x2048.size (by rfl) y

/-! ## The body's triple -/

set_option maxHeartbeats 1000000 in
/-- The body on whole staging memrefs — the inputs' holding `x0` and `x1`, the output's holding anything — runs to a
    continuation that holds the inputs' as they were and the output's at `out4_2 x0 x1`. -/
theorem sound_kernel4 (c : Dev nD) (E : Set ℕ) (i : grid4.Coords) (arg1 : Memref sig .tc .vmem S512x2048 .f32) (harg1 : arg1.IsWhole) (arg2 : Memref sig .tc .vmem S1x2048 .f32) (harg2 : arg2.IsWhole) (arg3 : Memref sig .tc .vmem S512x2048 .bf16) (harg3 : arg3.IsWhole)
    (x0 : Vec F S512x2048 .f32) (x1 : Vec F S1x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__act_quant_kernel i arg1 harg1 arg2 harg2 arg3 harg3) K := by
  simp only [cc4__act_quant_kernel_eq_skeleton]; unfold cc4__act_quant_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of this pipeline on core `c`: the arrays as the region finds them; after the body at point `t`
    each input's buffer at its block and the output's at `out4_2` of the two input blocks; the invariant is the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and
    the core's obligations pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.H

end
-- ==== Proof.K_R5.lean ====
/-
  Region 5 of the program, the receptance product, at any float instance. A grid point takes a block of 256 rows of
  the activations, the whole weight matrix and a block of 256 rows of the values, and writes the 256 × 2048 block of
  the logistic function of the products times the values. Here: each window's block at a point; what the body leaves
  in the output block as a function of the three input blocks (its accumulator is rebuilt from zero at every point, so
  the region's invariant does not name what it holds); the body's triple; the proof data; the body obligation at
  every point; and that the invariant is what the launch hands the region and what the region hands back.
-/
import proofs.«174982_j50740743635387_2_alg».proof.Proof.Gen.Kernel.Launch
import proofs.«174982_j50740743635387_2_alg».proof.Proof.Gen.Kernel.Skeleton
import proofs.«174982_j50740743635387_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384
noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 5: the receptance matmul, `cc5__matmul_receptance_kernel`, at the entry contents `V`

Grid 32 × 1 × 1. At a point the body zeroes its accumulator (grid coordinate 2 is 0), adds to it the product of
the point's block of the activations with the transpose of the weights, reads it back (grid coordinate 2 is the
last, 0), applies the logistic function 1 / (1 + exp (0 − ·)), multiplies by the point's block of the values and
stores the result into the output block. The third grid axis has one point, so both conditions hold everywhere
and the accumulator is rebuilt from zero at every point: what it held before the body does not matter, and the
region invariant need not name its contents. -/

/-! ## The two conditions, decided over the grid -/

/-- The first conditional's condition (grid coordinate 2 is zero), as the body computes it. -/
abbrev cond5_0 (i : grid5.Coords) : Prop := (Scalar.cmpi .ne (Scalar.extui (Scalar.cmpi .eq (BitVec.ofNat 32 (i 2).val) 0#32)) 0#32) = 1#1
/-- It holds at every point: axis 2 has one point. -/
theorem hcond5_0 : ∀ t : Fin cfg5.N, cond5_0 (grid5.coords t) :=
  (by decide +kernel : ∀ t : Fin grid5.N, cond5_0 (grid5.coords t))
/-- The second conditional's condition (grid coordinate 2 is the last). -/
abbrev cond5_1 (i : grid5.Coords) : Prop := k5_cond2 i = 1#1
/-- It holds at every point. -/
theorem hcond5_1 : ∀ t : Fin cfg5.N, cond5_1 (grid5.coords t) :=
  (by decide +kernel : ∀ t : Fin grid5.N, cond5_1 (grid5.coords t))
/-- So the output window is idle at no point. -/
theorem liveAt5_3 : ∀ t : Fin cfg5.N, cfg5.idle 3 (grid5.coords t) = false := by decide +kernel

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not (unfetched, the
    block index has not moved), for any proof data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The same for input window 1, -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- and for input window 2. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and store is of a whole buffer -/

abbrev r5_0 : Rect S256x2048 := Rect.unit (s := S256x2048) ![0, 0] S256x2048.size inb_S256x2048_S256x2048_0_0
abbrev r5_1 : Rect S2048x2048 := Rect.unit (s := S2048x2048) ![0, 0] S2048x2048.size inb_S2048x2048_S2048x2048_0_0

theorem hz5 : (![0, 0] : Fin 2 → Nat) = fun _ => 0 := funext fun a => by fin_cases a <;> rfl

/-! ## What the body leaves -/

/-- The accumulator after the body's second store, from the first two input blocks: zero plus the product. -/
def acc5 (x0 : Vec F S256x2048 .bf16) (x1 : Vec F S2048x2048 .bf16) : Vec F S256x2048 .f32 :=
  k5_pay2 (k5_pay1 (F := F)) (View.ld x0 r5_0) (View.ld x1 r5_1)

/-- The output window's staging buffer after the body, from the three input blocks: its one store, the logistic
    function of the accumulator times the block of the values. -/
def out5_3 (x0 : Vec F S256x2048 .bf16) (x1 : Vec F S2048x2048 .bf16) (x2 : Vec F S256x2048 .f32) : Vec F S256x2048 .f32 :=
  View.canon [⟨r5_0, k5_pay3 (acc5 x0 x1) (View.ld x2 r5_0)⟩]

/-- The store covers the buffer. -/
theorem cover5_3 (p0 : Vec F S256x2048 .f32) (y : S256x2048.Idx) :
    ∃ pc ∈ ([⟨r5_0, p0⟩] : List (View.Piece (Elt F) S256x2048 .f32)), y ∈ pc.1.set :=
  ⟨_, List.mem_singleton_self _, View.mem_set_unit_zero hz5 inb_S256x2048_S256x2048_0_0 y⟩

/-- A load of the whole buffer after a list of stores whose last is of the whole buffer reads that store's payload,
    whatever the earlier ones were. -/
theorem readCov_cons_unit_zero5 {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-! ## The body's triple -/

set_option maxHeartbeats 1000000 in
/-- The body on whole memrefs — the three inputs' at read contents, the output's and the accumulator's at anything —
    runs to the continuation holding the inputs' as they were, the output's at `out5_3` of the inputs' and the
    accumulator's at some contents. Both conditionals are decided by the hypotheses. -/
theorem sound_kernel5 (c : Dev nD) (E : Set ℕ) (i : grid5.Coords)
    (arg3 : Memref sig .tc .vmem S256x2048 .bf16) (harg3 : arg3.IsWhole)
    (arg4 : Memref sig .tc .vmem S2048x2048 .bf16) (harg4 : arg4.IsWhole)
    (arg5 : Memref sig .tc .vmem S256x2048 .f32) (harg5 : arg5.IsWhole)
    (arg6 : Memref sig .tc .vmem S256x2048 .f32) (harg6 : arg6.IsWhole)
    (arg7 : Memref sig .tc .vmem S256x2048 .f32) (harg7 : arg7.IsWhole)
    (hc0 : cond5_0 i) (hc1 : cond5_1 i)
    (x0 : Vec F S256x2048 .bf16) (x1 : Vec F S2048x2048 .bf16) (x2 : Vec F S256x2048 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out5_3 x0 x1 x2) ∗ (∃ d, owns (c : Thread nD τ) arg7 fullShare d)) -∗ K ⟨⟩))
      ⊢ wp frame (wpE (defs₀ (F := F)) Variants.none c none) E (cc5__matmul_receptance_kernel i arg3 harg3 arg4 harg4 arg5 harg5 arg6 harg6 arg7 harg7) K := by
  simp only [cc5__matmul_receptance_kernel_eq_skeleton]; unfold cc5__matmul_receptance_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (cover5_3 _)]
    sl_unfold_run_names
    rw [View.readCov_unit_zero _ hz5, readCov_cons_unit_zero5 _ hz5]
    rfl
  iexists _; iexists _; isplitr
  swap; · iexact H4
  ipureintro; rfl

/-! ## The pipeline's proof data -/

/-- The proof data of pipeline 5 on core `c`: the arrays as the region finds them (`V`); after the body at point `t`
    each input's buffer at its block and the output's at `out5_3` of the three input blocks; the invariant is the
    scoped rest — the accumulator among it, at any contents — and the generator register; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- The accumulator, a whole scoped buffer of the kernel's own, passed beside the windows. -/
abbrev scM5 : Memref sig .tc .vmem S256x2048 .f32 := Memref.whole cc5_scratch0

/-- The invariant with the accumulator split out of the scoped rest as a memref owned at some contents. -/
theorem PhiA5_eq (c : Dev nD) :
    (Pipeline.ΦA spec5 c : sProp 𝕄)
      = iprop(iprop((∃ d, owns (c : Thread nD τ) scM5 fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ (dat5 V c).leavesExact 3 t)

/-- The body at any point: the inputs' memrefs hold their blocks, both conditions hold there, the invariant lends
    the accumulator at whatever it holds and takes it back at whatever the body left; the core owes nothing. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).leavesExact 3 t = owns (c : Thread nD τ) (st5_3 t) fullShare ((dat5 V c).after 3 t) from by
    unfold Dat.leavesExact; rw [liveAt5_3 t]]
  rw [show (dat5 V c).Φ t.succ = Pipeline.ΦA spec5 c from rfl,
    show (dat5 V c).Φ t.castSucc = Pipeline.ΦA spec5 c from rfl,
    show (dat5 V c).owesAt () t.succ = (dat5 V c).owesAt () t.castSucc from rfl,
    after5_0, after5_1, after5_2, after5_3, PhiA5_eq]
  iintro ⟨⟨⟨HS, HR⟩, Hg⟩, Ho, ⟨%d0, H0⟩, ⟨%d1, H1⟩, ⟨%d2, H2⟩, ⟨%d3, H3⟩⟩
  iapply (sound_kernel5 c Set.univ (grid5.coords t) _ _ _ _ _ _ _ _ _ _ (hcond5_0 t) (hcond5_1 t) (iblk5 V c 0 t) (iblk5 V c 1 t) (iblk5 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point, -/
theorem hin5 (c : Dev nD) : iprop((∃ r, prngReg c r) ∗ Pipeline.scopedRest spec5 c) ⊢ ((dat5 V c).Φ 0 : sProp 𝕄) := by
  rw [show (dat5 V c).Φ 0 = Pipeline.ΦA spec5 c from rfl]
  unfold Pipeline.ΦA
  iintro ⟨Hg, HR⟩
  isplitl [HR]; · iexact HR
  iexact Hg

/-- and the invariant after the last point gives it back. -/
theorem hout5 (c : Dev nD) : ((dat5 V c).Φ (Fin.last cfg5.N) : sProp 𝕄) ⊢ iprop((∃ r, prngReg c r) ∗ Pipeline.scopedRest spec5 c) := by
  rw [show (dat5 V c).Φ (Fin.last cfg5.N) = Pipeline.ΦA spec5 c from rfl]
  unfold Pipeline.ΦA
  iintro ⟨HR, Hg⟩
  isplitl [Hg]; · iexact Hg
  iexact HR

end Cert.Kernel.H
end
-- ==== Proof.K_Halves.lean ====
/-
  The six regions' halves put together, and what the run gives: the frame (every argument array ends as launched) and every
  unscoped buffer's final contents, at any float instance.
-/
import proofs.«174982_j50740743635387_2_alg».proof.Proof.K_Run
import proofs.«174982_j50740743635387_2_alg».proof.Proof.K_R0
import proofs.«174982_j50740743635387_2_alg».proof.Proof.K_R1
import proofs.«174982_j50740743635387_2_alg».proof.Proof.K_R2
import proofs.«174982_j50740743635387_2_alg».proof.Proof.K_R3
import proofs.«174982_j50740743635387_2_alg».proof.Proof.K_R4
import proofs.«174982_j50740743635387_2_alg».proof.Proof.K_R5

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 0's half: a body that loads its two input blocks whole and stores its output block whole; the invariant is the
    scoped rest and the generator register, untouched. -/
def half0 : Half (F := F) cfg0 where
  dat V c := dat0 V c
  hA V c w := A_eq0 V c w
  hq _ _ _ := rfl
  howed _ _ _ := rfl
  hrec _ _ _ := rfl
  hbody V c := body_obligation0 V c
  hin V c := by
    rw [show (dat0 V c).Φ 0 = Pipeline.ΦA spec0 c from rfl]; unfold Pipeline.ΦA
    iintro ⟨Hp, Hr⟩
    isplitl [Hr]; · iexact Hr
    iexact Hp
  hout V c := by
    rw [show (dat0 V c).Φ (Fin.last cfg0.N) = Pipeline.ΦA spec0 c from rfl]; unfold Pipeline.ΦA
    iintro ⟨Hr, Hp⟩
    isplitl [Hp]; · iexact Hp
    iexact Hr

/-- Region 1's half: a matrix product accumulated in a scratch buffer that enters and leaves the invariant with the scoped rest. -/
def half1 : Half (F := F) cfg1 where
  dat V c := dat1 V c
  hA V c w := A_eq1 V c w
  hq _ _ _ := rfl
  howed _ _ _ := rfl
  hrec _ _ _ := rfl
  hbody V c := body_obligation1 V c
  hin V c := hin1 V c
  hout V c := hout1 V c

/-- Region 2's half: a body that loads its two input blocks whole and stores its output block whole; the invariant is the
    scoped rest and the generator register, untouched. -/
def half2 : Half (F := F) cfg2 where
  dat V c := dat2 V c
  hA V c w := A_eq2 V c w
  hq _ _ _ := rfl
  howed _ _ _ := rfl
  hrec _ _ _ := rfl
  hbody V c := body_obligation2 V c
  hin V c := by
    rw [show (dat2 V c).Φ 0 = Pipeline.ΦA spec2 c from rfl]; unfold Pipeline.ΦA
    iintro ⟨Hp, Hr⟩
    isplitl [Hr]; · iexact Hr
    iexact Hp
  hout V c := by
    rw [show (dat2 V c).Φ (Fin.last cfg2.N) = Pipeline.ΦA spec2 c from rfl]; unfold Pipeline.ΦA
    iintro ⟨Hr, Hp⟩
    isplitl [Hp]; · iexact Hp
    iexact Hr

/-- Region 3's half: a matrix product accumulated in a scratch buffer that enters and leaves the invariant with the scoped rest. -/
def half3 : Half (F := F) cfg3 where
  dat V c := dat3 V c
  hA V c w := A_eq3 V c w
  hq _ _ _ := rfl
  howed _ _ _ := rfl
  hrec _ _ _ := rfl
  hbody V c := body_obligation3 V c
  hin V c := hin3 V c
  hout V c := hout3 V c

/-- Region 4's half: a body that loads its two input blocks whole and stores its output block whole; the invariant is the
    scoped rest and the generator register, untouched. -/
def half4 : Half (F := F) cfg4 where
  dat V c := dat4 V c
  hA V c w := A_eq4 V c w
  hq _ _ _ := rfl
  howed _ _ _ := rfl
  hrec _ _ _ := rfl
  hbody V c := body_obligation4 V c
  hin V c := by
    rw [show (dat4 V c).Φ 0 = Pipeline.ΦA spec4 c from rfl]; unfold Pipeline.ΦA
    iintro ⟨Hp, Hr⟩
    isplitl [Hr]; · iexact Hr
    iexact Hp
  hout V c := by
    rw [show (dat4 V c).Φ (Fin.last cfg4.N) = Pipeline.ΦA spec4 c from rfl]; unfold Pipeline.ΦA
    iintro ⟨Hr, Hp⟩
    isplitl [Hp]; · iexact Hp
    iexact Hr

/-- Region 5's half: a matrix product accumulated in a scratch buffer that enters and leaves the invariant with the scoped rest. -/
def half5 : Half (F := F) cfg5 where
  dat V c := dat5 V c
  hA V c w := A_eq5 V c w
  hq _ _ _ := rfl
  howed _ _ _ := rfl
  hrec _ _ _ := rfl
  hbody V c := body_obligation5 V c
  hin V c := hin5 V c
  hout V c := hout5 V c

variable (m : (ℓ : Loc nD τ sig) → Buf (Elt F) ℓ) (ρ : Dev nD → PrngReg)

/-- The contents of every unscoped buffer at the return. -/
abbrev Wend : Dev nD → Valuation τ sig (Elt F) := W31 half0 half1 half2 half3 half4 half5 m ρ

/-- THE RUN with the six halves: every unscoped buffer ends at `Wend`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wend m ρ c b) :=
  run half0 half1 half2 half3 half4 half5 m ρ

/-- THE FRAME, with the result named: every weakly fair execution of @main terminates, nothing faulting; the result buffer ends
    at `Wend`'s and every argument array as launched. -/
theorem run_result : θ_run defs (onTc (τ := τ) (main (F := F))) ⟨m, fun _ => 0, ρ⟩ (fun r => ∀ c : Dev nD,
      r.2.mem ((c.tc : Thread nD τ).loc main_v63) = Wend m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r hr c => by
    have h := hr
    exact ⟨h c _ (mem_uc main_v63 (by decide)),
      (h c _ (mem_uc main_arg0 (by decide))).trans (W31_keep half0 half1 half2 half3 half4 half5 m ρ c main_arg0 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c _ (mem_uc main_arg1 (by decide))).trans (W31_keep half0 half1 half2 half3 half4 half5 m ρ c main_arg1 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c _ (mem_uc main_arg2 (by decide))).trans (W31_keep half0 half1 half2 half3 half4 half5 m ρ c main_arg2 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c _ (mem_uc main_arg3 (by decide))).trans (W31_keep half0 half1 half2 half3 half4 half5 m ρ c main_arg3 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c _ (mem_uc main_arg4 (by decide))).trans (W31_keep half0 half1 half2 half3 half4 half5 m ρ c main_arg4 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c _ (mem_uc main_arg5 (by decide))).trans (W31_keep half0 half1 half2 half3 half4 half5 m ρ c main_arg5 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c _ (mem_uc main_arg6 (by decide))).trans (W31_keep half0 half1 half2 half3 half4 half5 m ρ c main_arg6 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c _ (mem_uc main_arg7 (by decide))).trans (W31_keep half0 half1 half2 half3 half4 half5 m ρ c main_arg7 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c _ (mem_uc main_arg8 (by decide))).trans (W31_keep half0 half1 half2 half3 half4 half5 m ρ c main_arg8 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide))⟩) (run_all m ρ)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_result m ρ)

end Cert.Kernel.H

end
-- ==== Proof.Run.lean ====
/-
  The run of the kernel's program, at any float instance: @main as thirty-one segments — twenty-five stretches of host
  operations and six kernel regions — from the launch memory to the return, the contents of every unscoped buffer named at each
  boundary (a stretch folds its operations over the contents before it; a region leaves its windows' arrays at what its
  write-backs leave and every other buffer as entered). Each region's half (its proof data at the contents it is entered from, the
  body obligation, how the scratch enters and leaves the invariant) is a parameter; the run reads every unscoped buffer off the last
  boundary, so both the frame (each argument walks back to the launch memory: no stretch and no region writes one) and the result's
  value follow from it.
-/
import proofs.«174982_j50740743635387_2_alg».proof.Proof.Gen.KernelIdeal.Launch
import proofs.«174982_j50740743635387_2_alg».proof.Proof.Gen.KernelIdeal.Points
import proofs.«174982_j50740743635387_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCore's buffer contents on every core: what a region's half is stated at. -/
abbrev Val (F : FTy → Type) [FloatOps F] : Type := (c : Dev nD) → (b : Ref sig .tc) → Buf (Elt F) ((c : Thread nD τ).loc b)

/-- A region's half, at any entry contents: the proof data (its arrays the entry contents, full shares, nothing owed), the body
    obligation at every point, and the invariant's two ends — entered from the generator register and the scoped buffers no
    window stages, and giving them back. -/
structure Half (cfg : Pipeline.Cfg sig Λ₀) where
  dat : (V : Val F) → (c : Dev nD) → Dat τ (Elt F) Unit ℕ (UR sig nD τ) ℕ cfg c
  hA : ∀ V c w, (dat V c).A w = V c (Pipeline.arrRef (fun w => (cfg.win w).toWinSpec) w)
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, iprop((∃ r, prngReg c r) ∗ Pipeline.scopedRest (fun w => (cfg.win w).toWinSpec) c) ⊢ ((dat V c).Φ 0 : sProp 𝕄)
  hout : ∀ V c, ((dat V c).Φ (Fin.last cfg.N) : sProp 𝕄) ⊢ iprop((∃ r, prngReg c r) ∗ Pipeline.scopedRest (fun w => (cfg.win w).toWinSpec) c)

variable (h0 : Half (F := F) cfg0) (h1 : Half (F := F) cfg1) (h2 : Half (F := F) cfg2) (h3 : Half (F := F) cfg3) (h4 : Half (F := F) cfg4) (h5 : Half (F := F) cfg5)
variable (m : (ℓ : Loc nD τ sig) → Buf (Elt F) ℓ) (ρ : Dev nD → PrngReg)

/-! ## The buffers' contents at each boundary: a fold through @main -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev W6 : Dev nD → Valuation τ sig (Elt F) := fun c => StableHlo.after hostOps0_5 (W5 m ρ c)
abbrev W7 : Dev nD → Valuation τ sig (Elt F) := fun c => StableHlo.after hostOps0_6 (W6 m ρ c)
abbrev W8 : Dev nD → Valuation τ sig (Elt F) := fun c => StableHlo.after hostOps0_7 (W7 m ρ c)
abbrev W9 : Dev nD → Valuation τ sig (Elt F) := fun c => StableHlo.after hostOps0_8 (W8 m ρ c)
abbrev W10 : Dev nD → Valuation τ sig (Elt F) := fun c => StableHlo.after hostOps0_9 (W9 m ρ c)
abbrev W11 : Dev nD → Valuation τ sig (Elt F) := fun c => StableHlo.after hostOps0_10 (W10 m ρ c)
abbrev W12 : Dev nD → Valuation τ sig (Elt F) := fun c => StableHlo.after hostOps0_11 (W11 m ρ c)
abbrev W13 : Dev nD → Valuation τ sig (Elt F) := fun c => StableHlo.after hostOps0_12 (W12 m ρ c)
abbrev W14 : Dev nD → Valuation τ sig (Elt F) := fun c => StableHlo.after hostOps0_13 (W13 m ρ c)
abbrev W15 : Dev nD → Valuation τ sig (Elt F) := fun c => StableHlo.after hostOps0_14 (W14 m ρ c)
abbrev W16 : Dev nD → Valuation τ sig (Elt F) := fun c => StableHlo.after hostOps0_15 (W15 m ρ c)
abbrev W17 : Dev nD → Valuation τ sig (Elt F) := fun c => StableHlo.after hostOps0_16 (W16 m ρ c)
abbrev W18 : Dev nD → Valuation τ sig (Elt F) := fun c => StableHlo.after hostOps0_17 (W17 m ρ c)
abbrev W19 : Dev nD → Valuation τ sig (Elt F) := fun c => StableHlo.after hostOps0_18 (W18 m ρ c)
abbrev W20 : Dev nD → Valuation τ sig (Elt F) := fun c => StableHlo.after hostOps0_19 (W19 m ρ c)
/-- Region 0's entry. -/
abbrev W21 : Dev nD → Valuation τ sig (Elt F) := fun c => StableHlo.after hostOps0_20 (W20 m ρ c)
abbrev V21 : Val F := fun c b => W21 m ρ c b
/-- Region 0's exit: its arrays at what the pipeline leaves, every other buffer as entered. -/
def W22 (c : Dev nD) : Valuation τ sig (Elt F) :=
  Pipeline.withArrays spec0 c (W21 m ρ c) fun w => (h0.dat (V21 m ρ) c).arrAt w cfg0.N
theorem W22_arr (c : Dev nD) (w : Fin cfg0.W) :
    W22 h0 m ρ c (Proc.devRef .tc (Pipeline.arrRef spec0 w)) = (h0.dat (V21 m ρ) c).arrAt w cfg0.N := by
  unfold W22; exact Pipeline.withArrays_arr spec0 launch0.win.arr_inj c _ _ w
theorem W22_of_ne (c : Dev nD) (b : Ref sig .tc) (hb : ∀ w, Pipeline.arrRef spec0 w ≠ b) :
    W22 h0 m ρ c (Proc.devRef .tc b) = W21 m ρ c (Proc.devRef .tc b) := by
  unfold W22; exact Pipeline.withArrays_of_ne spec0 c _ _ b hb
abbrev V22 : Val F := fun c b => W22 h0 m ρ c b
theorem hF0 (c : Dev nD) (w : Fin cfg0.W) : (h0.dat (V21 m ρ) c).arrAt w cfg0.N = V22 h0 m ρ c (Pipeline.arrRef spec0 w) :=
  (W22_arr h0 m ρ c w).symm
theorem hrest0 (c : Dev nD) : ∀ b, b ∉ Finset.univ.image (Pipeline.arrRef spec0) → V22 h0 m ρ c b = V21 m ρ c b :=
  fun b hb => W22_of_ne h0 m ρ c b fun w e => hb (Finset.mem_image.mpr ⟨w, Finset.mem_univ _, e⟩)

abbrev W23 : Dev nD → Valuation τ sig (Elt F) := fun c => StableHlo.after hostOps1 (W22 h0 m ρ c)
/-- Region 1's entry. -/
abbrev V23 : Val F := fun c b => W23 h0 m ρ c b
def W24 (c : Dev nD) : Valuation τ sig (Elt F) :=
  Pipeline.withArrays spec1 c (W23 h0 m ρ c) fun w => (h1.dat (V23 h0 m ρ) c).arrAt w cfg1.N
theorem W24_arr (c : Dev nD) (w : Fin cfg1.W) :
    W24 h0 h1 m ρ c (Proc.devRef .tc (Pipeline.arrRef spec1 w)) = (h1.dat (V23 h0 m ρ) c).arrAt w cfg1.N := by
  unfold W24; exact Pipeline.withArrays_arr spec1 launch1.win.arr_inj c _ _ w
theorem W24_of_ne (c : Dev nD) (b : Ref sig .tc) (hb : ∀ w, Pipeline.arrRef spec1 w ≠ b) :
    W24 h0 h1 m ρ c (Proc.devRef .tc b) = W23 h0 m ρ c (Proc.devRef .tc b) := by
  unfold W24; exact Pipeline.withArrays_of_ne spec1 c _ _ b hb
/-- Region 1's exit and region 2's entry. -/
abbrev V24 : Val F := fun c b => W24 h0 h1 m ρ c b
theorem hF1 (c : Dev nD) (w : Fin cfg1.W) : (h1.dat (V23 h0 m ρ) c).arrAt w cfg1.N = V24 h0 h1 m ρ c (Pipeline.arrRef spec1 w) :=
  (W24_arr h0 h1 m ρ c w).symm
theorem hrest1 (c : Dev nD) : ∀ b, b ∉ Finset.univ.image (Pipeline.arrRef spec1) → V24 h0 h1 m ρ c b = V23 h0 m ρ c b :=
  fun b hb => W24_of_ne h0 h1 m ρ c b fun w e => hb (Finset.mem_image.mpr ⟨w, Finset.mem_univ _, e⟩)

def W25 (c : Dev nD) : Valuation τ sig (Elt F) :=
  Pipeline.withArrays spec2 c (W24 h0 h1 m ρ c) fun w => (h2.dat (V24 h0 h1 m ρ) c).arrAt w cfg2.N
theorem W25_arr (c : Dev nD) (w : Fin cfg2.W) :
    W25 h0 h1 h2 m ρ c (Proc.devRef .tc (Pipeline.arrRef spec2 w)) = (h2.dat (V24 h0 h1 m ρ) c).arrAt w cfg2.N := by
  unfold W25; exact Pipeline.withArrays_arr spec2 launch2.win.arr_inj c _ _ w
theorem W25_of_ne (c : Dev nD) (b : Ref sig .tc) (hb : ∀ w, Pipeline.arrRef spec2 w ≠ b) :
    W25 h0 h1 h2 m ρ c (Proc.devRef .tc b) = W24 h0 h1 m ρ c (Proc.devRef .tc b) := by
  unfold W25; exact Pipeline.withArrays_of_ne spec2 c _ _ b hb
abbrev V25 : Val F := fun c b => W25 h0 h1 h2 m ρ c b
theorem hF2 (c : Dev nD) (w : Fin cfg2.W) : (h2.dat (V24 h0 h1 m ρ) c).arrAt w cfg2.N = V25 h0 h1 h2 m ρ c (Pipeline.arrRef spec2 w) :=
  (W25_arr h0 h1 h2 m ρ c w).symm
theorem hrest2 (c : Dev nD) : ∀ b, b ∉ Finset.univ.image (Pipeline.arrRef spec2) → V25 h0 h1 h2 m ρ c b = V24 h0 h1 m ρ c b :=
  fun b hb => W25_of_ne h0 h1 h2 m ρ c b fun w e => hb (Finset.mem_image.mpr ⟨w, Finset.mem_univ _, e⟩)

abbrev W26 : Dev nD → Valuation τ sig (Elt F) := fun c => StableHlo.after hostOps3 (W25 h0 h1 h2 m ρ c)
/-- Region 3's entry. -/
abbrev V26 : Val F := fun c b => W26 h0 h1 h2 m ρ c b
def W27 (c : Dev nD) : Valuation τ sig (Elt F) :=
  Pipeline.withArrays spec3 c (W26 h0 h1 h2 m ρ c) fun w => (h3.dat (V26 h0 h1 h2 m ρ) c).arrAt w cfg3.N
theorem W27_arr (c : Dev nD) (w : Fin cfg3.W) :
    W27 h0 h1 h2 h3 m ρ c (Proc.devRef .tc (Pipeline.arrRef spec3 w)) = (h3.dat (V26 h0 h1 h2 m ρ) c).arrAt w cfg3.N := by
  unfold W27; exact Pipeline.withArrays_arr spec3 launch3.win.arr_inj c _ _ w
theorem W27_of_ne (c : Dev nD) (b : Ref sig .tc) (hb : ∀ w, Pipeline.arrRef spec3 w ≠ b) :
    W27 h0 h1 h2 h3 m ρ c (Proc.devRef .tc b) = W26 h0 h1 h2 m ρ c (Proc.devRef .tc b) := by
  unfold W27; exact Pipeline.withArrays_of_ne spec3 c _ _ b hb
abbrev V27 : Val F := fun c b => W27 h0 h1 h2 h3 m ρ c b
theorem hF3 (c : Dev nD) (w : Fin cfg3.W) : (h3.dat (V26 h0 h1 h2 m ρ) c).arrAt w cfg3.N = V27 h0 h1 h2 h3 m ρ c (Pipeline.arrRef spec3 w) :=
  (W27_arr h0 h1 h2 h3 m ρ c w).symm
theorem hrest3 (c : Dev nD) : ∀ b, b ∉ Finset.univ.image (Pipeline.arrRef spec3) → V27 h0 h1 h2 h3 m ρ c b = V26 h0 h1 h2 m ρ c b :=
  fun b hb => W27_of_ne h0 h1 h2 h3 m ρ c b fun w e => hb (Finset.mem_image.mpr ⟨w, Finset.mem_univ _, e⟩)

def W28 (c : Dev nD) : Valuation τ sig (Elt F) :=
  Pipeline.withArrays spec4 c (W27 h0 h1 h2 h3 m ρ c) fun w => (h4.dat (V27 h0 h1 h2 h3 m ρ) c).arrAt w cfg4.N
theorem W28_arr (c : Dev nD) (w : Fin cfg4.W) :
    W28 h0 h1 h2 h3 h4 m ρ c (Proc.devRef .tc (Pipeline.arrRef spec4 w)) = (h4.dat (V27 h0 h1 h2 h3 m ρ) c).arrAt w cfg4.N := by
  unfold W28; exact Pipeline.withArrays_arr spec4 launch4.win.arr_inj c _ _ w
theorem W28_of_ne (c : Dev nD) (b : Ref sig .tc) (hb : ∀ w, Pipeline.arrRef spec4 w ≠ b) :
    W28 h0 h1 h2 h3 h4 m ρ c (Proc.devRef .tc b) = W27 h0 h1 h2 h3 m ρ c (Proc.devRef .tc b) := by
  unfold W28; exact Pipeline.withArrays_of_ne spec4 c _ _ b hb
abbrev V28 : Val F := fun c b => W28 h0 h1 h2 h3 h4 m ρ c b
theorem hF4 (c : Dev nD) (w : Fin cfg4.W) : (h4.dat (V27 h0 h1 h2 h3 m ρ) c).arrAt w cfg4.N = V28 h0 h1 h2 h3 h4 m ρ c (Pipeline.arrRef spec4 w) :=
  (W28_arr h0 h1 h2 h3 h4 m ρ c w).symm
theorem hrest4 (c : Dev nD) : ∀ b, b ∉ Finset.univ.image (Pipeline.arrRef spec4) → V28 h0 h1 h2 h3 h4 m ρ c b = V27 h0 h1 h2 h3 m ρ c b :=
  fun b hb => W28_of_ne h0 h1 h2 h3 h4 m ρ c b fun w e => hb (Finset.mem_image.mpr ⟨w, Finset.mem_univ _, e⟩)

abbrev W29 : Dev nD → Valuation τ sig (Elt F) := fun c => StableHlo.after hostOps5 (W28 h0 h1 h2 h3 h4 m ρ c)
/-- Region 5's entry. -/
abbrev V29 : Val F := fun c b => W29 h0 h1 h2 h3 h4 m ρ c b
def W30 (c : Dev nD) : Valuation τ sig (Elt F) :=
  Pipeline.withArrays spec5 c (W29 h0 h1 h2 h3 h4 m ρ c) fun w => (h5.dat (V29 h0 h1 h2 h3 h4 m ρ) c).arrAt w cfg5.N
theorem W30_arr (c : Dev nD) (w : Fin cfg5.W) :
    W30 h0 h1 h2 h3 h4 h5 m ρ c (Proc.devRef .tc (Pipeline.arrRef spec5 w)) = (h5.dat (V29 h0 h1 h2 h3 h4 m ρ) c).arrAt w cfg5.N := by
  unfold W30; exact Pipeline.withArrays_arr spec5 launch5.win.arr_inj c _ _ w
theorem W30_of_ne (c : Dev nD) (b : Ref sig .tc) (hb : ∀ w, Pipeline.arrRef spec5 w ≠ b) :
    W30 h0 h1 h2 h3 h4 h5 m ρ c (Proc.devRef .tc b) = W29 h0 h1 h2 h3 h4 m ρ c (Proc.devRef .tc b) := by
  unfold W30; exact Pipeline.withArrays_of_ne spec5 c _ _ b hb
abbrev V30 : Val F := fun c b => W30 h0 h1 h2 h3 h4 h5 m ρ c b
theorem hF5 (c : Dev nD) (w : Fin cfg5.W) : (h5.dat (V29 h0 h1 h2 h3 h4 m ρ) c).arrAt w cfg5.N = V30 h0 h1 h2 h3 h4 h5 m ρ c (Pipeline.arrRef spec5 w) :=
  (W30_arr h0 h1 h2 h3 h4 h5 m ρ c w).symm
theorem hrest5 (c : Dev nD) : ∀ b, b ∉ Finset.univ.image (Pipeline.arrRef spec5) → V30 h0 h1 h2 h3 h4 h5 m ρ c b = V29 h0 h1 h2 h3 h4 m ρ c b :=
  fun b hb => W30_of_ne h0 h1 h2 h3 h4 h5 m ρ c b fun w e => hb (Finset.mem_image.mpr ⟨w, Finset.mem_univ _, e⟩)
/-- The contents at the return. -/
abbrev W31 : Dev nD → Valuation τ sig (Elt F) := fun c => StableHlo.after hostOps6 (W30 h0 h1 h2 h3 h4 h5 m ρ c)

/-! ## The proof data family and the thread state -/

abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => h0.dat (V21 m ρ) c
  | ⟨1, _⟩ => fun c => h1.dat (V23 h0 m ρ) c
  | ⟨2, _⟩ => fun c => h2.dat (V24 h0 h1 m ρ) c
  | ⟨3, _⟩ => fun c => h3.dat (V26 h0 h1 h2 m ρ) c
  | ⟨4, _⟩ => fun c => h4.dat (V27 h0 h1 h2 h3 m ρ) c
  | ⟨5, _⟩ => fun c => h5.dat (V29 h0 h1 h2 h3 h4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)

/-- A host stretch as a segment: its operations over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0 over the thread state: entered from every unscoped buffer at `W21`, left at `W22`. Its arrays are split out of
    the unscoped buffers and put back at the exit contents; the generator register and the scoped rest go into the invariant and
    come out of it; nothing is owed; the kernel has no semaphore of its own. -/
def reg0 : Pipeline.RegionSeg (pcfgs (F := F)) adm (pdats h0 h1 h2 h3 h4 h5 m ρ) () defs₀ 𝒱₀ L lv 0 where
  win := launch0.win.to₀
  block_pos := launch0.block_pos
  stage_whole := launch0.stage_whole
  K := PEmpty
  osem k := k.elim
  ho := Pipeline.OwnSemFacts.none _
  hbody c := (h0.hbody (V21 m ρ) c).loose
  hwaits := Pipeline.hwaits_of_owed_zero _ _ _ _ L lv 0 fun c t => h0.howed (V21 m ρ) c t
  pre c := iprop(StableHlo.held (c : Thread nD τ) (Pipeline.ucRefs τ sig) (W21 m ρ c) ∗ R c)
  post c := iprop(StableHlo.held (c : Thread nD τ) (Pipeline.ucRefs τ sig) (W22 h0 m ρ c) ∗ R c)
  X c := iprop(∃ r, prngReg c r)
  Y c := iprop(∃ r, prngReg c r)
  Z c := Pipeline.unscopedRest (Ix := Unit) (Name := ℕ) (U := UR sig nD τ) (Lvl := ℕ) spec0 c (V21 m ρ c)
  hentry c := by
    rw [Pipeline.ownSems0_none]
    have hsplit := Pipeline.arrays_of_unscopedBufs (p := 0) (pcfgs (F := F)) adm (pdats h0 h1 h2 h3 h4 h5 m ρ) launch0.win launch0.arr_whole c
      ((pdats h0 h1 h2 h3 h4 h5 m ρ 0 c).share_full fun w => h0.hq (V21 m ρ) c w) (V21 m ρ c) fun w => h0.hA (V21 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats h0 h1 h2 h3 h4 h5 m ρ 0 c).owed 0 = (h0.dat (V21 m ρ) c).owed 0 from rfl, h0.howed,
        show (pdats h0 h1 h2 h3 h4 h5 m ρ 0 c).bound () 0 = (h0.dat (V21 m ρ) c).bound () 0 from rfl]
      icases HO with ⟨%W, HO⟩; iexists W; isplitr
      · ipureintro; exact fun _ _ => Or.inl (by rw [h0.hrec]; trivial)
      iexact HO
    isplitl [Hp]; · iexact Hp
    iexact Hrest
  hin c := by
    have hh := h0.hin (V21 m ρ) c
    rw [show (pdats h0 h1 h2 h3 h4 h5 m ρ 0 c).Φ 0 = (h0.dat (V21 m ρ) c).Φ 0 from rfl]
    iintro ⟨Hp, -, Hr⟩
    iapply hh
    isplitl [Hp]; · iexact Hp
    iexact Hr
  hout c := by
    rw [Pipeline.ownSems0_none]
    have hh := h0.hout (V21 m ρ) c
    rw [show (pdats h0 h1 h2 h3 h4 h5 m ρ 0 c).Φ (Fin.last _) = (h0.dat (V21 m ρ) c).Φ (Fin.last cfg0.N) from rfl]
    iintro H
    ihave H' := hh $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats h0 h1 h2 h3 h4 h5 m ρ) ((pdats h0 h1 h2 h3 h4 h5 m ρ 0 c).share_full fun w => h0.hq (V21 m ρ) c w)
      (V21 m ρ c) (V22 h0 m ρ c) ((pdats h0 h1 h2 h3 h4 h5 m ρ 0 c).arrAt · cfg0.N) (hF0 h0 m ρ c) (hrest0 h0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats h0 h1 h2 h3 h4 h5 m ρ 0 c).owed (Fin.last _) = (h0.dat (V21 m ρ) c).owed (Fin.last cfg0.N) from rfl, h0.howed]
    icases HO with ⟨%W, -, HO⟩; iexists W; iexact HO

set_option backward.isDefEq.respectTransparency.types false in
/-- REGION 1 over the thread state: entered from every unscoped buffer at `W23`, left at `W24`. Its arrays are split out of
    the unscoped buffers and put back at the exit contents; the generator register and the scoped rest go into the invariant and
    come out of it; nothing is owed; the kernel has no semaphore of its own. -/
def reg1 : Pipeline.RegionSeg (pcfgs (F := F)) adm (pdats h0 h1 h2 h3 h4 h5 m ρ) () defs₀ 𝒱₀ L lv 1 where
  win := launch1.win.to₀
  block_pos := launch1.block_pos
  stage_whole := launch1.stage_whole
  K := PEmpty
  osem k := k.elim
  ho := Pipeline.OwnSemFacts.none _
  hbody c := (h1.hbody (V23 h0 m ρ) c).loose
  hwaits := Pipeline.hwaits_of_owed_zero _ _ _ _ L lv 1 fun c t => h1.howed (V23 h0 m ρ) c t
  pre c := iprop(StableHlo.held (c : Thread nD τ) (Pipeline.ucRefs τ sig) (W23 h0 m ρ c) ∗ R c)
  post c := iprop(StableHlo.held (c : Thread nD τ) (Pipeline.ucRefs τ sig) (W24 h0 h1 m ρ c) ∗ R c)
  X c := iprop(∃ r, prngReg c r)
  Y c := iprop(∃ r, prngReg c r)
  Z c := Pipeline.unscopedRest (Ix := Unit) (Name := ℕ) (U := UR sig nD τ) (Lvl := ℕ) spec1 c (V23 h0 m ρ c)
  hentry c := by
    rw [Pipeline.ownSems0_none]
    have hsplit := Pipeline.arrays_of_unscopedBufs (p := 1) (pcfgs (F := F)) adm (pdats h0 h1 h2 h3 h4 h5 m ρ) launch1.win launch1.arr_whole c
      ((pdats h0 h1 h2 h3 h4 h5 m ρ 1 c).share_full fun w => h1.hq (V23 h0 m ρ) c w) (V23 h0 m ρ c) fun w => h1.hA (V23 h0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats h0 h1 h2 h3 h4 h5 m ρ 1 c).owed 0 = (h1.dat (V23 h0 m ρ) c).owed 0 from rfl, h1.howed,
        show (pdats h0 h1 h2 h3 h4 h5 m ρ 1 c).bound () 0 = (h1.dat (V23 h0 m ρ) c).bound () 0 from rfl]
      icases HO with ⟨%W, HO⟩; iexists W; isplitr
      · ipureintro; exact fun _ _ => Or.inl (by rw [h1.hrec]; trivial)
      iexact HO
    isplitl [Hp]; · iexact Hp
    iexact Hrest
  hin c := by
    have hh := h1.hin (V23 h0 m ρ) c
    rw [show (pdats h0 h1 h2 h3 h4 h5 m ρ 1 c).Φ 0 = (h1.dat (V23 h0 m ρ) c).Φ 0 from rfl]
    iintro ⟨Hp, -, Hr⟩
    iapply hh
    isplitl [Hp]; · iexact Hp
    iexact Hr
  hout c := by
    rw [Pipeline.ownSems0_none]
    have hh := h1.hout (V23 h0 m ρ) c
    rw [show (pdats h0 h1 h2 h3 h4 h5 m ρ 1 c).Φ (Fin.last _) = (h1.dat (V23 h0 m ρ) c).Φ (Fin.last cfg1.N) from rfl]
    iintro H
    ihave H' := hh $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats h0 h1 h2 h3 h4 h5 m ρ) ((pdats h0 h1 h2 h3 h4 h5 m ρ 1 c).share_full fun w => h1.hq (V23 h0 m ρ) c w)
      (V23 h0 m ρ c) (V24 h0 h1 m ρ c) ((pdats h0 h1 h2 h3 h4 h5 m ρ 1 c).arrAt · cfg1.N) (hF1 h0 h1 m ρ c) (hrest1 h0 h1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats h0 h1 h2 h3 h4 h5 m ρ 1 c).owed (Fin.last _) = (h1.dat (V23 h0 m ρ) c).owed (Fin.last cfg1.N) from rfl, h1.howed]
    icases HO with ⟨%W, -, HO⟩; iexists W; iexact HO

set_option backward.isDefEq.respectTransparency.types false in
/-- REGION 2 over the thread state: entered from every unscoped buffer at `W24`, left at `W25`. Its arrays are split out of
    the unscoped buffers and put back at the exit contents; the generator register and the scoped rest go into the invariant and
    come out of it; nothing is owed; the kernel has no semaphore of its own. -/
def reg2 : Pipeline.RegionSeg (pcfgs (F := F)) adm (pdats h0 h1 h2 h3 h4 h5 m ρ) () defs₀ 𝒱₀ L lv 2 where
  win := launch2.win.to₀
  block_pos := launch2.block_pos
  stage_whole := launch2.stage_whole
  K := PEmpty
  osem k := k.elim
  ho := Pipeline.OwnSemFacts.none _
  hbody c := (h2.hbody (V24 h0 h1 m ρ) c).loose
  hwaits := Pipeline.hwaits_of_owed_zero _ _ _ _ L lv 2 fun c t => h2.howed (V24 h0 h1 m ρ) c t
  pre c := iprop(StableHlo.held (c : Thread nD τ) (Pipeline.ucRefs τ sig) (W24 h0 h1 m ρ c) ∗ R c)
  post c := iprop(StableHlo.held (c : Thread nD τ) (Pipeline.ucRefs τ sig) (W25 h0 h1 h2 m ρ c) ∗ R c)
  X c := iprop(∃ r, prngReg c r)
  Y c := iprop(∃ r, prngReg c r)
  Z c := Pipeline.unscopedRest (Ix := Unit) (Name := ℕ) (U := UR sig nD τ) (Lvl := ℕ) spec2 c (V24 h0 h1 m ρ c)
  hentry c := by
    rw [Pipeline.ownSems0_none]
    have hsplit := Pipeline.arrays_of_unscopedBufs (p := 2) (pcfgs (F := F)) adm (pdats h0 h1 h2 h3 h4 h5 m ρ) launch2.win launch2.arr_whole c
      ((pdats h0 h1 h2 h3 h4 h5 m ρ 2 c).share_full fun w => h2.hq (V24 h0 h1 m ρ) c w) (V24 h0 h1 m ρ c) fun w => h2.hA (V24 h0 h1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats h0 h1 h2 h3 h4 h5 m ρ 2 c).owed 0 = (h2.dat (V24 h0 h1 m ρ) c).owed 0 from rfl, h2.howed,
        show (pdats h0 h1 h2 h3 h4 h5 m ρ 2 c).bound () 0 = (h2.dat (V24 h0 h1 m ρ) c).bound () 0 from rfl]
      icases HO with ⟨%W, HO⟩; iexists W; isplitr
      · ipureintro; exact fun _ _ => Or.inl (by rw [h2.hrec]; trivial)
      iexact HO
    isplitl [Hp]; · iexact Hp
    iexact Hrest
  hin c := by
    have hh := h2.hin (V24 h0 h1 m ρ) c
    rw [show (pdats h0 h1 h2 h3 h4 h5 m ρ 2 c).Φ 0 = (h2.dat (V24 h0 h1 m ρ) c).Φ 0 from rfl]
    iintro ⟨Hp, -, Hr⟩
    iapply hh
    isplitl [Hp]; · iexact Hp
    iexact Hr
  hout c := by
    rw [Pipeline.ownSems0_none]
    have hh := h2.hout (V24 h0 h1 m ρ) c
    rw [show (pdats h0 h1 h2 h3 h4 h5 m ρ 2 c).Φ (Fin.last _) = (h2.dat (V24 h0 h1 m ρ) c).Φ (Fin.last cfg2.N) from rfl]
    iintro H
    ihave H' := hh $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats h0 h1 h2 h3 h4 h5 m ρ) ((pdats h0 h1 h2 h3 h4 h5 m ρ 2 c).share_full fun w => h2.hq (V24 h0 h1 m ρ) c w)
      (V24 h0 h1 m ρ c) (V25 h0 h1 h2 m ρ c) ((pdats h0 h1 h2 h3 h4 h5 m ρ 2 c).arrAt · cfg2.N) (hF2 h0 h1 h2 m ρ c) (hrest2 h0 h1 h2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats h0 h1 h2 h3 h4 h5 m ρ 2 c).owed (Fin.last _) = (h2.dat (V24 h0 h1 m ρ) c).owed (Fin.last cfg2.N) from rfl, h2.howed]
    icases HO with ⟨%W, -, HO⟩; iexists W; iexact HO

set_option backward.isDefEq.respectTransparency.types false in
/-- REGION 3 over the thread state: entered from every unscoped buffer at `W26`, left at `W27`. Its arrays are split out of
    the unscoped buffers and put back at the exit contents; the generator register and the scoped rest go into the invariant and
    come out of it; nothing is owed; the kernel has no semaphore of its own. -/
def reg3 : Pipeline.RegionSeg (pcfgs (F := F)) adm (pdats h0 h1 h2 h3 h4 h5 m ρ) () defs₀ 𝒱₀ L lv 3 where
  win := launch3.win.to₀
  block_pos := launch3.block_pos
  stage_whole := launch3.stage_whole
  K := PEmpty
  osem k := k.elim
  ho := Pipeline.OwnSemFacts.none _
  hbody c := (h3.hbody (V26 h0 h1 h2 m ρ) c).loose
  hwaits := Pipeline.hwaits_of_owed_zero _ _ _ _ L lv 3 fun c t => h3.howed (V26 h0 h1 h2 m ρ) c t
  pre c := iprop(StableHlo.held (c : Thread nD τ) (Pipeline.ucRefs τ sig) (W26 h0 h1 h2 m ρ c) ∗ R c)
  post c := iprop(StableHlo.held (c : Thread nD τ) (Pipeline.ucRefs τ sig) (W27 h0 h1 h2 h3 m ρ c) ∗ R c)
  X c := iprop(∃ r, prngReg c r)
  Y c := iprop(∃ r, prngReg c r)
  Z c := Pipeline.unscopedRest (Ix := Unit) (Name := ℕ) (U := UR sig nD τ) (Lvl := ℕ) spec3 c (V26 h0 h1 h2 m ρ c)
  hentry c := by
    rw [Pipeline.ownSems0_none]
    have hsplit := Pipeline.arrays_of_unscopedBufs (p := 3) (pcfgs (F := F)) adm (pdats h0 h1 h2 h3 h4 h5 m ρ) launch3.win launch3.arr_whole c
      ((pdats h0 h1 h2 h3 h4 h5 m ρ 3 c).share_full fun w => h3.hq (V26 h0 h1 h2 m ρ) c w) (V26 h0 h1 h2 m ρ c) fun w => h3.hA (V26 h0 h1 h2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats h0 h1 h2 h3 h4 h5 m ρ 3 c).owed 0 = (h3.dat (V26 h0 h1 h2 m ρ) c).owed 0 from rfl, h3.howed,
        show (pdats h0 h1 h2 h3 h4 h5 m ρ 3 c).bound () 0 = (h3.dat (V26 h0 h1 h2 m ρ) c).bound () 0 from rfl]
      icases HO with ⟨%W, HO⟩; iexists W; isplitr
      · ipureintro; exact fun _ _ => Or.inl (by rw [h3.hrec]; trivial)
      iexact HO
    isplitl [Hp]; · iexact Hp
    iexact Hrest
  hin c := by
    have hh := h3.hin (V26 h0 h1 h2 m ρ) c
    rw [show (pdats h0 h1 h2 h3 h4 h5 m ρ 3 c).Φ 0 = (h3.dat (V26 h0 h1 h2 m ρ) c).Φ 0 from rfl]
    iintro ⟨Hp, -, Hr⟩
    iapply hh
    isplitl [Hp]; · iexact Hp
    iexact Hr
  hout c := by
    rw [Pipeline.ownSems0_none]
    have hh := h3.hout (V26 h0 h1 h2 m ρ) c
    rw [show (pdats h0 h1 h2 h3 h4 h5 m ρ 3 c).Φ (Fin.last _) = (h3.dat (V26 h0 h1 h2 m ρ) c).Φ (Fin.last cfg3.N) from rfl]
    iintro H
    ihave H' := hh $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats h0 h1 h2 h3 h4 h5 m ρ) ((pdats h0 h1 h2 h3 h4 h5 m ρ 3 c).share_full fun w => h3.hq (V26 h0 h1 h2 m ρ) c w)
      (V26 h0 h1 h2 m ρ c) (V27 h0 h1 h2 h3 m ρ c) ((pdats h0 h1 h2 h3 h4 h5 m ρ 3 c).arrAt · cfg3.N) (hF3 h0 h1 h2 h3 m ρ c) (hrest3 h0 h1 h2 h3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats h0 h1 h2 h3 h4 h5 m ρ 3 c).owed (Fin.last _) = (h3.dat (V26 h0 h1 h2 m ρ) c).owed (Fin.last cfg3.N) from rfl, h3.howed]
    icases HO with ⟨%W, -, HO⟩; iexists W; iexact HO

set_option backward.isDefEq.respectTransparency.types false in
/-- REGION 4 over the thread state: entered from every unscoped buffer at `W27`, left at `W28`. Its arrays are split out of
    the unscoped buffers and put back at the exit contents; the generator register and the scoped rest go into the invariant and
    come out of it; nothing is owed; the kernel has no semaphore of its own. -/
def reg4 : Pipeline.RegionSeg (pcfgs (F := F)) adm (pdats h0 h1 h2 h3 h4 h5 m ρ) () defs₀ 𝒱₀ L lv 4 where
  win := launch4.win.to₀
  block_pos := launch4.block_pos
  stage_whole := launch4.stage_whole
  K := PEmpty
  osem k := k.elim
  ho := Pipeline.OwnSemFacts.none _
  hbody c := (h4.hbody (V27 h0 h1 h2 h3 m ρ) c).loose
  hwaits := Pipeline.hwaits_of_owed_zero _ _ _ _ L lv 4 fun c t => h4.howed (V27 h0 h1 h2 h3 m ρ) c t
  pre c := iprop(StableHlo.held (c : Thread nD τ) (Pipeline.ucRefs τ sig) (W27 h0 h1 h2 h3 m ρ c) ∗ R c)
  post c := iprop(StableHlo.held (c : Thread nD τ) (Pipeline.ucRefs τ sig) (W28 h0 h1 h2 h3 h4 m ρ c) ∗ R c)
  X c := iprop(∃ r, prngReg c r)
  Y c := iprop(∃ r, prngReg c r)
  Z c := Pipeline.unscopedRest (Ix := Unit) (Name := ℕ) (U := UR sig nD τ) (Lvl := ℕ) spec4 c (V27 h0 h1 h2 h3 m ρ c)
  hentry c := by
    rw [Pipeline.ownSems0_none]
    have hsplit := Pipeline.arrays_of_unscopedBufs (p := 4) (pcfgs (F := F)) adm (pdats h0 h1 h2 h3 h4 h5 m ρ) launch4.win launch4.arr_whole c
      ((pdats h0 h1 h2 h3 h4 h5 m ρ 4 c).share_full fun w => h4.hq (V27 h0 h1 h2 h3 m ρ) c w) (V27 h0 h1 h2 h3 m ρ c) fun w => h4.hA (V27 h0 h1 h2 h3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats h0 h1 h2 h3 h4 h5 m ρ 4 c).owed 0 = (h4.dat (V27 h0 h1 h2 h3 m ρ) c).owed 0 from rfl, h4.howed,
        show (pdats h0 h1 h2 h3 h4 h5 m ρ 4 c).bound () 0 = (h4.dat (V27 h0 h1 h2 h3 m ρ) c).bound () 0 from rfl]
      icases HO with ⟨%W, HO⟩; iexists W; isplitr
      · ipureintro; exact fun _ _ => Or.inl (by rw [h4.hrec]; trivial)
      iexact HO
    isplitl [Hp]; · iexact Hp
    iexact Hrest
  hin c := by
    have hh := h4.hin (V27 h0 h1 h2 h3 m ρ) c
    rw [show (pdats h0 h1 h2 h3 h4 h5 m ρ 4 c).Φ 0 = (h4.dat (V27 h0 h1 h2 h3 m ρ) c).Φ 0 from rfl]
    iintro ⟨Hp, -, Hr⟩
    iapply hh
    isplitl [Hp]; · iexact Hp
    iexact Hr
  hout c := by
    rw [Pipeline.ownSems0_none]
    have hh := h4.hout (V27 h0 h1 h2 h3 m ρ) c
    rw [show (pdats h0 h1 h2 h3 h4 h5 m ρ 4 c).Φ (Fin.last _) = (h4.dat (V27 h0 h1 h2 h3 m ρ) c).Φ (Fin.last cfg4.N) from rfl]
    iintro H
    ihave H' := hh $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats h0 h1 h2 h3 h4 h5 m ρ) ((pdats h0 h1 h2 h3 h4 h5 m ρ 4 c).share_full fun w => h4.hq (V27 h0 h1 h2 h3 m ρ) c w)
      (V27 h0 h1 h2 h3 m ρ c) (V28 h0 h1 h2 h3 h4 m ρ c) ((pdats h0 h1 h2 h3 h4 h5 m ρ 4 c).arrAt · cfg4.N) (hF4 h0 h1 h2 h3 h4 m ρ c) (hrest4 h0 h1 h2 h3 h4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats h0 h1 h2 h3 h4 h5 m ρ 4 c).owed (Fin.last _) = (h4.dat (V27 h0 h1 h2 h3 m ρ) c).owed (Fin.last cfg4.N) from rfl, h4.howed]
    icases HO with ⟨%W, -, HO⟩; iexists W; iexact HO

set_option backward.isDefEq.respectTransparency.types false in
/-- REGION 5 over the thread state: entered from every unscoped buffer at `W29`, left at `W30`. Its arrays are split out of
    the unscoped buffers and put back at the exit contents; the generator register and the scoped rest go into the invariant and
    come out of it; nothing is owed; the kernel has no semaphore of its own. -/
def reg5 : Pipeline.RegionSeg (pcfgs (F := F)) adm (pdats h0 h1 h2 h3 h4 h5 m ρ) () defs₀ 𝒱₀ L lv 5 where
  win := launch5.win.to₀
  block_pos := launch5.block_pos
  stage_whole := launch5.stage_whole
  K := PEmpty
  osem k := k.elim
  ho := Pipeline.OwnSemFacts.none _
  hbody c := (h5.hbody (V29 h0 h1 h2 h3 h4 m ρ) c).loose
  hwaits := Pipeline.hwaits_of_owed_zero _ _ _ _ L lv 5 fun c t => h5.howed (V29 h0 h1 h2 h3 h4 m ρ) c t
  pre c := iprop(StableHlo.held (c : Thread nD τ) (Pipeline.ucRefs τ sig) (W29 h0 h1 h2 h3 h4 m ρ c) ∗ R c)
  post c := iprop(StableHlo.held (c : Thread nD τ) (Pipeline.ucRefs τ sig) (W30 h0 h1 h2 h3 h4 h5 m ρ c) ∗ R c)
  X c := iprop(∃ r, prngReg c r)
  Y c := iprop(∃ r, prngReg c r)
  Z c := Pipeline.unscopedRest (Ix := Unit) (Name := ℕ) (U := UR sig nD τ) (Lvl := ℕ) spec5 c (V29 h0 h1 h2 h3 h4 m ρ c)
  hentry c := by
    rw [Pipeline.ownSems0_none]
    have hsplit := Pipeline.arrays_of_unscopedBufs (p := 5) (pcfgs (F := F)) adm (pdats h0 h1 h2 h3 h4 h5 m ρ) launch5.win launch5.arr_whole c
      ((pdats h0 h1 h2 h3 h4 h5 m ρ 5 c).share_full fun w => h5.hq (V29 h0 h1 h2 h3 h4 m ρ) c w) (V29 h0 h1 h2 h3 h4 m ρ c) fun w => h5.hA (V29 h0 h1 h2 h3 h4 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats h0 h1 h2 h3 h4 h5 m ρ 5 c).owed 0 = (h5.dat (V29 h0 h1 h2 h3 h4 m ρ) c).owed 0 from rfl, h5.howed,
        show (pdats h0 h1 h2 h3 h4 h5 m ρ 5 c).bound () 0 = (h5.dat (V29 h0 h1 h2 h3 h4 m ρ) c).bound () 0 from rfl]
      icases HO with ⟨%W, HO⟩; iexists W; isplitr
      · ipureintro; exact fun _ _ => Or.inl (by rw [h5.hrec]; trivial)
      iexact HO
    isplitl [Hp]; · iexact Hp
    iexact Hrest
  hin c := by
    have hh := h5.hin (V29 h0 h1 h2 h3 h4 m ρ) c
    rw [show (pdats h0 h1 h2 h3 h4 h5 m ρ 5 c).Φ 0 = (h5.dat (V29 h0 h1 h2 h3 h4 m ρ) c).Φ 0 from rfl]
    iintro ⟨Hp, -, Hr⟩
    iapply hh
    isplitl [Hp]; · iexact Hp
    iexact Hr
  hout c := by
    rw [Pipeline.ownSems0_none]
    have hh := h5.hout (V29 h0 h1 h2 h3 h4 m ρ) c
    rw [show (pdats h0 h1 h2 h3 h4 h5 m ρ 5 c).Φ (Fin.last _) = (h5.dat (V29 h0 h1 h2 h3 h4 m ρ) c).Φ (Fin.last cfg5.N) from rfl]
    iintro H
    ihave H' := hh $$ H
    icases H' with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats h0 h1 h2 h3 h4 h5 m ρ) ((pdats h0 h1 h2 h3 h4 h5 m ρ 5 c).share_full fun w => h5.hq (V29 h0 h1 h2 h3 h4 m ρ) c w)
      (V29 h0 h1 h2 h3 h4 m ρ c) (V30 h0 h1 h2 h3 h4 h5 m ρ c) ((pdats h0 h1 h2 h3 h4 h5 m ρ 5 c).arrAt · cfg5.N) (hF5 h0 h1 h2 h3 h4 h5 m ρ c) (hrest5 h0 h1 h2 h3 h4 h5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats h0 h1 h2 h3 h4 h5 m ρ 5 c).owed (Fin.last _) = (h5.dat (V29 h0 h1 h2 h3 h4 m ρ) c).owed (Fin.last cfg5.N) from rfl, h5.howed]
    icases HO with ⟨%W, -, HO⟩; iexists W; iexact HO

/-! ## @main as segments, and the launch -/

/-- @main's thirty-one segments in order. -/
abbrev segs : List (Pipeline.Seg (pcfgs (F := F)) adm (pdats h0 h1 h2 h3 h4 h5 m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .host (hseg hostOps0_12 hostOps0_12_sub hostOps0_12_fresh (W12 m ρ)),
    .host (hseg hostOps0_13 hostOps0_13_sub hostOps0_13_fresh (W13 m ρ)),
    .host (hseg hostOps0_14 hostOps0_14_sub hostOps0_14_fresh (W14 m ρ)),
    .host (hseg hostOps0_15 hostOps0_15_sub hostOps0_15_fresh (W15 m ρ)),
    .host (hseg hostOps0_16 hostOps0_16_sub hostOps0_16_fresh (W16 m ρ)),
    .host (hseg hostOps0_17 hostOps0_17_sub hostOps0_17_fresh (W17 m ρ)),
    .host (hseg hostOps0_18 hostOps0_18_sub hostOps0_18_fresh (W18 m ρ)),
    .host (hseg hostOps0_19 hostOps0_19_sub hostOps0_19_fresh (W19 m ρ)),
    .host (hseg hostOps0_20 hostOps0_20_sub hostOps0_20_fresh (W20 m ρ)),
    .region (reg0 h0 h1 h2 h3 h4 h5 m ρ),
    .host (hseg hostOps1 hostOps1_sub hostOps1_fresh (W22 h0 m ρ)),
    .region (reg1 h0 h1 h2 h3 h4 h5 m ρ),
    .region (reg2 h0 h1 h2 h3 h4 h5 m ρ),
    .host (hseg hostOps3 hostOps3_sub hostOps3_fresh (W25 h0 h1 h2 m ρ)),
    .region (reg3 h0 h1 h2 h3 h4 h5 m ρ),
    .region (reg4 h0 h1 h2 h3 h4 h5 m ρ),
    .host (hseg hostOps5 hostOps5_sub hostOps5_fresh (W28 h0 h1 h2 h3 h4 m ρ)),
    .region (reg5 h0 h1 h2 h3 h4 h5 m ρ),
    .host (hseg hostOps6 hostOps6_sub hostOps6_fresh (W30 h0 h1 h2 h3 h4 h5 m ρ)) ]

/-- @main is the run of the segments. -/
theorem main_run (c : Dev nD) : main (F := F) c = Pipeline.Seg.run (segs h0 h1 h2 h3 h4 h5 m ρ) := (main_chain c).trans (by chain_rfl)

/-- The last thread state without the `owes`: every unscoped buffer at the last boundary's contents, the generator register at some state. -/
abbrev Tₙ (c : Dev nD) : sProp 𝕄 := iprop(StableHlo.held (c : Thread nD τ) (Pipeline.ucRefs τ sig) (W31 h0 h1 h2 h3 h4 h5 m ρ c) ∗ ∃ r, prngReg c r)

set_option backward.isDefEq.respectTransparency.types false in
/-- THE RUN: from any memory with zero counters every weakly fair execution of @main terminates, nothing faulting, and every final
    state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W31 h0 h1 h2 h3 h4 h5 m ρ c b) :=
  Pipeline.θ_run_regions_kit (pcfgs (F := F)) adm (pdats h0 h1 h2 h3 h4 h5 m ρ) () cellOf_inj emb₁ defs₀ 𝒱₀ L lv m ρ main (segs h0 h1 h2 h3 h4 h5 m ρ)
    (fun c Q => by rw [main_run h0 h1 h2 h3 h4 h5 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ h0 h1 h2 h3 h4 h5 m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show (iprop(StableHlo.held (c : Thread nD τ) (Pipeline.ucRefs τ sig) (W31 h0 h1 h2 h3 h4 h5 m ρ c) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W31 h0 h1 h2 h3 h4 h5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W31 h0 h1 h2 h3 h4 h5 m ρ c) s')
      isplitl [Hh] <;> iassumption)
    (hQ := fun s h c => h c)

/-! ## What no segment writes reaches the return as launched -/

/-- A buffer that no host stretch writes and that is no region's window array holds at the return what it held at the launch. -/
theorem W31_keep (c : Dev nD) (b : Ref sig .tc)
    (k0 : b ∉ hostOps0_W) (k1 : b ∉ hostOps0_1_W) (k2 : b ∉ hostOps0_2_W) (k3 : b ∉ hostOps0_3_W) (k4 : b ∉ hostOps0_4_W)
    (k5 : b ∉ hostOps0_5_W) (k6 : b ∉ hostOps0_6_W) (k7 : b ∉ hostOps0_7_W) (k8 : b ∉ hostOps0_8_W) (k9 : b ∉ hostOps0_9_W)
    (k10 : b ∉ hostOps0_10_W) (k11 : b ∉ hostOps0_11_W) (k12 : b ∉ hostOps0_12_W) (k13 : b ∉ hostOps0_13_W) (k14 : b ∉ hostOps0_14_W)
    (k15 : b ∉ hostOps0_15_W) (k16 : b ∉ hostOps0_16_W) (k17 : b ∉ hostOps0_17_W) (k18 : b ∉ hostOps0_18_W) (k19 : b ∉ hostOps0_19_W)
    (k20 : b ∉ hostOps0_20_W) (j1 : b ∉ hostOps1_W) (j3 : b ∉ hostOps3_W) (j5 : b ∉ hostOps5_W) (j6 : b ∉ hostOps6_W)
    (a0 : ∀ w, Pipeline.arrRef spec0 w ≠ b) (a1 : ∀ w, Pipeline.arrRef spec1 w ≠ b) (a2 : ∀ w, Pipeline.arrRef spec2 w ≠ b)
    (a3 : ∀ w, Pipeline.arrRef spec3 w ≠ b) (a4 : ∀ w, Pipeline.arrRef spec4 w ≠ b) (a5 : ∀ w, Pipeline.arrRef spec5 w ≠ b) :
    W31 h0 h1 h2 h3 h4 h5 m ρ c (Proc.devRef .tc b) = m ((c : Thread nD τ).loc b) :=
  calc W31 h0 h1 h2 h3 h4 h5 m ρ c (Proc.devRef .tc b)
    _ = W30 h0 h1 h2 h3 h4 h5 m ρ c (Proc.devRef .tc b) := StableHlo.after_of_writes_sub hostOps6 _ hostOps6_writes j6
    _ = W29 h0 h1 h2 h3 h4 m ρ c (Proc.devRef .tc b) := W30_of_ne h0 h1 h2 h3 h4 h5 m ρ c b a5
    _ = W28 h0 h1 h2 h3 h4 m ρ c (Proc.devRef .tc b) := StableHlo.after_of_writes_sub hostOps5 _ hostOps5_writes j5
    _ = W27 h0 h1 h2 h3 m ρ c (Proc.devRef .tc b) := W28_of_ne h0 h1 h2 h3 h4 m ρ c b a4
    _ = W26 h0 h1 h2 m ρ c (Proc.devRef .tc b) := W27_of_ne h0 h1 h2 h3 m ρ c b a3
    _ = W25 h0 h1 h2 m ρ c (Proc.devRef .tc b) := StableHlo.after_of_writes_sub hostOps3 _ hostOps3_writes j3
    _ = W24 h0 h1 m ρ c (Proc.devRef .tc b) := W25_of_ne h0 h1 h2 m ρ c b a2
    _ = W23 h0 m ρ c (Proc.devRef .tc b) := W24_of_ne h0 h1 m ρ c b a1
    _ = W22 h0 m ρ c (Proc.devRef .tc b) := StableHlo.after_of_writes_sub hostOps1 _ hostOps1_writes j1
    _ = W21 m ρ c (Proc.devRef .tc b) := W22_of_ne h0 m ρ c b a0
    _ = W20 m ρ c (Proc.devRef .tc b) := StableHlo.after_of_writes_sub hostOps0_20 _ hostOps0_20_writes k20
    _ = W19 m ρ c (Proc.devRef .tc b) := StableHlo.after_of_writes_sub hostOps0_19 _ hostOps0_19_writes k19
    _ = W18 m ρ c (Proc.devRef .tc b) := StableHlo.after_of_writes_sub hostOps0_18 _ hostOps0_18_writes k18
    _ = W17 m ρ c (Proc.devRef .tc b) := StableHlo.after_of_writes_sub hostOps0_17 _ hostOps0_17_writes k17
    _ = W16 m ρ c (Proc.devRef .tc b) := StableHlo.after_of_writes_sub hostOps0_16 _ hostOps0_16_writes k16
    _ = W15 m ρ c (Proc.devRef .tc b) := StableHlo.after_of_writes_sub hostOps0_15 _ hostOps0_15_writes k15
    _ = W14 m ρ c (Proc.devRef .tc b) := StableHlo.after_of_writes_sub hostOps0_14 _ hostOps0_14_writes k14
    _ = W13 m ρ c (Proc.devRef .tc b) := StableHlo.after_of_writes_sub hostOps0_13 _ hostOps0_13_writes k13
    _ = W12 m ρ c (Proc.devRef .tc b) := StableHlo.after_of_writes_sub hostOps0_12 _ hostOps0_12_writes k12
    _ = W11 m ρ c (Proc.devRef .tc b) := StableHlo.after_of_writes_sub hostOps0_11 _ hostOps0_11_writes k11
    _ = W10 m ρ c (Proc.devRef .tc b) := StableHlo.after_of_writes_sub hostOps0_10 _ hostOps0_10_writes k10
    _ = W9 m ρ c (Proc.devRef .tc b) := StableHlo.after_of_writes_sub hostOps0_9 _ hostOps0_9_writes k9
    _ = W8 m ρ c (Proc.devRef .tc b) := StableHlo.after_of_writes_sub hostOps0_8 _ hostOps0_8_writes k8
    _ = W7 m ρ c (Proc.devRef .tc b) := StableHlo.after_of_writes_sub hostOps0_7 _ hostOps0_7_writes k7
    _ = W6 m ρ c (Proc.devRef .tc b) := StableHlo.after_of_writes_sub hostOps0_6 _ hostOps0_6_writes k6
    _ = W5 m ρ c (Proc.devRef .tc b) := StableHlo.after_of_writes_sub hostOps0_5 _ hostOps0_5_writes k5
    _ = W4 m ρ c (Proc.devRef .tc b) := StableHlo.after_of_writes_sub hostOps0_4 _ hostOps0_4_writes k4
    _ = W3 m ρ c (Proc.devRef .tc b) := StableHlo.after_of_writes_sub hostOps0_3 _ hostOps0_3_writes k3
    _ = W2 m ρ c (Proc.devRef .tc b) := StableHlo.after_of_writes_sub hostOps0_2 _ hostOps0_2_writes k2
    _ = W1 m ρ c (Proc.devRef .tc b) := StableHlo.after_of_writes_sub hostOps0_1 _ hostOps0_1_writes k1
    _ = W0 m ρ c (Proc.devRef .tc b) := StableHlo.after_of_writes_sub hostOps0 _ hostOps0_writes k0
    _ = m ((c : Thread nD τ).loc b) := rfl

end Cert.KernelIdeal.H
end
-- ==== Proof.R0.lean ====
import proofs.«174982_j50740743635387_2_alg».proof.Proof.Gen.KernelIdeal.Launch
import proofs.«174982_j50740743635387_2_alg».proof.Proof.Gen.KernelIdeal.Skeleton
import proofs.«174982_j50740743635387_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The activation-quantisation region 0

One grid point takes a block of rows `x` (window 0) and the gain row `g` (window 1, the whole array at every point)
and writes one block of the same rows (window 2): each row is normalised by the reciprocal root of its mean square
plus a small constant, multiplied by `g`, scaled so that its largest magnitude becomes 127, rounded to the nearest
integer, clamped to [-128, 127] and scaled back. Everything here is stated at a parameter `V`, the contents of the
buffers when the region is entered. -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' staging buffer holds the rows' block at every point, for any proof data whose array is `V`'s and
    whose body leaves the block in place: the window is an input, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The gain row's staging buffer holds the gain row at every point, fetched there or not: where it is not fetched
    its block index has not moved, so the block of the point before is the block of this one. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer as one rectangle, the whole of it -/

abbrev r0_0 : Rect S512x2048 := Rect.unit (s := S512x2048) ![0, 0] S512x2048.size inb_S512x2048_S512x2048_0_0
abbrev r0_1 : Rect S1x2048 := Rect.unit (s := S1x2048) ![0, 0] S1x2048.size inb_S1x2048_S1x2048_0_0

/-! ## What the body leaves in the output window's buffer -/

/-- The output buffer after the body, as a function of the two input blocks: the one store, over the whole buffer,
    of the quantised rows computed from the whole of both inputs. -/
def out0_2 (x0 : Vec F S512x2048 .f32) (x1 : Vec F S1x2048 .f32) : Vec F S512x2048 .bf16 :=
  View.canon [⟨r0_0, k0_pay1 (View.ld x0 r0_0) (View.ld x1 r0_1)⟩]

/-- The one store's rectangle is the whole buffer, so it covers every index. -/
theorem cover0_2 (p0 : Vec F S512x2048 .bf16) (y : S512x2048.Idx) :
    ∃ pc ∈ ([⟨r0_0, p0⟩] : List (View.Piece (Elt F) S512x2048 .bf16)), y ∈ pc.1.set :=
  View.cover_of_tiled [⟨r0_0, p0⟩] S512x2048.size (by rfl) y

/-! ## The body's triple -/

set_option maxHeartbeats 1000000 in
/-- The body on whole staging memrefs — the inputs' holding `x0` and `x1`, the output's holding anything — runs to a
    continuation that holds the inputs' as they were and the output's at `out0_2 x0 x1`. -/
theorem sound_kernel0 (c : Dev nD) (E : Set ℕ) (i : grid0.Coords) (arg1 : Memref sig .tc .vmem S512x2048 .f32) (harg1 : arg1.IsWhole) (arg2 : Memref sig .tc .vmem S1x2048 .f32) (harg2 : arg2.IsWhole) (arg3 : Memref sig .tc .vmem S512x2048 .bf16) (harg3 : arg3.IsWhole)
    (x0 : Vec F S512x2048 .f32) (x1 : Vec F S1x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__act_quant_kernel i arg1 harg1 arg2 harg2 arg3 harg3) K := by
  simp only [cc0__act_quant_kernel_eq_skeleton]; unfold cc0__act_quant_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them; after the body at point `t`
    each input's buffer at its block and the output's at `out0_2` of the two input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.H

end
-- ==== Proof.R1.lean ====
/-
  Region 1 of the program, the key product, at any float instance. A grid point takes a block of 2048 rows of the
  activations and a block of 512 rows of the weights and writes the 2048 × 512 block of the squared positive part of
  their products. Here: each window's block at a point; what the body leaves in the output block as a function of the
  two input blocks (its accumulator is rebuilt from zero at every point, so the region's invariant does not name what
  it holds); the body's triple; the proof data; the body obligation at every point; and that the invariant is what
  the launch hands the region and what the region hands back.
-/
import proofs.«174982_j50740743635387_2_alg».proof.Proof.Gen.KernelIdeal.Launch
import proofs.«174982_j50740743635387_2_alg».proof.Proof.Gen.KernelIdeal.Skeleton
import proofs.«174982_j50740743635387_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 1: the key matmul, `cc1__matmul_key_kernel`, at the entry contents `V`

Grid 4 × 16 × 1. At a point the body zeroes its accumulator (grid coordinate 2 is 0), adds to it the product of
the point's block of the activations with the transpose of the point's block of the weights, reads it back
(grid coordinate 2 is the last, 0), takes the positive part, squares it and stores the result into the output
block. The third grid axis has one point, so both conditions hold everywhere and the accumulator is rebuilt
from zero at every point: what it held before the body does not matter, and the region invariant need not name
its contents. -/

/-! ## The two conditions, decided over the grid -/

/-- The first conditional's condition (grid coordinate 2 is zero), as the body computes it. -/
abbrev cond1_0 (i : grid1.Coords) : Prop := (Scalar.cmpi .ne (Scalar.extui (Scalar.cmpi .eq (BitVec.ofNat 32 (i 2).val) 0#32)) 0#32) = 1#1
/-- It holds at every point: axis 2 has one point. -/
theorem hcond1_0 : ∀ t : Fin cfg1.N, cond1_0 (grid1.coords t) :=
  (by decide +kernel : ∀ t : Fin grid1.N, cond1_0 (grid1.coords t))
/-- The second conditional's condition (grid coordinate 2 is the last). -/
abbrev cond1_1 (i : grid1.Coords) : Prop := k1_cond2 i = 1#1
/-- It holds at every point. -/
theorem hcond1_1 : ∀ t : Fin cfg1.N, cond1_1 (grid1.coords t) :=
  (by decide +kernel : ∀ t : Fin grid1.N, cond1_1 (grid1.coords t))
/-- So the output window is idle at no point. -/
theorem liveAt1_2 : ∀ t : Fin cfg1.N, cfg1.idle 2 (grid1.coords t) = false := by decide +kernel

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_0 : Rect S2048x2048 := Rect.unit (s := S2048x2048) ![0, 0] S2048x2048.size inb_S2048x2048_S2048x2048_0_0
abbrev r1_1 : Rect S512x2048 := Rect.unit (s := S512x2048) ![0, 0] S512x2048.size inb_S512x2048_S512x2048_0_0
abbrev r1_2 : Rect S2048x512 := Rect.unit (s := S2048x512) ![0, 0] S2048x512.size inb_S2048x512_S2048x512_0_0

theorem hz1 : (![0, 0] : Fin 2 → Nat) = fun _ => 0 := funext fun a => by fin_cases a <;> rfl

/-! ## What the body leaves -/

/-- The accumulator after the body's second store, from the two input blocks: zero plus the product. -/
def acc1 (x0 : Vec F S2048x2048 .bf16) (x1 : Vec F S512x2048 .bf16) : Vec F S2048x512 .f32 :=
  k1_pay2 (k1_pay1 (F := F)) (View.ld x0 r1_0) (View.ld x1 r1_1)

/-- The output window's staging buffer after the body, from the two input blocks: its one store, the positive part
    of the accumulator squared. -/
def out1_2 (x0 : Vec F S2048x2048 .bf16) (x1 : Vec F S512x2048 .bf16) : Vec F S2048x512 .f32 :=
  View.canon [⟨r1_2, k1_pay3 (acc1 x0 x1)⟩]

/-- The store covers the buffer. -/
theorem cover1_2 (p0 : Vec F S2048x512 .f32) (y : S2048x512.Idx) :
    ∃ pc ∈ ([⟨r1_2, p0⟩] : List (View.Piece (Elt F) S2048x512 .f32)), y ∈ pc.1.set :=
  ⟨_, List.mem_singleton_self _, View.mem_set_unit_zero hz1 inb_S2048x512_S2048x512_0_0 y⟩

/-- A load of the whole buffer after a list of stores whose last is of the whole buffer reads that store's payload,
    whatever the earlier ones were. -/
theorem readCov_cons_unit_zero1 {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-! ## The body's triple -/

set_option maxHeartbeats 1000000 in
/-- The body on whole memrefs — the two inputs' at read contents, the output's and the accumulator's at anything —
    runs to the continuation holding the inputs' as they were, the output's at `out1_2` of the inputs' and the
    accumulator's at some contents. Both conditionals are decided by the hypotheses. -/
theorem sound_kernel1 (c : Dev nD) (E : Set ℕ) (i : grid1.Coords)
    (arg3 : Memref sig .tc .vmem S2048x2048 .bf16) (harg3 : arg3.IsWhole)
    (arg4 : Memref sig .tc .vmem S512x2048 .bf16) (harg4 : arg4.IsWhole)
    (arg5 : Memref sig .tc .vmem S2048x512 .f32) (harg5 : arg5.IsWhole)
    (arg6 : Memref sig .tc .vmem S2048x512 .f32) (harg6 : arg6.IsWhole)
    (hc0 : cond1_0 i) (hc1 : cond1_1 i)
    (x0 : Vec F S2048x2048 .bf16) (x1 : Vec F S512x2048 .bf16) (K : PUnit → sProp 𝕄) :
    iprop(owns (c : Thread nD τ) arg3 fullShare x0 ∗ owns (c : Thread nD τ) arg4 fullShare x1
        ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1
            ∗ owns (c : Thread nD τ) arg5 fullShare (out1_2 x0 x1) ∗ (∃ d, owns (c : Thread nD τ) arg6 fullShare d)) -∗ K ⟨⟩))
      ⊢ wp frame (wpE (defs₀ (F := F)) Variants.none c none) E (cc1__matmul_key_kernel i arg3 harg3 arg4 harg4 arg5 harg5 arg6 harg6) K := by
  simp only [cc1__matmul_key_kernel_eq_skeleton]; unfold cc1__matmul_key_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (cover1_2 _)]
    sl_unfold_run_names
    rw [View.readCov_unit_zero _ hz1, readCov_cons_unit_zero1 _ hz1]
    rfl
  iexists _; iexists _; isplitr
  swap; · iexact H3
  ipureintro; rfl

/-! ## The pipeline's proof data -/

/-- The proof data of pipeline 1 on core `c`: the arrays as the region finds them (`V`); after the body at point `t`
    each input's buffer at its block and the output's at `out1_2` of the two input blocks; the invariant is the scoped
    rest — the accumulator among it, at any contents — and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The accumulator, a whole scoped buffer of the kernel's own, passed beside the windows. -/
abbrev scM1 : Memref sig .tc .vmem S2048x512 .f32 := Memref.whole cc1_scratch0

/-- The invariant with the accumulator split out of the scoped rest as a memref owned at some contents. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ (dat1 V c).leavesExact 2 t)

/-- The body at any point: the inputs' memrefs hold their blocks, both conditions hold there, the invariant lends
    the accumulator at whatever it holds and takes it back at whatever the body left; the core owes nothing. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).leavesExact 2 t = owns (c : Thread nD τ) (st1_2 t) fullShare ((dat1 V c).after 2 t) from by
    unfold Dat.leavesExact; rw [liveAt1_2 t]]
  rw [show (dat1 V c).Φ t.succ = Pipeline.ΦA spec1 c from rfl,
    show (dat1 V c).Φ t.castSucc = Pipeline.ΦA spec1 c from rfl,
    show (dat1 V c).owesAt () t.succ = (dat1 V c).owesAt () t.castSucc from rfl,
    after1_0, after1_1, after1_2, PhiA1_eq]
  iintro ⟨⟨⟨HS, HR⟩, Hg⟩, Ho, ⟨%d0, H0⟩, ⟨%d1, H1⟩, ⟨%d2, H2⟩⟩
  iapply (sound_kernel1 c Set.univ (grid1.coords t) _ _ _ _ _ _ _ _ (hcond1_0 t) (hcond1_1 t) (iblk1 V c 0 t) (iblk1 V c 1 t) _)
  isplitl [H0]; · iexact H0
  isplitl [H1]; · iexact H1
  isplitl [H2]; · iexists _; iexact H2
  isplitl [HS]; · iexact HS
  iintro ⟨H0, H1, H2, HS⟩
  isplitl [HS HR Hg]
  · isplitl [HS HR]
    · isplitl [HS]; · iexact HS
      iexact HR
    iexact Hg
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : iprop((∃ r, prngReg c r) ∗ Pipeline.scopedRest spec1 c) ⊢ ((dat1 V c).Φ 0 : sProp 𝕄) := by
  rw [show (dat1 V c).Φ 0 = Pipeline.ΦA spec1 c from rfl]
  unfold Pipeline.ΦA
  iintro ⟨Hg, HR⟩
  isplitl [HR]; · iexact HR
  iexact Hg

/-- and the invariant after the last point gives it back. -/
theorem hout1 (c : Dev nD) : ((dat1 V c).Φ (Fin.last cfg1.N) : sProp 𝕄) ⊢ iprop((∃ r, prngReg c r) ∗ Pipeline.scopedRest spec1 c) := by
  rw [show (dat1 V c).Φ (Fin.last cfg1.N) = Pipeline.ΦA spec1 c from rfl]
  unfold Pipeline.ΦA
  iintro ⟨HR, Hg⟩
  isplitl [Hg]; · iexact Hg
  iexact HR

end Cert.KernelIdeal.H
end
-- ==== Proof.R2.lean ====
import proofs.«174982_j50740743635387_2_alg».proof.Proof.Gen.KernelIdeal.Launch
import proofs.«174982_j50740743635387_2_alg».proof.Proof.Gen.KernelIdeal.Skeleton
import proofs.«174982_j50740743635387_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The activation-quantisation region 2

One grid point takes a block of rows `x` (window 0) and the gain row `g` (window 1, the whole array at every point)
and writes one block of the same rows (window 2): each row is normalised by the reciprocal root of its mean square
plus a small constant, multiplied by `g`, scaled so that its largest magnitude becomes 127, rounded to the nearest
integer, clamped to [-128, 127] and scaled back. Everything here is stated at a parameter `V`, the contents of the
buffers when the region is entered. -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows' staging buffer holds the rows' block at every point, for any proof data whose array is `V`'s and
    whose body leaves the block in place: the window is an input, uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The gain row's staging buffer holds the gain row at every point, fetched there or not: where it is not fetched
    its block index has not moved, so the block of the point before is the block of this one. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer as one rectangle, the whole of it -/

abbrev r2_0 : Rect S128x8192 := Rect.unit (s := S128x8192) ![0, 0] S128x8192.size inb_S128x8192_S128x8192_0_0
abbrev r2_1 : Rect S1x8192 := Rect.unit (s := S1x8192) ![0, 0] S1x8192.size inb_S1x8192_S1x8192_0_0

/-! ## What the body leaves in the output window's buffer -/

/-- The output buffer after the body, as a function of the two input blocks: the one store, over the whole buffer,
    of the quantised rows computed from the whole of both inputs. -/
def out2_2 (x0 : Vec F S128x8192 .f32) (x1 : Vec F S1x8192 .f32) : Vec F S128x8192 .bf16 :=
  View.canon [⟨r2_0, k2_pay1 (View.ld x0 r2_0) (View.ld x1 r2_1)⟩]

/-- The one store's rectangle is the whole buffer, so it covers every index. -/
theorem cover2_2 (p0 : Vec F S128x8192 .bf16) (y : S128x8192.Idx) :
    ∃ pc ∈ ([⟨r2_0, p0⟩] : List (View.Piece (Elt F) S128x8192 .bf16)), y ∈ pc.1.set :=
  View.cover_of_tiled [⟨r2_0, p0⟩] S128x8192.size (by rfl) y

/-! ## The body's triple -/

set_option maxHeartbeats 1000000 in
/-- The body on whole staging memrefs — the inputs' holding `x0` and `x1`, the output's holding anything — runs to a
    continuation that holds the inputs' as they were and the output's at `out2_2 x0 x1`. -/
theorem sound_kernel2 (c : Dev nD) (E : Set ℕ) (i : grid2.Coords) (arg1 : Memref sig .tc .vmem S128x8192 .f32) (harg1 : arg1.IsWhole) (arg2 : Memref sig .tc .vmem S1x8192 .f32) (harg2 : arg2.IsWhole) (arg3 : Memref sig .tc .vmem S128x8192 .bf16) (harg3 : arg3.IsWhole)
    (x0 : Vec F S128x8192 .f32) (x1 : Vec F S1x8192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__act_quant_kernel i arg1 harg1 arg2 harg2 arg3 harg3) K := by
  simp only [cc2__act_quant_kernel_eq_skeleton]; unfold cc2__act_quant_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this pipeline on core `c`: the arrays as the region finds them; after the body at point `t`
    each input's buffer at its block and the output's at `out2_2` of the two input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.H

end
-- ==== Proof.R3.lean ====
import proofs.«174982_j50740743635387_2_alg».proof.Proof.Gen.KernelIdeal.Launch
import proofs.«174982_j50740743635387_2_alg».proof.Proof.Gen.KernelIdeal.Skeleton
import proofs.«174982_j50740743635387_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 3: the value matmul, its accumulator carried over the contraction axis of the grid -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, for any proof data whose array is the
    entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions, over the grid -/

/-- The first condition of the body: the point is the first of its run along the contraction axis (coordinate 2 is 0). -/
abbrev cond3_0 (i : grid3.Coords) : Prop := (Scalar.cmpi .ne (Scalar.extui (Scalar.cmpi .eq (BitVec.ofNat 32 (i 2).val) 0#32)) 0#32) = 1#1
/-- It holds at the points ≡ 0 (mod 4). -/
theorem hcond3_0 : ∀ t : Fin cfg3.N, cond3_0 (grid3.coords t) ↔ t.val % 4 = 0 :=
  (by decide +kernel : ∀ t : Fin grid3.N, cond3_0 (grid3.coords t) ↔ t.val % 4 = 0)

/-- The second condition: the point is the last of its run (coordinate 2 is 3). -/
abbrev cond3_1 (i : grid3.Coords) : Prop := k3_cond2 i = 1#1
/-- It holds at the points ≡ 3 (mod 4). -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 (t : Fin cfg3.N) : cfg3.idle 0 (grid3.coords t) = false := rfl
theorem liveAt3_1 (t : Fin cfg3.N) : cfg3.idle 1 (grid3.coords t) = false := rfl
/-- Away from the last point of a run the body stores nothing into the output window, -/
theorem idleAt3_2 (i : grid3.Coords) (h : ¬cond3_1 i) : cfg3.idle 2 i = true := by
  show (!(k3_cond2 i == 1#1)) = true
  rw [Bool.not_eq_true', beq_eq_false_iff_ne]; exact h
/-- and the pipeline does not write its block back there. -/
theorem noFlush3_2 (t : Fin cfg3.N) (h : ¬cond3_1 (grid3.coords t)) : (cfg3.win 2).flush t = false :=
  Bool.eq_false_iff.mpr fun hf => h ((hcond3_1 t).mpr ((flush3_2 t).mp hf))
/-- At the last point of a run the output window is live. -/
theorem liveAt3_2 (i : grid3.Coords) (h : cond3_1 i) : cfg3.idle 2 i = false := by
  show (!(k3_cond2 i == 1#1)) = false
  rw [Bool.not_eq_false', beq_iff_eq]; exact h

/-! ## The memrefs the body is called with -/

/-- One staging buffer of the output window, through which its contents are stated. -/
abbrev VO3_2 : View sig .tc .vmem S1024x1024 .f32 := (Memref.whole cc3_stg2_0 : Memref sig .tc .vmem S1024x1024 .f32).view
abbrev ms3_0 (t : Fin cfg3.N) : Memref sig .tc .vmem S1024x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x2048 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x1024 .f32 := win3_2.stage (cfg3.slots t 2)
abbrev hs3_2 (t : Fin cfg3.N) : (ms3_2 t).IsWhole := hstage3_2 ((cfg3.slots t 2).cast nbuf3_2)
/-- The accumulator: a whole scoped buffer of the kernel's own, passed beside the windows. -/
abbrev scM3 : Memref sig .tc .vmem S1024x1024 .f32 := Memref.whole cc3_scratch0
/-- The accumulator as a view: what it holds is stated through it. -/
abbrev VS3 : View sig .tc .vmem S1024x1024 .f32 := scM3.view

/-! ## The body on any staging memrefs, case by case

The body zeroes the accumulator when the first condition holds, adds the product of the two input blocks to it, and
copies it into the output block when the second condition holds. Three assignments of the two conditions are met on
the grid: first point of a run (A), inner point (B), last point (C). In each, what the stores leave in the accumulator
and in the output block is a list of pieces, last first. -/

set_option maxHeartbeats 4000000 in
/-- Case A: the accumulator, found at anything, is zeroed and the product added; the output block is handed back as found. -/
noncomputable def kernelRun3_A (c : Dev nD) (i : grid3.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (hc1 : ¬cond3_1 i)
    (x0 : Vec F S1024x2048 .bf16) (x1 : Vec F S1024x2048 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc3__matmul_value_kernel i arg3 harg3 arg4 harg4 arg5 harg5 arg6 harg6) K } := by
  refine ⟨[], ?_, fun xi2 E K => ?run⟩
  case run =>
    simp only [cc3__matmul_value_kernel_eq_skeleton]; unfold cc3__matmul_value_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 4000000 in
/-- Case B: the accumulator, found at `xs0`, has the product added; the output block is handed back as found. -/
noncomputable def kernelRun3_B (c : Dev nD) (i : grid3.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : ¬cond3_1 i)
    (x0 : Vec F S1024x2048 .bf16) (x1 : Vec F S1024x2048 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc3__matmul_value_kernel i arg3 harg3 arg4 harg4 arg5 harg5 arg6 harg6) K } := by
  refine ⟨[], ?_, fun xi2 E K => ?run⟩
  case run =>
    simp only [cc3__matmul_value_kernel_eq_skeleton]; unfold cc3__matmul_value_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 4000000 in
/-- Case C: the accumulator, found at `xs0`, has the product added, and is copied into the output block, found at anything. -/
noncomputable def kernelRun3_C (c : Dev nD) (i : grid3.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S1024x2048 .bf16) (x1 : Vec F S1024x2048 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc3__matmul_value_kernel i arg3 harg3 arg4 harg4 arg5 harg5 arg6 harg6) K } := by
  refine ⟨?_, ?_, fun E K => ?run⟩
  case run =>
    simp only [cc3__matmul_value_kernel_eq_skeleton]; unfold cc3__matmul_value_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What each case leaves in the accumulator and in the output block -/

/-- Case A's pieces for the accumulator tile it, so they cover it. -/
theorem scover3_A (c : Dev nD) (i : grid3.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (hc1 : ¬cond3_1 i)
    (x0 : Vec F S1024x2048 .bf16) (x1 : Vec F S1024x2048 .bf16) (y : S1024x1024.Idx) :
    ∃ pc ∈ (kernelRun3_A c i arg3 harg3 arg4 harg4 arg5 harg5 arg6 harg6 hc0 hc1 x0 x1).2.1, y ∈ pc.1.set :=
  View.cover_of_tiledL (kernelRun3_A c i arg3 harg3 arg4 harg4 arg5 harg5 arg6 harg6 hc0 hc1 x0 x1).2.1 S1024x1024.size (by sl_kernel_rfl) y

/-- What case A leaves in the accumulator: its pieces read back. -/
def sout3_A (c : Dev nD) (i : grid3.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (hc1 : ¬cond3_1 i)
    (x0 : Vec F S1024x2048 .bf16) (x1 : Vec F S1024x2048 .bf16) : Vec F S1024x1024 .f32 :=
  VS3.read (Elt F) (VS3.writes (Elt F) VS3.junk (kernelRun3_A c i arg3 harg3 arg4 harg4 arg5 harg5 arg6 harg6 hc0 hc1 x0 x1).2.1)

/-- Case B's pieces for the accumulator tile it, so they cover it. -/
theorem scover3_B (c : Dev nD) (i : grid3.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : ¬cond3_1 i)
    (x0 : Vec F S1024x2048 .bf16) (x1 : Vec F S1024x2048 .bf16) (xs0 : Vec F S1024x1024 .f32) (y : S1024x1024.Idx) :
    ∃ pc ∈ (kernelRun3_B c i arg3 harg3 arg4 harg4 arg5 harg5 arg6 harg6 hc0 hc1 x0 x1 xs0).2.1, y ∈ pc.1.set :=
  View.cover_of_tiledL (kernelRun3_B c i arg3 harg3 arg4 harg4 arg5 harg5 arg6 harg6 hc0 hc1 x0 x1 xs0).2.1 S1024x1024.size (by sl_kernel_rfl) y

/-- What case B leaves in the accumulator: its pieces read back. -/
def sout3_B (c : Dev nD) (i : grid3.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : ¬cond3_1 i)
    (x0 : Vec F S1024x2048 .bf16) (x1 : Vec F S1024x2048 .bf16) (xs0 : Vec F S1024x1024 .f32) : Vec F S1024x1024 .f32 :=
  VS3.read (Elt F) (VS3.writes (Elt F) VS3.junk (kernelRun3_B c i arg3 harg3 arg4 harg4 arg5 harg5 arg6 harg6 hc0 hc1 x0 x1 xs0).2.1)

/-- Case C's pieces for the accumulator tile it, so they cover it. -/
theorem scover3_C (c : Dev nD) (i : grid3.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S1024x2048 .bf16) (x1 : Vec F S1024x2048 .bf16) (xs0 : Vec F S1024x1024 .f32) (y : S1024x1024.Idx) :
    ∃ pc ∈ (kernelRun3_C c i arg3 harg3 arg4 harg4 arg5 harg5 arg6 harg6 hc0 hc1 x0 x1 xs0).2.1, y ∈ pc.1.set :=
  View.cover_of_tiledL (kernelRun3_C c i arg3 harg3 arg4 harg4 arg5 harg5 arg6 harg6 hc0 hc1 x0 x1 xs0).2.1 S1024x1024.size (by sl_kernel_rfl) y

/-- What case C leaves in the accumulator: its pieces read back. -/
def sout3_C (c : Dev nD) (i : grid3.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S1024x2048 .bf16) (x1 : Vec F S1024x2048 .bf16) (xs0 : Vec F S1024x1024 .f32) : Vec F S1024x1024 .f32 :=
  VS3.read (Elt F) (VS3.writes (Elt F) VS3.junk (kernelRun3_C c i arg3 harg3 arg4 harg4 arg5 harg5 arg6 harg6 hc0 hc1 x0 x1 xs0).2.1)

/-- Case C's pieces for the output block tile it, so they cover it. -/
theorem cover3_C_2 (c : Dev nD) (i : grid3.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S1024x2048 .bf16) (x1 : Vec F S1024x2048 .bf16) (xs0 : Vec F S1024x1024 .f32) (y : S1024x1024.Idx) :
    ∃ pc ∈ (kernelRun3_C c i arg3 harg3 arg4 harg4 arg5 harg5 arg6 harg6 hc0 hc1 x0 x1 xs0).1, y ∈ pc.1.set :=
  View.cover_of_tiledL (kernelRun3_C c i arg3 harg3 arg4 harg4 arg5 harg5 arg6 harg6 hc0 hc1 x0 x1 xs0).1 S1024x1024.size (by sl_kernel_rfl) y

/-- What case C leaves in the output block: its pieces read back. -/
def out3_C (c : Dev nD) (i : grid3.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S1024x2048 .bf16) (x1 : Vec F S1024x2048 .bf16) (xs0 : Vec F S1024x1024 .f32) : Vec F S1024x1024 .f32 :=
  VO3_2.read (Elt F) (VO3_2.writes (Elt F) VO3_2.junk (kernelRun3_C c i arg3 harg3 arg4 harg4 arg5 harg5 arg6 harg6 hc0 hc1 x0 x1 xs0).1)

/-! ## The accumulator and the output block, point by point -/

/-- THE ACCUMULATION. What the accumulator holds after the body at position `n`: at the first point of a run the product of
    the point's blocks added to zero, at a later point of the run the product added to what the point before left. -/
def acc3 (c : Dev nD) : (n : ℕ) → n < cfg3.N → Vec F S1024x1024 .f32
  | 0, hn => sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩)
  | n + 1, hn =>
    if h0 : (n + 1) % 4 = 0 then
      if h1 : (n + 1) % 4 = 3 then
        False.elim (by omega)
      else
        sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩)
    else
      if h1 : (n + 1) % 4 = 3 then
        sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (acc3 c n (Nat.lt_of_succ_lt hn))
      else
        sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (acc3 c n (Nat.lt_of_succ_lt hn))

/-- The accumulator after a first point of a run. -/
theorem acc3_A (c : Dev nD) (t : Fin cfg3.N) (h0 : t.val % 4 = 0) (h1 : ¬t.val % 4 = 3) :
    acc3 V c t.val t.isLt = sout3_A c (grid3.coords t) (ms3_0 t) (hs3_0 t) (ms3_1 t) (hs3_1 t) (ms3_2 t) (hs3_2 t) scM3 (Memref.isWhole_whole _) ((hcond3_0 t).mpr h0) (fun h => h1 ((hcond3_1 t).mp h)) (iblk3 V c 0 t) (iblk3 V c 1 t) := by
  obtain ⟨n, hn⟩ := t
  cases n with
  | zero => exact rfl
  | succ n => exact (dif_pos h0).trans ((dif_neg h1).trans rfl)

/-- The accumulator after an inner point of a run: over what the point before left. -/
theorem acc3_B (c : Dev nD) (t : Fin cfg3.N) (h0 : ¬t.val % 4 = 0) (h1 : ¬t.val % 4 = 3) :
    acc3 V c t.val t.isLt = sout3_B c (grid3.coords t) (ms3_0 t) (hs3_0 t) (ms3_1 t) (hs3_1 t) (ms3_2 t) (hs3_2 t) scM3 (Memref.isWhole_whole _) (fun h => h0 ((hcond3_0 t).mp h)) (fun h => h1 ((hcond3_1 t).mp h)) (iblk3 V c 0 t) (iblk3 V c 1 t) (acc3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- The accumulator after the last point of a run: over what the point before left. -/
theorem acc3_C (c : Dev nD) (t : Fin cfg3.N) (h0 : ¬t.val % 4 = 0) (h1 : t.val % 4 = 3) :
    acc3 V c t.val t.isLt = sout3_C c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) (acc3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block holds after the body at point `t`: at the last point of a run the accumulator's final
    contents, copied; elsewhere the body stores nothing into it and the value here is never consulted. -/
def out3 (c : Dev nD) (t : Fin cfg3.N) : Vec F S1024x1024 .f32 :=
  if h1 : t.val % 4 = 3 then
    out3_C c (grid3.coords t) (ms3_0 t) (hs3_0 t) (ms3_1 t) (hs3_1 t) (ms3_2 t) (hs3_2 t) scM3 (Memref.isWhole_whole _) (fun h => (by omega : ¬t.val % 4 = 0) ((hcond3_0 t).mp h)) ((hcond3_1 t).mpr h1) (iblk3 V c 0 t) (iblk3 V c 1 t) (acc3 V c (t.val - 1) (Nat.lt_of_le_of_lt (Nat.sub_le _ _) t.isLt))
  else k3_pay1

theorem out3_last (c : Dev nD) (t : Fin cfg3.N) (h0 : ¬t.val % 4 = 0) (h1 : t.val % 4 = 3) :
    out3 V c t = out3_C c (grid3.coords t) (ms3_0 t) (hs3_0 t) (ms3_1 t) (hs3_1 t) (ms3_2 t) (hs3_2 t) scM3 (Memref.isWhole_whole _) (fun h => h0 ((hcond3_0 t).mp h)) ((hcond3_1 t).mpr h1) (iblk3 V c 0 t) (iblk3 V c 1 t) (acc3 V c (t.val - 1) (Nat.lt_of_le_of_lt (Nat.sub_le _ _) t.isLt)) :=
  (dif_pos h1).trans rfl

/-! ## The region's invariant -/

/-- Every scoped buffer of the program that is neither a staging buffer of this region nor its accumulator, whole at some contents. -/
abbrev rest3 (c : Dev nD) : sProp 𝕄 :=
  Pipeline.scopedRestBut (Ix := Unit) (Name := ℕ) (U := UR sig nD τ) (Lvl := ℕ) (Val := Elt F) spec3 c [cc3_scratch0]

/-- The invariant before position `n`: the accumulator owned — at anything before the first point of a run (the body
    zeroes it there), and inside a run at the sum the points before left —, the other scoped buffers, and the
    generator register at some state. -/
def PhiS3 (c : Dev nD) (n : ℕ) (hn : n ≤ cfg3.N) : sProp 𝕄 :=
  if h : n % 4 = 0 then
    iprop(iprop(∃ d, owns (c : Thread nD τ) scM3 fullShare d) ∗ rest3 c ∗ (∃ r, prngReg c r))
  else
    iprop(owns (c : Thread nD τ) scM3 fullShare (acc3 V c (n - 1) (by omega)) ∗ rest3 c ∗ (∃ r, prngReg c r))

theorem PhiS3_first (c : Dev nD) (n : ℕ) (hn : n ≤ cfg3.N) (h : n % 4 = 0) :
    PhiS3 V c n hn = iprop(iprop(∃ d, owns (c : Thread nD τ) scM3 fullShare d) ∗ rest3 c ∗ (∃ r, prngReg c r)) := dif_pos h

theorem PhiS3_inner (c : Dev nD) (n : ℕ) (hn : n ≤ cfg3.N) (h : ¬n % 4 = 0) :
    PhiS3 V c n hn = iprop(owns (c : Thread nD τ) scM3 fullShare (acc3 V c (n - 1) (by omega)) ∗ rest3 c ∗ (∃ r, prngReg c r)) := dif_neg h

theorem PhiS3_succ (c : Dev nD) (n : ℕ) (hn : n < cfg3.N) (h : ¬(n + 1) % 4 = 0) :
    PhiS3 V c (n + 1) hn = iprop(owns (c : Thread nD τ) scM3 fullShare (acc3 V c n hn) ∗ rest3 c ∗ (∃ r, prngReg c r)) := (dif_neg h).trans rfl

/-! ## The pipeline's proof data -/

/-- The proof data of the region on core `c`: the arrays as the region finds them; after the body at a point each input's
    buffer at its block and the output's at `out3`; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the inputs' memrefs hold their blocks; the closed forms of the two conditions say which case
    the point is in; the invariant hands the body the accumulator (at anything at the first point of a run, at the
    partial sum inside one) and takes it back at this point's contents (forgotten after the last point of a run);
    the output block is handed back untouched away from the last point of a run, and at the accumulator's contents there. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_castSucc]
  have hN : t.val < 64 := lt_of_lt_of_eq t.isLt (show cfg3.N = 64 from N_3)
  by_cases h0 : t.val % 4 = 0
  · have h1 : ¬t.val % 4 = 3 := by omega
    have hn : ¬(t.val + 1) % 4 = 0 := by omega
    rw [show (dat3 V c).leavesExact 0 t = owns (c : Thread nD τ) (ms3_0 t) fullShare ((dat3 V c).after 0 t) from by
      unfold Dat.leavesExact; rw [liveAt3_0 t], after3_0]
    rw [show (dat3 V c).leavesExact 1 t = owns (c : Thread nD τ) (ms3_1 t) fullShare ((dat3 V c).after 1 t) from by
      unfold Dat.leavesExact; rw [liveAt3_1 t], after3_1]
    rw [Dat.leavesExact_idle (dat3 V c) 2 t (idleAt3_2 _ (fun h => h1 ((hcond3_1 t).mp h))) (noFlush3_2 t (fun h => h1 ((hcond3_1 t).mp h)))]
    rw [PhiS3_first V c _ _ h0, PhiS3_succ V c _ _ hn, acc3_A V c t h0 h1]
    unfold sout3_A; (try dsimp only)
    iintro ⟨⟨⟨%ds, HS0⟩, Hr, Hg⟩, Ho, ⟨%d0, H0⟩, ⟨%d1, H1⟩, ⟨%d2, H2⟩⟩
    iapply ((kernelRun3_A c (grid3.coords t) _ _ _ _ _ _ _ _ ((hcond3_0 t).mpr h0) (fun h => h1 ((hcond3_1 t).mp h)) (iblk3 V c 0 t) (iblk3 V c 1 t)).2.2 _ Set.univ _)
    isplitl [H0]; · iexact H0
    isplitl [H1]; · iexact H1
    isplitl [H2]; · iexact H2
    isplitl [HS0]; · iexists _; iexact HS0
    iintro ⟨H0, H1, H2, ⟨%es0, HS0⟩⟩
    isplitl [HS0 Hr Hg]
    · isplitl [HS0]
      · unfold owns; iexists _; isplitr
        swap; · iexact HS0
        ipureintro; exact View.read_writes_of_cover _ _ _ _ _ (scover3_A c _ _ _ _ _ _ _ _ _ _ _ _ _)
      isplitl [Hr]; · iexact Hr
      iexact Hg
    isplitl [Ho]; · iexact Ho
    isplitl [H0]; · iexact H0
    isplitl [H1]; · iexact H1
    iexists _; iexact H2
  · by_cases h1 : t.val % 4 = 3
    · have hn : (t.val + 1) % 4 = 0 := by omega
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 _ ((hcond3_1 t).mpr h1)], after3_2]
      rw [PhiS3_inner V c _ _ h0, PhiS3_first V c _ _ hn, out3_last V c t h0 h1]
      unfold out3_C; (try dsimp only)
      iintro ⟨⟨HS0, Hr, Hg⟩, Ho, ⟨%d0, H0⟩, ⟨%d1, H1⟩, ⟨%d2, H2⟩⟩
      iapply ((kernelRun3_C c (grid3.coords t) _ _ _ _ _ _ _ _ (fun h => h0 ((hcond3_0 t).mp h)) ((hcond3_1 t).mpr h1) (iblk3 V c 0 t) (iblk3 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0]
        · iexists (VS3.read (Elt F) _); unfold owns; iexists _; isplitr
          swap; · iexact HS0
          ipureintro; rfl
        isplitl [Hr]; · iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _)
    · have hn : ¬(t.val + 1) % 4 = 0 := by omega
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2 _ (fun h => h1 ((hcond3_1 t).mp h))) (noFlush3_2 t (fun h => h1 ((hcond3_1 t).mp h)))]
      rw [PhiS3_inner V c _ _ h0, PhiS3_succ V c _ _ hn, acc3_B V c t h0 h1]
      unfold sout3_B; (try dsimp only)
      iintro ⟨⟨HS0, Hr, Hg⟩, Ho, ⟨%d0, H0⟩, ⟨%d1, H1⟩, ⟨%d2, H2⟩⟩
      iapply ((kernelRun3_B c (grid3.coords t) _ _ _ _ _ _ _ _ (fun h => h0 ((hcond3_0 t).mp h)) (fun h => h1 ((hcond3_1 t).mp h)) (iblk3 V c 0 t) (iblk3 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0]
        · unfold owns; iexists _; isplitr
          swap; · iexact HS0
          ipureintro; exact View.read_writes_of_cover _ _ _ _ _ (scover3_B c _ _ _ _ _ _ _ _ _ _ _ _ _ _)
        isplitl [Hr]; · iexact Hr
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Entering and leaving the region -/

/-- What the launch hands the region — the generator register and every scoped buffer that is no staging buffer of the
    region, the accumulator among them, each at some contents — is the invariant before the first point. -/
theorem hin3 (c : Dev nD) : iprop((∃ r, prngReg c r) ∗ Pipeline.scopedRest spec3 c) ⊢ ((dat3 V c).Φ 0 : sProp 𝕄) := by
  rw [show (dat3 V c).Φ 0 = PhiS3 V c 0 (Nat.zero_le _) from rfl, PhiS3_first V c 0 _ rfl, scopedRest3_split]
  simp only [scM3, owns_whole]
  iintro ⟨Hg, HS, Hr⟩
  isplitl [HS]; · iexact HS
  isplitl [Hr]; · iexact Hr
  iexact Hg

/-- After the last point (the last of a run) the invariant gives the same back: the accumulator's contents are forgotten. -/
theorem hout3 (c : Dev nD) : ((dat3 V c).Φ (Fin.last cfg3.N) : sProp 𝕄) ⊢ iprop((∃ r, prngReg c r) ∗ Pipeline.scopedRest spec3 c) := by
  rw [show (dat3 V c).Φ (Fin.last cfg3.N) = PhiS3 V c cfg3.N (Nat.le_refl _) from rfl,
    PhiS3_first V c cfg3.N _ (by rw [show cfg3.N = 64 from N_3]), scopedRest3_split]
  simp only [scM3, owns_whole]
  iintro ⟨HS, Hr, Hg⟩
  isplitl [Hg]; · iexact Hg
  isplitl [HS]; · iexact HS
  iexact Hr

end Cert.KernelIdeal.H
end
-- ==== Proof.R4.lean ====
import proofs.«174982_j50740743635387_2_alg».proof.Proof.Gen.KernelIdeal.Launch
import proofs.«174982_j50740743635387_2_alg».proof.Proof.Gen.KernelIdeal.Skeleton
import proofs.«174982_j50740743635387_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The activation-quantisation region 4

One grid point takes a block of rows `x` (window 0) and the gain row `g` (window 1, the whole array at every point)
and writes one block of the same rows (window 2): each row is normalised by the reciprocal root of its mean square
plus a small constant, multiplied by `g`, scaled so that its largest magnitude becomes 127, rounded to the nearest
integer, clamped to [-128, 127] and scaled back. Everything here is stated at a parameter `V`, the contents of the
buffers when the region is entered. -/

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The rows' staging buffer holds the rows' block at every point, for any proof data whose array is `V`'s and
    whose body leaves the block in place: the window is an input, uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The gain row's staging buffer holds the gain row at every point, fetched there or not: where it is not fetched
    its block index has not moved, so the block of the point before is the block of this one. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer as one rectangle, the whole of it -/

abbrev r4_0 : Rect S512x2048 := Rect.unit (s := S512x2048) ![0, 0] S512x2048.size inb_S512x2048_S512x2048_0_0
abbrev r4_1 : Rect S1x2048 := Rect.unit (s := S1x2048) ![0, 0] S1x2048.size inb_S1x2048_S1x2048_0_0

/-! ## What the body leaves in the output window's buffer -/

/-- The output buffer after the body, as a function of the two input blocks: the one store, over the whole buffer,
    of the quantised rows computed from the whole of both inputs. -/
def out4_2 (x0 : Vec F S512x2048 .f32) (x1 : Vec F S1x2048 .f32) : Vec F S512x2048 .bf16 :=
  View.canon [⟨r4_0, k4_pay1 (View.ld x0 r4_0) (View.ld x1 r4_1)⟩]

/-- The one store's rectangle is the whole buffer, so it covers every index. -/
theorem cover4_2 (p0 : Vec F S512x2048 .bf16) (y : S512x2048.Idx) :
    ∃ pc ∈ ([⟨r4_0, p0⟩] : List (View.Piece (Elt F) S512x2048 .bf16)), y ∈ pc.1.set :=
  View.cover_of_tiled [⟨r4_0, p0⟩] S512x2048.size (by rfl) y

/-! ## The body's triple -/

set_option maxHeartbeats 1000000 in
/-- The body on whole staging memrefs — the inputs' holding `x0` and `x1`, the output's holding anything — runs to a
    continuation that holds the inputs' as they were and the output's at `out4_2 x0 x1`. -/
theorem sound_kernel4 (c : Dev nD) (E : Set ℕ) (i : grid4.Coords) (arg1 : Memref sig .tc .vmem S512x2048 .f32) (harg1 : arg1.IsWhole) (arg2 : Memref sig .tc .vmem S1x2048 .f32) (harg2 : arg2.IsWhole) (arg3 : Memref sig .tc .vmem S512x2048 .bf16) (harg3 : arg3.IsWhole)
    (x0 : Vec F S512x2048 .f32) (x1 : Vec F S1x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__act_quant_kernel i arg1 harg1 arg2 harg2 arg3 harg3) K := by
  simp only [cc4__act_quant_kernel_eq_skeleton]; unfold cc4__act_quant_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of this pipeline on core `c`: the arrays as the region finds them; after the body at point `t`
    each input's buffer at its block and the output's at `out4_2` of the two input blocks; the invariant is the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and
    the core's obligations pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.H

end
-- ==== Proof.R5.lean ====
/-
  Region 5 of the program, the receptance product, at any float instance. A grid point takes a block of 256 rows of
  the activations, the whole weight matrix and a block of 256 rows of the values, and writes the 256 × 2048 block of
  the logistic function of the products times the values. Here: each window's block at a point; what the body leaves
  in the output block as a function of the three input blocks (its accumulator is rebuilt from zero at every point, so
  the region's invariant does not name what it holds); the body's triple; the proof data; the body obligation at
  every point; and that the invariant is what the launch hands the region and what the region hands back.
-/
import proofs.«174982_j50740743635387_2_alg».proof.Proof.Gen.KernelIdeal.Launch
import proofs.«174982_j50740743635387_2_alg».proof.Proof.Gen.KernelIdeal.Skeleton
import proofs.«174982_j50740743635387_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 5: the receptance matmul, `cc5__matmul_receptance_kernel`, at the entry contents `V`

Grid 32 × 1 × 1. At a point the body zeroes its accumulator (grid coordinate 2 is 0), adds to it the product of
the point's block of the activations with the transpose of the weights, reads it back (grid coordinate 2 is the
last, 0), applies the logistic function 1 / (1 + exp (0 − ·)), multiplies by the point's block of the values and
stores the result into the output block. The third grid axis has one point, so both conditions hold everywhere
and the accumulator is rebuilt from zero at every point: what it held before the body does not matter, and the
region invariant need not name its contents. -/

/-! ## The two conditions, decided over the grid -/

/-- The first conditional's condition (grid coordinate 2 is zero), as the body computes it. -/
abbrev cond5_0 (i : grid5.Coords) : Prop := (Scalar.cmpi .ne (Scalar.extui (Scalar.cmpi .eq (BitVec.ofNat 32 (i 2).val) 0#32)) 0#32) = 1#1
/-- It holds at every point: axis 2 has one point. -/
theorem hcond5_0 : ∀ t : Fin cfg5.N, cond5_0 (grid5.coords t) :=
  (by decide +kernel : ∀ t : Fin grid5.N, cond5_0 (grid5.coords t))
/-- The second conditional's condition (grid coordinate 2 is the last). -/
abbrev cond5_1 (i : grid5.Coords) : Prop := k5_cond2 i = 1#1
/-- It holds at every point. -/
theorem hcond5_1 : ∀ t : Fin cfg5.N, cond5_1 (grid5.coords t) :=
  (by decide +kernel : ∀ t : Fin grid5.N, cond5_1 (grid5.coords t))
/-- So the output window is idle at no point. -/
theorem liveAt5_3 : ∀ t : Fin cfg5.N, cfg5.idle 3 (grid5.coords t) = false := by decide +kernel

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not (unfetched, the
    block index has not moved), for any proof data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The same for input window 1, -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- and for input window 2. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and store is of a whole buffer -/

abbrev r5_0 : Rect S256x2048 := Rect.unit (s := S256x2048) ![0, 0] S256x2048.size inb_S256x2048_S256x2048_0_0
abbrev r5_1 : Rect S2048x2048 := Rect.unit (s := S2048x2048) ![0, 0] S2048x2048.size inb_S2048x2048_S2048x2048_0_0

theorem hz5 : (![0, 0] : Fin 2 → Nat) = fun _ => 0 := funext fun a => by fin_cases a <;> rfl

/-! ## What the body leaves -/

/-- The accumulator after the body's second store, from the first two input blocks: zero plus the product. -/
def acc5 (x0 : Vec F S256x2048 .bf16) (x1 : Vec F S2048x2048 .bf16) : Vec F S256x2048 .f32 :=
  k5_pay2 (k5_pay1 (F := F)) (View.ld x0 r5_0) (View.ld x1 r5_1)

/-- The output window's staging buffer after the body, from the three input blocks: its one store, the logistic
    function of the accumulator times the block of the values. -/
def out5_3 (x0 : Vec F S256x2048 .bf16) (x1 : Vec F S2048x2048 .bf16) (x2 : Vec F S256x2048 .f32) : Vec F S256x2048 .f32 :=
  View.canon [⟨r5_0, k5_pay3 (acc5 x0 x1) (View.ld x2 r5_0)⟩]

/-- The store covers the buffer. -/
theorem cover5_3 (p0 : Vec F S256x2048 .f32) (y : S256x2048.Idx) :
    ∃ pc ∈ ([⟨r5_0, p0⟩] : List (View.Piece (Elt F) S256x2048 .f32)), y ∈ pc.1.set :=
  ⟨_, List.mem_singleton_self _, View.mem_set_unit_zero hz5 inb_S256x2048_S256x2048_0_0 y⟩

/-- A load of the whole buffer after a list of stores whose last is of the whole buffer reads that store's payload,
    whatever the earlier ones were. -/
theorem readCov_cons_unit_zero5 {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-! ## The body's triple -/

set_option maxHeartbeats 1000000 in
/-- The body on whole memrefs — the three inputs' at read contents, the output's and the accumulator's at anything —
    runs to the continuation holding the inputs' as they were, the output's at `out5_3` of the inputs' and the
    accumulator's at some contents. Both conditionals are decided by the hypotheses. -/
theorem sound_kernel5 (c : Dev nD) (E : Set ℕ) (i : grid5.Coords)
    (arg3 : Memref sig .tc .vmem S256x2048 .bf16) (harg3 : arg3.IsWhole)
    (arg4 : Memref sig .tc .vmem S2048x2048 .bf16) (harg4 : arg4.IsWhole)
    (arg5 : Memref sig .tc .vmem S256x2048 .f32) (harg5 : arg5.IsWhole)
    (arg6 : Memref sig .tc .vmem S256x2048 .f32) (harg6 : arg6.IsWhole)
    (arg7 : Memref sig .tc .vmem S256x2048 .f32) (harg7 : arg7.IsWhole)
    (hc0 : cond5_0 i) (hc1 : cond5_1 i)
    (x0 : Vec F S256x2048 .bf16) (x1 : Vec F S2048x2048 .bf16) (x2 : Vec F S256x2048 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out5_3 x0 x1 x2) ∗ (∃ d, owns (c : Thread nD τ) arg7 fullShare d)) -∗ K ⟨⟩))
      ⊢ wp frame (wpE (defs₀ (F := F)) Variants.none c none) E (cc5__matmul_receptance_kernel i arg3 harg3 arg4 harg4 arg5 harg5 arg6 harg6 arg7 harg7) K := by
  simp only [cc5__matmul_receptance_kernel_eq_skeleton]; unfold cc5__matmul_receptance_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (cover5_3 _)]
    sl_unfold_run_names
    rw [View.readCov_unit_zero _ hz5, readCov_cons_unit_zero5 _ hz5]
    rfl
  iexists _; iexists _; isplitr
  swap; · iexact H4
  ipureintro; rfl

/-! ## The pipeline's proof data -/

/-- The proof data of pipeline 5 on core `c`: the arrays as the region finds them (`V`); after the body at point `t`
    each input's buffer at its block and the output's at `out5_3` of the three input blocks; the invariant is the
    scoped rest — the accumulator among it, at any contents — and the generator register; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- The accumulator, a whole scoped buffer of the kernel's own, passed beside the windows. -/
abbrev scM5 : Memref sig .tc .vmem S256x2048 .f32 := Memref.whole cc5_scratch0

/-- The invariant with the accumulator split out of the scoped rest as a memref owned at some contents. -/
theorem PhiA5_eq (c : Dev nD) :
    (Pipeline.ΦA spec5 c : sProp 𝕄)
      = iprop(iprop((∃ d, owns (c : Thread nD τ) scM5 fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ (dat5 V c).leavesExact 3 t)

/-- The body at any point: the inputs' memrefs hold their blocks, both conditions hold there, the invariant lends
    the accumulator at whatever it holds and takes it back at whatever the body left; the core owes nothing. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).leavesExact 3 t = owns (c : Thread nD τ) (st5_3 t) fullShare ((dat5 V c).after 3 t) from by
    unfold Dat.leavesExact; rw [liveAt5_3 t]]
  rw [show (dat5 V c).Φ t.succ = Pipeline.ΦA spec5 c from rfl,
    show (dat5 V c).Φ t.castSucc = Pipeline.ΦA spec5 c from rfl,
    show (dat5 V c).owesAt () t.succ = (dat5 V c).owesAt () t.castSucc from rfl,
    after5_0, after5_1, after5_2, after5_3, PhiA5_eq]
  iintro ⟨⟨⟨HS, HR⟩, Hg⟩, Ho, ⟨%d0, H0⟩, ⟨%d1, H1⟩, ⟨%d2, H2⟩, ⟨%d3, H3⟩⟩
  iapply (sound_kernel5 c Set.univ (grid5.coords t) _ _ _ _ _ _ _ _ _ _ (hcond5_0 t) (hcond5_1 t) (iblk5 V c 0 t) (iblk5 V c 1 t) (iblk5 V c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point, -/
theorem hin5 (c : Dev nD) : iprop((∃ r, prngReg c r) ∗ Pipeline.scopedRest spec5 c) ⊢ ((dat5 V c).Φ 0 : sProp 𝕄) := by
  rw [show (dat5 V c).Φ 0 = Pipeline.ΦA spec5 c from rfl]
  unfold Pipeline.ΦA
  iintro ⟨Hg, HR⟩
  isplitl [HR]; · iexact HR
  iexact Hg

/-- and the invariant after the last point gives it back. -/
theorem hout5 (c : Dev nD) : ((dat5 V c).Φ (Fin.last cfg5.N) : sProp 𝕄) ⊢ iprop((∃ r, prngReg c r) ∗ Pipeline.scopedRest spec5 c) := by
  rw [show (dat5 V c).Φ (Fin.last cfg5.N) = Pipeline.ΦA spec5 c from rfl]
  unfold Pipeline.ΦA
  iintro ⟨HR, Hg⟩
  isplitl [Hg]; · iexact Hg
  iexact HR

end Cert.KernelIdeal.H
end
-- ==== Proof.Halves.lean ====
/-
  The six regions' halves put together, and what the run gives: the frame (every argument array ends as launched) and every
  unscoped buffer's final contents, at any float instance.
-/
import proofs.«174982_j50740743635387_2_alg».proof.Proof.Run
import proofs.«174982_j50740743635387_2_alg».proof.Proof.R0
import proofs.«174982_j50740743635387_2_alg».proof.Proof.R1
import proofs.«174982_j50740743635387_2_alg».proof.Proof.R2
import proofs.«174982_j50740743635387_2_alg».proof.Proof.R3
import proofs.«174982_j50740743635387_2_alg».proof.Proof.R4
import proofs.«174982_j50740743635387_2_alg».proof.Proof.R5

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 0's half: a body that loads its two input blocks whole and stores its output block whole; the invariant is the
    scoped rest and the generator register, untouched. -/
def half0 : Half (F := F) cfg0 where
  dat V c := dat0 V c
  hA V c w := A_eq0 V c w
  hq _ _ _ := rfl
  howed _ _ _ := rfl
  hrec _ _ _ := rfl
  hbody V c := body_obligation0 V c
  hin V c := by
    rw [show (dat0 V c).Φ 0 = Pipeline.ΦA spec0 c from rfl]; unfold Pipeline.ΦA
    iintro ⟨Hp, Hr⟩
    isplitl [Hr]; · iexact Hr
    iexact Hp
  hout V c := by
    rw [show (dat0 V c).Φ (Fin.last cfg0.N) = Pipeline.ΦA spec0 c from rfl]; unfold Pipeline.ΦA
    iintro ⟨Hr, Hp⟩
    isplitl [Hp]; · iexact Hp
    iexact Hr

/-- Region 1's half: a matrix product accumulated in a scratch buffer that enters and leaves the invariant with the scoped rest. -/
def half1 : Half (F := F) cfg1 where
  dat V c := dat1 V c
  hA V c w := A_eq1 V c w
  hq _ _ _ := rfl
  howed _ _ _ := rfl
  hrec _ _ _ := rfl
  hbody V c := body_obligation1 V c
  hin V c := hin1 V c
  hout V c := hout1 V c

/-- Region 2's half: a body that loads its two input blocks whole and stores its output block whole; the invariant is the
    scoped rest and the generator register, untouched. -/
def half2 : Half (F := F) cfg2 where
  dat V c := dat2 V c
  hA V c w := A_eq2 V c w
  hq _ _ _ := rfl
  howed _ _ _ := rfl
  hrec _ _ _ := rfl
  hbody V c := body_obligation2 V c
  hin V c := by
    rw [show (dat2 V c).Φ 0 = Pipeline.ΦA spec2 c from rfl]; unfold Pipeline.ΦA
    iintro ⟨Hp, Hr⟩
    isplitl [Hr]; · iexact Hr
    iexact Hp
  hout V c := by
    rw [show (dat2 V c).Φ (Fin.last cfg2.N) = Pipeline.ΦA spec2 c from rfl]; unfold Pipeline.ΦA
    iintro ⟨Hr, Hp⟩
    isplitl [Hp]; · iexact Hp
    iexact Hr

/-- Region 3's half: a matrix product accumulated in a scratch buffer that enters and leaves the invariant with the scoped rest. -/
def half3 : Half (F := F) cfg3 where
  dat V c := dat3 V c
  hA V c w := A_eq3 V c w
  hq _ _ _ := rfl
  howed _ _ _ := rfl
  hrec _ _ _ := rfl
  hbody V c := body_obligation3 V c
  hin V c := hin3 V c
  hout V c := hout3 V c

/-- Region 4's half: a body that loads its two input blocks whole and stores its output block whole; the invariant is the
    scoped rest and the generator register, untouched. -/
def half4 : Half (F := F) cfg4 where
  dat V c := dat4 V c
  hA V c w := A_eq4 V c w
  hq _ _ _ := rfl
  howed _ _ _ := rfl
  hrec _ _ _ := rfl
  hbody V c := body_obligation4 V c
  hin V c := by
    rw [show (dat4 V c).Φ 0 = Pipeline.ΦA spec4 c from rfl]; unfold Pipeline.ΦA
    iintro ⟨Hp, Hr⟩
    isplitl [Hr]; · iexact Hr
    iexact Hp
  hout V c := by
    rw [show (dat4 V c).Φ (Fin.last cfg4.N) = Pipeline.ΦA spec4 c from rfl]; unfold Pipeline.ΦA
    iintro ⟨Hr, Hp⟩
    isplitl [Hp]; · iexact Hp
    iexact Hr

/-- Region 5's half: a matrix product accumulated in a scratch buffer that enters and leaves the invariant with the scoped rest. -/
def half5 : Half (F := F) cfg5 where
  dat V c := dat5 V c
  hA V c w := A_eq5 V c w
  hq _ _ _ := rfl
  howed _ _ _ := rfl
  hrec _ _ _ := rfl
  hbody V c := body_obligation5 V c
  hin V c := hin5 V c
  hout V c := hout5 V c

variable (m : (ℓ : Loc nD τ sig) → Buf (Elt F) ℓ) (ρ : Dev nD → PrngReg)

/-- The contents of every unscoped buffer at the return. -/
abbrev Wend : Dev nD → Valuation τ sig (Elt F) := W31 half0 half1 half2 half3 half4 half5 m ρ

/-- THE RUN with the six halves: every unscoped buffer ends at `Wend`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wend m ρ c b) :=
  run half0 half1 half2 half3 half4 half5 m ρ

/-- THE FRAME, with the result named: every weakly fair execution of @main terminates, nothing faulting; the result buffer ends
    at `Wend`'s and every argument array as launched. -/
theorem run_result : θ_run defs (onTc (τ := τ) (main (F := F))) ⟨m, fun _ => 0, ρ⟩ (fun r => ∀ c : Dev nD,
      r.2.mem ((c.tc : Thread nD τ).loc main_v63) = Wend m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r hr c => by
    have h := hr
    exact ⟨h c _ (mem_uc main_v63 (by decide)),
      (h c _ (mem_uc main_arg0 (by decide))).trans (W31_keep half0 half1 half2 half3 half4 half5 m ρ c main_arg0 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c _ (mem_uc main_arg1 (by decide))).trans (W31_keep half0 half1 half2 half3 half4 half5 m ρ c main_arg1 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c _ (mem_uc main_arg2 (by decide))).trans (W31_keep half0 half1 half2 half3 half4 half5 m ρ c main_arg2 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c _ (mem_uc main_arg3 (by decide))).trans (W31_keep half0 half1 half2 half3 half4 half5 m ρ c main_arg3 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c _ (mem_uc main_arg4 (by decide))).trans (W31_keep half0 half1 half2 half3 half4 half5 m ρ c main_arg4 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c _ (mem_uc main_arg5 (by decide))).trans (W31_keep half0 half1 half2 half3 half4 half5 m ρ c main_arg5 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c _ (mem_uc main_arg6 (by decide))).trans (W31_keep half0 half1 half2 half3 half4 half5 m ρ c main_arg6 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c _ (mem_uc main_arg7 (by decide))).trans (W31_keep half0 half1 half2 half3 half4 half5 m ρ c main_arg7 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c _ (mem_uc main_arg8 (by decide))).trans (W31_keep half0 half1 half2 half3 half4 half5 m ρ c main_arg8 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide))⟩) (run_all m ρ)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_result m ρ)

end Cert.KernelIdeal.H

end
-- ==== Proof.Spec.lean ====
/-
  The mathematics of the channel-mix block with ternary weights and 8-bit activations, over plain
  functions into the extended reals.  No program is mentioned here.  Float literals are kept as the
  words they are printed with.

  Notation of the sizes: B = 4 sequences, T = 2048 positions, H = 2048 channels, F = 8192 hidden
  channels; a flat row index r : Fin 8192 stands for the pair (b, t) with r = 2048 * b + t.
-/
import Idealize.ShloMosaic.PureOps.Ideal

noncomputable section

open scoped BigOperators

namespace Cert.Spec

open Idealize.ShloMosaic

/-- The absolute value on the extended reals: the larger of x and -x. -/
def eabs (x : EReal) : EReal := max x (-x)

/-! ## Row-wise normalisation and 8-bit quantisation of activations -/

/-- The mean square of a row: (∑ j, x j ^ 2) / n. -/
def actqVar {K : ℕ} (n : EReal) (x : Fin K → EReal) : EReal :=
  Ideal.div (∑ j, x j * x j) n

/-- The reciprocal root mean square, 1 / sqrt (var + 1e-8). -/
def actqRs {K : ℕ} (n : EReal) (x : Fin K → EReal) : EReal :=
  Ideal.rsqrt (actqVar n x + Ideal.ofBits .f32 0x322BCC77#32)

/-- The normalised row scaled by the gain g: x j * rs * g j. -/
def actqXn {K : ℕ} (n : EReal) (x g : Fin K → EReal) : Fin K → EReal :=
  fun j => x j * actqRs n x * g j

/-- The largest absolute value of the normalised row, the maximum started from -∞. -/
def actqAmax {K : ℕ} (n : EReal) (x g : Fin K → EReal) : EReal :=
  (Finset.univ : Finset (Fin K)).fold max (Ideal.ofBits .f32 0xFF800000#32) (fun j => eabs (actqXn n x g j))

/-- The quantisation scale of the row, 127 / max (1e-5, amax). -/
def actqScale {K : ℕ} (n : EReal) (x g : Fin K → EReal) : EReal :=
  Ideal.div (Ideal.ofBits .f32 0x42FE0000#32) (max (Ideal.ofBits .f32 0x3727C5AC#32) (actqAmax n x g))

/-- One row normalised and quantised to the grid of step 1 / s clipped to [-128, 127] / s. -/
def actqRow {K : ℕ} (n : EReal) (x g : Fin K → EReal) : Fin K → EReal :=
  fun k => Ideal.div
    (min (Ideal.ofBits .f32 0x42FE0000#32)
      (max (Ideal.ofBits .f32 0xC3000000#32)
        (Ideal.liftRound Ideal.roundHalfEven (actqXn n x g k * actqScale n x g))))
    (actqScale n x g)

/-! ## A product against a matrix stored row by output channel -/

/-- x · wᵀ: entry (r, o) is ∑ k, x r k * w o k. -/
def mmT {M N K : ℕ} (x : Fin M → Fin K → EReal) (w : Fin N → Fin K → EReal) : Fin M → Fin N → EReal :=
  fun r o => ∑ k, x r k * w o k

/-! ## Ternary quantisation of a weight matrix with one scale for the whole matrix -/

/-- The mean absolute entry: (0 + ∑ o, ∑ i, |w o i|) / cnt. -/
def wqMean {O I : ℕ} (cnt : EReal) (w : Fin O → Fin I → EReal) : EReal :=
  Ideal.div (Ideal.ofBits .f32 0x00000000#32 + ∑ o, ∑ i, eabs (w o i)) cnt

/-- The weight scale 1 / max (1e-5, mean |w|). -/
def wqScale {O I : ℕ} (cnt : EReal) (w : Fin O → Fin I → EReal) : EReal :=
  Ideal.div (Ideal.ofBits .f32 0x3F800000#32) (max (Ideal.ofBits .f32 0x3727C5AC#32) (wqMean cnt w))

/-- The weights rounded to {-1, 0, 1} / ws. -/
def wquant {O I : ℕ} (cnt : EReal) (w : Fin O → Fin I → EReal) : Fin O → Fin I → EReal :=
  fun o i => Ideal.div
    (min (((1 : ℝ) : EReal))
      (max (((-1 : ℝ)) : EReal)
        (Ideal.liftRound Ideal.roundHalfEven (w o i * wqScale cnt w))))
    (wqScale cnt w)

/-! ## The token shift, the mix, and the flat row index -/

/-- The sequence shifted by one position, zero at position 0. -/
def shifted (hid : Fin 4 → Fin 2048 → Fin 2048 → EReal) : Fin 4 → Fin 2048 → Fin 2048 → EReal :=
  fun b t h => if ht : t.val = 0 then 0 else hid b ⟨t.val - 1, by omega⟩ h

/-- The mix of a position with its predecessor: hid * tm + shifted * (1 - tm). -/
def mix (hid : Fin 4 → Fin 2048 → Fin 2048 → EReal) (tm : Fin 2048 → EReal) :
    Fin 4 → Fin 2048 → Fin 2048 → EReal :=
  fun b t h => hid b t h * tm h + shifted hid b t h * (Ideal.ofBits .f32 0x3F800000#32 - tm h)

/-- The sequence number of a flat row. -/
def rowB (r : Fin 8192) : Fin 4 := ⟨r.val / 2048, by omega⟩
/-- The position of a flat row. -/
def rowT (r : Fin 8192) : Fin 2048 := ⟨r.val % 2048, by omega⟩
/-- The flat row of a pair (sequence, position). -/
def flatRow (b : Fin 4) (t : Fin 2048) : Fin 8192 := ⟨2048 * b.val + t.val, by omega⟩

theorem rowB_flatRow (b : Fin 4) (t : Fin 2048) : rowB (flatRow b t) = b := by
  apply Fin.ext; simp only [rowB, flatRow]; omega
theorem rowT_flatRow (b : Fin 4) (t : Fin 2048) : rowT (flatRow b t) = t := by
  apply Fin.ext; simp only [rowT, flatRow]; omega
theorem flatRow_rowB_rowT (r : Fin 8192) : flatRow (rowB r) (rowT r) = r := by
  apply Fin.ext; simp only [rowB, rowT, flatRow]; omega

/-- A [4, 2048, 2048] array read by flat rows. -/
def flat (x : Fin 4 → Fin 2048 → Fin 2048 → EReal) : Fin 8192 → Fin 2048 → EReal :=
  fun r h => x (rowB r) (rowT r) h

/-! ## The two epilogues -/

/-- The squared rectifier: (max x 0) ^ 2. -/
def relu2 (x : EReal) : EReal :=
  max x (Ideal.ofBits .f32 0x00000000#32) * max x (Ideal.ofBits .f32 0x00000000#32)

/-- The logistic gate applied to a value: (1 / (1 + exp (0 - x))) * v. -/
def sigv (x v : EReal) : EReal :=
  Ideal.div (Ideal.ofBits .f32 0x3F800000#32)
    (Ideal.ofBits .f32 0x3F800000#32 + Ideal.exp (Ideal.ofBits .f32 0x00000000#32 - x)) * v

/-! ## The whole block, stage by stage, on flat rows -/

section Whole

variable (hid : Fin 4 → Fin 2048 → Fin 2048 → EReal) (tmk tmr : Fin 2048 → EReal)
  (wk : Fin 8192 → Fin 2048 → EReal) (wr : Fin 2048 → Fin 2048 → EReal) (wv : Fin 2048 → Fin 8192 → EReal)
  (nk nr : Fin 2048 → EReal) (nv : Fin 8192 → EReal)

/-- The key path's input rows. -/
def keyIn : Fin 8192 → Fin 2048 → EReal := flat (mix hid tmk)
/-- The receptance path's input rows. -/
def recIn : Fin 8192 → Fin 2048 → EReal := flat (mix hid tmr)

/-- The quantised key input (2048 = 0x45000000 entries per row). -/
def xqKey : Fin 8192 → Fin 2048 → EReal :=
  fun r => actqRow (Ideal.ofBits .f32 0x45000000#32) (keyIn hid tmk r) nk
/-- The quantised key weights (8192 * 2048 = 0x4B800000 entries). -/
def wqKey : Fin 8192 → Fin 2048 → EReal := wquant (Ideal.ofBits .f32 0x4B800000#32) wk
/-- The key activations after the squared rectifier. -/
def kAct : Fin 8192 → Fin 8192 → EReal :=
  fun r o => relu2 (mmT (xqKey hid tmk nk) (wqKey wk) r o)

/-- The quantised value input (8192 = 0x46000000 entries per row). -/
def xqVal : Fin 8192 → Fin 8192 → EReal :=
  fun r => actqRow (Ideal.ofBits .f32 0x46000000#32) (kAct hid tmk wk nk r) nv
/-- The quantised value weights (2048 * 8192 = 0x4B800000 entries). -/
def wqVal : Fin 2048 → Fin 8192 → EReal := wquant (Ideal.ofBits .f32 0x4B800000#32) wv
/-- The value rows. -/
def vAct : Fin 8192 → Fin 2048 → EReal :=
  mmT (xqVal hid tmk wk nk nv) (wqVal wv)

/-- The quantised receptance input. -/
def xqRec : Fin 8192 → Fin 2048 → EReal :=
  fun r => actqRow (Ideal.ofBits .f32 0x45000000#32) (recIn hid tmr r) nr
/-- The quantised receptance weights (2048 * 2048 = 0x4A800000 entries). -/
def wqRec : Fin 2048 → Fin 2048 → EReal := wquant (Ideal.ofBits .f32 0x4A800000#32) wr

/-- The output rows: the gate of the receptance product applied to the value rows. -/
def outFlat : Fin 8192 → Fin 2048 → EReal :=
  fun r o => sigv (mmT (xqRec hid tmr nr) (wqRec wr) r o) (vAct hid tmk wk wv nk nv r o)

/-- The whole block: the nine arguments in the order hidden, time-mix key, time-mix receptance,
    key weights, receptance weights, value weights, key gain, receptance gain, value gain. -/
def whole : Fin 4 → Fin 2048 → Fin 2048 → EReal :=
  fun b t h => outFlat hid tmk tmr wk wr wv nk nr nv (flatRow b t) h

end Whole

end Cert.Spec
-- ==== Proof.KThread.lean ====
/-
  The kernel's result, threaded through @main at the extended reals: the result buffer at the return is the reshape of region 5's
  output; each region's output array is its value function of the arrays it is entered with; between regions a buffer that no
  stretch writes and no region stages keeps its contents, and the three changes of format of the quantised weights are the
  identity. Given each region's value and the host side's arrays at region 0's entry, the result is the block's function of the
  arguments.
-/
import proofs.«174982_j50740743635387_2_alg».proof.Proof.Run
import proofs.«174982_j50740743635387_2_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.H

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)

variable (h0 : Half (F := Ideal) cfg0) (h1 : Half (F := Ideal) cfg1) (h2 : Half (F := Ideal) cfg2)
  (h3 : Half (F := Ideal) cfg3) (h4 : Half (F := Ideal) cfg4) (h5 : Half (F := Ideal) cfg5)
variable (m : (ℓ : Loc nD τ sig) → Buf (Elt Ideal) ℓ) (ρ : Dev nD → PrngReg)

/-! ## Buffers that pass a segment unchanged -/

theorem thr23 (c : Dev nD) (b : Ref sig .tc) (hw : b ∉ hostOps1_W) (ha : ∀ w, Pipeline.arrRef spec0 w ≠ b) :
    V23 h0 m ρ c b = V21 m ρ c b :=
  (StableHlo.after_of_writes_sub hostOps1 _ hostOps1_writes hw).trans (W22_of_ne h0 m ρ c b ha)
theorem thr24 (c : Dev nD) (b : Ref sig .tc) (ha : ∀ w, Pipeline.arrRef spec1 w ≠ b) :
    V24 h0 h1 m ρ c b = V23 h0 m ρ c b := W24_of_ne h0 h1 m ρ c b ha
theorem thr26 (c : Dev nD) (b : Ref sig .tc) (hw : b ∉ hostOps3_W) (ha : ∀ w, Pipeline.arrRef spec2 w ≠ b) :
    V26 h0 h1 h2 m ρ c b = V24 h0 h1 m ρ c b :=
  (StableHlo.after_of_writes_sub hostOps3 _ hostOps3_writes hw).trans (W25_of_ne h0 h1 h2 m ρ c b ha)
theorem thr27 (c : Dev nD) (b : Ref sig .tc) (ha : ∀ w, Pipeline.arrRef spec3 w ≠ b) :
    V27 h0 h1 h2 h3 m ρ c b = V26 h0 h1 h2 m ρ c b := W27_of_ne h0 h1 h2 h3 m ρ c b ha
theorem thr29 (c : Dev nD) (b : Ref sig .tc) (hw : b ∉ hostOps5_W) (ha : ∀ w, Pipeline.arrRef spec4 w ≠ b) :
    V29 h0 h1 h2 h3 h4 m ρ c b = V27 h0 h1 h2 h3 m ρ c b :=
  (StableHlo.after_of_writes_sub hostOps5 _ hostOps5_writes hw).trans (W28_of_ne h0 h1 h2 h3 h4 m ρ c b ha)

/-! ## The regions' outputs where the next region finds them -/

theorem out54 (c : Dev nD) : V23 h0 m ρ c main_v54 = (h0.dat (V21 m ρ) c).arrAt 2 cfg0.N :=
  (StableHlo.after_of_writes_sub hostOps1 _ hostOps1_writes (by decide)).trans (W22_arr h0 m ρ c 2)
theorem out56 (c : Dev nD) : V24 h0 h1 m ρ c main_v56 = (h1.dat (V23 h0 m ρ) c).arrAt 2 cfg1.N := W24_arr h0 h1 m ρ c 2
theorem out57 (c : Dev nD) : V26 h0 h1 h2 m ρ c main_v57 = (h2.dat (V24 h0 h1 m ρ) c).arrAt 2 cfg2.N :=
  (StableHlo.after_of_writes_sub hostOps3 _ hostOps3_writes (by decide)).trans (W25_arr h0 h1 h2 m ρ c 2)
theorem out59 (c : Dev nD) : V29 h0 h1 h2 h3 h4 m ρ c main_v59 = (h3.dat (V26 h0 h1 h2 m ρ) c).arrAt 2 cfg3.N :=
  (thr29 h0 h1 h2 h3 h4 m ρ c main_v59 (by decide) (by decide)).trans (W27_arr h0 h1 h2 h3 m ρ c 2)
theorem out60 (c : Dev nD) : V29 h0 h1 h2 h3 h4 m ρ c main_v60 = (h4.dat (V27 h0 h1 h2 h3 m ρ) c).arrAt 2 cfg4.N :=
  (StableHlo.after_of_writes_sub hostOps5 _ hostOps5_writes (by decide)).trans (W28_arr h0 h1 h2 h3 h4 m ρ c 2)
theorem out62 (c : Dev nD) : W30 h0 h1 h2 h3 h4 h5 m ρ c (Proc.devRef .tc main_v62) = (h5.dat (V29 h0 h1 h2 h3 h4 m ρ) c).arrAt 3 cfg5.N :=
  W30_arr h0 h1 h2 h3 h4 h5 m ρ c 3

/-! ## The three changes of format are the identity -/

theorem v55_eq (c : Dev nD) : (V23 h0 m ρ c main_v55 : S8192x2048.Idx → EReal) = (V21 m ρ c main_v28 : S8192x2048.Idx → EReal) := by
  have e1 : V23 h0 m ρ c main_v55 = ((truncf (F := Ideal) .bf16 · bitsLt_bf16_f32) : (⟨S8192x2048, .f32⟩ : BufTy).Contents (Elt Ideal) → (⟨S8192x2048, .bf16⟩ : BufTy).Contents (Elt Ideal)) (W22 h0 m ρ c (Proc.devRef .tc main_v28)) := by
    show StableHlo.after hostOps1 (W22 h0 m ρ c) (Proc.devRef .tc main_v55) = _
    after_results
  rw [e1, W22_of_ne h0 m ρ c main_v28 (by decide)]
  funext i
  simp only [truncf, Ideal.truncf_def]

theorem v58_eq (c : Dev nD) : (V26 h0 h1 h2 m ρ c main_v58 : S2048x8192.Idx → EReal) = (V21 m ρ c main_v39 : S2048x8192.Idx → EReal) := by
  have e1 : V26 h0 h1 h2 m ρ c main_v58 = ((truncf (F := Ideal) .bf16 · bitsLt_bf16_f32) : (⟨S2048x8192, .f32⟩ : BufTy).Contents (Elt Ideal) → (⟨S2048x8192, .bf16⟩ : BufTy).Contents (Elt Ideal)) (W25 h0 h1 h2 m ρ c (Proc.devRef .tc main_v39)) := by
    show StableHlo.after hostOps3 (W25 h0 h1 h2 m ρ c) (Proc.devRef .tc main_v58) = _
    after_results
  rw [e1, W25_of_ne h0 h1 h2 m ρ c main_v39 (by decide), W24_of_ne h0 h1 m ρ c main_v39 (by decide)]
  have e2 := thr23 h0 m ρ c main_v39 (by decide) (by decide)
  funext i
  simp only [truncf, Ideal.truncf_def]
  exact congrFun e2 i

theorem v61_eq (c : Dev nD) : (V29 h0 h1 h2 h3 h4 m ρ c main_v61 : S2048x2048.Idx → EReal) = (V21 m ρ c main_v50 : S2048x2048.Idx → EReal) := by
  have e1 : V29 h0 h1 h2 h3 h4 m ρ c main_v61 = ((truncf (F := Ideal) .bf16 · bitsLt_bf16_f32) : (⟨S2048x2048, .f32⟩ : BufTy).Contents (Elt Ideal) → (⟨S2048x2048, .bf16⟩ : BufTy).Contents (Elt Ideal)) (W28 h0 h1 h2 h3 h4 m ρ c (Proc.devRef .tc main_v50)) := by
    show StableHlo.after hostOps5 (W28 h0 h1 h2 h3 h4 m ρ c) (Proc.devRef .tc main_v61) = _
    after_results
  rw [e1, W28_of_ne h0 h1 h2 h3 h4 m ρ c main_v50 (by decide), W27_of_ne h0 h1 h2 h3 m ρ c main_v50 (by decide)]
  have e2 := (thr26 h0 h1 h2 m ρ c main_v50 (by decide) (by decide)).trans
    ((thr24 h0 h1 m ρ c main_v50 (by decide)).trans (thr23 h0 m ρ c main_v50 (by decide) (by decide)))
  funext i
  simp only [truncf, Ideal.truncf_def]
  exact congrFun e2 i

/-! ## The host-side arrays where the later regions find them -/

theorem v53_eq (c : Dev nD) : V24 h0 h1 m ρ c main_v53 = V21 m ρ c main_v53 :=
  (thr24 h0 h1 m ρ c main_v53 (by decide)).trans (thr23 h0 m ρ c main_v53 (by decide) (by decide))
theorem v17_eq (c : Dev nD) : V27 h0 h1 h2 h3 m ρ c main_v17 = V21 m ρ c main_v17 :=
  (thr27 h0 h1 h2 h3 m ρ c main_v17 (by decide)).trans ((thr26 h0 h1 h2 m ρ c main_v17 (by decide) (by decide)).trans
    ((thr24 h0 h1 m ρ c main_v17 (by decide)).trans (thr23 h0 m ρ c main_v17 (by decide) (by decide))))
theorem v52_eq (c : Dev nD) : V27 h0 h1 h2 h3 m ρ c main_v52 = V21 m ρ c main_v52 :=
  (thr27 h0 h1 h2 h3 m ρ c main_v52 (by decide)).trans ((thr26 h0 h1 h2 m ρ c main_v52 (by decide) (by decide)).trans
    ((thr24 h0 h1 m ρ c main_v52 (by decide)).trans (thr23 h0 m ρ c main_v52 (by decide) (by decide))))

/-- An [n0, n1] array read at a row and a column. -/
abbrev rd2 (n0 n1 : ℕ) (x : (⟨2, ![n0, n1]⟩ : Shape).Idx → EReal) (p : Fin n0) (q : Fin n1) : EReal := x (ix2 p q)

/-! ## The result buffer is region 5's output read by flat rows -/

theorem v63_eq (c : Dev nD) (b : Fin 4) (t h : Fin 2048) :
    (W31 h0 h1 h2 h3 h4 h5 m ρ c (Proc.devRef .tc main_v63) : S4x2048x2048.Idx → EReal) (ix3 b t h)
      = rd2 8192 2048 (W30 h0 h1 h2 h3 h4 h5 m ρ c (Proc.devRef .tc main_v62)) (Cert.Spec.flatRow b t) h := by
  have e1 : W31 h0 h1 h2 h3 h4 h5 m ρ c (Proc.devRef .tc main_v63)
      = (fun i => shapeCast S4x2048x2048 (W30 h0 h1 h2 h3 h4 h5 m ρ c (Proc.devRef .tc main_v62)) shapeCasts_S8192x2048_S4x2048x2048 i) := by
    show StableHlo.after hostOps6 (W30 h0 h1 h2 h3 h4 h5 m ρ c) (Proc.devRef .tc main_v63) = _
    after_results
    rfl
  rw [e1]
  show (fun i => shapeCast S4x2048x2048 (W30 h0 h1 h2 h3 h4 h5 m ρ c (Proc.devRef .tc main_v62)) shapeCasts_S8192x2048_S4x2048x2048 i) (ix3 b t h)
    = (W30 h0 h1 h2 h3 h4 h5 m ρ c (Proc.devRef .tc main_v62) : S8192x2048.Idx → EReal) (ix2 (Cert.Spec.flatRow b t) h)
  refine shapeCast_apply _ _ (ix3 b t h) (ix2 (Cert.Spec.flatRow b t) h) ?_
  rw [Shape.rowMajor_val_two, Shape.rowMajor_val_three]
  show (Cert.Spec.flatRow b t).val * 2048 + h.val = (b.val * 2048 + t.val) * 2048 + h.val
  simp only [Cert.Spec.flatRow]
  omega

/-! ## The kernel's result is the block's function of the arguments -/

open Cert.Spec in
/-- Given each region's value (its output array as its function of the arrays it is entered with) and the host side's arrays at
    region 0's entry (the two mixed inputs by flat rows, the three quantised weights, the three gains as rows), the result buffer
    at the return holds the block's function of the arguments. -/
theorem result_value (c : Dev nD)
    (hv0 : ∀ (V : Val Ideal) (c : Dev nD) (r : Fin 8192) (j : Fin 2048), rd2 8192 2048 ((h0.dat V c).arrAt 2 cfg0.N) r j
      = actqRow (Ideal.ofBits .f32 0x45000000#32) (fun k => rd2 8192 2048 (V c main_v16) r k) (fun k => rd2 1 2048 (V c main_v51) 0 k) j)
    (hv1 : ∀ (V : Val Ideal) (c : Dev nD) (r o : Fin 8192), rd2 8192 8192 ((h1.dat V c).arrAt 2 cfg1.N) r o
      = relu2 (∑ k : Fin 2048, rd2 8192 2048 (V c main_v54) r k * rd2 8192 2048 (V c main_v55) o k))
    (hv2 : ∀ (V : Val Ideal) (c : Dev nD) (r j : Fin 8192), rd2 8192 8192 ((h2.dat V c).arrAt 2 cfg2.N) r j
      = actqRow (Ideal.ofBits .f32 0x46000000#32) (fun k => rd2 8192 8192 (V c main_v56) r k) (fun k => rd2 1 8192 (V c main_v53) 0 k) j)
    (hv3 : ∀ (V : Val Ideal) (c : Dev nD) (r : Fin 8192) (o : Fin 2048), rd2 8192 2048 ((h3.dat V c).arrAt 2 cfg3.N) r o
      = ∑ k : Fin 8192, rd2 8192 8192 (V c main_v57) r k * rd2 2048 8192 (V c main_v58) o k)
    (hv4 : ∀ (V : Val Ideal) (c : Dev nD) (r : Fin 8192) (j : Fin 2048), rd2 8192 2048 ((h4.dat V c).arrAt 2 cfg4.N) r j
      = actqRow (Ideal.ofBits .f32 0x45000000#32) (fun k => rd2 8192 2048 (V c main_v17) r k) (fun k => rd2 1 2048 (V c main_v52) 0 k) j)
    (hv5 : ∀ (V : Val Ideal) (c : Dev nD) (r : Fin 8192) (o : Fin 2048), rd2 8192 2048 ((h5.dat V c).arrAt 3 cfg5.N) r o
      = sigv (∑ k : Fin 2048, rd2 8192 2048 (V c main_v60) r k * rd2 2048 2048 (V c main_v61) o k) (rd2 8192 2048 (V c main_v59) r o))
    (hid : Fin 4 → Fin 2048 → Fin 2048 → EReal) (tmk tmr : Fin 2048 → EReal)
    (wk : Fin 8192 → Fin 2048 → EReal) (wr : Fin 2048 → Fin 2048 → EReal) (wv : Fin 2048 → Fin 8192 → EReal)
    (nk nr : Fin 2048 → EReal) (nv : Fin 8192 → EReal)
    (hs16 : ∀ (r : Fin 8192) (k : Fin 2048), rd2 8192 2048 (V21 m ρ c main_v16) r k = keyIn hid tmk r k)
    (hs17 : ∀ (r : Fin 8192) (k : Fin 2048), rd2 8192 2048 (V21 m ρ c main_v17) r k = recIn hid tmr r k)
    (hs28 : ∀ (o : Fin 8192) (k : Fin 2048), rd2 8192 2048 (V21 m ρ c main_v28) o k = wqKey wk o k)
    (hs39 : ∀ (o : Fin 2048) (k : Fin 8192), rd2 2048 8192 (V21 m ρ c main_v39) o k = wqVal wv o k)
    (hs50 : ∀ (o k : Fin 2048), rd2 2048 2048 (V21 m ρ c main_v50) o k = wqRec wr o k)
    (hs51 : ∀ k : Fin 2048, rd2 1 2048 (V21 m ρ c main_v51) 0 k = nk k)
    (hs52 : ∀ k : Fin 2048, rd2 1 2048 (V21 m ρ c main_v52) 0 k = nr k)
    (hs53 : ∀ k : Fin 8192, rd2 1 8192 (V21 m ρ c main_v53) 0 k = nv k)
    (b : Fin 4) (t h : Fin 2048) :
    (W31 h0 h1 h2 h3 h4 h5 m ρ c (Proc.devRef .tc main_v63) : S4x2048x2048.Idx → EReal) (ix3 b t h) = whole hid tmk tmr wk wr wv nk nr nv b t h := by
  have x54 : ∀ (r : Fin 8192) (k : Fin 2048), rd2 8192 2048 (V23 h0 m ρ c main_v54) r k = xqKey hid tmk nk r k := by
    intro r k
    rw [out54, hv0]
    have ex : (fun k' => rd2 8192 2048 (V21 m ρ c main_v16) r k') = keyIn hid tmk r := funext fun k' => hs16 r k'
    have eg : (fun k' => rd2 1 2048 (V21 m ρ c main_v51) 0 k') = nk := funext fun k' => hs51 k'
    rw [ex, eg]
    rfl
  have x55 : ∀ (o : Fin 8192) (k : Fin 2048), rd2 8192 2048 (V23 h0 m ρ c main_v55) o k = wqKey wk o k := by
    intro o k; rw [v55_eq h0 m ρ c]; exact hs28 o k
  have x56 : ∀ (r o : Fin 8192), rd2 8192 8192 (V24 h0 h1 m ρ c main_v56) r o = kAct hid tmk wk nk r o := by
    intro r o
    rw [out56, hv1]
    unfold kAct mmT
    refine congrArg relu2 ?_
    exact Finset.sum_congr rfl fun k _ => by rw [x54, x55]
  have x57 : ∀ (r j : Fin 8192), rd2 8192 8192 (V26 h0 h1 h2 m ρ c main_v57) r j = xqVal hid tmk wk nk nv r j := by
    intro r j
    rw [out57, hv2]
    have ex : (fun k' => rd2 8192 8192 (V24 h0 h1 m ρ c main_v56) r k') = kAct hid tmk wk nk r := funext fun k' => x56 r k'
    have eg : (fun k' => rd2 1 8192 (V24 h0 h1 m ρ c main_v53) 0 k') = nv := funext fun k' => by rw [v53_eq]; exact hs53 k'
    rw [ex, eg]
    rfl
  have x58 : ∀ (o : Fin 2048) (k : Fin 8192), rd2 2048 8192 (V26 h0 h1 h2 m ρ c main_v58) o k = wqVal wv o k := by
    intro o k; rw [v58_eq h0 h1 h2 m ρ c]; exact hs39 o k
  have x59 : ∀ (r : Fin 8192) (o : Fin 2048), rd2 8192 2048 (V29 h0 h1 h2 h3 h4 m ρ c main_v59) r o = vAct hid tmk wk wv nk nv r o := by
    intro r o
    rw [out59, hv3]
    show _ = mmT (xqVal hid tmk wk nk nv) (wqVal wv) r o
    exact Finset.sum_congr rfl fun k _ => by rw [x57, x58]
  have x60 : ∀ (r : Fin 8192) (k : Fin 2048), rd2 8192 2048 (V29 h0 h1 h2 h3 h4 m ρ c main_v60) r k = xqRec hid tmr nr r k := by
    intro r k
    rw [out60, hv4]
    have ex : (fun k' => rd2 8192 2048 (V27 h0 h1 h2 h3 m ρ c main_v17) r k') = recIn hid tmr r := funext fun k' => by rw [v17_eq]; exact hs17 r k'
    have eg : (fun k' => rd2 1 2048 (V27 h0 h1 h2 h3 m ρ c main_v52) 0 k') = nr := funext fun k' => by rw [v52_eq]; exact hs52 k'
    rw [ex, eg]
    rfl
  have x61 : ∀ (o k : Fin 2048), rd2 2048 2048 (V29 h0 h1 h2 h3 h4 m ρ c main_v61) o k = wqRec wr o k := by
    intro o k; rw [v61_eq h0 h1 h2 h3 h4 m ρ c]; exact hs50 o k
  rw [v63_eq, out62, hv5]
  show sigv _ _ = sigv (mmT (xqRec hid tmr nr) (wqRec wr) (flatRow b t) h) (vAct hid tmk wk wv nk nv (flatRow b t) h)
  rw [x59]
  refine congrArg (fun s => sigv s _) ?_
  exact Finset.sum_congr rfl fun k _ => by rw [x60, x61]

end Cert.KernelIdeal.H

end
-- ==== Proof.LibActqRows.lean ====
/-
  Rows of a matrix read at an index. For a matrix of shape [a, b] at the exact (extended real) values: a sum along
  the rows is, at row p, the sum of that row's b entries; a maximum along the rows is, at row p, the maximum of the
  row's entries started from the accumulator's value; a vector [a] given a trailing unit axis reads, at (p, 0), the
  vector at p; a column [a, 1] spread over [a, b] reads, at (p, q), the column at (p, 0). Also the absolute value,
  reciprocal square root and round-to-nearest-even of a vector read at an index.
-/
import Idealize.ShloMosaic.Lib.ValueLayout
import Idealize.ShloMosaic.PureOps.Ideal.Laws

/-!
# Rows of a matrix: the layout operations and reductions a row-wise kernel reads through

A matrix `[a, b]` is reduced along its rows to a vector `[a]`, the vector is given a trailing unit axis `[a, 1]`,
and the column is spread back over the row, `[a, 1] → [a, b]`. Each lemma here reads one of those operations at an
index written by its coordinates: the reduction at row `p` is the sum, or the maximum, over the row's entries; the
column at `(p, 0)` is the vector at `p`; the spread column at `(p, q)` is the column at `(p, 0)`.
-/

noncomputable section

open scoped BigOperators

namespace Cert.ActqRows

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over row `p` whose coordinate along the row is `k` is `(p, k)`. -/
theorem lift_row {a b : ℕ} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-- A sum along the rows of an `[a, b]` matrix, at the exact values: at row `p`, the sum of the row's entries. -/
theorem rowSum_apply {a b : ℕ} (v : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (p : Fin a) :
    multiReduction .add [1] ⟨1, ![a]⟩ v acc h hφ hacc (ix1 p) = ∑ k : Fin b, v (ix2 p k) := by
  refine (Ideal.multiReduction_add_single v acc h hφ hacc (ix1 p)).trans ?_
  show (∑ k : Fin b, v (h.lift (ix1 p) k)) = _
  exact Finset.sum_congr rfl fun k _ => congrArg v (lift_row h p k)

/-- A maximum along the rows of an `[a, b]` matrix, at the exact values: at row `p`, the maximum of the row's
    entries started from the accumulator's value. -/
theorem rowMax_apply {a b : ℕ} (v : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) (fun k => v (ix2 p k)) := by
  refine (Ideal.multiReduction_maximumf_single v acc h hφ hacc (ix1 p)).trans ?_
  show (Finset.univ : Finset (Fin b)).fold max (Ideal.ofBits .f32 acc) (fun k => v (h.lift (ix1 p) k)) = _
  exact congrArg (fun f => Finset.fold max (Ideal.ofBits .f32 acc) f (Finset.univ : Finset (Fin b))) (funext fun k => congrArg v (lift_row h p k))

/-! ## The pointwise operations the library does not read at an index -/

variable {s : Shape} {φ : FTy}

theorem absf_apply (x : FVec Ideal s φ) (i : s.Idx) : absf x i = max (x i) (-(x i)) := rfl
theorem rsqrt_apply (x : FVec Ideal s φ) (i : s.Idx) : rsqrt x i = Ideal.rsqrt (x i) := rfl
theorem roundeven_apply (x : FVec Ideal s φ) (i : s.Idx) : roundeven x i = Ideal.liftRound Ideal.roundHalfEven (x i) := rfl

end Cert.ActqRows

end
-- ==== Proof.LibActqBody.lean ====
/-
  Row-wise normalisation and 8-bit quantisation of a block of rows, at the exact (extended real) values, for any
  extents [a, b]. The block's arithmetic as vector operations — the column of reciprocal root mean squares, the
  normalised block times the gain row, the column of quantisation scales 127 / max (1e-5, the row's largest
  magnitude), and the rounded, clamped and rescaled block — is read at an entry (p, q): it is entry q of the
  quantised row p, a function of row p of the block and of the gain row alone.
-/
import proofs.«174982_j50740743635387_2_alg».proof.Proof.LibActqRows
import proofs.«174982_j50740743635387_2_alg».proof.Proof.Spec

noncomputable section

open scoped BigOperators

namespace Cert.ActqRows

open Idealize.ShloMosaic Idealize.ShloMosaic.ValueIdx

variable {a b : ℕ} (nw : BitVec 32)
  (hr : (⟨2, ![a, b]⟩ : Shape).Reduces [1] ⟨1, ![a]⟩)
  (hc : (⟨1, ![a]⟩ : Shape).ShapeCasts ⟨2, ![a, 1]⟩)
  (hb : (⟨2, ![a, 1]⟩ : Shape).Broadcasts ⟨2, ![a, b]⟩)
  (hg : (⟨2, ![1, b]⟩ : Shape).Broadcasts ⟨2, ![a, b]⟩)
  (hφ : FKind.Formats .f32)
  (ha : (0x00000000#32 : BitVec 32) = FKind.add.neutral .f32 hφ)
  (hm : (0xFF800000#32 : BitVec 32) = FKind.maximumf.neutral .f32 hφ)
  (ht : FTy.bits .bf16 < FTy.bits .f32)

/-- The column of reciprocal root mean squares of the rows: 1 / sqrt (sum of squares / n + 1e-8), `n` the word `nw`. -/
def rsCol (x : FVec Ideal ⟨2, ![a, b]⟩ .f32) : FVec Ideal ⟨2, ![a, 1]⟩ .f32 :=
  rsqrt (addf (divf (shapeCast ⟨2, ![a, 1]⟩ (multiReduction .add [1] ⟨1, ![a]⟩ (mulf x x) 0x00000000#32 hr hφ ha) hc)
    (broadcast ⟨2, ![a, 1]⟩ (Scalar.ofBits .f32 nw))) (broadcast ⟨2, ![a, 1]⟩ (Scalar.ofBits .f32 0x322BCC77#32)))

/-- The block normalised row by row and multiplied by the gain row. -/
def xnBlk (x : FVec Ideal ⟨2, ![a, b]⟩ .f32) (g : FVec Ideal ⟨2, ![1, b]⟩ .f32) : FVec Ideal ⟨2, ![a, b]⟩ .f32 :=
  mulf (mulf x (broadcastTo ⟨2, ![a, b]⟩ (rsCol nw hr hc hφ ha x) hb)) (broadcastTo ⟨2, ![a, b]⟩ g hg)

/-- The column of quantisation scales of the rows: 127 / max (1e-5, the row's largest magnitude). -/
def scCol (x : FVec Ideal ⟨2, ![a, b]⟩ .f32) (g : FVec Ideal ⟨2, ![1, b]⟩ .f32) : FVec Ideal ⟨2, ![a, 1]⟩ .f32 :=
  divf (broadcast ⟨2, ![a, 1]⟩ (Scalar.ofBits .f32 0x42FE0000#32)) (maximumf (broadcast ⟨2, ![a, 1]⟩ (Scalar.ofBits .f32 0x3727C5AC#32))
    (shapeCast ⟨2, ![a, 1]⟩ (multiReduction .maximumf [1] ⟨1, ![a]⟩ (absf (xnBlk nw hr hc hb hg hφ ha x g)) 0xFF800000#32 hr hφ hm) hc))

/-- The quantised block: the normalised block times the scale column, rounded to the nearest integer, clamped to
    [-128, 127] and divided by the scale column again. -/
def quant (x : FVec Ideal ⟨2, ![a, b]⟩ .f32) (g : FVec Ideal ⟨2, ![1, b]⟩ .f32) : FVec Ideal ⟨2, ![a, b]⟩ .bf16 :=
  truncf .bf16 (divf (minimumf (broadcast ⟨2, ![a, b]⟩ (Scalar.ofBits .f32 0x42FE0000#32)) (maximumf (broadcast ⟨2, ![a, b]⟩ (Scalar.ofBits .f32 0xC3000000#32))
      (roundeven (mulf (xnBlk nw hr hc hb hg hφ ha x g) (broadcastTo ⟨2, ![a, b]⟩ (scCol nw hr hc hb hg hφ ha hm x g) hb)))))
    (broadcastTo ⟨2, ![a, b]⟩ (scCol nw hr hc hb hg hφ ha hm x g) hb)) ht

/-- The reciprocal root mean square of row `p`. -/
theorem rsCol_apply (x : FVec Ideal ⟨2, ![a, b]⟩ .f32) (p : Fin a) :
    rsCol nw hr hc hφ ha x (ix2 p (0 : Fin 1)) = Cert.Spec.actqRs (Ideal.ofBits .f32 nw) (fun k : Fin b => x (ix2 p k)) := by
  unfold rsCol Cert.Spec.actqRs Cert.Spec.actqVar
  simp only [rsqrt_apply, addf_apply, divf_apply, broadcast_apply, shapeCast_a_a1_apply, Ideal.ofBits_def]
  exact congrArg (fun s => Ideal.rsqrt (Ideal.div s (Ideal.ofBits .f32 nw) + Ideal.ofBits .f32 0x322BCC77#32))
    (rowSum_apply (mulf x x) _ hr hφ ha p)

/-- The normalised block at `(p, q)`. -/
theorem xnBlk_apply (x : FVec Ideal ⟨2, ![a, b]⟩ .f32) (g : FVec Ideal ⟨2, ![1, b]⟩ .f32) (p : Fin a) (q : Fin b) :
    xnBlk nw hr hc hb hg hφ ha x g (ix2 p q)
      = Cert.Spec.actqXn (Ideal.ofBits .f32 nw) (fun k : Fin b => x (ix2 p k)) (fun k : Fin b => g (ix2 (0 : Fin 1) k)) q := by
  unfold xnBlk Cert.Spec.actqXn
  simp only [mulf_apply, broadcastTo_a1_ab_apply, broadcastTo_1b_ab_apply, rsCol_apply]

/-- The quantisation scale of row `p`. -/
theorem scCol_apply (x : FVec Ideal ⟨2, ![a, b]⟩ .f32) (g : FVec Ideal ⟨2, ![1, b]⟩ .f32) (p : Fin a) :
    scCol nw hr hc hb hg hφ ha hm x g (ix2 p (0 : Fin 1))
      = Cert.Spec.actqScale (Ideal.ofBits .f32 nw) (fun k : Fin b => x (ix2 p k)) (fun k : Fin b => g (ix2 (0 : Fin 1) k)) := by
  unfold scCol Cert.Spec.actqScale Cert.Spec.actqAmax Cert.Spec.eabs
  simp only [divf_apply, maximumf_apply, broadcast_apply, shapeCast_a_a1_apply, Ideal.ofBits_def]
  refine congrArg (fun s => Ideal.div (Ideal.ofBits .f32 0x42FE0000#32) (max (Ideal.ofBits .f32 0x3727C5AC#32) s)) ?_
  refine (rowMax_apply (absf (xnBlk nw hr hc hb hg hφ ha x g)) _ hr hφ hm p).trans ?_
  exact congrArg (fun f => Finset.fold max (Ideal.ofBits .f32 0xFF800000#32) f (Finset.univ : Finset (Fin b)))
    (funext fun k => by simp only [absf_apply, xnBlk_apply])

/-- The quantised block at `(p, q)` is entry `q` of the quantised row `p` of the block, against the gain row. -/
theorem quant_apply (x : FVec Ideal ⟨2, ![a, b]⟩ .f32) (g : FVec Ideal ⟨2, ![1, b]⟩ .f32) (p : Fin a) (q : Fin b) :
    quant nw hr hc hb hg hφ ha hm ht x g (ix2 p q)
      = Cert.Spec.actqRow (Ideal.ofBits .f32 nw) (fun k : Fin b => x (ix2 p k)) (fun k : Fin b => g (ix2 (0 : Fin 1) k)) q := by
  unfold quant Cert.Spec.actqRow
  simp only [truncf_apply, divf_apply, minimumf_apply, maximumf_apply, broadcast_apply, roundeven_apply, mulf_apply,
    broadcastTo_a1_ab_apply, xnBlk_apply, scCol_apply, Ideal.ofBits_def]

end Cert.ActqRows

end
-- ==== Proof.R0Value.lean ====
import proofs.«174982_j50740743635387_2_alg».proof.Proof.R0
import proofs.«174982_j50740743635387_2_alg».proof.Proof.Spec
import proofs.«174982_j50740743635387_2_alg».proof.Proof.LibActqBody
import Idealize.ShloMosaic.Lib.Pipeline.Value
import Idealize.ShloMosaic.Lib.Tactic

/-!
# The value of the activation-quantisation region 0

At the exact values the region's output array, after all 16 grid points, holds in row `r` the quantised row of
the input's row `r`: the row is normalised by its reciprocal root mean square (the mean over 2048 entries), multiplied
entry by entry by the gain row, scaled so that its largest magnitude becomes 127, rounded to the nearest integer,
clamped to [-128, 127] and scaled back. Point `t` computes rows `512 t … 512 t + 511`; the 16 blocks of 512 rows
tile the 8192 rows of the array.
-/

set_option maxRecDepth 16384

noncomputable section

open scoped BigOperators

namespace Cert.KernelIdeal.H

open Cert.KernelIdeal Cert.KernelIdeal.Gen
open Idealize.ShloMosaic Idealize.ShloMosaic.TcCoe Idealize.SL.Sem Idealize.ShloMosaic.ValueIdx
open Idealize.ShloMosaic.Pipeline (Dat)
open Cert.ActqRows

variable (V : (c : Dev nD) → (b : Ref sig .tc) → Buf (Elt Ideal) ((c : Thread nD τ).loc b))

/-! ## One block: the body's arithmetic at an entry -/

/-- The body's stored value is the quantised block of its two loads: the printed operations are, one for one, the
    vector operations of the row-wise quantisation at extents [512, 2048]. -/
theorem pay0_split (x0 : Vec Ideal S512x2048 .f32) (x1 : Vec Ideal S1x2048 .f32) :
    k0_pay1 (F := Ideal) x0 x1
      = quant (a := 512) (b := 2048) 0x45000000#32 reduces_S512x2048_S512 shapeCasts_S512_S512x1 broadcasts_S512x1_S512x2048 broadcasts_S1x2048_S512x2048
          (.inl rfl) rfl rfl bitsLt_bf16_f32 x0 x1 := by
  unfold k0_pay1 quant scCol xnBlk rsCol
  simp only [shapeCast_self]

/-- The stored block at `(p, q)` is entry `q` of the quantised row `p` of the loaded block, against the loaded gain row. -/
theorem pay0_apply (x0 : Vec Ideal S512x2048 .f32) (x1 : Vec Ideal S1x2048 .f32) (p : Fin 512) (q : Fin 2048) :
    k0_pay1 (F := Ideal) x0 x1 (ix2 p q)
      = Cert.Spec.actqRow (Ideal.ofBits .f32 0x45000000#32) (fun k : Fin 2048 => x0 (ix2 p k)) (fun k : Fin 2048 => x1 (ix2 (0 : Fin 1) k)) q :=
  (congrFun (pay0_split x0 x1) (ix2 p q)).trans
    (quant_apply (a := 512) (b := 2048) 0x45000000#32 reduces_S512x2048_S512 shapeCasts_S512_S512x1 broadcasts_S512x1_S512x2048 broadcasts_S1x2048_S512x2048
      (.inl rfl) rfl rfl bitsLt_bf16_f32 x0 x1 p q)

/-! ## The blocks as rows of the arrays -/

theorem hz0 : (![0, 0] : Fin 2 → Nat) = fun _ => 0 := funext fun a => by fin_cases a <;> rfl

/-- The printed index maps over the grid: point `t` takes block `t` of the rows of the input and of the output, and
    the one block of the gain row. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input window's block at point `t` is rows `512 t … 512 t + 511` of the input array. -/
theorem iblk0_0_apply (c : Dev nD) (t : Fin cfg0.N) (x : S512x2048.Idx) (k : S8192x2048.Idx)
    (hk0 : (k 0).val = 512 * t.val + (x 0).val) (hk1 : (k 1).val = (x 1).val) :
    (iblk0 V c 0 t : Vec Ideal S512x2048 .f32) x = (V c main_v16 : S8192x2048.Idx → EReal) k := by
  obtain ⟨e0, e1, -, -, -, -⟩ := idx_facts0 t
  unfold iblk0
  rw [View.read_apply]
  show V c main_v16 _ = V c main_v16 _
  congr 1
  funext a
  apply Fin.ext
  match a with
  | ⟨0, _⟩ => show win0_0.index t 0 * 512 + 1 * (x 0).val = (k 0).val; rw [e0, hk0]; omega
  | ⟨1, _⟩ => show win0_0.index t 1 * 2048 + 1 * (x 1).val = (k 1).val; rw [e1, hk1]; omega

/-- The gain window's block at every point is the gain row. -/
theorem iblk0_1_apply (c : Dev nD) (t : Fin cfg0.N) (x : S1x2048.Idx) :
    (iblk0 V c 1 t : Vec Ideal S1x2048 .f32) x = (V c main_v51 : S1x2048.Idx → EReal) x := by
  obtain ⟨-, -, e0, e1, -, -⟩ := idx_facts0 t
  unfold iblk0
  rw [View.read_apply]
  show V c main_v51 _ = V c main_v51 _
  congr 1
  funext a
  apply Fin.ext
  match a with
  | ⟨0, _⟩ => show win0_1.index t 0 * 1 + 1 * (x 0).val = (x 0).val; rw [e0]; omega
  | ⟨1, _⟩ => show win0_1.index t 1 * 2048 + 1 * (x 1).val = (x 1).val; rw [e1]; omega

/-! ## The whole array -/

/-- The quantised rows of a whole array `X` against the gain row `G`, entry by entry. -/
def actqArr0 (X : S8192x2048.Idx → EReal) (G : S1x2048.Idx → EReal) : S8192x2048.Idx → EReal := fun i =>
  Cert.Spec.actqRow (Ideal.ofBits .f32 0x45000000#32) (fun k : Fin 2048 => X (ix2 (⟨(i 0).val, idx2_lt0 i⟩ : Fin 8192) k))
    (fun k : Fin 2048 => G (ix2 (0 : Fin 1) k)) ⟨(i 1).val, idx2_lt1 i⟩

/-- What the body leaves at entry `y` of point `t`'s block is the quantised array at the entry `i` of the array that
    `y` is: row `512 t + y 0`, column `y 1`. -/
theorem block0_apply (c : Dev nD) (t : Fin cfg0.N) (y : S512x2048.Idx) (i : S8192x2048.Idx)
    (hi0 : (i 0).val = 512 * t.val + (y 0).val) (hi1 : (i 1).val = (y 1).val) :
    k0_pay1 (F := Ideal) (iblk0 V c 0 t) (iblk0 V c 1 t) y = actqArr0 (V c main_v16) (V c main_v51) i := by
  obtain ⟨p, q, rfl⟩ : ∃ (p : Fin 512) (q : Fin 2048), y = ix2 p q := ⟨y 0, y 1, eq_ix2 y⟩
  refine (pay0_apply (iblk0 V c 0 t) (iblk0 V c 1 t) p q).trans ?_
  unfold actqArr0
  have e0 : (fun k : Fin 2048 => (iblk0 V c 0 t : Vec Ideal S512x2048 .f32) (ix2 p k))
      = fun k : Fin 2048 => (V c main_v16 : S8192x2048.Idx → EReal) (ix2 (⟨(i 0).val, idx2_lt0 i⟩ : Fin 8192) k) :=
    funext fun k => iblk0_0_apply V c t (ix2 p k) _ hi0 rfl
  have e1 : (fun k : Fin 2048 => (iblk0 V c 1 t : Vec Ideal S1x2048 .f32) (ix2 (0 : Fin 1) k))
      = fun k : Fin 2048 => (V c main_v51 : S1x2048.Idx → EReal) (ix2 (0 : Fin 1) k) :=
    funext fun k => iblk0_1_apply V c t (ix2 (0 : Fin 1) k)
  have e2 : q = (⟨(i 1).val, idx2_lt1 i⟩ : Fin 2048) := Fin.ext hi1.symm
  rw [e0, e1, e2]

/-- What point `t` writes back is block `t` of the quantised array. -/
theorem flushed0_eq (c : Dev nD) (t : Fin cfg0.N) :
    (dat0 (F := Ideal) V c).flushed 2 t = ((cfg0.win 2).blk t).view.read (Elt Ideal) (actqArr0 (V c main_v16) (V c main_v51)) := by
  show (cfg0.win 2).cut (grid0.coords t) ((dat0 (F := Ideal) V c).after 2 t) = _
  rw [after0_2]
  unfold out0_2
  rw [View.canon_unit_zero hz0]
  simp only [View.ld_unit_zero (S := S512x2048) hz0, View.ld_unit_zero (S := S1x2048) hz0]
  obtain ⟨-, -, -, -, e0, e1⟩ := idx_facts0 t
  funext y
  refine block0_apply V c t y _ ?_ ?_
  · show win0_2.index t (0 : Fin 2) * 512 + 1 * (y 0).val = 512 * t.val + (y 0).val
    rw [e0]; omega
  · show win0_2.index t (1 : Fin 2) * 2048 + 1 * (y 1).val = (y 1).val
    rw [e1]; omega

/-- An index of the array is in point `t`'s block iff each coordinate is in the block's range on its axis. -/
theorem mem_blk0 (t : Fin cfg0.N) (i : S8192x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v54).slice (win0_2.rect t)).set ↔ _
  rw [View.set_slice_whole, Rect.mem_set_unit]
  exact Iff.rfl

/-- Every entry of the array is in the block of the point its row falls in: row `r` is in block `r / 512`. -/
theorem cover0 (i : S8192x2048.Idx) : ∃ t : Fin cfg0.N, (cfg0.win 2).flush t = true ∧ i ∈ ((cfg0.win 2).blk t).view.set := by
  have h0 : (i 0).val < 8192 := idx2_lt0 i
  have h1 : (i 1).val < 2048 := idx2_lt1 i
  have hN : cfg0.N = 16 := N_0
  refine ⟨⟨(i 0).val / 512, by rw [hN]; omega⟩, flush0_2 _, ?_⟩
  obtain ⟨-, -, -, -, e0, e1⟩ := idx_facts0 ⟨(i 0).val / 512, by rw [hN]; omega⟩
  rw [mem_blk0]
  intro a
  match a with
  | ⟨0, _⟩ =>
    show win0_2.index _ (0 : Fin 2) * 512 ≤ (i 0).val ∧ (i 0).val < win0_2.index _ (0 : Fin 2) * 512 + 512
    rw [e0]; show (i 0).val / 512 * 512 ≤ (i 0).val ∧ (i 0).val < (i 0).val / 512 * 512 + 512; omega
  | ⟨1, _⟩ =>
    show win0_2.index _ (1 : Fin 2) * 2048 ≤ (i 1).val ∧ (i 1).val < win0_2.index _ (1 : Fin 2) * 2048 + 2048
    rw [e1]; omega

/-- So after the whole grid the output array is the quantised input array. -/
theorem final0 (c : Dev nD) : (dat0 (F := Ideal) V c).arrAt 2 cfg0.N = actqArr0 (V c main_v16) (V c main_v51) :=
  (dat0 (F := Ideal) V c).arrAt_eq_of_cover 2 (actqArr0 (V c main_v16) (V c main_v51)) (fun t _ => flushed0_eq V c t) cover0

/-- The output array after the whole grid, entry by entry: row `r` is the quantised row `r` of the input. -/
theorem value0 (c : Dev nD) (r : Fin 8192) (j : Fin 2048) :
    (dat0 (F := Ideal) V c).arrAt 2 cfg0.N (ValueIdx.ix2 r j)
      = Cert.Spec.actqRow (Ideal.ofBits .f32 0x45000000#32) (fun k => V c main_v16 (ValueIdx.ix2 r k)) (fun k => V c main_v51 (ValueIdx.ix2 0 k)) j := by
  rw [final0]
  rfl

end Cert.KernelIdeal.H

end
-- ==== Proof.R1Value.lean ====
/-
  Region 1's output array after its whole grid, at the exact extended reals: entry (r, o) is the squared positive
  part of the inner product of row r of the activations with row o of the weights. First the body's result at one
  entry of a block (the product into a zero accumulator is the inner product of two rows), then each block as the
  arrays' entries at the block's offsets, then the blocks tile the array.
-/
import proofs.«174982_j50740743635387_2_alg».proof.Proof.R1
import proofs.«174982_j50740743635387_2_alg».proof.Proof.Spec
import Idealize.ShloMosaic.Lib.ValueIdx
import Idealize.ShloMosaic.Lib.Pipeline.Value
import Idealize.ShloMosaic.PureOps.Ideal.Laws
set_option maxRecDepth 16384
noncomputable section
namespace Cert.KernelIdeal.H
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! # Region 1's value at the exact extended reals

The output array after the grid, entry (r, o): the squared positive part of the inner product of row r of the
activations with row o of the weights. -/

/-! ## The product's operand indices: output entry (p, q) with contraction index k reads (p, k) and (q, k) -/

theorem lhs1_0 (j : S2048x512.Idx) (q : dot_S2048x2048_S512x2048_S2048x512_1_1_0_0_n_n.contr.Idx) :
    (dot_S2048x2048_S512x2048_S2048x512_1_1_0_0_n_n.lhsIdx j q 0).val = (j 0).val := by
  unfold DotDims.lhsIdx
  rw [dif_neg (show ¬(0 : Fin S2048x2048.rank) ∈ dot_S2048x2048_S512x2048_S2048x512_1_1_0_0_n_n.lhsBatch by decide), dif_pos (show (0 : Fin S2048x2048.rank) ∈ dot_S2048x2048_S512x2048_S2048x512_1_1_0_0_n_n.lhsNonContracting by decide)]
  rfl
theorem lhs1_1 (j : S2048x512.Idx) (q : dot_S2048x2048_S512x2048_S2048x512_1_1_0_0_n_n.contr.Idx) :
    (dot_S2048x2048_S512x2048_S2048x512_1_1_0_0_n_n.lhsIdx j q 1).val = (q ⟨0, by decide⟩).val :=
  dot_S2048x2048_S512x2048_S2048x512_1_1_0_0_n_n.lhsIdx_val_of_single rfl j q
theorem rhs1_0 (j : S2048x512.Idx) (q : dot_S2048x2048_S512x2048_S2048x512_1_1_0_0_n_n.contr.Idx) :
    (dot_S2048x2048_S512x2048_S2048x512_1_1_0_0_n_n.rhsIdx j q 0).val = (j 1).val := by
  unfold DotDims.rhsIdx
  rw [dif_neg (show ¬(0 : Fin S512x2048.rank) ∈ dot_S2048x2048_S512x2048_S2048x512_1_1_0_0_n_n.rhsBatch by decide), dif_pos (show (0 : Fin S512x2048.rank) ∈ dot_S2048x2048_S512x2048_S2048x512_1_1_0_0_n_n.rhsNonContracting by decide)]
  rfl
theorem rhs1_1 (j : S2048x512.Idx) (q : dot_S2048x2048_S512x2048_S2048x512_1_1_0_0_n_n.contr.Idx) :
    (dot_S2048x2048_S512x2048_S2048x512_1_1_0_0_n_n.rhsIdx j q 1).val = (q ⟨0, by decide⟩).val :=
  dot_S2048x2048_S512x2048_S2048x512_1_1_0_0_n_n.rhsIdx_val_of_single rfl j q

/-- The product into the zero accumulator, read at entry (p, q): the inner product of row p with row q. -/
theorem mm1_apply (y0 : FVec Ideal S2048x2048 .bf16) (y1 : FVec Ideal S512x2048 .bf16) (p : Fin 2048) (q : Fin 512) :
    matmul dot_S2048x2048_S512x2048_S2048x512_1_1_0_0_n_n none y0 y1 (constant (F := Ideal) S2048x512 .f32 0x00000000#32) (ix2 p q)
      = ∑ k : Fin 2048, y0 (ix2 p k) * y1 (ix2 q k) := by
  simp only [matmul]
  rw [Ideal.matmul_constant_zero_apply, ← Equiv.sum_comp (ValueIdx.contrEquiv1 dot_S2048x2048_S512x2048_S2048x512_1_1_0_0_n_n 2048 rfl rfl).symm]
  refine Finset.sum_congr rfl fun k _ => ?_
  have hk := ValueIdx.contrEquiv1_symm_val dot_S2048x2048_S512x2048_S2048x512_1_1_0_0_n_n 2048 rfl rfl k
  have el : dot_S2048x2048_S512x2048_S2048x512_1_1_0_0_n_n.lhsIdx (ix2 p q) ((ValueIdx.contrEquiv1 dot_S2048x2048_S512x2048_S2048x512_1_1_0_0_n_n 2048 rfl rfl).symm k) = ix2 p k := funext fun a => Fin.ext (by
    match a with
    | ⟨0, _⟩ => exact lhs1_0 _ _
    | ⟨1, _⟩ => exact (lhs1_1 _ _).trans hk)
  have er : dot_S2048x2048_S512x2048_S2048x512_1_1_0_0_n_n.rhsIdx (ix2 p q) ((ValueIdx.contrEquiv1 dot_S2048x2048_S512x2048_S2048x512_1_1_0_0_n_n 2048 rfl rfl).symm k) = ix2 q k := funext fun a => Fin.ext (by
    match a with
    | ⟨0, _⟩ => exact rhs1_0 _ _
    | ⟨1, _⟩ => exact (rhs1_1 _ _).trans hk)
  rw [el, er]

/-- The accumulator after the body at entry (p, q): zero plus the inner product. -/
theorem acc1_apply (x0 : FVec Ideal S2048x2048 .bf16) (x1 : FVec Ideal S512x2048 .bf16) (p : Fin 2048) (q : Fin 512) :
    acc1 (F := Ideal) x0 x1 (ix2 p q) = ∑ k : Fin 2048, x0 (ix2 p k) * x1 (ix2 q k) := by
  unfold acc1 k1_pay2 k1_pay1
  simp only [shapeCast_self, View.ld_unit_zero (S := S2048x2048) hz1, View.ld_unit_zero (S := S512x2048) hz1]
  refine (addf_apply _ _ _).trans ?_
  refine (congrArg₂ (· + ·) (broadcast_apply _ _) (mm1_apply x0 x1 p q)).trans ?_
  show Ideal.ofBits .f32 0x00000000#32 + _ = _
  rw [Ideal.ofBits_zero_f32, zero_add]

/-- The output block after the body at entry (p, q). -/
theorem out1_2_apply (x0 : FVec Ideal S2048x2048 .bf16) (x1 : FVec Ideal S512x2048 .bf16) (p : Fin 2048) (q : Fin 512) :
    out1_2 (F := Ideal) x0 x1 (ix2 p q) = Cert.Spec.relu2 (∑ k : Fin 2048, x0 (ix2 p k) * x1 (ix2 q k)) := by
  unfold out1_2
  rw [View.canon_unit_zero hz1]
  unfold k1_pay3
  refine (mulf_apply _ _ _).trans ?_
  unfold Cert.Spec.relu2
  have e : maximumf (acc1 (F := Ideal) x0 x1) (broadcast S2048x512 (Scalar.ofBits (F := Ideal) .f32 0x00000000#32)) (ix2 p q)
      = max (∑ k : Fin 2048, x0 (ix2 p k) * x1 (ix2 q k)) (Ideal.ofBits .f32 0x00000000#32) := by
    refine (maximumf_apply _ _ _).trans ?_
    rw [acc1_apply]; rfl
  exact congrArg₂ (· * ·) e e

/-! ## From blocks to the array -/

variable (V : (c : Dev nD) → (b : Ref sig .tc) → Buf (Elt Ideal) ((c : Thread nD τ).loc b))

/-- The array the region leaves in the output window: entry (r, o) is the squared positive part of the inner product
    of row r of the first input array with row o of the second. -/
def G1 (a0 a1 : S8192x2048.Idx → EReal) : S8192x8192.Idx → EReal :=
  fun i => Cert.Spec.relu2 (∑ k : Fin 2048, a0 (ix2 (⟨(i 0).val, idx2_lt0 i⟩ : Fin 8192) k) * a1 (ix2 (⟨(i 1).val, idx2_lt1 i⟩ : Fin 8192) k))

/-- The printed index maps, decided over the grid: the first input's row block is the output's, the second input's
    row block is the output's column block, neither input moves along its second axis, and the output's block indices
    stay in their ranges. -/
theorem idx_facts1 : ∀ t : Fin cfg1.N, win1_0.index t (0 : Fin 2) = win1_2.index t (0 : Fin 2)
    ∧ win1_0.index t (1 : Fin 2) = 0
    ∧ win1_1.index t (0 : Fin 2) = win1_2.index t (1 : Fin 2)
    ∧ win1_1.index t (1 : Fin 2) = 0
    ∧ win1_2.index t (0 : Fin 2) ≤ 3 ∧ win1_2.index t (1 : Fin 2) ≤ 15 :=
  (by decide +kernel : ∀ t : Fin grid1.N, _)

/-- Every block of the output array is some point's. -/
theorem idx_onto1 : ∀ (q0 : Fin 4) (q1 : Fin 16), ∃ t : Fin cfg1.N, win1_2.index t = ![q0.val, q1.val] :=
  (by decide +kernel : ∀ (q0 : Fin 4) (q1 : Fin 16), ∃ t : Fin grid1.N, win1_2.index t = ![q0.val, q1.val])

/-- An entry of the first input's block at point `t` is the array's entry at the block's row offset. -/
theorem iblk1_0_apply (c : Dev nD) (t : Fin cfg1.N) (p k : Fin 2048) (i : S8192x2048.Idx)
    (h0 : (i 0).val = win1_0.index t (0 : Fin 2) * 2048 + p.val) (h1 : (i 1).val = win1_0.index t (1 : Fin 2) * 2048 + k.val) :
    (iblk1 V c 0 t : Vec Ideal S2048x2048 .bf16) (ix2 p k) = (V c main_v54 : S8192x2048.Idx → EReal) i := by
  unfold iblk1
  rw [View.read_apply]
  show V c main_v54 _ = V c main_v54 _
  congr 1
  funext a
  apply Fin.ext
  match a with
  | ⟨0, _⟩ => show win1_0.index t (0 : Fin 2) * 2048 + 1 * p.val = (i 0).val; omega
  | ⟨1, _⟩ => show win1_0.index t (1 : Fin 2) * 2048 + 1 * k.val = (i 1).val; omega

/-- The same for the second input's block. -/
theorem iblk1_1_apply (c : Dev nD) (t : Fin cfg1.N) (q : Fin 512) (k : Fin 2048) (i : S8192x2048.Idx)
    (h0 : (i 0).val = win1_1.index t (0 : Fin 2) * 512 + q.val) (h1 : (i 1).val = win1_1.index t (1 : Fin 2) * 2048 + k.val) :
    (iblk1 V c 1 t : Vec Ideal S512x2048 .bf16) (ix2 q k) = (V c main_v55 : S8192x2048.Idx → EReal) i := by
  unfold iblk1
  rw [View.read_apply]
  show V c main_v55 _ = V c main_v55 _
  congr 1
  funext a
  apply Fin.ext
  match a with
  | ⟨0, _⟩ => show win1_1.index t (0 : Fin 2) * 512 + 1 * q.val = (i 0).val; omega
  | ⟨1, _⟩ => show win1_1.index t (1 : Fin 2) * 2048 + 1 * k.val = (i 1).val; omega

/-- What point `t` writes back is block `t` of `G1` of the two input arrays as the region finds them. -/
theorem flushed1_eq (c : Dev nD) (t : Fin cfg1.N) :
    (dat1 (F := Ideal) V c).flushed 2 t = ((cfg1.win 2).blk t).view.read (Elt Ideal) (G1 (V c main_v54) (V c main_v55)) := by
  show (cfg1.win 2).cut (grid1.coords t) ((dat1 (F := Ideal) V c).after 2 t) = _
  rw [after1_2]
  obtain ⟨e0, e1, e2, e3, e4, e5⟩ := idx_facts1 t
  funext j
  obtain ⟨p, q, rfl⟩ : ∃ (p : Fin 2048) (q : Fin 512), j = ix2 p q := ⟨j 0, j 1, eq_ix2 j⟩
  refine (out1_2_apply (iblk1 V c 0 t) (iblk1 V c 1 t) p q).trans ?_
  show _ = G1 (V c main_v54) (V c main_v55) (((cfg1.win 2).blk t).view.emb (ix2 p q))
  unfold G1
  refine congrArg Cert.Spec.relu2 (Finset.sum_congr rfl fun k _ => ?_)
  have hp : p.val < 2048 := p.isLt
  have hq : q.val < 512 := q.isLt
  have r0 : ((((cfg1.win 2).blk t).view.emb (ix2 p q)) 0).val = win1_2.index t (0 : Fin 2) * 2048 + 1 * p.val := rfl
  have r1 : ((((cfg1.win 2).blk t).view.emb (ix2 p q)) 1).val = win1_2.index t (1 : Fin 2) * 512 + 1 * q.val := rfl
  refine congrArg₂ (· * ·) (iblk1_0_apply V c t p k _ ?_ ?_) (iblk1_1_apply V c t q k _ ?_ ?_)
  · show (((cfg1.win 2).blk t).view.emb (ix2 p q) 0).val = _; rw [r0, e0]; omega
  · show k.val = _; rw [e1]; omega
  · show (((cfg1.win 2).blk t).view.emb (ix2 p q) 1).val = _; rw [r1, e2]; omega
  · show k.val = _; rw [e3]; omega

/-- An index of the output array is in point `t`'s block iff each coordinate is in the block's range on its axis. -/
theorem mem_blk1 (t : Fin cfg1.N) (i : S8192x8192.Idx) :
    i ∈ ((cfg1.win 2).blk t).view.set ↔ ∀ a : Fin 2, win1_2.index t a * S2048x512.size a ≤ (i a).val ∧ (i a).val < win1_2.index t a * S2048x512.size a + S2048x512.size a := by
  show i ∈ ((View.whole main_v56).slice (win1_2.rect t)).set ↔ _
  rw [View.set_slice_whole, Rect.mem_set_unit]
  exact Iff.rfl

/-- Every index of the output array is in some point's block: the 4 × 16 blocks of 2048 × 512 tile it. -/
theorem cover1 (i : S8192x8192.Idx) : ∃ t : Fin cfg1.N, (cfg1.win 2).flush t = true ∧ i ∈ ((cfg1.win 2).blk t).view.set := by
  have hi0 : (i 0).val < 8192 := idx2_lt0 i
  have hi1 : (i 1).val < 8192 := idx2_lt1 i
  obtain ⟨t, ht⟩ := idx_onto1 ⟨(i 0).val / 2048, by omega⟩ ⟨(i 1).val / 512, by omega⟩
  have q0 : win1_2.index t (0 : Fin 2) = (i 0).val / 2048 := congrFun ht 0
  have q1 : win1_2.index t (1 : Fin 2) = (i 1).val / 512 := congrFun ht 1
  refine ⟨t, flush1_2 t, ?_⟩
  rw [mem_blk1]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 512 ≤ (i 1).val ∧ (i 1).val < win1_2.index t (1 : Fin 2) * 512 + 512; omega

/-- The output array after the whole grid is `G1` of the two input arrays. -/
theorem final1 (c : Dev nD) : (dat1 (F := Ideal) V c).arrAt 2 cfg1.N = G1 (V c main_v54) (V c main_v55) :=
  (dat1 (F := Ideal) V c).arrAt_eq_of_cover 2 (G1 (V c main_v54) (V c main_v55)) (fun t _ => flushed1_eq V c t) cover1

/-- The output array after the whole grid, entry (r, o): the squared positive part of the inner product of row r of
    the activations with row o of the weights. -/
theorem value1 (c : Dev nD) (r o : Fin 8192) :
    (dat1 (F := Ideal) V c).arrAt 2 cfg1.N (ValueIdx.ix2 r o)
      = Cert.Spec.relu2 (∑ k : Fin 2048, @HMul.hMul EReal EReal EReal instHMul (V c main_v54 (ValueIdx.ix2 r k)) (V c main_v55 (ValueIdx.ix2 o k))) := by
  rw [final1]
  rfl

end Cert.KernelIdeal.H
end
-- ==== Proof.R2Value.lean ====
import proofs.«174982_j50740743635387_2_alg».proof.Proof.R2
import proofs.«174982_j50740743635387_2_alg».proof.Proof.Spec
import proofs.«174982_j50740743635387_2_alg».proof.Proof.LibActqBody
import Idealize.ShloMosaic.Lib.Pipeline.Value
import Idealize.ShloMosaic.Lib.Tactic

/-!
# The value of the activation-quantisation region 2

At the exact values the region's output array, after all 64 grid points, holds in row `r` the quantised row of
the input's row `r`: the row is normalised by its reciprocal root mean square (the mean over 8192 entries), multiplied
entry by entry by the gain row, scaled so that its largest magnitude becomes 127, rounded to the nearest integer,
clamped to [-128, 127] and scaled back. Point `t` computes rows `128 t … 128 t + 127`; the 64 blocks of 128 rows
tile the 8192 rows of the array.
-/

set_option maxRecDepth 16384

noncomputable section

open scoped BigOperators

namespace Cert.KernelIdeal.H

open Cert.KernelIdeal Cert.KernelIdeal.Gen
open Idealize.ShloMosaic Idealize.ShloMosaic.TcCoe Idealize.SL.Sem Idealize.ShloMosaic.ValueIdx
open Idealize.ShloMosaic.Pipeline (Dat)
open Cert.ActqRows

variable (V : (c : Dev nD) → (b : Ref sig .tc) → Buf (Elt Ideal) ((c : Thread nD τ).loc b))

/-! ## One block: the body's arithmetic at an entry -/

/-- The body's stored value is the quantised block of its two loads: the printed operations are, one for one, the
    vector operations of the row-wise quantisation at extents [128, 8192]. -/
theorem pay2_split (x0 : Vec Ideal S128x8192 .f32) (x1 : Vec Ideal S1x8192 .f32) :
    k2_pay1 (F := Ideal) x0 x1
      = quant (a := 128) (b := 8192) 0x46000000#32 reduces_S128x8192_S128 shapeCasts_S128_S128x1 broadcasts_S128x1_S128x8192 broadcasts_S1x8192_S128x8192
          (.inl rfl) rfl rfl bitsLt_bf16_f32 x0 x1 := by
  unfold k2_pay1 quant scCol xnBlk rsCol
  simp only [shapeCast_self]

/-- The stored block at `(p, q)` is entry `q` of the quantised row `p` of the loaded block, against the loaded gain row. -/
theorem pay2_apply (x0 : Vec Ideal S128x8192 .f32) (x1 : Vec Ideal S1x8192 .f32) (p : Fin 128) (q : Fin 8192) :
    k2_pay1 (F := Ideal) x0 x1 (ix2 p q)
      = Cert.Spec.actqRow (Ideal.ofBits .f32 0x46000000#32) (fun k : Fin 8192 => x0 (ix2 p k)) (fun k : Fin 8192 => x1 (ix2 (0 : Fin 1) k)) q :=
  (congrFun (pay2_split x0 x1) (ix2 p q)).trans
    (quant_apply (a := 128) (b := 8192) 0x46000000#32 reduces_S128x8192_S128 shapeCasts_S128_S128x1 broadcasts_S128x1_S128x8192 broadcasts_S1x8192_S128x8192
      (.inl rfl) rfl rfl bitsLt_bf16_f32 x0 x1 p q)

/-! ## The blocks as rows of the arrays -/

theorem hz2 : (![0, 0] : Fin 2 → Nat) = fun _ => 0 := funext fun a => by fin_cases a <;> rfl

/-- The printed index maps over the grid: point `t` takes block `t` of the rows of the input and of the output, and
    the one block of the gain row. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The input window's block at point `t` is rows `128 t … 128 t + 127` of the input array. -/
theorem iblk2_0_apply (c : Dev nD) (t : Fin cfg2.N) (x : S128x8192.Idx) (k : S8192x8192.Idx)
    (hk0 : (k 0).val = 128 * t.val + (x 0).val) (hk1 : (k 1).val = (x 1).val) :
    (iblk2 V c 0 t : Vec Ideal S128x8192 .f32) x = (V c main_v56 : S8192x8192.Idx → EReal) k := by
  obtain ⟨e0, e1, -, -, -, -⟩ := idx_facts2 t
  unfold iblk2
  rw [View.read_apply]
  show V c main_v56 _ = V c main_v56 _
  congr 1
  funext a
  apply Fin.ext
  match a with
  | ⟨0, _⟩ => show win2_0.index t 0 * 128 + 1 * (x 0).val = (k 0).val; rw [e0, hk0]; omega
  | ⟨1, _⟩ => show win2_0.index t 1 * 8192 + 1 * (x 1).val = (k 1).val; rw [e1, hk1]; omega

/-- The gain window's block at every point is the gain row. -/
theorem iblk2_1_apply (c : Dev nD) (t : Fin cfg2.N) (x : S1x8192.Idx) :
    (iblk2 V c 1 t : Vec Ideal S1x8192 .f32) x = (V c main_v53 : S1x8192.Idx → EReal) x := by
  obtain ⟨-, -, e0, e1, -, -⟩ := idx_facts2 t
  unfold iblk2
  rw [View.read_apply]
  show V c main_v53 _ = V c main_v53 _
  congr 1
  funext a
  apply Fin.ext
  match a with
  | ⟨0, _⟩ => show win2_1.index t 0 * 1 + 1 * (x 0).val = (x 0).val; rw [e0]; omega
  | ⟨1, _⟩ => show win2_1.index t 1 * 8192 + 1 * (x 1).val = (x 1).val; rw [e1]; omega

/-! ## The whole array -/

/-- The quantised rows of a whole array `X` against the gain row `G`, entry by entry. -/
def actqArr2 (X : S8192x8192.Idx → EReal) (G : S1x8192.Idx → EReal) : S8192x8192.Idx → EReal := fun i =>
  Cert.Spec.actqRow (Ideal.ofBits .f32 0x46000000#32) (fun k : Fin 8192 => X (ix2 (⟨(i 0).val, idx2_lt0 i⟩ : Fin 8192) k))
    (fun k : Fin 8192 => G (ix2 (0 : Fin 1) k)) ⟨(i 1).val, idx2_lt1 i⟩

/-- What the body leaves at entry `y` of point `t`'s block is the quantised array at the entry `i` of the array that
    `y` is: row `128 t + y 0`, column `y 1`. -/
theorem block2_apply (c : Dev nD) (t : Fin cfg2.N) (y : S128x8192.Idx) (i : S8192x8192.Idx)
    (hi0 : (i 0).val = 128 * t.val + (y 0).val) (hi1 : (i 1).val = (y 1).val) :
    k2_pay1 (F := Ideal) (iblk2 V c 0 t) (iblk2 V c 1 t) y = actqArr2 (V c main_v56) (V c main_v53) i := by
  obtain ⟨p, q, rfl⟩ : ∃ (p : Fin 128) (q : Fin 8192), y = ix2 p q := ⟨y 0, y 1, eq_ix2 y⟩
  refine (pay2_apply (iblk2 V c 0 t) (iblk2 V c 1 t) p q).trans ?_
  unfold actqArr2
  have e0 : (fun k : Fin 8192 => (iblk2 V c 0 t : Vec Ideal S128x8192 .f32) (ix2 p k))
      = fun k : Fin 8192 => (V c main_v56 : S8192x8192.Idx → EReal) (ix2 (⟨(i 0).val, idx2_lt0 i⟩ : Fin 8192) k) :=
    funext fun k => iblk2_0_apply V c t (ix2 p k) _ hi0 rfl
  have e1 : (fun k : Fin 8192 => (iblk2 V c 1 t : Vec Ideal S1x8192 .f32) (ix2 (0 : Fin 1) k))
      = fun k : Fin 8192 => (V c main_v53 : S1x8192.Idx → EReal) (ix2 (0 : Fin 1) k) :=
    funext fun k => iblk2_1_apply V c t (ix2 (0 : Fin 1) k)
  have e2 : q = (⟨(i 1).val, idx2_lt1 i⟩ : Fin 8192) := Fin.ext hi1.symm
  rw [e0, e1, e2]

/-- What point `t` writes back is block `t` of the quantised array. -/
theorem flushed2_eq (c : Dev nD) (t : Fin cfg2.N) :
    (dat2 (F := Ideal) V c).flushed 2 t = ((cfg2.win 2).blk t).view.read (Elt Ideal) (actqArr2 (V c main_v56) (V c main_v53)) := by
  show (cfg2.win 2).cut (grid2.coords t) ((dat2 (F := Ideal) V c).after 2 t) = _
  rw [after2_2]
  unfold out2_2
  rw [View.canon_unit_zero hz2]
  simp only [View.ld_unit_zero (S := S128x8192) hz2, View.ld_unit_zero (S := S1x8192) hz2]
  obtain ⟨-, -, -, -, e0, e1⟩ := idx_facts2 t
  funext y
  refine block2_apply V c t y _ ?_ ?_
  · show win2_2.index t (0 : Fin 2) * 128 + 1 * (y 0).val = 128 * t.val + (y 0).val
    rw [e0]; omega
  · show win2_2.index t (1 : Fin 2) * 8192 + 1 * (y 1).val = (y 1).val
    rw [e1]; omega

/-- An index of the array is in point `t`'s block iff each coordinate is in the block's range on its axis. -/
theorem mem_blk2 (t : Fin cfg2.N) (i : S8192x8192.Idx) :
    i ∈ ((cfg2.win 2).blk t).view.set ↔ ∀ a : Fin 2, win2_2.index t a * S128x8192.size a ≤ (i a).val ∧ (i a).val < win2_2.index t a * S128x8192.size a + S128x8192.size a := by
  show i ∈ ((View.whole main_v57).slice (win2_2.rect t)).set ↔ _
  rw [View.set_slice_whole, Rect.mem_set_unit]
  exact Iff.rfl

/-- Every entry of the array is in the block of the point its row falls in: row `r` is in block `r / 128`. -/
theorem cover2 (i : S8192x8192.Idx) : ∃ t : Fin cfg2.N, (cfg2.win 2).flush t = true ∧ i ∈ ((cfg2.win 2).blk t).view.set := by
  have h0 : (i 0).val < 8192 := idx2_lt0 i
  have h1 : (i 1).val < 8192 := idx2_lt1 i
  have hN : cfg2.N = 64 := N_2
  refine ⟨⟨(i 0).val / 128, by rw [hN]; omega⟩, flush2_2 _, ?_⟩
  obtain ⟨-, -, -, -, e0, e1⟩ := idx_facts2 ⟨(i 0).val / 128, by rw [hN]; omega⟩
  rw [mem_blk2]
  intro a
  match a with
  | ⟨0, _⟩ =>
    show win2_2.index _ (0 : Fin 2) * 128 ≤ (i 0).val ∧ (i 0).val < win2_2.index _ (0 : Fin 2) * 128 + 128
    rw [e0]; show (i 0).val / 128 * 128 ≤ (i 0).val ∧ (i 0).val < (i 0).val / 128 * 128 + 128; omega
  | ⟨1, _⟩ =>
    show win2_2.index _ (1 : Fin 2) * 8192 ≤ (i 1).val ∧ (i 1).val < win2_2.index _ (1 : Fin 2) * 8192 + 8192
    rw [e1]; omega

/-- So after the whole grid the output array is the quantised input array. -/
theorem final2 (c : Dev nD) : (dat2 (F := Ideal) V c).arrAt 2 cfg2.N = actqArr2 (V c main_v56) (V c main_v53) :=
  (dat2 (F := Ideal) V c).arrAt_eq_of_cover 2 (actqArr2 (V c main_v56) (V c main_v53)) (fun t _ => flushed2_eq V c t) cover2

/-- The output array after the whole grid, entry by entry: row `r` is the quantised row `r` of the input. -/
theorem value2 (c : Dev nD) (r : Fin 8192) (j : Fin 8192) :
    (dat2 (F := Ideal) V c).arrAt 2 cfg2.N (ValueIdx.ix2 r j)
      = Cert.Spec.actqRow (Ideal.ofBits .f32 0x46000000#32) (fun k => V c main_v56 (ValueIdx.ix2 r k)) (fun k => V c main_v53 (ValueIdx.ix2 0 k)) j := by
  rw [final2]
  rfl

end Cert.KernelIdeal.H

end
-- ==== Proof.R3Value.lean ====
/-
  The value of the fourth pallas region (the value projection): an [8192, 8192] array of quantised activations is
  multiplied with an [2048, 8192] array of quantised weights along their shared second axis, in blocks of
  [1024, 2048]: for each (row block, column block) the grid runs through the four stretches of the shared axis,
  adding each block product to an accumulator zeroed at the first of the four, and copies the accumulator to the
  output block at the last. Read at the extended reals, where nothing rounds, the accumulator after a run is
  0 + P₀ + P₁ + P₂ + P₃ of the four block products, which is the sum over the whole shared axis cut into its four
  stretches; the last points of the runs write back blocks that tile the output array, so the array ends holding
  (r, o) ↦ ∑ k, x r k * w o k of the two arrays as the region found them.
-/
import proofs.«174982_j50740743635387_2_alg».proof.Proof.R3
import Idealize.ShloMosaic.Lib.Pipeline.Value
import Idealize.ShloMosaic.Lib.ValueIdx
import Idealize.ShloMosaic.PureOps.Ideal.Laws
set_option maxRecDepth 16384
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! # The value of region 3: the output array after the whole grid is the product of the two entry arrays along their
    shared axis, the four block products of each run being the four stretches of that sum -/

/-! ## The block product at an index, over the extended reals -/

/-- The dimension numbers of the body's product: rows of the left block against rows of the right block, both contracted
    along their second axis. -/
abbrev D3 : DotDims S1024x2048 S1024x2048 S1024x1024 := dot_S1024x2048_S1024x2048_S1024x1024_1_1_0_0_n_n

theorem lhs3_0 (i : S1024x1024.Idx) (q : D3.contr.Idx) : (D3.lhsIdx i q 0).val = (i 0).val := by
  unfold DotDims.lhsIdx
  rw [dif_neg (show ¬(0 : Fin S1024x2048.rank) ∈ D3.lhsBatch by decide), dif_pos (show (0 : Fin S1024x2048.rank) ∈ D3.lhsNonContracting by decide)]
  rfl
theorem lhs3_1 (i : S1024x1024.Idx) (q : D3.contr.Idx) : (D3.lhsIdx i q 1).val = (q ⟨0, by decide⟩).val :=
  D3.lhsIdx_val_of_single rfl i q
theorem rhs3_0 (i : S1024x1024.Idx) (q : D3.contr.Idx) : (D3.rhsIdx i q 0).val = (i 1).val := by
  unfold DotDims.rhsIdx
  rw [dif_neg (show ¬(0 : Fin S1024x2048.rank) ∈ D3.rhsBatch by decide), dif_pos (show (0 : Fin S1024x2048.rank) ∈ D3.rhsNonContracting by decide)]
  rfl
theorem rhs3_1 (i : S1024x1024.Idx) (q : D3.contr.Idx) : (D3.rhsIdx i q 1).val = (q ⟨0, by decide⟩).val :=
  D3.rhsIdx_val_of_single rfl i q

/-- The block product into the zero block, at row `p` and column `q`: the sum over the 2048 contracted positions of the
    products of row `p` of the left block and row `q` of the right block. -/
theorem mm3_apply (x0 x1 : FVec Ideal S1024x2048 .bf16) (p q : Fin 1024) :
    (matmul (F := Ideal) D3 none x0 x1 (constant S1024x1024 .f32 0x00000000#32) (ix2 p q) : EReal) = ∑ k : Fin 2048, (x0 (ix2 p k) : EReal) * (x1 (ix2 q k) : EReal) := by
  refine (Ideal.matmul_constant_zero_apply D3 none x0 x1 (ix2 p q)).trans ?_
  rw [← Equiv.sum_comp (contrEquiv1 D3 2048 rfl rfl).symm]
  refine Finset.sum_congr rfl fun k _ => ?_
  have hk := contrEquiv1_symm_val D3 2048 rfl rfl k
  have el : D3.lhsIdx (ix2 p q) ((contrEquiv1 D3 2048 rfl rfl).symm k) = ix2 p k := funext fun a => Fin.ext (by
    match a with
    | ⟨0, _⟩ => exact lhs3_0 _ _
    | ⟨1, _⟩ => exact (lhs3_1 _ _).trans hk)
  have er : D3.rhsIdx (ix2 p q) ((contrEquiv1 D3 2048 rfl rfl).symm k) = ix2 q k := funext fun a => Fin.ext (by
    match a with
    | ⟨0, _⟩ => exact rhs3_0 _ _
    | ⟨1, _⟩ => exact (rhs3_1 _ _).trans hk)
  rw [el, er]

/-- The accumulating store's value at an index: what the accumulator held there plus the block product there. -/
theorem k3pay2_apply (xs : Vec Ideal S1024x1024 .f32) (x0 x1 : Vec Ideal S1024x2048 .bf16) (p q : Fin 1024) :
    (k3_pay2 (F := Ideal) xs x0 x1 (ix2 p q) : EReal) = (xs (ix2 p q) : EReal) + ∑ k : Fin 2048, (x0 (ix2 p k) : EReal) * (x1 (ix2 q k) : EReal) := by
  unfold k3_pay2
  simp only [shapeCast_self]
  exact congrArg ((xs (ix2 p q) : EReal) + ·) (mm3_apply x0 x1 p q)

/-- The zeroing store's value at an index. -/
theorem k3pay1_apply (p q : Fin 1024) : ((k3_pay1 (F := Ideal)) (ix2 p q) : EReal) = 0 := by
  unfold k3_pay1
  simp only [shapeCast_self]
  exact Ideal.ofBits_zero_f32

/-- A sum over the 8192 contracted positions, cut into its four consecutive stretches of 2048. -/
theorem sum_split4 (f : Fin 8192 → EReal) :
    ∑ k : Fin 8192, f k = ∑ kk : Fin 4, ∑ k : Fin 2048, f ⟨2048 * kk.val + k.val, by have := kk.isLt; have := k.isLt; omega⟩ := by
  rw [← Equiv.sum_comp (finProdFinEquiv (m := 4) (n := 2048)) f, Fintype.sum_prod_type]
  refine Finset.sum_congr rfl fun kk _ => Finset.sum_congr rfl fun k _ => congrArg f (Fin.ext ?_)
  show k.val + 2048 * kk.val = 2048 * kk.val + k.val
  omega

/-- The printed index maps, decided over the grid: the left input's block follows coordinates 0 and 2, the right
    input's coordinates 1 and 2, the output's coordinates 0 and 1 (the point being 8·i + 4·j + k). -/
theorem idx_facts3 : ∀ t : Fin cfg3.N, win3_0.index t (0 : Fin 2) = t.val / 8 ∧ win3_0.index t (1 : Fin 2) = t.val % 4
    ∧ win3_1.index t (0 : Fin 2) = t.val / 4 % 2 ∧ win3_1.index t (1 : Fin 2) = t.val % 4
    ∧ win3_2.index t (0 : Fin 2) = t.val / 8 ∧ win3_2.index t (1 : Fin 2) = t.val / 4 % 2 :=
  (by decide +kernel : ∀ t : Fin grid3.N, win3_0.index t (0 : Fin 2) = t.val / 8 ∧ win3_0.index t (1 : Fin 2) = t.val % 4
    ∧ win3_1.index t (0 : Fin 2) = t.val / 4 % 2 ∧ win3_1.index t (1 : Fin 2) = t.val % 4
    ∧ win3_2.index t (0 : Fin 2) = t.val / 8 ∧ win3_2.index t (1 : Fin 2) = t.val / 4 % 2)

/-- The same cut written out: four consecutive stretches. -/
theorem sum_split4' (f : Fin 8192 → EReal) :
    ∑ k : Fin 8192, f k = (∑ k : Fin 2048, f ⟨2048 * 0 + k.val, by have := k.isLt; omega⟩) + (∑ k : Fin 2048, f ⟨2048 * 1 + k.val, by have := k.isLt; omega⟩)
      + (∑ k : Fin 2048, f ⟨2048 * 2 + k.val, by have := k.isLt; omega⟩) + (∑ k : Fin 2048, f ⟨2048 * 3 + k.val, by have := k.isLt; omega⟩) :=
  (sum_split4 f).trans (Fin.sum_univ_four _)

/-- Two products of entries at equal coordinates are equal. -/
theorem term_congr (a0 : (⟨2, ![8192, 8192]⟩ : Shape).Idx → EReal) (a1 : (⟨2, ![2048, 8192]⟩ : Shape).Idx → EReal)
    {A A' : Fin 8192} {B B' : Fin 8192} {C C' : Fin 2048} (hA : A.val = A'.val) (hB : B.val = B'.val) (hC : C.val = C'.val) :
    a0 (ix2 A B) * a1 (ix2 C B) = a0 (ix2 A' B') * a1 (ix2 C' B') := by
  obtain rfl := Fin.ext hA; obtain rfl := Fin.ext hB; obtain rfl := Fin.ext hC; rfl

section AnyInstance
variable {F : FTy → Type} [FloatOps F]
variable (V : (c : Dev nD) → (b : Ref sig .tc) → Buf (Elt F) ((c : Thread nD τ).loc b))

/-! ## What each case leaves, as payloads -/

theorem hz3 : (![0, 0] : Fin 2 → Nat) = fun _ => 0 := funext fun a => by fin_cases a <;> rfl

/-- Inside a run the body leaves in the accumulator what it found plus the product of the two blocks. -/
theorem sout3_B_eq (c : Dev nD) (i : grid3.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : ¬cond3_1 i)
    (x0 : Vec F S1024x2048 .bf16) (x1 : Vec F S1024x2048 .bf16) (xs0 : Vec F S1024x1024 .f32) :
    sout3_B c i arg3 harg3 arg4 harg4 arg5 harg5 arg6 harg6 hc0 hc1 x0 x1 xs0 = k3_pay2 xs0 x0 x1 := by
  unfold sout3_B
  rw [View.read_writes_eq_canon _ _ _ (scover3_B c i arg3 harg3 arg4 harg4 arg5 harg5 arg6 harg6 hc0 hc1 x0 x1 xs0)]
  unfold kernelRun3_B
  dsimp only
  rw [View.canon_unit_zero hz3]
  simp only [View.readAt_eq_ld, harg3.read_unread, harg4.read_unread, harg6.read_unread, View.ld_unit_zero (S := S1024x1024) hz3, View.ld_unit_zero (S := S1024x2048) hz3]

/-- At the first point of a run it leaves the zero block plus the product. -/
theorem sout3_A_eq (c : Dev nD) (i : grid3.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : cond3_0 i) (hc1 : ¬cond3_1 i)
    (x0 : Vec F S1024x2048 .bf16) (x1 : Vec F S1024x2048 .bf16) :
    sout3_A c i arg3 harg3 arg4 harg4 arg5 harg5 arg6 harg6 hc0 hc1 x0 x1 = k3_pay2 k3_pay1 x0 x1 := by
  unfold sout3_A
  rw [View.read_writes_eq_canon _ _ _ (scover3_A c i arg3 harg3 arg4 harg4 arg5 harg5 arg6 harg6 hc0 hc1 x0 x1)]
  unfold kernelRun3_A
  dsimp only
  sl_unfold_words
  rw [View.canon_cons_unit_zero (S := S1024x1024) hz3, View.readCov_unit_zero (S := S1024x1024) _ hz3]
  simp only [View.readAt_eq_ld, harg3.read_unread, harg4.read_unread, View.ld_unit_zero (S := S1024x1024) hz3, View.ld_unit_zero (S := S1024x2048) hz3]

/-- At the last point of a run the accumulator likewise ends at what it held plus the product, -/
theorem sout3_C_eq (c : Dev nD) (i : grid3.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S1024x2048 .bf16) (x1 : Vec F S1024x2048 .bf16) (xs0 : Vec F S1024x1024 .f32) :
    sout3_C c i arg3 harg3 arg4 harg4 arg5 harg5 arg6 harg6 hc0 hc1 x0 x1 xs0 = k3_pay2 xs0 x0 x1 := by
  unfold sout3_C
  rw [View.read_writes_eq_canon _ _ _ (scover3_C c i arg3 harg3 arg4 harg4 arg5 harg5 arg6 harg6 hc0 hc1 x0 x1 xs0)]
  unfold kernelRun3_C
  dsimp only
  sl_unfold_words
  rw [View.canon_unit_zero hz3]
  simp only [View.readAt_eq_ld, harg3.read_unread, harg4.read_unread, harg6.read_unread, View.ld_unit_zero (S := S1024x1024) hz3, View.ld_unit_zero (S := S1024x2048) hz3]

/-- and the output block is a copy of it. -/
theorem out3_C_eq (c : Dev nD) (i : grid3.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond3_0 i) (hc1 : cond3_1 i)
    (x0 : Vec F S1024x2048 .bf16) (x1 : Vec F S1024x2048 .bf16) (xs0 : Vec F S1024x1024 .f32) :
    out3_C c i arg3 harg3 arg4 harg4 arg5 harg5 arg6 harg6 hc0 hc1 x0 x1 xs0 = k3_pay2 xs0 x0 x1 := by
  unfold out3_C
  rw [View.read_writes_eq_canon _ _ _ (cover3_C_2 c i arg3 harg3 arg4 harg4 arg5 harg5 arg6 harg6 hc0 hc1 x0 x1 xs0)]
  unfold kernelRun3_C
  dsimp only
  sl_unfold_words
  rw [View.canon_unit_zero hz3]
  rw [View.readCov_unit_zero (S := S1024x1024) _ hz3]
  simp only [View.readAt_eq_ld, harg3.read_unread, harg4.read_unread, harg6.read_unread, View.ld_unit_zero (S := S1024x1024) hz3, View.ld_unit_zero (S := S1024x2048) hz3]

/-! ## The accumulator as a recursion on the payloads -/

theorem acc3_first (c : Dev nD) (t : Fin cfg3.N) (h0 : t.val % 4 = 0) :
    acc3 V c t.val t.isLt = k3_pay2 k3_pay1 (iblk3 V c 0 t) (iblk3 V c 1 t) :=
  (acc3_A V c t h0 (by omega)).trans (sout3_A_eq c (grid3.coords t) (ms3_0 t) (hs3_0 t) (ms3_1 t) (hs3_1 t) (ms3_2 t) (hs3_2 t) scM3 (Memref.isWhole_whole _) _ _ (iblk3 V c 0 t) (iblk3 V c 1 t))

theorem acc3_next (c : Dev nD) (t : Fin cfg3.N) (h0 : ¬t.val % 4 = 0) :
    acc3 V c t.val t.isLt = k3_pay2 (acc3 V c (t.val - 1) (Nat.lt_of_le_of_lt (Nat.sub_le _ _) t.isLt)) (iblk3 V c 0 t) (iblk3 V c 1 t) := by
  by_cases h1 : t.val % 4 = 3
  · exact (acc3_C V c t h0 h1).trans (sout3_C_eq c (grid3.coords t) (ms3_0 t) (hs3_0 t) (ms3_1 t) (hs3_1 t) (ms3_2 t) (hs3_2 t) scM3 (Memref.isWhole_whole _) _ _ (iblk3 V c 0 t) (iblk3 V c 1 t) _)
  · exact (acc3_B V c t h0 h1).trans (sout3_B_eq c (grid3.coords t) (ms3_0 t) (hs3_0 t) (ms3_1 t) (hs3_1 t) (ms3_2 t) (hs3_2 t) scM3 (Memref.isWhole_whole _) _ _ (iblk3 V c 0 t) (iblk3 V c 1 t) _)

theorem out3_eq (c : Dev nD) (t : Fin cfg3.N) (h1 : t.val % 4 = 3) :
    out3 V c t = k3_pay2 (acc3 V c (t.val - 1) (Nat.lt_of_le_of_lt (Nat.sub_le _ _) t.isLt)) (iblk3 V c 0 t) (iblk3 V c 1 t) :=
  (out3_last V c t (by omega) h1).trans (out3_C_eq c (grid3.coords t) (ms3_0 t) (hs3_0 t) (ms3_1 t) (hs3_1 t) (ms3_2 t) (hs3_2 t) scM3 (Memref.isWhole_whole _) _ _ (iblk3 V c 0 t) (iblk3 V c 1 t) _)

end AnyInstance

/-! ## The accumulator and the output block at an index -/

section AtIdeal
variable (V : (c : Dev nD) → (b : Ref sig .tc) → Buf (Elt Ideal) ((c : Thread nD τ).loc b))

/-- The two entry arrays the region multiplies, and their blocks at a point, as functions into the extended reals. -/
abbrev A0 (c : Dev nD) : (⟨2, ![8192, 8192]⟩ : Shape).Idx → EReal := V c main_v57
abbrev A1 (c : Dev nD) : (⟨2, ![2048, 8192]⟩ : Shape).Idx → EReal := V c main_v58
abbrev B0 (c : Dev nD) (u : Fin cfg3.N) : (⟨2, ![1024, 2048]⟩ : Shape).Idx → EReal := iblk3 V c 0 u
abbrev B1 (c : Dev nD) (u : Fin cfg3.N) : (⟨2, ![1024, 2048]⟩ : Shape).Idx → EReal := iblk3 V c 1 u

/-- The product of point `u`'s two blocks at row `p` and column `q`. -/
def P3 (c : Dev nD) (u : Fin cfg3.N) (p q : Fin 1024) : EReal :=
  ∑ k : Fin 2048, B0 V c u (ix2 p k) * B1 V c u (ix2 q k)

theorem acc3_first_apply (c : Dev nD) (n : ℕ) (hn : n < cfg3.N) (h0 : n % 4 = 0) (p q : Fin 1024) :
    (acc3 V c n hn (ix2 p q) : EReal) = 0 + P3 V c ⟨n, hn⟩ p q :=
  (congrFun (acc3_first V c ⟨n, hn⟩ h0) (ix2 p q)).trans
    ((k3pay2_apply _ (iblk3 V c 0 ⟨n, hn⟩) (iblk3 V c 1 ⟨n, hn⟩) p q).trans (congrArg (· + P3 V c ⟨n, hn⟩ p q) (k3pay1_apply p q)))

theorem acc3_next_apply (c : Dev nD) (n : ℕ) (hn : n < cfg3.N) (h0 : ¬n % 4 = 0) (p q : Fin 1024) :
    (acc3 V c n hn (ix2 p q) : EReal) = (acc3 V c (n - 1) (Nat.lt_of_le_of_lt (Nat.sub_le _ _) hn) (ix2 p q) : EReal) + P3 V c ⟨n, hn⟩ p q :=
  (congrFun (acc3_next V c ⟨n, hn⟩ h0) (ix2 p q)).trans
    (k3pay2_apply _ (iblk3 V c 0 ⟨n, hn⟩) (iblk3 V c 1 ⟨n, hn⟩) p q)

theorem out3_apply1 (c : Dev nD) (t : Fin cfg3.N) (h1 : t.val % 4 = 3) (p q : Fin 1024) :
    (out3 V c t (ix2 p q) : EReal) = (acc3 V c (t.val - 1) (Nat.lt_of_le_of_lt (Nat.sub_le _ _) t.isLt) (ix2 p q) : EReal) + P3 V c t p q :=
  (congrFun (out3_eq V c t h1) (ix2 p q)).trans (k3pay2_apply _ (iblk3 V c 0 t) (iblk3 V c 1 t) p q)

/-- The output block at the last point of a run, at an index: the four block products of the run, added in point order to zero. -/
theorem out3_apply (c : Dev nD) (t : Fin cfg3.N) (h1 : t.val % 4 = 3) (p q : Fin 1024) :
    (out3 V c t (ix2 p q) : EReal)
      = 0 + P3 V c ⟨t.val - 1 - 1 - 1, by have := t.isLt; omega⟩ p q + P3 V c ⟨t.val - 1 - 1, by have := t.isLt; omega⟩ p q
          + P3 V c ⟨t.val - 1, by have := t.isLt; omega⟩ p q + P3 V c t p q := by
  have ht := t.isLt
  rw [out3_apply1 V c t h1 p q,
    acc3_next_apply V c (t.val - 1) (by omega) (by omega) p q,
    acc3_next_apply V c (t.val - 1 - 1) (by omega) (by omega) p q,
    acc3_first_apply V c (t.val - 1 - 1 - 1) (by omega) (by omega) p q]

/-- A block product over the entry arrays: block (i, k) of the left array against block (j, k) of the right one. -/
theorem P3_eq (c : Dev nD) (u : Fin cfg3.N) (hu : u.val < 64) (p q : Fin 1024) :
    P3 V c u p q = ∑ k : Fin 2048,
      A0 V c (ix2 (⟨1024 * (u.val / 8) + p.val, by have := p.isLt; omega⟩ : Fin 8192) (⟨2048 * (u.val % 4) + k.val, by have := k.isLt; omega⟩ : Fin 8192))
        * A1 V c (ix2 (⟨1024 * (u.val / 4 % 2) + q.val, by have := q.isLt; omega⟩ : Fin 2048) (⟨2048 * (u.val % 4) + k.val, by have := k.isLt; omega⟩ : Fin 8192)) := by
  obtain ⟨e0, e1, e2, e3, -, -⟩ := idx_facts3 u
  unfold P3
  refine Finset.sum_congr rfl fun k _ => ?_
  have hp := p.isLt; have hq := q.isLt; have hk := k.isLt
  have r0 : B0 V c u (ix2 p k)
      = A0 V c (ix2 (⟨1024 * (u.val / 8) + p.val, by omega⟩ : Fin 8192) (⟨2048 * (u.val % 4) + k.val, by omega⟩ : Fin 8192)) := by
    show iblk3 V c 0 u (ix2 p k) = V c main_v57 _
    unfold iblk3
    rw [View.read_apply]
    show V c main_v57 _ = V c main_v57 _
    refine congrArg (V c main_v57) (funext fun a => Fin.ext ?_)
    match a with
    | ⟨0, _⟩ => show win3_0.index u (0 : Fin 2) * 1024 + 1 * p.val = 1024 * (u.val / 8) + p.val; rw [e0]; omega
    | ⟨1, _⟩ => show win3_0.index u (1 : Fin 2) * 2048 + 1 * k.val = 2048 * (u.val % 4) + k.val; rw [e1]; omega
  have r1 : B1 V c u (ix2 q k)
      = A1 V c (ix2 (⟨1024 * (u.val / 4 % 2) + q.val, by omega⟩ : Fin 2048) (⟨2048 * (u.val % 4) + k.val, by omega⟩ : Fin 8192)) := by
    show iblk3 V c 1 u (ix2 q k) = V c main_v58 _
    unfold iblk3
    rw [View.read_apply]
    show V c main_v58 _ = V c main_v58 _
    refine congrArg (V c main_v58) (funext fun a => Fin.ext ?_)
    match a with
    | ⟨0, _⟩ => show win3_1.index u (0 : Fin 2) * 1024 + 1 * q.val = 1024 * (u.val / 4 % 2) + q.val; rw [e2]; omega
    | ⟨1, _⟩ => show win3_1.index u (1 : Fin 2) * 2048 + 1 * k.val = 2048 * (u.val % 4) + k.val; rw [e3]; omega
  rw [r0, r1]

/-! ## From the blocks to the array -/

/-- The product of the two entry arrays along their shared axis, at row `r` and column `o`. -/
def G3' (c : Dev nD) (r : Fin 8192) (o : Fin 2048) : EReal :=
  ∑ k : Fin 8192, A0 V c (ix2 r k) * A1 V c (ix2 o k)

/-- The same as contents of the output array. -/
def G3 (c : Dev nD) : S8192x2048.Idx → EReal := fun i =>
  G3' V c (⟨(i 0).val, (i 0).isLt⟩ : Fin 8192) (⟨(i 1).val, (i 1).isLt⟩ : Fin 2048)

/-- WHAT A LAST POINT OF A RUN WRITES BACK is its block of that product: the four block products of the run are the four
    stretches of the sum over the shared axis. -/
theorem flushed3_eq (c : Dev nD) (t : Fin cfg3.N) (hf : (cfg3.win 2).flush t = true) :
    (dat3 V c).flushed 2 t = ((cfg3.win 2).blk t).view.read (Elt Ideal) (G3 V c) := by
  have hN : t.val < 64 := lt_of_lt_of_eq t.isLt (show cfg3.N = 64 from N_3)
  have h1 : t.val % 4 = 3 := (flush3_2 t).mp hf
  obtain ⟨-, -, -, -, e4, e5⟩ := idx_facts3 t
  show (cfg3.win 2).cut (grid3.coords t) ((dat3 V c).after 2 t) = _
  rw [after3_2]
  funext j
  obtain ⟨p, q, rfl⟩ : ∃ (p q : Fin 1024), j = ix2 p q := ⟨j 0, j 1, eq_ix2 j⟩
  have hp := p.isLt; have hq := q.isLt
  show (out3 V c t (ix2 p q) : EReal) = G3 V c (((cfg3.win 2).blk t).view.emb (ix2 p q))
  have eG : G3 V c (((cfg3.win 2).blk t).view.emb (ix2 p q))
      = G3' V c (⟨1024 * (t.val / 8) + p.val, by omega⟩ : Fin 8192) (⟨1024 * (t.val / 4 % 2) + q.val, by omega⟩ : Fin 2048) := by
    unfold G3
    congr 1
    · refine Fin.ext ?_
      show win3_2.index t (0 : Fin 2) * 1024 + 1 * p.val = 1024 * (t.val / 8) + p.val
      rw [e4]; omega
    · refine Fin.ext ?_
      show win3_2.index t (1 : Fin 2) * 1024 + 1 * q.val = 1024 * (t.val / 4 % 2) + q.val
      rw [e5]; omega
  have ht := t.isLt
  rw [eG, out3_apply V c t h1 p q, P3_eq V c ⟨t.val - 1 - 1 - 1, by omega⟩ (by dsimp only; omega) p q,
    P3_eq V c ⟨t.val - 1 - 1, by omega⟩ (by dsimp only; omega) p q,
    P3_eq V c ⟨t.val - 1, by omega⟩ (by dsimp only; omega) p q, P3_eq V c t hN p q]
  unfold G3'
  rw [sum_split4', zero_add]
  refine congrArg₂ (· + ·) (congrArg₂ (· + ·) (congrArg₂ (· + ·) ?_ ?_) ?_) ?_
  · refine Finset.sum_congr rfl fun k _ => term_congr (A0 V c) (A1 V c) ?_ ?_ ?_
    · first | rfl | (dsimp only; omega)
    · first | rfl | (dsimp only; omega)
    · first | rfl | (dsimp only; omega)
  · refine Finset.sum_congr rfl fun k _ => term_congr (A0 V c) (A1 V c) ?_ ?_ ?_
    · first | rfl | (dsimp only; omega)
    · first | rfl | (dsimp only; omega)
    · first | rfl | (dsimp only; omega)
  · refine Finset.sum_congr rfl fun k _ => term_congr (A0 V c) (A1 V c) ?_ ?_ ?_
    · first | rfl | (dsimp only; omega)
    · first | rfl | (dsimp only; omega)
    · first | rfl | (dsimp only; omega)
  · refine Finset.sum_congr rfl fun k _ => term_congr (A0 V c) (A1 V c) ?_ ?_ ?_
    · first | rfl | (dsimp only; omega)
    · first | rfl | (dsimp only; omega)
    · first | rfl | (dsimp only; omega)

/-- An index of the output array is in point `t`'s block iff each coordinate is in the block's range on its axis. -/
theorem mem_blk3 (t : Fin cfg3.N) (i : S8192x2048.Idx) :
    i ∈ ((cfg3.win 2).blk t).view.set ↔ ∀ a : Fin 2, win3_2.index t a * S1024x1024.size a ≤ (i a).val ∧ (i a).val < win3_2.index t a * S1024x1024.size a + S1024x1024.size a := by
  show i ∈ ((View.whole main_v59).slice (win3_2.rect t)).set ↔ _
  rw [View.set_slice_whole, Rect.mem_set_unit]
  exact Iff.rfl

/-- Every index of the output array lies in the block of a last point of a run: the one of its row block and column block. -/
theorem cover3 (i : S8192x2048.Idx) :
    ∃ t : Fin cfg3.N, (cfg3.win 2).flush t = true ∧ i ∈ ((cfg3.win 2).blk t).view.set := by
  have hi0 : (i 0).val < 8192 := (i 0).isLt
  have hi1 : (i 1).val < 2048 := (i 1).isLt
  have hN : cfg3.N = 64 := N_3
  have hlt : 8 * ((i 0).val / 1024) + 4 * ((i 1).val / 1024) + 3 < cfg3.N := by rw [hN]; omega
  obtain ⟨-, -, -, -, e4, e5⟩ := idx_facts3 ⟨8 * ((i 0).val / 1024) + 4 * ((i 1).val / 1024) + 3, hlt⟩
  refine ⟨⟨8 * ((i 0).val / 1024) + 4 * ((i 1).val / 1024) + 3, hlt⟩, (flush3_2 _).mpr (by dsimp only; omega), ?_⟩
  rw [mem_blk3]
  intro a
  match a with
  | ⟨0, _⟩ =>
    show win3_2.index _ (0 : Fin 2) * 1024 ≤ (i 0).val ∧ (i 0).val < win3_2.index _ (0 : Fin 2) * 1024 + 1024
    rw [e4]; dsimp only; omega
  | ⟨1, _⟩ =>
    show win3_2.index _ (1 : Fin 2) * 1024 ≤ (i 1).val ∧ (i 1).val < win3_2.index _ (1 : Fin 2) * 1024 + 1024
    rw [e5]; dsimp only; omega

/-- THE OUTPUT ARRAY after the whole grid: the product of the two entry arrays along their shared axis. -/
theorem final3 (c : Dev nD) : (dat3 V c).arrAt 2 cfg3.N = G3 V c :=
  (dat3 V c).arrAt_eq_of_cover 2 (G3 V c) (flushed3_eq V c) cover3

/-- The same at an index. -/
theorem value3 (c : Dev nD) (r : Fin 8192) (o : Fin 2048) :
    ((dat3 (F := Ideal) V c).arrAt 2 cfg3.N (ix2 r o) : EReal) = ∑ k : Fin 8192, A0 V c (ix2 r k) * A1 V c (ix2 o k) :=
  (congrFun (final3 V c) (ix2 r o)).trans rfl

end AtIdeal

end Cert.KernelIdeal.H
end
-- ==== Proof.R4Value.lean ====
import proofs.«174982_j50740743635387_2_alg».proof.Proof.R4
import proofs.«174982_j50740743635387_2_alg».proof.Proof.Spec
import proofs.«174982_j50740743635387_2_alg».proof.Proof.LibActqBody
import Idealize.ShloMosaic.Lib.Pipeline.Value
import Idealize.ShloMosaic.Lib.Tactic

/-!
# The value of the activation-quantisation region 4

At the exact values the region's output array, after all 16 grid points, holds in row `r` the quantised row of
the input's row `r`: the row is normalised by its reciprocal root mean square (the mean over 2048 entries), multiplied
entry by entry by the gain row, scaled so that its largest magnitude becomes 127, rounded to the nearest integer,
clamped to [-128, 127] and scaled back. Point `t` computes rows `512 t … 512 t + 511`; the 16 blocks of 512 rows
tile the 8192 rows of the array.
-/

set_option maxRecDepth 16384

noncomputable section

open scoped BigOperators

namespace Cert.KernelIdeal.H

open Cert.KernelIdeal Cert.KernelIdeal.Gen
open Idealize.ShloMosaic Idealize.ShloMosaic.TcCoe Idealize.SL.Sem Idealize.ShloMosaic.ValueIdx
open Idealize.ShloMosaic.Pipeline (Dat)
open Cert.ActqRows

variable (V : (c : Dev nD) → (b : Ref sig .tc) → Buf (Elt Ideal) ((c : Thread nD τ).loc b))

/-! ## One block: the body's arithmetic at an entry -/

/-- The body's stored value is the quantised block of its two loads: the printed operations are, one for one, the
    vector operations of the row-wise quantisation at extents [512, 2048]. -/
theorem pay4_split (x0 : Vec Ideal S512x2048 .f32) (x1 : Vec Ideal S1x2048 .f32) :
    k4_pay1 (F := Ideal) x0 x1
      = quant (a := 512) (b := 2048) 0x45000000#32 reduces_S512x2048_S512 shapeCasts_S512_S512x1 broadcasts_S512x1_S512x2048 broadcasts_S1x2048_S512x2048
          (.inl rfl) rfl rfl bitsLt_bf16_f32 x0 x1 := by
  unfold k4_pay1 quant scCol xnBlk rsCol
  simp only [shapeCast_self]

/-- The stored block at `(p, q)` is entry `q` of the quantised row `p` of the loaded block, against the loaded gain row. -/
theorem pay4_apply (x0 : Vec Ideal S512x2048 .f32) (x1 : Vec Ideal S1x2048 .f32) (p : Fin 512) (q : Fin 2048) :
    k4_pay1 (F := Ideal) x0 x1 (ix2 p q)
      = Cert.Spec.actqRow (Ideal.ofBits .f32 0x45000000#32) (fun k : Fin 2048 => x0 (ix2 p k)) (fun k : Fin 2048 => x1 (ix2 (0 : Fin 1) k)) q :=
  (congrFun (pay4_split x0 x1) (ix2 p q)).trans
    (quant_apply (a := 512) (b := 2048) 0x45000000#32 reduces_S512x2048_S512 shapeCasts_S512_S512x1 broadcasts_S512x1_S512x2048 broadcasts_S1x2048_S512x2048
      (.inl rfl) rfl rfl bitsLt_bf16_f32 x0 x1 p q)

/-! ## The blocks as rows of the arrays -/

theorem hz4 : (![0, 0] : Fin 2 → Nat) = fun _ => 0 := funext fun a => by fin_cases a <;> rfl

/-- The printed index maps over the grid: point `t` takes block `t` of the rows of the input and of the output, and
    the one block of the gain row. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The input window's block at point `t` is rows `512 t … 512 t + 511` of the input array. -/
theorem iblk4_0_apply (c : Dev nD) (t : Fin cfg4.N) (x : S512x2048.Idx) (k : S8192x2048.Idx)
    (hk0 : (k 0).val = 512 * t.val + (x 0).val) (hk1 : (k 1).val = (x 1).val) :
    (iblk4 V c 0 t : Vec Ideal S512x2048 .f32) x = (V c main_v17 : S8192x2048.Idx → EReal) k := by
  obtain ⟨e0, e1, -, -, -, -⟩ := idx_facts4 t
  unfold iblk4
  rw [View.read_apply]
  show V c main_v17 _ = V c main_v17 _
  congr 1
  funext a
  apply Fin.ext
  match a with
  | ⟨0, _⟩ => show win4_0.index t 0 * 512 + 1 * (x 0).val = (k 0).val; rw [e0, hk0]; omega
  | ⟨1, _⟩ => show win4_0.index t 1 * 2048 + 1 * (x 1).val = (k 1).val; rw [e1, hk1]; omega

/-- The gain window's block at every point is the gain row. -/
theorem iblk4_1_apply (c : Dev nD) (t : Fin cfg4.N) (x : S1x2048.Idx) :
    (iblk4 V c 1 t : Vec Ideal S1x2048 .f32) x = (V c main_v52 : S1x2048.Idx → EReal) x := by
  obtain ⟨-, -, e0, e1, -, -⟩ := idx_facts4 t
  unfold iblk4
  rw [View.read_apply]
  show V c main_v52 _ = V c main_v52 _
  congr 1
  funext a
  apply Fin.ext
  match a with
  | ⟨0, _⟩ => show win4_1.index t 0 * 1 + 1 * (x 0).val = (x 0).val; rw [e0]; omega
  | ⟨1, _⟩ => show win4_1.index t 1 * 2048 + 1 * (x 1).val = (x 1).val; rw [e1]; omega

/-! ## The whole array -/

/-- The quantised rows of a whole array `X` against the gain row `G`, entry by entry. -/
def actqArr4 (X : S8192x2048.Idx → EReal) (G : S1x2048.Idx → EReal) : S8192x2048.Idx → EReal := fun i =>
  Cert.Spec.actqRow (Ideal.ofBits .f32 0x45000000#32) (fun k : Fin 2048 => X (ix2 (⟨(i 0).val, idx2_lt0 i⟩ : Fin 8192) k))
    (fun k : Fin 2048 => G (ix2 (0 : Fin 1) k)) ⟨(i 1).val, idx2_lt1 i⟩

/-- What the body leaves at entry `y` of point `t`'s block is the quantised array at the entry `i` of the array that
    `y` is: row `512 t + y 0`, column `y 1`. -/
theorem block4_apply (c : Dev nD) (t : Fin cfg4.N) (y : S512x2048.Idx) (i : S8192x2048.Idx)
    (hi0 : (i 0).val = 512 * t.val + (y 0).val) (hi1 : (i 1).val = (y 1).val) :
    k4_pay1 (F := Ideal) (iblk4 V c 0 t) (iblk4 V c 1 t) y = actqArr4 (V c main_v17) (V c main_v52) i := by
  obtain ⟨p, q, rfl⟩ : ∃ (p : Fin 512) (q : Fin 2048), y = ix2 p q := ⟨y 0, y 1, eq_ix2 y⟩
  refine (pay4_apply (iblk4 V c 0 t) (iblk4 V c 1 t) p q).trans ?_
  unfold actqArr4
  have e0 : (fun k : Fin 2048 => (iblk4 V c 0 t : Vec Ideal S512x2048 .f32) (ix2 p k))
      = fun k : Fin 2048 => (V c main_v17 : S8192x2048.Idx → EReal) (ix2 (⟨(i 0).val, idx2_lt0 i⟩ : Fin 8192) k) :=
    funext fun k => iblk4_0_apply V c t (ix2 p k) _ hi0 rfl
  have e1 : (fun k : Fin 2048 => (iblk4 V c 1 t : Vec Ideal S1x2048 .f32) (ix2 (0 : Fin 1) k))
      = fun k : Fin 2048 => (V c main_v52 : S1x2048.Idx → EReal) (ix2 (0 : Fin 1) k) :=
    funext fun k => iblk4_1_apply V c t (ix2 (0 : Fin 1) k)
  have e2 : q = (⟨(i 1).val, idx2_lt1 i⟩ : Fin 2048) := Fin.ext hi1.symm
  rw [e0, e1, e2]

/-- What point `t` writes back is block `t` of the quantised array. -/
theorem flushed4_eq (c : Dev nD) (t : Fin cfg4.N) :
    (dat4 (F := Ideal) V c).flushed 2 t = ((cfg4.win 2).blk t).view.read (Elt Ideal) (actqArr4 (V c main_v17) (V c main_v52)) := by
  show (cfg4.win 2).cut (grid4.coords t) ((dat4 (F := Ideal) V c).after 2 t) = _
  rw [after4_2]
  unfold out4_2
  rw [View.canon_unit_zero hz4]
  simp only [View.ld_unit_zero (S := S512x2048) hz4, View.ld_unit_zero (S := S1x2048) hz4]
  obtain ⟨-, -, -, -, e0, e1⟩ := idx_facts4 t
  funext y
  refine block4_apply V c t y _ ?_ ?_
  · show win4_2.index t (0 : Fin 2) * 512 + 1 * (y 0).val = 512 * t.val + (y 0).val
    rw [e0]; omega
  · show win4_2.index t (1 : Fin 2) * 2048 + 1 * (y 1).val = (y 1).val
    rw [e1]; omega

/-- An index of the array is in point `t`'s block iff each coordinate is in the block's range on its axis. -/
theorem mem_blk4 (t : Fin cfg4.N) (i : S8192x2048.Idx) :
    i ∈ ((cfg4.win 2).blk t).view.set ↔ ∀ a : Fin 2, win4_2.index t a * S512x2048.size a ≤ (i a).val ∧ (i a).val < win4_2.index t a * S512x2048.size a + S512x2048.size a := by
  show i ∈ ((View.whole main_v60).slice (win4_2.rect t)).set ↔ _
  rw [View.set_slice_whole, Rect.mem_set_unit]
  exact Iff.rfl

/-- Every entry of the array is in the block of the point its row falls in: row `r` is in block `r / 512`. -/
theorem cover4 (i : S8192x2048.Idx) : ∃ t : Fin cfg4.N, (cfg4.win 2).flush t = true ∧ i ∈ ((cfg4.win 2).blk t).view.set := by
  have h0 : (i 0).val < 8192 := idx2_lt0 i
  have h1 : (i 1).val < 2048 := idx2_lt1 i
  have hN : cfg4.N = 16 := N_4
  refine ⟨⟨(i 0).val / 512, by rw [hN]; omega⟩, flush4_2 _, ?_⟩
  obtain ⟨-, -, -, -, e0, e1⟩ := idx_facts4 ⟨(i 0).val / 512, by rw [hN]; omega⟩
  rw [mem_blk4]
  intro a
  match a with
  | ⟨0, _⟩ =>
    show win4_2.index _ (0 : Fin 2) * 512 ≤ (i 0).val ∧ (i 0).val < win4_2.index _ (0 : Fin 2) * 512 + 512
    rw [e0]; show (i 0).val / 512 * 512 ≤ (i 0).val ∧ (i 0).val < (i 0).val / 512 * 512 + 512; omega
  | ⟨1, _⟩ =>
    show win4_2.index _ (1 : Fin 2) * 2048 ≤ (i 1).val ∧ (i 1).val < win4_2.index _ (1 : Fin 2) * 2048 + 2048
    rw [e1]; omega

/-- So after the whole grid the output array is the quantised input array. -/
theorem final4 (c : Dev nD) : (dat4 (F := Ideal) V c).arrAt 2 cfg4.N = actqArr4 (V c main_v17) (V c main_v52) :=
  (dat4 (F := Ideal) V c).arrAt_eq_of_cover 2 (actqArr4 (V c main_v17) (V c main_v52)) (fun t _ => flushed4_eq V c t) cover4

/-- The output array after the whole grid, entry by entry: row `r` is the quantised row `r` of the input. -/
theorem value4 (c : Dev nD) (r : Fin 8192) (j : Fin 2048) :
    (dat4 (F := Ideal) V c).arrAt 2 cfg4.N (ValueIdx.ix2 r j)
      = Cert.Spec.actqRow (Ideal.ofBits .f32 0x45000000#32) (fun k => V c main_v17 (ValueIdx.ix2 r k)) (fun k => V c main_v52 (ValueIdx.ix2 0 k)) j := by
  rw [final4]
  rfl

end Cert.KernelIdeal.H

end
-- ==== Proof.R5Value.lean ====
/-
  Region 5's output array after its whole grid, at the exact extended reals: entry (r, o) is the logistic function of
  the inner product of row r of the activations with row o of the weights, times entry (r, o) of the values. First the
  body's result at one entry of a block (the product into a zero accumulator is the inner product of two rows), then
  each block as the arrays' entries at the block's offsets, then the blocks tile the array.
-/
import proofs.«174982_j50740743635387_2_alg».proof.Proof.R5
import proofs.«174982_j50740743635387_2_alg».proof.Proof.Spec
import Idealize.ShloMosaic.Lib.ValueIdx
import Idealize.ShloMosaic.Lib.Pipeline.Value
import Idealize.ShloMosaic.PureOps.Ideal.Laws
set_option maxRecDepth 16384
noncomputable section
namespace Cert.KernelIdeal.H
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! # Region 5's value at the exact extended reals

The output array after the grid, entry (r, o): the logistic function of the inner product of row r of the
activations with row o of the weights, times entry (r, o) of the values. -/

/-! ## The product's operand indices: output entry (p, q) with contraction index k reads (p, k) and (q, k) -/

theorem lhs5_0 (j : S256x2048.Idx) (q : dot_S256x2048_S2048x2048_S256x2048_1_1_0_0_n_n.contr.Idx) :
    (dot_S256x2048_S2048x2048_S256x2048_1_1_0_0_n_n.lhsIdx j q 0).val = (j 0).val := by
  unfold DotDims.lhsIdx
  rw [dif_neg (show ¬(0 : Fin S256x2048.rank) ∈ dot_S256x2048_S2048x2048_S256x2048_1_1_0_0_n_n.lhsBatch by decide), dif_pos (show (0 : Fin S256x2048.rank) ∈ dot_S256x2048_S2048x2048_S256x2048_1_1_0_0_n_n.lhsNonContracting by decide)]
  rfl
theorem lhs5_1 (j : S256x2048.Idx) (q : dot_S256x2048_S2048x2048_S256x2048_1_1_0_0_n_n.contr.Idx) :
    (dot_S256x2048_S2048x2048_S256x2048_1_1_0_0_n_n.lhsIdx j q 1).val = (q ⟨0, by decide⟩).val :=
  dot_S256x2048_S2048x2048_S256x2048_1_1_0_0_n_n.lhsIdx_val_of_single rfl j q
theorem rhs5_0 (j : S256x2048.Idx) (q : dot_S256x2048_S2048x2048_S256x2048_1_1_0_0_n_n.contr.Idx) :
    (dot_S256x2048_S2048x2048_S256x2048_1_1_0_0_n_n.rhsIdx j q 0).val = (j 1).val := by
  unfold DotDims.rhsIdx
  rw [dif_neg (show ¬(0 : Fin S2048x2048.rank) ∈ dot_S256x2048_S2048x2048_S256x2048_1_1_0_0_n_n.rhsBatch by decide), dif_pos (show (0 : Fin S2048x2048.rank) ∈ dot_S256x2048_S2048x2048_S256x2048_1_1_0_0_n_n.rhsNonContracting by decide)]
  rfl
theorem rhs5_1 (j : S256x2048.Idx) (q : dot_S256x2048_S2048x2048_S256x2048_1_1_0_0_n_n.contr.Idx) :
    (dot_S256x2048_S2048x2048_S256x2048_1_1_0_0_n_n.rhsIdx j q 1).val = (q ⟨0, by decide⟩).val :=
  dot_S256x2048_S2048x2048_S256x2048_1_1_0_0_n_n.rhsIdx_val_of_single rfl j q

/-- The product into the zero accumulator, read at entry (p, q): the inner product of row p with row q. -/
theorem mm5_apply (y0 : FVec Ideal S256x2048 .bf16) (y1 : FVec Ideal S2048x2048 .bf16) (p : Fin 256) (q : Fin 2048) :
    matmul dot_S256x2048_S2048x2048_S256x2048_1_1_0_0_n_n none y0 y1 (constant (F := Ideal) S256x2048 .f32 0x00000000#32) (ix2 p q)
      = ∑ k : Fin 2048, y0 (ix2 p k) * y1 (ix2 q k) := by
  simp only [matmul]
  rw [Ideal.matmul_constant_zero_apply, ← Equiv.sum_comp (ValueIdx.contrEquiv1 dot_S256x2048_S2048x2048_S256x2048_1_1_0_0_n_n 2048 rfl rfl).symm]
  refine Finset.sum_congr rfl fun k _ => ?_
  have hk := ValueIdx.contrEquiv1_symm_val dot_S256x2048_S2048x2048_S256x2048_1_1_0_0_n_n 2048 rfl rfl k
  have el : dot_S256x2048_S2048x2048_S256x2048_1_1_0_0_n_n.lhsIdx (ix2 p q) ((ValueIdx.contrEquiv1 dot_S256x2048_S2048x2048_S256x2048_1_1_0_0_n_n 2048 rfl rfl).symm k) = ix2 p k := funext fun a => Fin.ext (by
    match a with
    | ⟨0, _⟩ => exact lhs5_0 _ _
    | ⟨1, _⟩ => exact (lhs5_1 _ _).trans hk)
  have er : dot_S256x2048_S2048x2048_S256x2048_1_1_0_0_n_n.rhsIdx (ix2 p q) ((ValueIdx.contrEquiv1 dot_S256x2048_S2048x2048_S256x2048_1_1_0_0_n_n 2048 rfl rfl).symm k) = ix2 q k := funext fun a => Fin.ext (by
    match a with
    | ⟨0, _⟩ => exact rhs5_0 _ _
    | ⟨1, _⟩ => exact (rhs5_1 _ _).trans hk)
  rw [el, er]

/-- The accumulator after the body at entry (p, q): zero plus the inner product. -/
theorem acc5_apply (x0 : FVec Ideal S256x2048 .bf16) (x1 : FVec Ideal S2048x2048 .bf16) (p : Fin 256) (q : Fin 2048) :
    acc5 (F := Ideal) x0 x1 (ix2 p q) = ∑ k : Fin 2048, x0 (ix2 p k) * x1 (ix2 q k) := by
  unfold acc5 k5_pay2 k5_pay1
  simp only [shapeCast_self, View.ld_unit_zero (S := S256x2048) hz5, View.ld_unit_zero (S := S2048x2048) hz5]
  refine (addf_apply _ _ _).trans ?_
  refine (congrArg₂ (· + ·) (broadcast_apply _ _) (mm5_apply x0 x1 p q)).trans ?_
  show Ideal.ofBits .f32 0x00000000#32 + _ = _
  rw [Ideal.ofBits_zero_f32, zero_add]

/-- The output block after the body at entry (p, q). -/
theorem out5_3_apply (x0 : FVec Ideal S256x2048 .bf16) (x1 : FVec Ideal S2048x2048 .bf16) (x2 : FVec Ideal S256x2048 .f32) (p : Fin 256) (q : Fin 2048) :
    out5_3 (F := Ideal) x0 x1 x2 (ix2 p q) = Cert.Spec.sigv (∑ k : Fin 2048, x0 (ix2 p k) * x1 (ix2 q k)) (x2 (ix2 p q)) := by
  unfold out5_3
  rw [View.canon_unit_zero hz5]
  unfold k5_pay3
  simp only [shapeCast_self, View.ld_unit_zero (S := S256x2048) hz5]
  rw [← acc5_apply x0 x1 p q]
  rfl

/-! ## From blocks to the array -/

variable (V : (c : Dev nD) → (b : Ref sig .tc) → Buf (Elt Ideal) ((c : Thread nD τ).loc b))

/-- The array the region leaves in the output window: entry (r, o) is the logistic function of the inner product of
    row r of the first input array with row o of the second, times entry (r, o) of the third. -/
def G5 (a0 : S8192x2048.Idx → EReal) (a1 : S2048x2048.Idx → EReal) (a2 : S8192x2048.Idx → EReal) : S8192x2048.Idx → EReal :=
  fun i => Cert.Spec.sigv (∑ k : Fin 2048, a0 (ix2 (⟨(i 0).val, idx2_lt0 i⟩ : Fin 8192) k) * a1 (ix2 (⟨(i 1).val, idx2_lt1 i⟩ : Fin 2048) k)) (a2 i)

/-- The printed index maps, decided over the grid: the first and third inputs' row block is the output's, the
    second input is one block, nothing moves along the second axis, and the output's block index stays in its range. -/
theorem idx_facts5 : ∀ t : Fin cfg5.N, win5_0.index t (0 : Fin 2) = win5_3.index t (0 : Fin 2)
    ∧ win5_0.index t (1 : Fin 2) = 0
    ∧ win5_1.index t (0 : Fin 2) = 0
    ∧ win5_1.index t (1 : Fin 2) = 0
    ∧ win5_2.index t (0 : Fin 2) = win5_3.index t (0 : Fin 2)
    ∧ win5_2.index t (1 : Fin 2) = 0
    ∧ win5_3.index t (0 : Fin 2) ≤ 31 ∧ win5_3.index t (1 : Fin 2) = 0 :=
  (by decide +kernel : ∀ t : Fin grid5.N, _)

/-- Every block of the output array is some point's. -/
theorem idx_onto5 : ∀ (q0 : Fin 32), ∃ t : Fin cfg5.N, win5_3.index t = ![q0.val, 0] :=
  (by decide +kernel : ∀ (q0 : Fin 32), ∃ t : Fin grid5.N, win5_3.index t = ![q0.val, 0])

/-- An entry of the first input's block at point `t` is the array's entry at the block's row offset. -/
theorem iblk5_0_apply (c : Dev nD) (t : Fin cfg5.N) (p : Fin 256) (k : Fin 2048) (i : S8192x2048.Idx)
    (h0 : (i 0).val = win5_0.index t (0 : Fin 2) * 256 + p.val) (h1 : (i 1).val = win5_0.index t (1 : Fin 2) * 2048 + k.val) :
    (iblk5 V c 0 t : Vec Ideal S256x2048 .bf16) (ix2 p k) = (V c main_v60 : S8192x2048.Idx → EReal) i := by
  unfold iblk5
  rw [View.read_apply]
  show V c main_v60 _ = V c main_v60 _
  congr 1
  funext a
  apply Fin.ext
  match a with
  | ⟨0, _⟩ => show win5_0.index t (0 : Fin 2) * 256 + 1 * p.val = (i 0).val; omega
  | ⟨1, _⟩ => show win5_0.index t (1 : Fin 2) * 2048 + 1 * k.val = (i 1).val; omega

/-- The same for the second input's one block, -/
theorem iblk5_1_apply (c : Dev nD) (t : Fin cfg5.N) (q k : Fin 2048) (i : S2048x2048.Idx)
    (h0 : (i 0).val = win5_1.index t (0 : Fin 2) * 2048 + q.val) (h1 : (i 1).val = win5_1.index t (1 : Fin 2) * 2048 + k.val) :
    (iblk5 V c 1 t : Vec Ideal S2048x2048 .bf16) (ix2 q k) = (V c main_v61 : S2048x2048.Idx → EReal) i := by
  unfold iblk5
  rw [View.read_apply]
  show V c main_v61 _ = V c main_v61 _
  congr 1
  funext a
  apply Fin.ext
  match a with
  | ⟨0, _⟩ => show win5_1.index t (0 : Fin 2) * 2048 + 1 * q.val = (i 0).val; omega
  | ⟨1, _⟩ => show win5_1.index t (1 : Fin 2) * 2048 + 1 * k.val = (i 1).val; omega

/-- and for the third input's block. -/
theorem iblk5_2_apply (c : Dev nD) (t : Fin cfg5.N) (p : Fin 256) (q : Fin 2048) (i : S8192x2048.Idx)
    (h0 : (i 0).val = win5_2.index t (0 : Fin 2) * 256 + p.val) (h1 : (i 1).val = win5_2.index t (1 : Fin 2) * 2048 + q.val) :
    (iblk5 V c 2 t : Vec Ideal S256x2048 .f32) (ix2 p q) = (V c main_v59 : S8192x2048.Idx → EReal) i := by
  unfold iblk5
  rw [View.read_apply]
  show V c main_v59 _ = V c main_v59 _
  congr 1
  funext a
  apply Fin.ext
  match a with
  | ⟨0, _⟩ => show win5_2.index t (0 : Fin 2) * 256 + 1 * p.val = (i 0).val; omega
  | ⟨1, _⟩ => show win5_2.index t (1 : Fin 2) * 2048 + 1 * q.val = (i 1).val; omega

/-- What point `t` writes back is block `t` of `G5` of the three input arrays as the region finds them. -/
theorem flushed5_eq (c : Dev nD) (t : Fin cfg5.N) :
    (dat5 (F := Ideal) V c).flushed 3 t = ((cfg5.win 3).blk t).view.read (Elt Ideal) (G5 (V c main_v60) (V c main_v61) (V c main_v59)) := by
  show (cfg5.win 3).cut (grid5.coords t) ((dat5 (F := Ideal) V c).after 3 t) = _
  rw [after5_3]
  obtain ⟨e0, e1, e2, e3, e4, e5, e6, e7⟩ := idx_facts5 t
  funext j
  obtain ⟨p, q, rfl⟩ : ∃ (p : Fin 256) (q : Fin 2048), j = ix2 p q := ⟨j 0, j 1, eq_ix2 j⟩
  refine (out5_3_apply (iblk5 V c 0 t) (iblk5 V c 1 t) (iblk5 V c 2 t) p q).trans ?_
  show _ = G5 (V c main_v60) (V c main_v61) (V c main_v59) (((cfg5.win 3).blk t).view.emb (ix2 p q))
  unfold G5
  have hp : p.val < 256 := p.isLt
  have hq : q.val < 2048 := q.isLt
  have r0 : ((((cfg5.win 3).blk t).view.emb (ix2 p q)) 0).val = win5_3.index t (0 : Fin 2) * 256 + 1 * p.val := rfl
  have r1 : ((((cfg5.win 3).blk t).view.emb (ix2 p q)) 1).val = win5_3.index t (1 : Fin 2) * 2048 + 1 * q.val := rfl
  refine congrArg₂ Cert.Spec.sigv (Finset.sum_congr rfl fun k _ => ?_) (iblk5_2_apply V c t p q _ ?_ ?_)
  · refine congrArg₂ (· * ·) (iblk5_0_apply V c t p k _ ?_ ?_) (iblk5_1_apply V c t q k _ ?_ ?_)
    · show (((cfg5.win 3).blk t).view.emb (ix2 p q) 0).val = _; rw [r0, e0]; omega
    · show k.val = _; rw [e1]; omega
    · show (((cfg5.win 3).blk t).view.emb (ix2 p q) 1).val = _; rw [r1, e2, e7]; omega
    · show k.val = _; rw [e3]; omega
  · rw [r0, e4]; omega
  · rw [r1, e5, e7]; omega

/-- An index of the output array is in point `t`'s block iff each coordinate is in the block's range on its axis. -/
theorem mem_blk5 (t : Fin cfg5.N) (i : S8192x2048.Idx) :
    i ∈ ((cfg5.win 3).blk t).view.set ↔ ∀ a : Fin 2, win5_3.index t a * S256x2048.size a ≤ (i a).val ∧ (i a).val < win5_3.index t a * S256x2048.size a + S256x2048.size a := by
  show i ∈ ((View.whole main_v62).slice (win5_3.rect t)).set ↔ _
  rw [View.set_slice_whole, Rect.mem_set_unit]
  exact Iff.rfl

/-- Every index of the output array is in some point's block: the 32 blocks of 256 rows tile it. -/
theorem cover5 (i : S8192x2048.Idx) : ∃ t : Fin cfg5.N, (cfg5.win 3).flush t = true ∧ i ∈ ((cfg5.win 3).blk t).view.set := by
  have hi0 : (i 0).val < 8192 := idx2_lt0 i
  have hi1 : (i 1).val < 2048 := idx2_lt1 i
  obtain ⟨t, ht⟩ := idx_onto5 ⟨(i 0).val / 256, by omega⟩
  have q0 : win5_3.index t (0 : Fin 2) = (i 0).val / 256 := congrFun ht 0
  have q1 : win5_3.index t (1 : Fin 2) = 0 := congrFun ht 1
  refine ⟨t, flush5_3 t, ?_⟩
  rw [mem_blk5]
  intro a
  match a with
  | ⟨0, _⟩ => show win5_3.index t (0 : Fin 2) * 256 ≤ (i 0).val ∧ (i 0).val < win5_3.index t (0 : Fin 2) * 256 + 256; omega
  | ⟨1, _⟩ => show win5_3.index t (1 : Fin 2) * 2048 ≤ (i 1).val ∧ (i 1).val < win5_3.index t (1 : Fin 2) * 2048 + 2048; omega

/-- The output array after the whole grid is `G5` of the three input arrays. -/
theorem final5 (c : Dev nD) : (dat5 (F := Ideal) V c).arrAt 3 cfg5.N = G5 (V c main_v60) (V c main_v61) (V c main_v59) :=
  (dat5 (F := Ideal) V c).arrAt_eq_of_cover 3 (G5 (V c main_v60) (V c main_v61) (V c main_v59)) (fun t _ => flushed5_eq V c t) cover5

/-- The output array after the whole grid, entry (r, o): the logistic function of the inner product of row r of the
    activations with row o of the weights, times entry (r, o) of the values. -/
theorem value5 (c : Dev nD) (r : Fin 8192) (o : Fin 2048) :
    (dat5 (F := Ideal) V c).arrAt 3 cfg5.N (ValueIdx.ix2 r o)
      = Cert.Spec.sigv (∑ k : Fin 2048, @HMul.hMul EReal EReal EReal instHMul (V c main_v60 (ValueIdx.ix2 r k)) (V c main_v61 (ValueIdx.ix2 o k)))
          (V c main_v59 (ValueIdx.ix2 r o)) := by
  rw [final5]
  rfl

end Cert.KernelIdeal.H
end
-- ==== Proof.HostRead.lean ====
/-
  The host operations before the kernel regions, read at an index at the exact extended reals: the token
  shift and mix reshaped to flat rows, and the ternary weight quantisation, are the specification's functions
  of the argument arrays.  Nothing here mentions a program: the operations' terms are stated over variables.
-/
import proofs.«174982_j50740743635387_2_alg».proof.Proof.Spec
import Idealize.ShloMosaic.Lib.ValueIdx
import Idealize.ShloMosaic.Lib.Pipeline.Value
import Idealize.ShloMosaic.Lib.KernelVsHost
import Idealize.ShloMosaic.PureOps.Ideal.Laws

noncomputable section

open scoped BigOperators

namespace Cert.HostRead

open Idealize.ShloMosaic Idealize.ShloMosaic.ValueIdx

abbrev S_ : Shape := ⟨0, ![]⟩
abbrev S4x2048x2048 : Shape := ⟨3, ![4, 2048, 2048]⟩
abbrev S4x2047x2048 : Shape := ⟨3, ![4, 2047, 2048]⟩
abbrev S1x1x2048 : Shape := ⟨3, ![1, 1, 2048]⟩
abbrev S8192x2048 : Shape := ⟨2, ![8192, 2048]⟩

/-! ## The weight scale and the quantised weights -/

/-- The host's term of the weight scale: 1 / max (1e-5, (0 + ∑ |w|) / cnt), a rank-0 array. -/
def wsTerm {O I : ℕ} (w : FVec Ideal ⟨2, ![O, I]⟩ .f32) (cw : BitVec 32)
    (rd : (⟨2, ![O, I]⟩ : Shape).ReducesTo [0, 1] S_) (hS : 0 < S_.numel) : FVec Ideal S_ .f32 :=
  Host.divf (constant S_ .f32 0x3F800000#32)
    (maximumf (id (constant S_ .f32 0x3727C5AC#32))
      (Host.divf (Host.reduceAdd (Host.absf w) (constant S_ .f32 0x00000000#32) rd hS) (constant S_ .f32 cw)))

theorem wsTerm_apply {O I : ℕ} (w : FVec Ideal ⟨2, ![O, I]⟩ .f32) (cw : BitVec 32)
    (rd : (⟨2, ![O, I]⟩ : Shape).ReducesTo [0, 1] S_) (hS : 0 < S_.numel) (j : S_.Idx) :
    wsTerm w cw rd hS j = Cert.Spec.wqScale (Ideal.ofBits .f32 cw) (fun o i => w (ix2 o i)) := by
  show Ideal.div (Ideal.ofBits .f32 0x3F800000#32)
      (max (Ideal.ofBits .f32 0x3727C5AC#32)
        (Ideal.div (Ideal.hostReduceAdd rd (fun k => max (w k) (-(w k))) (Ideal.ofBits .f32 0x00000000#32) j)
          (Ideal.ofBits .f32 cw))) = _
  rw [Ideal.hostReduceAdd_total rd (fun b => b.elim0), sum_idx2]
  rfl

/-- The host's term of the quantised weights read at (o, i). -/
theorem wq_read {O I : ℕ} (w : FVec Ideal ⟨2, ![O, I]⟩ .f32) (cw : BitVec 32)
    (bc : S_.BroadcastsInDim ⟨2, ![O, I]⟩ (![] : Fin 0 → Fin 2))
    (rd : (⟨2, ![O, I]⟩ : Shape).ReducesTo [0, 1] S_) (hS : 0 < S_.numel) (o : Fin O) (i : Fin I) :
    (Host.divf
      (minimumf (broadcastInDim ⟨2, ![O, I]⟩ ![] bc (sitofp .f32 (constantI S_ 32 1#32)))
        (maximumf (broadcastInDim ⟨2, ![O, I]⟩ ![] bc (sitofp .f32 (constantI S_ 32 4294967295#32)))
          (Host.roundeven (mulf w (broadcastInDim ⟨2, ![O, I]⟩ ![] bc (wsTerm w cw rd hS))))))
      (broadcastInDim ⟨2, ![O, I]⟩ ![] bc (wsTerm w cw rd hS)) : FVec Ideal ⟨2, ![O, I]⟩ .f32) (ix2 o i)
      = Cert.Spec.wquant (Ideal.ofBits .f32 cw) (fun o i => w (ix2 o i)) o i := by
  show Ideal.div
      (min ((((1#32 : BitVec 32).toInt : ℝ)) : EReal)
        (max ((((4294967295#32 : BitVec 32).toInt : ℝ)) : EReal)
          (Ideal.liftRound Ideal.roundHalfEven (w (ix2 o i) * wsTerm w cw rd hS _))))
      (wsTerm w cw rd hS _) = _
  rw [wsTerm_apply]
  have h1 : ((((1#32 : BitVec 32).toInt : ℝ)) : EReal) = ((1 : ℝ) : EReal) := by
    rw [show (1#32 : BitVec 32).toInt = 1 by decide]; norm_num
  have hm1 : ((((4294967295#32 : BitVec 32).toInt : ℝ)) : EReal) = ((-1 : ℝ) : EReal) := by
    rw [show (4294967295#32 : BitVec 32).toInt = -1 by decide]; norm_num
  rw [h1, hm1]
  rfl

/-! ## The token shift, the mix, and the reshape to flat rows -/

theorem mix_read (x0 : FVec Ideal S4x2048x2048 .f32) (x1 : FVec Ideal S1x1x2048 .f32)
    (bc3 : S1x1x2048.BroadcastsInDim S4x2048x2048 ![0, 1, 2])
    (bc0 : S_.BroadcastsInDim S1x1x2048 (![] : Fin 0 → Fin 3))
    (sl : S4x2048x2048.Slices ![0, 0, 0] S4x2047x2048)
    (pd : S4x2047x2048.Pads ![0, 1, 0] ![0, 0, 0] ![0, 0, 0] S4x2048x2048) (hS : 0 < S_.numel)
    (sc : S4x2048x2048.ShapeCasts S8192x2048) (r : Fin 8192) (h : Fin 2048) :
    shapeCast S8192x2048
      (addf (mulf x0 (broadcastInDim S4x2048x2048 ![0, 1, 2] bc3 x1))
        (mulf
          (pad S4x2048x2048 ![0, 1, 0] ![0, 0, 0] ![0, 0, 0]
            (extractStridedSlice S4x2047x2048 ![0, 0, 0] x0 sl) (sitofp .f32 (constantI S_ 32 0#32)) pd hS)
          (broadcastInDim S4x2048x2048 ![0, 1, 2] bc3
            (subf (broadcastInDim S1x1x2048 ![] bc0 (constant S_ .f32 0x3F800000#32)) x1))))
      sc (ix2 r h)
      = Cert.Spec.flat (Cert.Spec.mix (fun b t h => x0 (ix3 b t h)) (fun h => x1 (ix3 0 0 h))) r h := by
  have hk : (S4x2048x2048.rowMajor (ix3 (Cert.Spec.rowB r) (Cert.Spec.rowT r) h)).val
      = (S8192x2048.rowMajor (ix2 r h)).val := by
    rw [Shape.rowMajor_val_three, Shape.rowMajor_val_two]
    show ((r.val / 2048) * 2048 + r.val % 2048) * 2048 + h.val = r.val * 2048 + h.val
    omega
  refine (shapeCast_apply _ sc (ix2 r h) (ix3 (Cert.Spec.rowB r) (Cert.Spec.rowT r) h) hk).trans ?_
  show _ = Cert.Spec.mix (fun b t h => x0 (ix3 b t h)) (fun h => x1 (ix3 0 0 h)) (Cert.Spec.rowB r) (Cert.Spec.rowT r) h
  generalize Cert.Spec.rowB r = b
  generalize Cert.Spec.rowT r = t
  have hb : ∀ (y : FVec Ideal S1x1x2048 .f32),
      broadcastInDim S4x2048x2048 ![0, 1, 2] bc3 y (ix3 b t h) = y (ix3 0 0 h) :=
    fun y => broadcastInDim_apply _ bc3 y _ _
      (fun a => by match a with | ⟨0, _⟩ => rfl | ⟨1, _⟩ => rfl | ⟨2, _⟩ => rfl)
  have hp : pad S4x2048x2048 ![0, 1, 0] ![0, 0, 0] ![0, 0, 0]
      (extractStridedSlice S4x2047x2048 ![0, 0, 0] x0 sl) (sitofp .f32 (constantI S_ 32 0#32)) pd hS (ix3 b t h)
      = Cert.Spec.shifted (fun b t h => x0 (ix3 b t h)) b t h := by
    unfold Cert.Spec.shifted
    by_cases ht : t.val = 0
    · rw [dif_pos ht]
      refine (pad_apply_of_not_inside _ _ _ _ _ pd hS (ix3 b t h) (1 : Fin 3) ?_).trans ?_
      · intro hc
        have h1 : 1 ≤ t.val := hc.1
        omega
      · show ((((0#32 : BitVec 32).toInt : ℝ)) : EReal) = 0
        simp
    · rw [dif_neg ht]
      have ht' : t.val - 1 < 2047 := by omega
      refine (pad_apply_of_inside _ _ _ _ _ pd hS (ix3 b t h) (ix3 b ⟨t.val - 1, ht'⟩ h) ?_).trans ?_
      · intro a
        match a with
        | ⟨0, _⟩ => show b.val = 0 + b.val * (0 + 1); omega
        | ⟨1, _⟩ => show t.val = 1 + (t.val - 1) * (0 + 1); omega
        | ⟨2, _⟩ => show h.val = 0 + h.val * (0 + 1); omega
      · refine extractStridedSlice_apply _ x0 sl _ (ix3 b ⟨t.val - 1, by omega⟩ h) ?_
        intro a
        match a with
        | ⟨0, _⟩ => show b.val = 0 + b.val; omega
        | ⟨1, _⟩ => show t.val - 1 = 0 + (t.val - 1); omega
        | ⟨2, _⟩ => show h.val = 0 + h.val; omega
  show x0 (ix3 b t h) * broadcastInDim S4x2048x2048 ![0, 1, 2] bc3 x1 (ix3 b t h)
      + pad S4x2048x2048 ![0, 1, 0] ![0, 0, 0] ![0, 0, 0]
          (extractStridedSlice S4x2047x2048 ![0, 0, 0] x0 sl) (sitofp .f32 (constantI S_ 32 0#32)) pd hS (ix3 b t h)
        * broadcastInDim S4x2048x2048 ![0, 1, 2] bc3
            (subf (broadcastInDim S1x1x2048 ![] bc0 (constant S_ .f32 0x3F800000#32)) x1) (ix3 b t h)
      = x0 (ix3 b t h) * x1 (ix3 0 0 h)
        + Cert.Spec.shifted (fun b t h => x0 (ix3 b t h)) b t h * (Ideal.ofBits .f32 0x3F800000#32 - x1 (ix3 0 0 h))
  rw [hb, hb, hp]
  rfl

/-- A gain vector reshaped to one row. -/
theorem row_read {K : ℕ} (x : FVec Ideal ⟨1, ![K]⟩ .f32) (sc : (⟨1, ![K]⟩ : Shape).ShapeCasts ⟨2, ![1, K]⟩) (k : Fin K) :
    shapeCast ⟨2, ![1, K]⟩ x sc (ix2 0 k) = x (ix1 k) := by
  refine shapeCast_apply x sc (ix2 0 k) (ix1 k) ?_
  rw [Shape.rowMajor_val_one, Shape.rowMajor_val_two]
  show k.val = (0 : Fin 1).val * K + k.val
  simp

end Cert.HostRead
-- ==== Proof.HostSide.lean ====
/-
  The arrays the host operations leave before the first kernel region, at the exact extended reals, as the
  specification's functions of the argument arrays: the two mixed inputs as flat rows, the three quantised
  weight matrices, and the three gain vectors as single rows.
-/
import proofs.«174982_j50740743635387_2_alg».proof.Proof.Gen.KernelIdeal.Regions
import proofs.«174982_j50740743635387_2_alg».proof.Proof.HostRead
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.ShloMosaic.ValueIdx Idealize.ShloMosaic.StableHlo

variable (m : (ℓ : Loc nD τ sig) → Buf (Elt Ideal) ℓ) (c : Dev nD)

/-! ## The argument arrays as plain functions -/

/-- hidden -/
def hid : Fin 4 → Fin 2048 → Fin 2048 → EReal :=
  fun b t h => (m ((c.tc : Thread nD τ).loc main_arg0) : S4x2048x2048.Idx → EReal) (ix3 b t h)
/-- the key time-mix vector -/
def tmk : Fin 2048 → EReal := fun h => (m ((c.tc : Thread nD τ).loc main_arg1) : S1x1x2048.Idx → EReal) (ix3 0 0 h)
/-- the receptance time-mix vector -/
def tmr : Fin 2048 → EReal := fun h => (m ((c.tc : Thread nD τ).loc main_arg2) : S1x1x2048.Idx → EReal) (ix3 0 0 h)
/-- the key weights -/
def wk : Fin 8192 → Fin 2048 → EReal := fun o k => (m ((c.tc : Thread nD τ).loc main_arg3) : S8192x2048.Idx → EReal) (ix2 o k)
/-- the receptance weights -/
def wr : Fin 2048 → Fin 2048 → EReal := fun o k => (m ((c.tc : Thread nD τ).loc main_arg4) : S2048x2048.Idx → EReal) (ix2 o k)
/-- the value weights -/
def wv : Fin 2048 → Fin 8192 → EReal := fun o k => (m ((c.tc : Thread nD τ).loc main_arg5) : S2048x8192.Idx → EReal) (ix2 o k)
/-- the key gain -/
def nk : Fin 2048 → EReal := fun h => (m ((c.tc : Thread nD τ).loc main_arg6) : S2048.Idx → EReal) (ix1 h)
/-- the receptance gain -/
def nr : Fin 2048 → EReal := fun h => (m ((c.tc : Thread nD τ).loc main_arg7) : S2048.Idx → EReal) (ix1 h)
/-- the value gain -/
def nv : Fin 8192 → EReal := fun h => (m ((c.tc : Thread nD τ).loc main_arg8) : S8192.Idx → EReal) (ix1 h)

/-! ## The host arrays before the first region -/

/-- The key path's mixed input, by flat rows. -/
theorem v16_apply (r : Fin 8192) (k : Fin 2048) :
    (V21 (F := Ideal) m c (Proc.devRef .tc main_v16) : S8192x2048.Idx → EReal) (ix2 r k)
      = Cert.Spec.keyIn (hid m c) (tmk m c) r k := by
  dsimp only [V21, V20, V19, V18, V17, V16, V15, V14, V13, V12, V11, V10, V9, V8, V7, V6, V5, V4, V3, V2, V1, V0]
  after_results_simp
  exact Cert.HostRead.mix_read (m ((c.tc : Thread nD τ).loc main_arg0)) (m ((c.tc : Thread nD τ).loc main_arg1))
    Facts₀.bcast_S1x1x2048_S4x2048x2048_0_1_2 Facts₀.bcast_S_S1x1x2048 Facts₀.slices_S4x2048x2048_S4x2047x2048_0_0_0
    Facts₀.pads_S4x2047x2048_S4x2048x2048_000_100_000 Facts₀.h_S_ Facts₀.shapeCasts_S4x2048x2048_S8192x2048 r k

/-- The receptance path's mixed input, by flat rows. -/
theorem v17_apply (r : Fin 8192) (k : Fin 2048) :
    (V21 (F := Ideal) m c (Proc.devRef .tc main_v17) : S8192x2048.Idx → EReal) (ix2 r k)
      = Cert.Spec.recIn (hid m c) (tmr m c) r k := by
  dsimp only [V21, V20, V19, V18, V17, V16, V15, V14, V13, V12, V11, V10, V9, V8, V7, V6, V5, V4, V3, V2, V1, V0]
  after_results_simp
  exact Cert.HostRead.mix_read (m ((c.tc : Thread nD τ).loc main_arg0)) (m ((c.tc : Thread nD τ).loc main_arg2))
    Facts₀.bcast_S1x1x2048_S4x2048x2048_0_1_2 Facts₀.bcast_S_S1x1x2048 Facts₀.slices_S4x2048x2048_S4x2047x2048_0_0_0
    Facts₀.pads_S4x2047x2048_S4x2048x2048_000_100_000 Facts₀.h_S_ Facts₀.shapeCasts_S4x2048x2048_S8192x2048 r k

/-- The quantised key weights. -/
theorem v28_apply (o : Fin 8192) (k : Fin 2048) :
    (V21 (F := Ideal) m c (Proc.devRef .tc main_v28) : S8192x2048.Idx → EReal) (ix2 o k)
      = Cert.Spec.wqKey (wk m c) o k := by
  dsimp only [V21, V20, V19, V18, V17, V16, V15, V14, V13, V12, V11, V10, V9, V8, V7, V6, V5, V4, V3, V2, V1, V0]
  after_results_simp
  exact Cert.HostRead.wq_read (m ((c.tc : Thread nD τ).loc main_arg3)) 0x4B800000#32
    Facts₀.bcast_S_S8192x2048 Facts₀.reducesTo_S8192x2048_S_d0_1 Facts₀.h_S_ o k

/-- The quantised value weights. -/
theorem v39_apply (o : Fin 2048) (k : Fin 8192) :
    (V21 (F := Ideal) m c (Proc.devRef .tc main_v39) : S2048x8192.Idx → EReal) (ix2 o k)
      = Cert.Spec.wqVal (wv m c) o k := by
  dsimp only [V21, V20, V19, V18, V17, V16, V15, V14, V13, V12, V11, V10, V9, V8, V7, V6, V5, V4, V3, V2, V1, V0]
  after_results_simp
  exact Cert.HostRead.wq_read (m ((c.tc : Thread nD τ).loc main_arg5)) 0x4B800000#32
    Facts₀.bcast_S_S2048x8192 Facts₀.reducesTo_S2048x8192_S_d0_1 Facts₀.h_S_ o k

/-- The quantised receptance weights. -/
theorem v50_apply (o : Fin 2048) (k : Fin 2048) :
    (V21 (F := Ideal) m c (Proc.devRef .tc main_v50) : S2048x2048.Idx → EReal) (ix2 o k)
      = Cert.Spec.wqRec (wr m c) o k := by
  dsimp only [V21, V20, V19, V18, V17, V16, V15, V14, V13, V12, V11, V10, V9, V8, V7, V6, V5, V4, V3, V2, V1, V0]
  after_results_simp
  exact Cert.HostRead.wq_read (m ((c.tc : Thread nD τ).loc main_arg4)) 0x4A800000#32
    Facts₀.bcast_S_S2048x2048 Facts₀.reducesTo_S2048x2048_S_d0_1 Facts₀.h_S_ o k

/-- The key gain as one row. -/
theorem v51_apply (k : Fin 2048) :
    (V21 (F := Ideal) m c (Proc.devRef .tc main_v51) : S1x2048.Idx → EReal) (ix2 0 k) = nk m c k := by
  dsimp only [V21, V20, V19, V18, V17, V16, V15, V14, V13, V12, V11, V10, V9, V8, V7, V6, V5, V4, V3, V2, V1, V0]
  after_results_simp
  exact Cert.HostRead.row_read (m ((c.tc : Thread nD τ).loc main_arg6)) Facts₀.shapeCasts_S2048_S1x2048 k

/-- The receptance gain as one row. -/
theorem v52_apply (k : Fin 2048) :
    (V21 (F := Ideal) m c (Proc.devRef .tc main_v52) : S1x2048.Idx → EReal) (ix2 0 k) = nr m c k := by
  dsimp only [V21, V20, V19, V18, V17, V16, V15, V14, V13, V12, V11, V10, V9, V8, V7, V6, V5, V4, V3, V2, V1, V0]
  after_results_simp
  exact Cert.HostRead.row_read (m ((c.tc : Thread nD τ).loc main_arg7)) Facts₀.shapeCasts_S2048_S1x2048 k

/-- The value gain as one row. -/
theorem v53_apply (k : Fin 8192) :
    (V21 (F := Ideal) m c (Proc.devRef .tc main_v53) : S1x8192.Idx → EReal) (ix2 0 k) = nv m c k := by
  dsimp only [V21, V20, V19, V18, V17, V16, V15, V14, V13, V12, V11, V10, V9, V8, V7, V6, V5, V4, V3, V2, V1, V0]
  after_results_simp
  exact Cert.HostRead.row_read (m ((c.tc : Thread nD τ).loc main_arg8)) Facts₀.shapeCasts_S8192_S1x8192 k

end Cert.KernelIdeal.HostSide
-- ==== Proof.SpecArrays.lean ====
/-
  The whole block as a function of the nine argument ARRAYS (each a function of its array index) to the result array.
-/
import proofs.«174982_j50740743635387_2_alg».proof.Proof.Spec
import Idealize.ShloMosaic.Lib.ValueIdx

noncomputable section

namespace Cert.Spec

open Idealize.ShloMosaic Idealize.ShloMosaic.ValueIdx

/-- The result array [4, 2048, 2048] of the block from its nine argument arrays: hidden [4, 2048, 2048]; the two time-mix vectors
    [1, 1, 2048]; the key weights [8192, 2048], the receptance weights [2048, 2048], the value weights [2048, 8192]; the three gains
    [2048], [2048], [8192]. -/
def ofArrays (a0 : (⟨3, ![4, 2048, 2048]⟩ : Shape).Idx → EReal) (a1 a2 : (⟨3, ![1, 1, 2048]⟩ : Shape).Idx → EReal)
    (a3 : (⟨2, ![8192, 2048]⟩ : Shape).Idx → EReal) (a4 : (⟨2, ![2048, 2048]⟩ : Shape).Idx → EReal)
    (a5 : (⟨2, ![2048, 8192]⟩ : Shape).Idx → EReal) (a6 a7 : (⟨1, ![2048]⟩ : Shape).Idx → EReal)
    (a8 : (⟨1, ![8192]⟩ : Shape).Idx → EReal) : (⟨3, ![4, 2048, 2048]⟩ : Shape).Idx → EReal :=
  fun i => whole (fun b t h => a0 (ix3 b t h)) (fun h => a1 (ix3 0 0 h)) (fun h => a2 (ix3 0 0 h))
    (fun o k => a3 (ix2 o k)) (fun o k => a4 (ix2 o k)) (fun o k => a5 (ix2 o k))
    (fun h => a6 (ix1 h)) (fun h => a7 (ix1 h)) (fun h => a8 (ix1 h)) (i 0) (i 1) (i 2)

end Cert.Spec

end
-- ==== Proof.KValue.lean ====
/-
  The kernel's value: with the six regions' values and the host side's arrays in hand, the result buffer of the idealized
  kernel's run holds the block's function of its nine argument arrays.
-/
import proofs.«174982_j50740743635387_2_alg».proof.Proof.Halves
import proofs.«174982_j50740743635387_2_alg».proof.Proof.KThread
import proofs.«174982_j50740743635387_2_alg».proof.Proof.R0Value
import proofs.«174982_j50740743635387_2_alg».proof.Proof.R1Value
import proofs.«174982_j50740743635387_2_alg».proof.Proof.R2Value
import proofs.«174982_j50740743635387_2_alg».proof.Proof.R3Value
import proofs.«174982_j50740743635387_2_alg».proof.Proof.R4Value
import proofs.«174982_j50740743635387_2_alg».proof.Proof.R5Value
import proofs.«174982_j50740743635387_2_alg».proof.Proof.HostSide
import proofs.«174982_j50740743635387_2_alg».proof.Proof.SpecArrays

set_option maxRecDepth 16384

noncomputable section

namespace Cert.KernelIdeal.H

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The result buffer at the return, index by index. -/
theorem kernel_value_apply (c : Dev nD) (b : Fin 4) (t h : Fin 2048) :
    (Wend (F := Ideal) m ρ c (Proc.devRef .tc main_v63) : S4x2048x2048.Idx → EReal) (ix3 b t h)
      = Cert.Spec.whole (HostSide.hid m c) (HostSide.tmk m c) (HostSide.tmr m c) (HostSide.wk m c) (HostSide.wr m c)
          (HostSide.wv m c) (HostSide.nk m c) (HostSide.nr m c) (HostSide.nv m c) b t h :=
  result_value half0 half1 half2 half3 half4 half5 m ρ c
    (fun V c r j => value0 V c r j) (fun V c r o => value1 V c r o) (fun V c r j => value2 V c r j)
    (fun V c r o => value3 V c r o) (fun V c r j => value4 V c r j) (fun V c r o => value5 V c r o)
    (HostSide.hid m c) (HostSide.tmk m c) (HostSide.tmr m c) (HostSide.wk m c) (HostSide.wr m c)
    (HostSide.wv m c) (HostSide.nk m c) (HostSide.nr m c) (HostSide.nv m c)
    (HostSide.v16_apply m c) (HostSide.v17_apply m c) (HostSide.v28_apply m c) (HostSide.v39_apply m c)
    (HostSide.v50_apply m c) (HostSide.v51_apply m c) (HostSide.v52_apply m c) (HostSide.v53_apply m c) b t h

/-- The result buffer at the return is the block's function of the nine argument arrays as launched. -/
theorem kernel_value (c : Dev nD) :
    (Wend (F := Ideal) m ρ c (Proc.devRef .tc main_v63) : S4x2048x2048.Idx → EReal)
      = Cert.Spec.ofArrays (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) := by
  funext i
  rw [eq_ix3 i]
  exact kernel_value_apply m ρ c (i 0) (i 1) (i 2)

end Cert.KernelIdeal.H

end
-- ==== Proof.LibSsaLine.lean ====
/-
  Reading a straight line of host operations in single-assignment form.

  When every operation of a line writes exactly one buffer (the list `outs`, in order), a buffer that no operation from
  position k on writes holds, at the end, what it held after the first k operations.  So the buffer written by operation k
  ends at that operation's function of its operands' final contents, provided no later operation writes it and no operation
  from k on writes an operand.  Both provisos are membership questions about the list of written buffers.
-/
import Idealize.ShloMosaic.Lib.StableHlo.Run

noncomputable section

namespace Cert.RunLib

open Idealize.ShloMosaic Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

theorem forall_append' {α : Type*} {p : α → Prop} {l₁ l₂ : List α} (h₁ : l₁.Forall p) (h₂ : l₂.Forall p) :
    (l₁ ++ l₂).Forall p :=
  List.forall_iff_forall_mem.mpr fun a ha =>
    (List.mem_append.mp ha).elim (List.forall_iff_forall_mem.mp h₁ a) (List.forall_iff_forall_mem.mp h₂ a)

/-- `outs` lists, in order, the one buffer each operation writes. -/
def Writes (ops : List (HloOp τ sig Val)) (outs : List (Ref sig .tc)) : Prop :=
  List.Forall₂ (fun op y => op.writes = {Proc.devRef (τ := τ) .tc y}) ops outs

theorem Writes.append {l₁ l₂ : List (HloOp τ sig Val)} {o₁ o₂ : List (Ref sig .tc)}
    (h₁ : Writes l₁ o₁) (h₂ : Writes l₂ o₂) : Writes (l₁ ++ l₂) (o₁ ++ o₂) := by
  unfold Writes at *
  induction h₁ with
  | nil => exact h₂
  | cons hab _ ih => exact List.Forall₂.cons hab ih

/-- A buffer the line never writes keeps its contents. -/
theorem Writes.not_written {ops : List (HloOp τ sig Val)} {outs : List (Ref sig .tc)} (h : Writes ops outs)
    {r : Ref sig .tc} (hr : r ∉ outs) (V : Valuation τ sig Val) :
    after ops V (Proc.devRef .tc r) = V (Proc.devRef .tc r) := by
  unfold Writes at h
  induction h generalizing V with
  | nil => rfl
  | @cons op y ops' outs' hab _ ih =>
    rw [after_cons, ih (fun hm => hr (List.mem_cons_of_mem _ hm))]
    refine HloOp.result_of_not_mem _ _ ?_
    rw [hab, Finset.mem_singleton]
    exact devRef_ne_of_ne (fun e => hr (e ▸ List.mem_cons_self))

/-- A buffer no operation from position `k` on writes ends as it was after the first `k` operations. -/
theorem Writes.after_take {ops : List (HloOp τ sig Val)} {outs : List (Ref sig .tc)} (h : Writes ops outs) (k : Nat)
    {r : Ref sig .tc} (hr : r ∉ outs.drop k) (V : Valuation τ sig Val) :
    after ops V (Proc.devRef .tc r) = after (ops.take k) V (Proc.devRef .tc r) := by
  have hd : Writes (ops.drop k) (outs.drop k) := List.forall₂_drop k h
  conv_lhs => rw [← List.take_append_drop k ops]
  rw [after_append]
  exact hd.not_written hr _

theorem after_take_succ {ops : List (HloOp τ sig Val)} (k : Nat) (op : HloOp τ sig Val) (hk : ops[k]? = some op)
    (V : Valuation τ sig Val) : after (ops.take (k + 1)) V = op.result (after (ops.take k) V) := by
  rw [List.take_succ, hk, after_append]
  rfl

section At

variable {ops : List (HloOp τ sig Val)} {outs : List (Ref sig .tc)} (h : Writes ops outs) (k : Nat)
include h

theorem Writes.nullary_at (y : Ref sig .tc) (v : y.ty.Contents Val) (hy)
    (hk : ops[k]? = some (nullary y v hy)) (hy' : y ∉ outs.drop (k + 1)) (V : Valuation τ sig Val) :
    after ops V (Proc.devRef .tc y) = v := by
  rw [h.after_take (k + 1) hy', after_take_succ k _ hk]
  exact nullary_result y v hy _

theorem Writes.unary_at (x y : Ref sig .tc) (f : x.ty.Contents Val → y.ty.Contents Val) (hx hy)
    (hk : ops[k]? = some (unary x y f hx hy)) (hy' : y ∉ outs.drop (k + 1)) (hx' : x ∉ outs.drop k)
    (V : Valuation τ sig Val) :
    after ops V (Proc.devRef .tc y) = f (after ops V (Proc.devRef .tc x)) := by
  rw [h.after_take (k + 1) hy', after_take_succ k _ hk, h.after_take k hx']
  exact unary_result x y f hx hy _

theorem Writes.binary_at (a b y : Ref sig .tc) (f : a.ty.Contents Val → b.ty.Contents Val → y.ty.Contents Val) (ha hb hy)
    (hk : ops[k]? = some (binary a b y f ha hb hy)) (hy' : y ∉ outs.drop (k + 1))
    (ha' : a ∉ outs.drop k) (hb' : b ∉ outs.drop k) (V : Valuation τ sig Val) :
    after ops V (Proc.devRef .tc y) = f (after ops V (Proc.devRef .tc a)) (after ops V (Proc.devRef .tc b)) := by
  rw [h.after_take (k + 1) hy', after_take_succ k _ hk, h.after_take k ha', h.after_take k hb']
  exact binary_result a b y f ha hb hy _

theorem Writes.ternary_at (c a b y : Ref sig .tc)
    (f : c.ty.Contents Val → a.ty.Contents Val → b.ty.Contents Val → y.ty.Contents Val) (hc ha hb hy)
    (hk : ops[k]? = some (ternary c a b y f hc ha hb hy)) (hy' : y ∉ outs.drop (k + 1))
    (hc' : c ∉ outs.drop k) (ha' : a ∉ outs.drop k) (hb' : b ∉ outs.drop k) (V : Valuation τ sig Val) :
    after ops V (Proc.devRef .tc y)
      = f (after ops V (Proc.devRef .tc c)) (after ops V (Proc.devRef .tc a)) (after ops V (Proc.devRef .tc b)) := by
  rw [h.after_take (k + 1) hy', after_take_succ k _ hk, h.after_take k hc', h.after_take k ha', h.after_take k hb']
  exact ternary_result c a b y f hc ha hb hy _

theorem Writes.nary_at {n : Nat} (xs : Fin n → Ref sig .tc) (y : Ref sig .tc)
    (f : ((j : Fin n) → (xs j).ty.Contents Val) → y.ty.Contents Val) (hxs hy)
    (hk : ops[k]? = some (nary xs y f hxs hy)) (hy' : y ∉ outs.drop (k + 1))
    (hx' : ∀ j, xs j ∉ outs.drop k) (V : Valuation τ sig Val) :
    after ops V (Proc.devRef .tc y) = f (fun j => after ops V (Proc.devRef .tc (xs j))) := by
  rw [h.after_take (k + 1) hy', after_take_succ k _ hk]
  have e : (fun j => after ops V (Proc.devRef .tc (xs j))) = fun j => after (ops.take k) V (Proc.devRef .tc (xs j)) :=
    funext fun j => h.after_take k (hx' j) V
  rw [e]
  exact nary_result xs y f hxs hy _

end At

/-! ### Single assignment by increasing buffer numbers

When the written buffers' numbers increase along the line, the two provisos reduce to comparisons of numbers: the buffer
written at position `k` is not written again, and a buffer with a smaller number is not written from position `k` on. -/

/-- A buffer's number within its memory space. -/
def key (r : Ref sig .tc) : Nat := r.idx.val

theorem sorted_split {outs : List (Ref sig .tc)} (hs : (outs.map key).Pairwise (· < ·)) (k : Nat) (y : Ref sig .tc)
    (hy : outs[k]? = some y) : ∀ z ∈ outs.drop (k + 1), key y < key z := by
  have hk : k < outs.length := by
    rcases Nat.lt_or_ge k outs.length with h | h
    · exact h
    · rw [List.getElem?_eq_none h] at hy; exact absurd hy (by simp)
  have hyk : outs[k] = y := by
    rw [List.getElem?_eq_getElem hk] at hy; exact Option.some.inj hy
  have e : outs = outs.take k ++ y :: outs.drop (k + 1) := by
    rw [← hyk, List.getElem_cons_drop_succ_eq_drop hk, List.take_append_drop]
  intro z hz
  rw [e, List.map_append, List.map_cons, List.pairwise_append] at hs
  have h2 := hs.2.1
  rw [List.pairwise_cons] at h2
  exact h2.1 (key z) (List.mem_map_of_mem hz)

theorem not_mem_drop_succ {outs : List (Ref sig .tc)} (hs : (outs.map key).Pairwise (· < ·)) (k : Nat) (y : Ref sig .tc)
    (hy : outs[k]? = some y) : y ∉ outs.drop (k + 1) :=
  fun hm => Nat.lt_irrefl _ (sorted_split hs k y hy y hm)

theorem not_mem_drop_of_lt {outs : List (Ref sig .tc)} (hs : (outs.map key).Pairwise (· < ·)) (k : Nat) (y : Ref sig .tc)
    (hy : outs[k]? = some y) (x : Ref sig .tc) (hx : key x < key y) : x ∉ outs.drop k := by
  have hk : k < outs.length := by
    rcases Nat.lt_or_ge k outs.length with h | h
    · exact h
    · rw [List.getElem?_eq_none h] at hy; exact absurd hy (by simp)
  have hyk : outs[k] = y := by
    rw [List.getElem?_eq_getElem hk] at hy; exact Option.some.inj hy
  intro hm
  rw [← List.getElem_cons_drop_succ_eq_drop hk, hyk, List.mem_cons] at hm
  rcases hm with rfl | hm
  · exact Nat.lt_irrefl _ hx
  · exact Nat.lt_asymm hx (sorted_split hs k y hy x hm)

/-- Consecutive entries increase. -/
def increasing : List Nat → Bool
  | [] => true
  | [_] => true
  | a :: b :: l => decide (a < b) && increasing (b :: l)

theorem pairwise_of_increasing : ∀ (l : List Nat), increasing l = true → l.Pairwise (· < ·)
  | [], _ => List.Pairwise.nil
  | [_], _ => List.pairwise_singleton _ _
  | a :: b :: l, h => by
    simp only [increasing, Bool.and_eq_true, decide_eq_true_eq] at h
    have ih := pairwise_of_increasing (b :: l) h.2
    refine List.Pairwise.cons ?_ ih
    intro z hz
    rcases List.mem_cons.mp hz with rfl | hz
    · exact h.1
    · exact Nat.lt_trans h.1 ((List.pairwise_cons.mp ih).1 z hz)

/-- A line in single-assignment form with increasing buffer numbers. -/
structure Ssa (ops : List (HloOp τ sig Val)) (outs : List (Ref sig .tc)) : Prop where
  writes : Writes ops outs
  sorted : (outs.map key).Pairwise (· < ·)

section SsaAt

variable {ops : List (HloOp τ sig Val)} {outs : List (Ref sig .tc)} (h : Ssa ops outs) (k : Nat)
include h

theorem Ssa.nullary_at (y : Ref sig .tc) (v : y.ty.Contents Val) (hy)
    (hk : ops[k]? = some (nullary y v hy)) (ho : outs[k]? = some y) (V : Valuation τ sig Val) :
    after ops V (Proc.devRef .tc y) = v :=
  h.writes.nullary_at k y v hy hk (not_mem_drop_succ h.sorted k y ho) V

theorem Ssa.unary_at (x y : Ref sig .tc) (f : x.ty.Contents Val → y.ty.Contents Val) (hx hy)
    (hk : ops[k]? = some (unary x y f hx hy)) (ho : outs[k]? = some y) (hx' : key x < key y)
    (V : Valuation τ sig Val) :
    after ops V (Proc.devRef .tc y) = f (after ops V (Proc.devRef .tc x)) :=
  h.writes.unary_at k x y f hx hy hk (not_mem_drop_succ h.sorted k y ho) (not_mem_drop_of_lt h.sorted k y ho x hx') V

theorem Ssa.binary_at (a b y : Ref sig .tc) (f : a.ty.Contents Val → b.ty.Contents Val → y.ty.Contents Val) (ha hb hy)
    (hk : ops[k]? = some (binary a b y f ha hb hy)) (ho : outs[k]? = some y)
    (ha' : key a < key y) (hb' : key b < key y) (V : Valuation τ sig Val) :
    after ops V (Proc.devRef .tc y) = f (after ops V (Proc.devRef .tc a)) (after ops V (Proc.devRef .tc b)) :=
  h.writes.binary_at k a b y f ha hb hy hk (not_mem_drop_succ h.sorted k y ho)
    (not_mem_drop_of_lt h.sorted k y ho a ha') (not_mem_drop_of_lt h.sorted k y ho b hb') V

theorem Ssa.ternary_at (c a b y : Ref sig .tc)
    (f : c.ty.Contents Val → a.ty.Contents Val → b.ty.Contents Val → y.ty.Contents Val) (hc ha hb hy)
    (hk : ops[k]? = some (ternary c a b y f hc ha hb hy)) (ho : outs[k]? = some y)
    (hc' : key c < key y) (ha' : key a < key y) (hb' : key b < key y) (V : Valuation τ sig Val) :
    after ops V (Proc.devRef .tc y)
      = f (after ops V (Proc.devRef .tc c)) (after ops V (Proc.devRef .tc a)) (after ops V (Proc.devRef .tc b)) :=
  h.writes.ternary_at k c a b y f hc ha hb hy hk (not_mem_drop_succ h.sorted k y ho)
    (not_mem_drop_of_lt h.sorted k y ho c hc') (not_mem_drop_of_lt h.sorted k y ho a ha')
    (not_mem_drop_of_lt h.sorted k y ho b hb') V

theorem Ssa.nary_at {n : Nat} (xs : Fin n → Ref sig .tc) (y : Ref sig .tc)
    (f : ((j : Fin n) → (xs j).ty.Contents Val) → y.ty.Contents Val) (hxs hy)
    (hk : ops[k]? = some (nary xs y f hxs hy)) (ho : outs[k]? = some y)
    (hx' : ∀ j, key (xs j) < key y) (V : Valuation τ sig Val) :
    after ops V (Proc.devRef .tc y) = f (fun j => after ops V (Proc.devRef .tc (xs j))) :=
  h.writes.nary_at k xs y f hxs hy hk (not_mem_drop_succ h.sorted k y ho)
    (fun j => not_mem_drop_of_lt h.sorted k y ho (xs j) (hx' j)) V

end SsaAt

end Cert.RunLib

end
-- ==== Proof.RefRun.lean ====
/- The reference as a frame. The reference is a host program with no kernel launch: a straight line of 237 host
   operations, each writing exactly one buffer and none of them an argument buffer. Run from any memory with zero
   counters, every weakly fair execution of such a line ends without a fault with each buffer at the fold of the
   operations' results over the contents it was launched with; a buffer no operation writes keeps its contents under
   that fold. So each of the nine argument arrays ends as it started, whatever its entries: the frame needs nothing of
   the precondition and nothing about the result. -/
import proofs.«174982_j50740743635387_2_alg».proof.Defs
import proofs.«174982_j50740743635387_2_alg».proof.Proof.Gen.ReferenceIdeal
import proofs.«174982_j50740743635387_2_alg».proof.Proof.Gen.Pre_finite_inputs
import proofs.«174982_j50740743635387_2_alg».proof.Proof.RefRunGen
import proofs.«174982_j50740743635387_2_alg».proof.Proof.LibSsaLine

noncomputable section

namespace Cert.ReferenceIdeal.RefRun

open Cert.ReferenceIdeal Cert.ReferenceIdeal.Gen Cert.ReferenceIdeal.Value Idealize.ShloMosaic Idealize.ShloMosaic.TcCoe
  Idealize.SL.Sem Idealize.ShloMosaic.StableHlo Cert.RunLib

variable {F : FTy → Type} [FloatOps F]

/-- The buffer each of the 237 operations writes, in the order of the operations. -/
abbrev outs : List (Ref sig .tc) := [
    main_v0, main_c, main_call0_v0, main_v1, main_v2, main_v3, main_cst, main_v4,
    main_v5, main_v6, main_v7, main_v8, main_v9, main_v10, main_cst_0, main_v11,
    main_v12, main_v13, main_v14, main_v15, main_v16, main_cst_1, main_v17, main_v18,
    main_cst_2, main_v19, main_v20, main_cst_3, main_v21, main_v22, main_v23, main_v24,
    main_v25, main_v26, main_v27, main_v28, main_v29, main_cst_4, main_v30, main_v31,
    main_cst_5, main_call1_v0, main_call1_v1, main_v32, main_cst_6, main_v33, main_v34, main_v35,
    main_v36, main_v37, main_c_7, main_c_8, main_call3_v0, main_call3_v1, main_call3_v2, main_call3_v3,
    main_call3_v4, main_v38, main_v39, main_v40, main_v41, main_v42, main_v43, main_cst_9,
    main_v44, main_cst_10, main_v45, main_cst_11, main_call4_v0, main_v46, main_cst_12, main_v47,
    main_v48, main_v49, main_v50, main_c_13, main_c_14, main_call6_v0, main_call6_v1, main_call6_v2,
    main_call6_v3, main_call6_v4, main_v51, main_v52, main_v53, main_v54, main_v55, main_v56,
    main_call7_cst, main_call7_v0, main_v57, main_v58, main_v59, main_cst_15, main_v60, main_v61,
    main_cst_16, main_v62, main_v63, main_cst_17, main_v64, main_v65, main_v66, main_v67,
    main_v68, main_v69, main_v70, main_v71, main_v72, main_cst_18, main_v73, main_v74,
    main_cst_19, main_call8_v0, main_call8_v1, main_v75, main_cst_20, main_v76, main_v77, main_v78,
    main_v79, main_v80, main_c_21, main_c_22, main_call10_v0, main_call10_v1, main_call10_v2, main_call10_v3,
    main_call10_v4, main_v81, main_v82, main_v83, main_v84, main_v85, main_v86, main_cst_23,
    main_v87, main_cst_24, main_v88, main_cst_25, main_call11_v0, main_v89, main_cst_26, main_v90,
    main_v91, main_v92, main_v93, main_c_27, main_c_28, main_call13_v0, main_call13_v1, main_call13_v2,
    main_call13_v3, main_call13_v4, main_v94, main_v95, main_v96, main_v97, main_v98, main_v99,
    main_v100, main_cst_29, main_v101, main_v102, main_cst_30, main_v103, main_v104, main_cst_31,
    main_v105, main_v106, main_v107, main_v108, main_v109, main_v110, main_v111, main_v112,
    main_v113, main_cst_32, main_v114, main_v115, main_cst_33, main_call14_v0, main_call14_v1, main_v116,
    main_cst_34, main_v117, main_v118, main_v119, main_v120, main_v121, main_c_35, main_c_36,
    main_call16_v0, main_call16_v1, main_call16_v2, main_call16_v3, main_call16_v4, main_v122, main_v123, main_v124,
    main_v125, main_v126, main_v127, main_cst_37, main_v128, main_cst_38, main_v129, main_cst_39,
    main_call17_v0, main_v130, main_cst_40, main_v131, main_v132, main_v133, main_v134, main_c_41,
    main_c_42, main_call19_v0, main_call19_v1, main_call19_v2, main_call19_v3, main_call19_v4, main_v135, main_v136,
    main_v137, main_v138, main_v139, main_v140, main_v141, main_v142, main_cst_43, main_v143,
    main_v144, main_cst_44, main_v145, main_v146, main_v147]

/-- Operation k writes exactly the k-th buffer of the list. -/
theorem writes : Writes (ops (F := F)) outs := by
  unfold Writes
  repeat' (first | exact List.Forall₂.nil | refine List.Forall₂.cons rfl ?_)

/-- No operation writes argument 0: under the fold it keeps its contents. -/
theorem at_main_arg0 (V0 : Valuation τ sig (Elt F)) :
    after (ops (F := F)) V0 (Proc.devRef .tc main_arg0) = V0 (Proc.devRef .tc main_arg0) :=
  (writes (F := F)).not_written (by decide) V0

/-- No operation writes argument 1: under the fold it keeps its contents. -/
theorem at_main_arg1 (V0 : Valuation τ sig (Elt F)) :
    after (ops (F := F)) V0 (Proc.devRef .tc main_arg1) = V0 (Proc.devRef .tc main_arg1) :=
  (writes (F := F)).not_written (by decide) V0

/-- No operation writes argument 2: under the fold it keeps its contents. -/
theorem at_main_arg2 (V0 : Valuation τ sig (Elt F)) :
    after (ops (F := F)) V0 (Proc.devRef .tc main_arg2) = V0 (Proc.devRef .tc main_arg2) :=
  (writes (F := F)).not_written (by decide) V0

/-- No operation writes argument 3: under the fold it keeps its contents. -/
theorem at_main_arg3 (V0 : Valuation τ sig (Elt F)) :
    after (ops (F := F)) V0 (Proc.devRef .tc main_arg3) = V0 (Proc.devRef .tc main_arg3) :=
  (writes (F := F)).not_written (by decide) V0

/-- No operation writes argument 4: under the fold it keeps its contents. -/
theorem at_main_arg4 (V0 : Valuation τ sig (Elt F)) :
    after (ops (F := F)) V0 (Proc.devRef .tc main_arg4) = V0 (Proc.devRef .tc main_arg4) :=
  (writes (F := F)).not_written (by decide) V0

/-- No operation writes argument 5: under the fold it keeps its contents. -/
theorem at_main_arg5 (V0 : Valuation τ sig (Elt F)) :
    after (ops (F := F)) V0 (Proc.devRef .tc main_arg5) = V0 (Proc.devRef .tc main_arg5) :=
  (writes (F := F)).not_written (by decide) V0

/-- No operation writes argument 6: under the fold it keeps its contents. -/
theorem at_main_arg6 (V0 : Valuation τ sig (Elt F)) :
    after (ops (F := F)) V0 (Proc.devRef .tc main_arg6) = V0 (Proc.devRef .tc main_arg6) :=
  (writes (F := F)).not_written (by decide) V0

/-- No operation writes argument 7: under the fold it keeps its contents. -/
theorem at_main_arg7 (V0 : Valuation τ sig (Elt F)) :
    after (ops (F := F)) V0 (Proc.devRef .tc main_arg7) = V0 (Proc.devRef .tc main_arg7) :=
  (writes (F := F)).not_written (by decide) V0

/-- No operation writes argument 8: under the fold it keeps its contents. -/
theorem at_main_arg8 (V0 : Valuation τ sig (Elt F)) :
    after (ops (F := F)) V0 (Proc.devRef .tc main_arg8) = V0 (Proc.devRef .tc main_arg8) :=
  (writes (F := F)).not_written (by decide) V0

set_option maxHeartbeats 94800000 in
/-- The line of host operations runs to its end from any memory, and each argument buffer, written by none of the
    operations, ends with the contents it started with. -/
theorem run_args (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_arg0).trans (at_main_arg0 (launchContents m c)),
      (h c main_arg1).trans (at_main_arg1 (launchContents m c)),
      (h c main_arg2).trans (at_main_arg2 (launchContents m c)),
      (h c main_arg3).trans (at_main_arg3 (launchContents m c)),
      (h c main_arg4).trans (at_main_arg4 (launchContents m c)),
      (h c main_arg5).trans (at_main_arg5 (launchContents m c)),
      (h c main_arg6).trans (at_main_arg6 (launchContents m c)),
      (h c main_arg7).trans (at_main_arg7 (launchContents m c)),
      (h c main_arg8).trans (at_main_arg8 (launchContents m c))⟩)
    (run_seq scopedRefs_eq scopedSems_eq defs main (fun _ => ops) main_eq (fun _ => ops_sub) m ρ)

/-- Under the precondition (unused) the reference terminates without a fault and its nine argument arrays end
    unchanged. -/
theorem frame_ri :
    Cert.frame_ReferenceIdeal (hReferenceIdeal := Cert.ReferenceIdeal.Gen.facts)
      (hPre_finite_inputs := Cert.Pre_finite_inputs.Gen.facts) :=
  fun m ρ _ => run_args (F := Ideal) m ρ

end Cert.ReferenceIdeal.RefRun

end
-- ==== Proof.RefBridge.lean ====
/- The reference's straight line of 237 host operations read one operation at a time: the buffer an operation writes
   ends holding that operation's stage function of the argument arrays.  The line is in single-assignment form with
   increasing buffer numbers, so each buffer's final contents are its operation's function of its operands' final
   contents; the operands' lemmas then rewrite those to their stage functions, and the stage's definition closes. -/
import proofs.«174982_j50740743635387_2_alg».proof.Proof.RefReadGen
import proofs.«174982_j50740743635387_2_alg».proof.Proof.LibSsaLine

set_option maxRecDepth 16384

noncomputable section

namespace Cert.ReferenceIdeal.RefBridge

open Cert.ReferenceIdeal Cert.ReferenceIdeal.Gen Cert.ReferenceIdeal.Value Cert.ReferenceIdeal.Read
open Idealize.ShloMosaic Idealize.ShloMosaic.TcCoe Idealize.ShloMosaic.StableHlo Cert.RunLib

variable {F : FTy → Type} [FloatOps F]

/-- The buffer each operation writes, in program order. -/
abbrev outs : List (Ref sig .tc) :=
  [main_v0, main_c, main_call0_v0, main_v1, main_v2, main_v3, main_cst, main_v4, main_v5, main_v6, main_v7, main_v8, main_v9, main_v10, main_cst_0, main_v11, main_v12, main_v13, main_v14, main_v15, main_v16, main_cst_1, main_v17, main_v18, main_cst_2, main_v19, main_v20, main_cst_3, main_v21, main_v22, main_v23, main_v24, main_v25, main_v26, main_v27, main_v28, main_v29, main_cst_4, main_v30, main_v31, main_cst_5, main_call1_v0, main_call1_v1, main_v32, main_cst_6, main_v33, main_v34, main_v35, main_v36, main_v37, main_c_7, main_c_8, main_call3_v0, main_call3_v1, main_call3_v2, main_call3_v3, main_call3_v4, main_v38, main_v39, main_v40, main_v41, main_v42, main_v43, main_cst_9, main_v44, main_cst_10, main_v45, main_cst_11, main_call4_v0, main_v46, main_cst_12, main_v47, main_v48, main_v49, main_v50, main_c_13, main_c_14, main_call6_v0, main_call6_v1, main_call6_v2, main_call6_v3, main_call6_v4, main_v51, main_v52, main_v53, main_v54, main_v55, main_v56, main_call7_cst, main_call7_v0, main_v57, main_v58, main_v59, main_cst_15, main_v60, main_v61, main_cst_16, main_v62, main_v63, main_cst_17, main_v64, main_v65, main_v66, main_v67, main_v68, main_v69, main_v70, main_v71, main_v72, main_cst_18, main_v73, main_v74, main_cst_19, main_call8_v0, main_call8_v1, main_v75, main_cst_20, main_v76, main_v77, main_v78, main_v79, main_v80, main_c_21, main_c_22, main_call10_v0, main_call10_v1, main_call10_v2, main_call10_v3, main_call10_v4, main_v81, main_v82, main_v83, main_v84, main_v85, main_v86, main_cst_23, main_v87, main_cst_24, main_v88, main_cst_25, main_call11_v0, main_v89, main_cst_26, main_v90, main_v91, main_v92, main_v93, main_c_27, main_c_28, main_call13_v0, main_call13_v1, main_call13_v2, main_call13_v3, main_call13_v4, main_v94, main_v95, main_v96, main_v97, main_v98, main_v99, main_v100, main_cst_29, main_v101, main_v102, main_cst_30, main_v103, main_v104, main_cst_31, main_v105, main_v106, main_v107, main_v108, main_v109, main_v110, main_v111, main_v112, main_v113, main_cst_32, main_v114, main_v115, main_cst_33, main_call14_v0, main_call14_v1, main_v116, main_cst_34, main_v117, main_v118, main_v119, main_v120, main_v121, main_c_35, main_c_36, main_call16_v0, main_call16_v1, main_call16_v2, main_call16_v3, main_call16_v4, main_v122, main_v123, main_v124, main_v125, main_v126, main_v127, main_cst_37, main_v128, main_cst_38, main_v129, main_cst_39, main_call17_v0, main_v130, main_cst_40, main_v131, main_v132, main_v133, main_v134, main_c_41, main_c_42, main_call19_v0, main_call19_v1, main_call19_v2, main_call19_v3, main_call19_v4, main_v135, main_v136, main_v137, main_v138, main_v139, main_v140, main_v141, main_v142, main_cst_43, main_v143, main_v144, main_cst_44, main_v145, main_v146, main_v147]

theorem ops_writes : Writes (τ := τ) (ops (F := F)) outs := by
  unfold Writes
  repeat' (first | exact List.Forall₂.nil | refine List.Forall₂.cons rfl ?_)

theorem outs_sorted : (outs.map (key (sig := sig))).Pairwise (· < ·) := pairwise_of_increasing _ (by decide)

theorem ssa : Ssa (τ := τ) (ops (F := F)) outs := ⟨ops_writes, outs_sorted⟩

variable (V0 : Valuation τ sig (Elt F))

/-! ## The arguments are never written -/

theorem at_main_arg0 : after (ops (F := F)) V0 (Proc.devRef .tc main_arg0) = V0 (Proc.devRef .tc main_arg0) :=
  (ssa (F := F)).writes.not_written (by decide) V0
theorem at_main_arg1 : after (ops (F := F)) V0 (Proc.devRef .tc main_arg1) = V0 (Proc.devRef .tc main_arg1) :=
  (ssa (F := F)).writes.not_written (by decide) V0
theorem at_main_arg2 : after (ops (F := F)) V0 (Proc.devRef .tc main_arg2) = V0 (Proc.devRef .tc main_arg2) :=
  (ssa (F := F)).writes.not_written (by decide) V0
theorem at_main_arg3 : after (ops (F := F)) V0 (Proc.devRef .tc main_arg3) = V0 (Proc.devRef .tc main_arg3) :=
  (ssa (F := F)).writes.not_written (by decide) V0
theorem at_main_arg4 : after (ops (F := F)) V0 (Proc.devRef .tc main_arg4) = V0 (Proc.devRef .tc main_arg4) :=
  (ssa (F := F)).writes.not_written (by decide) V0
theorem at_main_arg5 : after (ops (F := F)) V0 (Proc.devRef .tc main_arg5) = V0 (Proc.devRef .tc main_arg5) :=
  (ssa (F := F)).writes.not_written (by decide) V0
theorem at_main_arg6 : after (ops (F := F)) V0 (Proc.devRef .tc main_arg6) = V0 (Proc.devRef .tc main_arg6) :=
  (ssa (F := F)).writes.not_written (by decide) V0
theorem at_main_arg7 : after (ops (F := F)) V0 (Proc.devRef .tc main_arg7) = V0 (Proc.devRef .tc main_arg7) :=
  (ssa (F := F)).writes.not_written (by decide) V0
theorem at_main_arg8 : after (ops (F := F)) V0 (Proc.devRef .tc main_arg8) = V0 (Proc.devRef .tc main_arg8) :=
  (ssa (F := F)).writes.not_written (by decide) V0

/-! ## One lemma per operation, in program order -/

theorem at_main_v0 : (after (ops (F := F)) V0 (Proc.devRef .tc main_v0) : (⟨S4x2047x2048, .f32⟩ : BufTy).Contents (Elt F)) = val_main_v0 (F := F) (V0 (Proc.devRef .tc main_arg0)) :=
  ((ssa (F := F)).unary_at 0 main_arg0 main_v0 _ _ _ rfl rfl (by decide) V0).trans (by rw [at_main_arg0 (F := F) V0]; rfl)
theorem at_main_c : (after (ops (F := F)) V0 (Proc.devRef .tc main_c) : (⟨S_, .i32⟩ : BufTy).Contents (Elt F)) = val_main_c (F := F) :=
  ((ssa (F := F)).nullary_at 1 main_c _ _ rfl rfl V0).trans rfl
theorem at_main_call0_v0 : (after (ops (F := F)) V0 (Proc.devRef .tc main_call0_v0) : (⟨S_, .f32⟩ : BufTy).Contents (Elt F)) = val_main_call0_v0 (F := F) :=
  ((ssa (F := F)).unary_at 2 main_c main_call0_v0 _ _ _ rfl rfl (by decide) V0).trans (by rw [at_main_c (F := F) V0]; rfl)
theorem at_main_v1 : (after (ops (F := F)) V0 (Proc.devRef .tc main_v1) : (⟨S4x2048x2048, .f32⟩ : BufTy).Contents (Elt F)) = val_main_v1 (F := F) (V0 (Proc.devRef .tc main_arg0)) :=
  ((ssa (F := F)).binary_at 3 main_v0 main_call0_v0 main_v1 _ _ _ _ rfl rfl (by decide) (by decide) V0).trans (by rw [at_main_v0 (F := F) V0, at_main_call0_v0 (F := F) V0]; rfl)
theorem at_main_v2 : (after (ops (F := F)) V0 (Proc.devRef .tc main_v2) : (⟨S4x2048x2048, .f32⟩ : BufTy).Contents (Elt F)) = val_main_v2 (F := F) (V0 (Proc.devRef .tc main_arg1)) :=
  ((ssa (F := F)).unary_at 4 main_arg1 main_v2 _ _ _ rfl rfl (by decide) V0).trans (by rw [at_main_arg1 (F := F) V0]; rfl)
theorem at_main_v3 : (after (ops (F := F)) V0 (Proc.devRef .tc main_v3) : (⟨S4x2048x2048, .f32⟩ : BufTy).Contents (Elt F)) = val_main_v3 (F := F) (V0 (Proc.devRef .tc main_arg0)) (V0 (Proc.devRef .tc main_arg1)) :=
  ((ssa (F := F)).binary_at 5 main_arg0 main_v2 main_v3 _ _ _ _ rfl rfl (by decide) (by decide) V0).trans (by rw [at_main_arg0 (F := F) V0, at_main_v2 (F := F) V0]; rfl)
theorem at_main_cst : (after (ops (F := F)) V0 (Proc.devRef .tc main_cst) : (⟨S_, .f32⟩ : BufTy).Contents (Elt F)) = val_main_cst (F := F) :=
  ((ssa (F := F)).nullary_at 6 main_cst _ _ rfl rfl V0).trans rfl
theorem at_main_v4 : (after (ops (F := F)) V0 (Proc.devRef .tc main_v4) : (⟨S1x1x2048, .f32⟩ : BufTy).Contents (Elt F)) = val_main_v4 (F := F) :=
  ((ssa (F := F)).unary_at 7 main_cst main_v4 _ _ _ rfl rfl (by decide) V0).trans (by rw [at_main_cst (F := F) V0]; rfl)
theorem at_main_v5 : (after (ops (F := F)) V0 (Proc.devRef .tc main_v5) : (⟨S1x1x2048, .f32⟩ : BufTy).Contents (Elt F)) = val_main_v5 (F := F) (V0 (Proc.devRef .tc main_arg1)) :=
  ((ssa (F := F)).binary_at 8 main_v4 main_arg1 main_v5 _ _ _ _ rfl rfl (by decide) (by decide) V0).trans (by rw [at_main_v4 (F := F) V0, at_main_arg1 (F := F) V0]; rfl)
theorem at_main_v6 : (after (ops (F := F)) V0 (Proc.devRef .tc main_v6) : (⟨S4x2048x2048, .f32⟩ : BufTy).Contents (Elt F)) = val_main_v6 (F := F) (V0 (Proc.devRef .tc main_arg1)) :=
  ((ssa (F := F)).unary_at 9 main_v5 main_v6 _ _ _ rfl rfl (by decide) V0).trans (by rw [at_main_v5 (F := F) V0]; rfl)
theorem at_main_v7 : (after (ops (F := F)) V0 (Proc.devRef .tc main_v7) : (⟨S4x2048x2048, .f32⟩ : BufTy).Contents (Elt F)) = val_main_v7 (F := F) (V0 (Proc.devRef .tc main_arg0)) (V0 (Proc.devRef .tc main_arg1)) :=
  ((ssa (F := F)).binary_at 10 main_v1 main_v6 main_v7 _ _ _ _ rfl rfl (by decide) (by decide) V0).trans (by rw [at_main_v1 (F := F) V0, at_main_v6 (F := F) V0]; rfl)
theorem at_main_v8 : (after (ops (F := F)) V0 (Proc.devRef .tc main_v8) : (⟨S4x2048x2048, .f32⟩ : BufTy).Contents (Elt F)) = val_main_v8 (F := F) (V0 (Proc.devRef .tc main_arg0)) (V0 (Proc.devRef .tc main_arg1)) :=
  ((ssa (F := F)).binary_at 11 main_v3 main_v7 main_v8 _ _ _ _ rfl rfl (by decide) (by decide) V0).trans (by rw [at_main_v3 (F := F) V0, at_main_v7 (F := F) V0]; rfl)
theorem at_main_v9 : (after (ops (F := F)) V0 (Proc.devRef .tc main_v9) : (⟨S4x2048x2048, .f32⟩ : BufTy).Contents (Elt F)) = val_main_v9 (F := F) (V0 (Proc.devRef .tc main_arg2)) :=
  ((ssa (F := F)).unary_at 12 main_arg2 main_v9 _ _ _ rfl rfl (by decide) V0).trans (by rw [at_main_arg2 (F := F) V0]; rfl)
theorem at_main_v10 : (after (ops (F := F)) V0 (Proc.devRef .tc main_v10) : (⟨S4x2048x2048, .f32⟩ : BufTy).Contents (Elt F)) = val_main_v10 (F := F) (V0 (Proc.devRef .tc main_arg0)) (V0 (Proc.devRef .tc main_arg2)) :=
  ((ssa (F := F)).binary_at 13 main_arg0 main_v9 main_v10 _ _ _ _ rfl rfl (by decide) (by decide) V0).trans (by rw [at_main_arg0 (F := F) V0, at_main_v9 (F := F) V0]; rfl)
theorem at_main_cst_0 : (after (ops (F := F)) V0 (Proc.devRef .tc main_cst_0) : (⟨S_, .f32⟩ : BufTy).Contents (Elt F)) = val_main_cst_0 (F := F) :=
  ((ssa (F := F)).nullary_at 14 main_cst_0 _ _ rfl rfl V0).trans rfl
theorem at_main_v11 : (after (ops (F := F)) V0 (Proc.devRef .tc main_v11) : (⟨S1x1x2048, .f32⟩ : BufTy).Contents (Elt F)) = val_main_v11 (F := F) :=
  ((ssa (F := F)).unary_at 15 main_cst_0 main_v11 _ _ _ rfl rfl (by decide) V0).trans (by rw [at_main_cst_0 (F := F) V0]; rfl)
theorem at_main_v12 : (after (ops (F := F)) V0 (Proc.devRef .tc main_v12) : (⟨S1x1x2048, .f32⟩ : BufTy).Contents (Elt F)) = val_main_v12 (F := F) (V0 (Proc.devRef .tc main_arg2)) :=
  ((ssa (F := F)).binary_at 16 main_v11 main_arg2 main_v12 _ _ _ _ rfl rfl (by decide) (by decide) V0).trans (by rw [at_main_v11 (F := F) V0, at_main_arg2 (F := F) V0]; rfl)
theorem at_main_v13 : (after (ops (F := F)) V0 (Proc.devRef .tc main_v13) : (⟨S4x2048x2048, .f32⟩ : BufTy).Contents (Elt F)) = val_main_v13 (F := F) (V0 (Proc.devRef .tc main_arg2)) :=
  ((ssa (F := F)).unary_at 17 main_v12 main_v13 _ _ _ rfl rfl (by decide) V0).trans (by rw [at_main_v12 (F := F) V0]; rfl)
theorem at_main_v14 : (after (ops (F := F)) V0 (Proc.devRef .tc main_v14) : (⟨S4x2048x2048, .f32⟩ : BufTy).Contents (Elt F)) = val_main_v14 (F := F) (V0 (Proc.devRef .tc main_arg0)) (V0 (Proc.devRef .tc main_arg2)) :=
  ((ssa (F := F)).binary_at 18 main_v1 main_v13 main_v14 _ _ _ _ rfl rfl (by decide) (by decide) V0).trans (by rw [at_main_v1 (F := F) V0, at_main_v13 (F := F) V0]; rfl)
theorem at_main_v15 : (after (ops (F := F)) V0 (Proc.devRef .tc main_v15) : (⟨S4x2048x2048, .f32⟩ : BufTy).Contents (Elt F)) = val_main_v15 (F := F) (V0 (Proc.devRef .tc main_arg0)) (V0 (Proc.devRef .tc main_arg2)) :=
  ((ssa (F := F)).binary_at 19 main_v10 main_v14 main_v15 _ _ _ _ rfl rfl (by decide) (by decide) V0).trans (by rw [at_main_v10 (F := F) V0, at_main_v14 (F := F) V0]; rfl)
theorem at_main_v16 : (after (ops (F := F)) V0 (Proc.devRef .tc main_v16) : (⟨S4x2048x2048, .f32⟩ : BufTy).Contents (Elt F)) = val_main_v16 (F := F) (V0 (Proc.devRef .tc main_arg0)) (V0 (Proc.devRef .tc main_arg1)) :=
  ((ssa (F := F)).binary_at 20 main_v8 main_v8 main_v16 _ _ _ _ rfl rfl (by decide) (by decide) V0).trans (by rw [at_main_v8 (F := F) V0]; rfl)
theorem at_main_cst_1 : (after (ops (F := F)) V0 (Proc.devRef .tc main_cst_1) : (⟨S_, .f32⟩ : BufTy).Contents (Elt F)) = val_main_cst_1 (F := F) :=
  ((ssa (F := F)).nullary_at 21 main_cst_1 _ _ rfl rfl V0).trans rfl
theorem at_main_v17 : (after (ops (F := F)) V0 (Proc.devRef .tc main_v17) : (⟨S4x2048, .f32⟩ : BufTy).Contents (Elt F)) = val_main_v17 (F := F) (V0 (Proc.devRef .tc main_arg0)) (V0 (Proc.devRef .tc main_arg1)) :=
  ((ssa (F := F)).binary_at 22 main_v16 main_cst_1 main_v17 _ _ _ _ rfl rfl (by decide) (by decide) V0).trans (by rw [at_main_v16 (F := F) V0, at_main_cst_1 (F := F) V0]; rfl)
theorem at_main_v18 : (after (ops (F := F)) V0 (Proc.devRef .tc main_v18) : (⟨S4x2048x1, .f32⟩ : BufTy).Contents (Elt F)) = val_main_v18 (F := F) (V0 (Proc.devRef .tc main_arg0)) (V0 (Proc.devRef .tc main_arg1)) :=
  ((ssa (F := F)).unary_at 23 main_v17 main_v18 _ _ _ rfl rfl (by decide) V0).trans (by rw [at_main_v17 (F := F) V0]; rfl)
theorem at_main_cst_2 : (after (ops (F := F)) V0 (Proc.devRef .tc main_cst_2) : (⟨S_, .f32⟩ : BufTy).Contents (Elt F)) = val_main_cst_2 (F := F) :=
  ((ssa (F := F)).nullary_at 24 main_cst_2 _ _ rfl rfl V0).trans rfl
theorem at_main_v19 : (after (ops (F := F)) V0 (Proc.devRef .tc main_v19) : (⟨S4x2048x1, .f32⟩ : BufTy).Contents (Elt F)) = val_main_v19 (F := F) :=
  ((ssa (F := F)).unary_at 25 main_cst_2 main_v19 _ _ _ rfl rfl (by decide) V0).trans (by rw [at_main_cst_2 (F := F) V0]; rfl)
theorem at_main_v20 : (after (ops (F := F)) V0 (Proc.devRef .tc main_v20) : (⟨S4x2048x1, .f32⟩ : BufTy).Contents (Elt F)) = val_main_v20 (F := F) (V0 (Proc.devRef .tc main_arg0)) (V0 (Proc.devRef .tc main_arg1)) :=
  ((ssa (F := F)).binary_at 26 main_v18 main_v19 main_v20 _ _ _ _ rfl rfl (by decide) (by decide) V0).trans (by rw [at_main_v18 (F := F) V0, at_main_v19 (F := F) V0]; rfl)
theorem at_main_cst_3 : (after (ops (F := F)) V0 (Proc.devRef .tc main_cst_3) : (⟨S_, .f32⟩ : BufTy).Contents (Elt F)) = val_main_cst_3 (F := F) :=
  ((ssa (F := F)).nullary_at 27 main_cst_3 _ _ rfl rfl V0).trans rfl
theorem at_main_v21 : (after (ops (F := F)) V0 (Proc.devRef .tc main_v21) : (⟨S4x2048x1, .f32⟩ : BufTy).Contents (Elt F)) = val_main_v21 (F := F) :=
  ((ssa (F := F)).unary_at 28 main_cst_3 main_v21 _ _ _ rfl rfl (by decide) V0).trans (by rw [at_main_cst_3 (F := F) V0]; rfl)
theorem at_main_v22 : (after (ops (F := F)) V0 (Proc.devRef .tc main_v22) : (⟨S4x2048x1, .f32⟩ : BufTy).Contents (Elt F)) = val_main_v22 (F := F) (V0 (Proc.devRef .tc main_arg0)) (V0 (Proc.devRef .tc main_arg1)) :=
  ((ssa (F := F)).binary_at 29 main_v20 main_v21 main_v22 _ _ _ _ rfl rfl (by decide) (by decide) V0).trans (by rw [at_main_v20 (F := F) V0, at_main_v21 (F := F) V0]; rfl)
theorem at_main_v23 : (after (ops (F := F)) V0 (Proc.devRef .tc main_v23) : (⟨S4x2048x1, .f32⟩ : BufTy).Contents (Elt F)) = val_main_v23 (F := F) (V0 (Proc.devRef .tc main_arg0)) (V0 (Proc.devRef .tc main_arg1)) :=
  ((ssa (F := F)).unary_at 30 main_v22 main_v23 _ _ _ rfl rfl (by decide) V0).trans (by rw [at_main_v22 (F := F) V0]; rfl)
theorem at_main_v24 : (after (ops (F := F)) V0 (Proc.devRef .tc main_v24) : (⟨S4x2048x2048, .f32⟩ : BufTy).Contents (Elt F)) = val_main_v24 (F := F) (V0 (Proc.devRef .tc main_arg0)) (V0 (Proc.devRef .tc main_arg1)) :=
  ((ssa (F := F)).unary_at 31 main_v23 main_v24 _ _ _ rfl rfl (by decide) V0).trans (by rw [at_main_v23 (F := F) V0]; rfl)
theorem at_main_v25 : (after (ops (F := F)) V0 (Proc.devRef .tc main_v25) : (⟨S4x2048x2048, .f32⟩ : BufTy).Contents (Elt F)) = val_main_v25 (F := F) (V0 (Proc.devRef .tc main_arg0)) (V0 (Proc.devRef .tc main_arg1)) :=
  ((ssa (F := F)).binary_at 32 main_v8 main_v24 main_v25 _ _ _ _ rfl rfl (by decide) (by decide) V0).trans (by rw [at_main_v8 (F := F) V0, at_main_v24 (F := F) V0]; rfl)
theorem at_main_v26 : (after (ops (F := F)) V0 (Proc.devRef .tc main_v26) : (⟨S1x1x2048, .f32⟩ : BufTy).Contents (Elt F)) = val_main_v26 (F := F) (V0 (Proc.devRef .tc main_arg6)) :=
  ((ssa (F := F)).unary_at 33 main_arg6 main_v26 _ _ _ rfl rfl (by decide) V0).trans (by rw [at_main_arg6 (F := F) V0]; rfl)
theorem at_main_v27 : (after (ops (F := F)) V0 (Proc.devRef .tc main_v27) : (⟨S4x2048x2048, .f32⟩ : BufTy).Contents (Elt F)) = val_main_v27 (F := F) (V0 (Proc.devRef .tc main_arg6)) :=
  ((ssa (F := F)).unary_at 34 main_v26 main_v27 _ _ _ rfl rfl (by decide) V0).trans (by rw [at_main_v26 (F := F) V0]; rfl)
theorem at_main_v28 : (after (ops (F := F)) V0 (Proc.devRef .tc main_v28) : (⟨S4x2048x2048, .f32⟩ : BufTy).Contents (Elt F)) = val_main_v28 (F := F) (V0 (Proc.devRef .tc main_arg0)) (V0 (Proc.devRef .tc main_arg1)) (V0 (Proc.devRef .tc main_arg6)) :=
  ((ssa (F := F)).binary_at 35 main_v25 main_v27 main_v28 _ _ _ _ rfl rfl (by decide) (by decide) V0).trans (by rw [at_main_v25 (F := F) V0, at_main_v27 (F := F) V0]; rfl)
theorem at_main_v29 : (after (ops (F := F)) V0 (Proc.devRef .tc main_v29) : (⟨S4x2048x2048, .f32⟩ : BufTy).Contents (Elt F)) = val_main_v29 (F := F) (V0 (Proc.devRef .tc main_arg0)) (V0 (Proc.devRef .tc main_arg1)) (V0 (Proc.devRef .tc main_arg6)) :=
  ((ssa (F := F)).unary_at 36 main_v28 main_v29 _ _ _ rfl rfl (by decide) V0).trans (by rw [at_main_v28 (F := F) V0]; rfl)
theorem at_main_cst_4 : (after (ops (F := F)) V0 (Proc.devRef .tc main_cst_4) : (⟨S_, .f32⟩ : BufTy).Contents (Elt F)) = val_main_cst_4 (F := F) :=
  ((ssa (F := F)).nullary_at 37 main_cst_4 _ _ rfl rfl V0).trans rfl
theorem at_main_v30 : (after (ops (F := F)) V0 (Proc.devRef .tc main_v30) : (⟨S4x2048, .f32⟩ : BufTy).Contents (Elt F)) = val_main_v30 (F := F) (V0 (Proc.devRef .tc main_arg0)) (V0 (Proc.devRef .tc main_arg1)) (V0 (Proc.devRef .tc main_arg6)) :=
  ((ssa (F := F)).binary_at 38 main_v29 main_cst_4 main_v30 _ _ _ _ rfl rfl (by decide) (by decide) V0).trans (by rw [at_main_v29 (F := F) V0, at_main_cst_4 (F := F) V0]; rfl)
theorem at_main_v31 : (after (ops (F := F)) V0 (Proc.devRef .tc main_v31) : (⟨S4x2048x1, .f32⟩ : BufTy).Contents (Elt F)) = val_main_v31 (F := F) (V0 (Proc.devRef .tc main_arg0)) (V0 (Proc.devRef .tc main_arg1)) (V0 (Proc.devRef .tc main_arg6)) :=
  ((ssa (F := F)).unary_at 39 main_v30 main_v31 _ _ _ rfl rfl (by decide) V0).trans (by rw [at_main_v30 (F := F) V0]; rfl)
theorem at_main_cst_5 : (after (ops (F := F)) V0 (Proc.devRef .tc main_cst_5) : (⟨S_, .f32⟩ : BufTy).Contents (Elt F)) = val_main_cst_5 (F := F) :=
  ((ssa (F := F)).nullary_at 40 main_cst_5 _ _ rfl rfl V0).trans rfl
theorem at_main_call1_v0 : (after (ops (F := F)) V0 (Proc.devRef .tc main_call1_v0) : (⟨S_, .f32⟩ : BufTy).Contents (Elt F)) = val_main_call1_v0 (F := F) :=
  ((ssa (F := F)).unary_at 41 main_cst_5 main_call1_v0 _ _ _ rfl rfl (by decide) V0).trans (by rw [at_main_cst_5 (F := F) V0]; rfl)
theorem at_main_call1_v1 : (after (ops (F := F)) V0 (Proc.devRef .tc main_call1_v1) : (⟨S4x2048x1, .f32⟩ : BufTy).Contents (Elt F)) = val_main_call1_v1 (F := F) :=
  ((ssa (F := F)).unary_at 42 main_call1_v0 main_call1_v1 _ _ _ rfl rfl (by decide) V0).trans (by rw [at_main_call1_v0 (F := F) V0]; rfl)
theorem tr_main_v32 (A0 : (⟨S4x2048x1, .f32⟩ : BufTy).Contents (Elt F)) (A1 : (⟨S4x2048x1, .f32⟩ : BufTy).Contents (Elt F)) :
    (((TRef.of (sig := sig) (T := ⟨S4x2048x1, .f32⟩) main_v32).toBuf (Val := Elt F) (maximumf ((TRef.of (sig := sig) (T := ⟨S4x2048x1, .f32⟩) main_call1_v1).ofBuf (Val := Elt F) A0) ((TRef.of (sig := sig) (T := ⟨S4x2048x1, .f32⟩) main_v31).ofBuf (Val := Elt F) A1))) : (⟨S4x2048x1, .f32⟩ : BufTy).Contents (Elt F)) = maximumf A0 A1 := rfl
theorem at_main_v32 : (after (ops (F := F)) V0 (Proc.devRef .tc main_v32) : (⟨S4x2048x1, .f32⟩ : BufTy).Contents (Elt F)) = val_main_v32 (F := F) (V0 (Proc.devRef .tc main_arg0)) (V0 (Proc.devRef .tc main_arg1)) (V0 (Proc.devRef .tc main_arg6)) :=
  ((ssa (F := F)).binary_at 43 main_call1_v1 main_v31 main_v32 _ _ _ _ rfl rfl (by decide) (by decide) V0).trans (by rw [at_main_call1_v1 (F := F) V0, at_main_v31 (F := F) V0]; exact tr_main_v32 (F := F) _ _)
theorem at_main_cst_6 : (after (ops (F := F)) V0 (Proc.devRef .tc main_cst_6) : (⟨S_, .f32⟩ : BufTy).Contents (Elt F)) = val_main_cst_6 (F := F) :=
  ((ssa (F := F)).nullary_at 44 main_cst_6 _ _ rfl rfl V0).trans rfl
theorem at_main_v33 : (after (ops (F := F)) V0 (Proc.devRef .tc main_v33) : (⟨S4x2048x1, .f32⟩ : BufTy).Contents (Elt F)) = val_main_v33 (F := F) :=
  ((ssa (F := F)).unary_at 45 main_cst_6 main_v33 _ _ _ rfl rfl (by decide) V0).trans (by rw [at_main_cst_6 (F := F) V0]; rfl)
theorem at_main_v34 : (after (ops (F := F)) V0 (Proc.devRef .tc main_v34) : (⟨S4x2048x1, .f32⟩ : BufTy).Contents (Elt F)) = val_main_v34 (F := F) (V0 (Proc.devRef .tc main_arg0)) (V0 (Proc.devRef .tc main_arg1)) (V0 (Proc.devRef .tc main_arg6)) :=
  ((ssa (F := F)).binary_at 46 main_v33 main_v32 main_v34 _ _ _ _ rfl rfl (by decide) (by decide) V0).trans (by rw [at_main_v33 (F := F) V0, at_main_v32 (F := F) V0]; rfl)
theorem at_main_v35 : (after (ops (F := F)) V0 (Proc.devRef .tc main_v35) : (⟨S4x2048x2048, .f32⟩ : BufTy).Contents (Elt F)) = val_main_v35 (F := F) (V0 (Proc.devRef .tc main_arg0)) (V0 (Proc.devRef .tc main_arg1)) (V0 (Proc.devRef .tc main_arg6)) :=
  ((ssa (F := F)).unary_at 47 main_v34 main_v35 _ _ _ rfl rfl (by decide) V0).trans (by rw [at_main_v34 (F := F) V0]; rfl)
theorem at_main_v36 : (after (ops (F := F)) V0 (Proc.devRef .tc main_v36) : (⟨S4x2048x2048, .f32⟩ : BufTy).Contents (Elt F)) = val_main_v36 (F := F) (V0 (Proc.devRef .tc main_arg0)) (V0 (Proc.devRef .tc main_arg1)) (V0 (Proc.devRef .tc main_arg6)) :=
  ((ssa (F := F)).binary_at 48 main_v28 main_v35 main_v36 _ _ _ _ rfl rfl (by decide) (by decide) V0).trans (by rw [at_main_v28 (F := F) V0, at_main_v35 (F := F) V0]; rfl)
theorem at_main_v37 : (after (ops (F := F)) V0 (Proc.devRef .tc main_v37) : (⟨S4x2048x2048, .f32⟩ : BufTy).Contents (Elt F)) = val_main_v37 (F := F) (V0 (Proc.devRef .tc main_arg0)) (V0 (Proc.devRef .tc main_arg1)) (V0 (Proc.devRef .tc main_arg6)) :=
  ((ssa (F := F)).unary_at 49 main_v36 main_v37 _ _ _ rfl rfl (by decide) V0).trans (by rw [at_main_v36 (F := F) V0]; rfl)
theorem at_main_c_7 : (after (ops (F := F)) V0 (Proc.devRef .tc main_c_7) : (⟨S_, .i32⟩ : BufTy).Contents (Elt F)) = val_main_c_7 (F := F) :=
  ((ssa (F := F)).nullary_at 50 main_c_7 _ _ rfl rfl V0).trans rfl
theorem at_main_c_8 : (after (ops (F := F)) V0 (Proc.devRef .tc main_c_8) : (⟨S_, .i32⟩ : BufTy).Contents (Elt F)) = val_main_c_8 (F := F) :=
  ((ssa (F := F)).nullary_at 51 main_c_8 _ _ rfl rfl V0).trans rfl
theorem at_main_call3_v0 : (after (ops (F := F)) V0 (Proc.devRef .tc main_call3_v0) : (⟨S_, .f32⟩ : BufTy).Contents (Elt F)) = val_main_call3_v0 (F := F) :=
  ((ssa (F := F)).unary_at 52 main_c_7 main_call3_v0 _ _ _ rfl rfl (by decide) V0).trans (by rw [at_main_c_7 (F := F) V0]; rfl)
theorem at_main_call3_v1 : (after (ops (F := F)) V0 (Proc.devRef .tc main_call3_v1) : (⟨S4x2048x2048, .f32⟩ : BufTy).Contents (Elt F)) = val_main_call3_v1 (F := F) :=
  ((ssa (F := F)).unary_at 53 main_call3_v0 main_call3_v1 _ _ _ rfl rfl (by decide) V0).trans (by rw [at_main_call3_v0 (F := F) V0]; rfl)
theorem tr_main_call3_v2 (A0 : (⟨S4x2048x2048, .f32⟩ : BufTy).Contents (Elt F)) (A1 : (⟨S4x2048x2048, .f32⟩ : BufTy).Contents (Elt F)) :
    (((TRef.of (sig := sig) (T := ⟨S4x2048x2048, .f32⟩) main_call3_v2).toBuf (Val := Elt F) (maximumf ((TRef.of (sig := sig) (T := ⟨S4x2048x2048, .f32⟩) main_call3_v1).ofBuf (Val := Elt F) A0) ((TRef.of (sig := sig) (T := ⟨S4x2048x2048, .f32⟩) main_v37).ofBuf (Val := Elt F) A1))) : (⟨S4x2048x2048, .f32⟩ : BufTy).Contents (Elt F)) = maximumf A0 A1 := rfl
theorem at_main_call3_v2 : (after (ops (F := F)) V0 (Proc.devRef .tc main_call3_v2) : (⟨S4x2048x2048, .f32⟩ : BufTy).Contents (Elt F)) = val_main_call3_v2 (F := F) (V0 (Proc.devRef .tc main_arg0)) (V0 (Proc.devRef .tc main_arg1)) (V0 (Proc.devRef .tc main_arg6)) :=
  ((ssa (F := F)).binary_at 54 main_call3_v1 main_v37 main_call3_v2 _ _ _ _ rfl rfl (by decide) (by decide) V0).trans (by rw [at_main_call3_v1 (F := F) V0, at_main_v37 (F := F) V0]; exact tr_main_call3_v2 (F := F) _ _)
theorem at_main_call3_v3 : (after (ops (F := F)) V0 (Proc.devRef .tc main_call3_v3) : (⟨S_, .f32⟩ : BufTy).Contents (Elt F)) = val_main_call3_v3 (F := F) :=
  ((ssa (F := F)).unary_at 55 main_c_8 main_call3_v3 _ _ _ rfl rfl (by decide) V0).trans (by rw [at_main_c_8 (F := F) V0]; rfl)
theorem at_main_call3_v4 : (after (ops (F := F)) V0 (Proc.devRef .tc main_call3_v4) : (⟨S4x2048x2048, .f32⟩ : BufTy).Contents (Elt F)) = val_main_call3_v4 (F := F) :=
  ((ssa (F := F)).unary_at 56 main_call3_v3 main_call3_v4 _ _ _ rfl rfl (by decide) V0).trans (by rw [at_main_call3_v3 (F := F) V0]; rfl)
theorem tr_main_v38 (A0 : (⟨S4x2048x2048, .f32⟩ : BufTy).Contents (Elt F)) (A1 : (⟨S4x2048x2048, .f32⟩ : BufTy).Contents (Elt F)) :
    (((TRef.of (sig := sig) (T := ⟨S4x2048x2048, .f32⟩) main_v38).toBuf (Val := Elt F) (minimumf ((TRef.of (sig := sig) (T := ⟨S4x2048x2048, .f32⟩) main_call3_v4).ofBuf (Val := Elt F) A0) ((TRef.of (sig := sig) (T := ⟨S4x2048x2048, .f32⟩) main_call3_v2).ofBuf (Val := Elt F) A1))) : (⟨S4x2048x2048, .f32⟩ : BufTy).Contents (Elt F)) = minimumf A0 A1 := rfl
theorem at_main_v38 : (after (ops (F := F)) V0 (Proc.devRef .tc main_v38) : (⟨S4x2048x2048, .f32⟩ : BufTy).Contents (Elt F)) = val_main_v38 (F := F) (V0 (Proc.devRef .tc main_arg0)) (V0 (Proc.devRef .tc main_arg1)) (V0 (Proc.devRef .tc main_arg6)) :=
  ((ssa (F := F)).binary_at 57 main_call3_v4 main_call3_v2 main_v38 _ _ _ _ rfl rfl (by decide) (by decide) V0).trans (by rw [at_main_call3_v4 (F := F) V0, at_main_call3_v2 (F := F) V0]; exact tr_main_v38 (F := F) _ _)
theorem at_main_v39 : (after (ops (F := F)) V0 (Proc.devRef .tc main_v39) : (⟨S4x2048x2048, .f32⟩ : BufTy).Contents (Elt F)) = val_main_v39 (F := F) (V0 (Proc.devRef .tc main_arg0)) (V0 (Proc.devRef .tc main_arg1)) (V0 (Proc.devRef .tc main_arg6)) :=
  ((ssa (F := F)).unary_at 58 main_v34 main_v39 _ _ _ rfl rfl (by decide) V0).trans (by rw [at_main_v34 (F := F) V0]; rfl)
theorem at_main_v40 : (after (ops (F := F)) V0 (Proc.devRef .tc main_v40) : (⟨S4x2048x2048, .f32⟩ : BufTy).Contents (Elt F)) = val_main_v40 (F := F) (V0 (Proc.devRef .tc main_arg0)) (V0 (Proc.devRef .tc main_arg1)) (V0 (Proc.devRef .tc main_arg6)) :=
  ((ssa (F := F)).binary_at 59 main_v38 main_v39 main_v40 _ _ _ _ rfl rfl (by decide) (by decide) V0).trans (by rw [at_main_v38 (F := F) V0, at_main_v39 (F := F) V0]; rfl)
theorem at_main_v41 : (after (ops (F := F)) V0 (Proc.devRef .tc main_v41) : (⟨S4x2048x2048, .f32⟩ : BufTy).Contents (Elt F)) = val_main_v41 (F := F) (V0 (Proc.devRef .tc main_arg0)) (V0 (Proc.devRef .tc main_arg1)) (V0 (Proc.devRef .tc main_arg6)) :=
  ((ssa (F := F)).binary_at 60 main_v40 main_v28 main_v41 _ _ _ _ rfl rfl (by decide) (by decide) V0).trans (by rw [at_main_v40 (F := F) V0, at_main_v28 (F := F) V0]; rfl)
theorem at_main_v42 : (after (ops (F := F)) V0 (Proc.devRef .tc main_v42) : (⟨S4x2048x2048, .f32⟩ : BufTy).Contents (Elt F)) = val_main_v42 (F := F) (V0 (Proc.devRef .tc main_arg0)) (V0 (Proc.devRef .tc main_arg1)) (V0 (Proc.devRef .tc main_arg6)) :=
  ((ssa (F := F)).binary_at 61 main_v28 main_v41 main_v42 _ _ _ _ rfl rfl (by decide) (by decide) V0).trans (by rw [at_main_v28 (F := F) V0, at_main_v41 (F := F) V0]; rfl)
theorem at_main_v43 : (after (ops (F := F)) V0 (Proc.devRef .tc main_v43) : (⟨S8192x2048, .f32⟩ : BufTy).Contents (Elt F)) = val_main_v43 (F := F) (V0 (Proc.devRef .tc main_arg3)) :=
  ((ssa (F := F)).unary_at 62 main_arg3 main_v43 _ _ _ rfl rfl (by decide) V0).trans (by rw [at_main_arg3 (F := F) V0]; rfl)
theorem at_main_cst_9 : (after (ops (F := F)) V0 (Proc.devRef .tc main_cst_9) : (⟨S_, .f32⟩ : BufTy).Contents (Elt F)) = val_main_cst_9 (F := F) :=
  ((ssa (F := F)).nullary_at 63 main_cst_9 _ _ rfl rfl V0).trans rfl
theorem at_main_v44 : (after (ops (F := F)) V0 (Proc.devRef .tc main_v44) : (⟨S_, .f32⟩ : BufTy).Contents (Elt F)) = val_main_v44 (F := F) (V0 (Proc.devRef .tc main_arg3)) :=
  ((ssa (F := F)).binary_at 64 main_v43 main_cst_9 main_v44 _ _ _ _ rfl rfl (by decide) (by decide) V0).trans (by rw [at_main_v43 (F := F) V0, at_main_cst_9 (F := F) V0]; rfl)
theorem at_main_cst_10 : (after (ops (F := F)) V0 (Proc.devRef .tc main_cst_10) : (⟨S_, .f32⟩ : BufTy).Contents (Elt F)) = val_main_cst_10 (F := F) :=
  ((ssa (F := F)).nullary_at 65 main_cst_10 _ _ rfl rfl V0).trans rfl
theorem at_main_v45 : (after (ops (F := F)) V0 (Proc.devRef .tc main_v45) : (⟨S_, .f32⟩ : BufTy).Contents (Elt F)) = val_main_v45 (F := F) (V0 (Proc.devRef .tc main_arg3)) :=
  ((ssa (F := F)).binary_at 66 main_v44 main_cst_10 main_v45 _ _ _ _ rfl rfl (by decide) (by decide) V0).trans (by rw [at_main_v44 (F := F) V0, at_main_cst_10 (F := F) V0]; rfl)
theorem at_main_cst_11 : (after (ops (F := F)) V0 (Proc.devRef .tc main_cst_11) : (⟨S_, .f32⟩ : BufTy).Contents (Elt F)) = val_main_cst_11 (F := F) :=
  ((ssa (F := F)).nullary_at 67 main_cst_11 _ _ rfl rfl V0).trans rfl
theorem at_main_call4_v0 : (after (ops (F := F)) V0 (Proc.devRef .tc main_call4_v0) : (⟨S_, .f32⟩ : BufTy).Contents (Elt F)) = val_main_call4_v0 (F := F) :=
  ((ssa (F := F)).unary_at 68 main_cst_11 main_call4_v0 _ _ _ rfl rfl (by decide) V0).trans (by rw [at_main_cst_11 (F := F) V0]; rfl)
theorem tr_main_v46 (A0 : (⟨S_, .f32⟩ : BufTy).Contents (Elt F)) (A1 : (⟨S_, .f32⟩ : BufTy).Contents (Elt F)) :
    (((TRef.of (sig := sig) (T := ⟨S_, .f32⟩) main_v46).toBuf (Val := Elt F) (maximumf ((TRef.of (sig := sig) (T := ⟨S_, .f32⟩) main_call4_v0).ofBuf (Val := Elt F) A0) ((TRef.of (sig := sig) (T := ⟨S_, .f32⟩) main_v45).ofBuf (Val := Elt F) A1))) : (⟨S_, .f32⟩ : BufTy).Contents (Elt F)) = maximumf A0 A1 := rfl
theorem at_main_v46 : (after (ops (F := F)) V0 (Proc.devRef .tc main_v46) : (⟨S_, .f32⟩ : BufTy).Contents (Elt F)) = val_main_v46 (F := F) (V0 (Proc.devRef .tc main_arg3)) :=
  ((ssa (F := F)).binary_at 69 main_call4_v0 main_v45 main_v46 _ _ _ _ rfl rfl (by decide) (by decide) V0).trans (by rw [at_main_call4_v0 (F := F) V0, at_main_v45 (F := F) V0]; exact tr_main_v46 (F := F) _ _)
theorem at_main_cst_12 : (after (ops (F := F)) V0 (Proc.devRef .tc main_cst_12) : (⟨S_, .f32⟩ : BufTy).Contents (Elt F)) = val_main_cst_12 (F := F) :=
  ((ssa (F := F)).nullary_at 70 main_cst_12 _ _ rfl rfl V0).trans rfl
theorem at_main_v47 : (after (ops (F := F)) V0 (Proc.devRef .tc main_v47) : (⟨S_, .f32⟩ : BufTy).Contents (Elt F)) = val_main_v47 (F := F) (V0 (Proc.devRef .tc main_arg3)) :=
  ((ssa (F := F)).binary_at 71 main_cst_12 main_v46 main_v47 _ _ _ _ rfl rfl (by decide) (by decide) V0).trans (by rw [at_main_cst_12 (F := F) V0, at_main_v46 (F := F) V0]; rfl)
theorem at_main_v48 : (after (ops (F := F)) V0 (Proc.devRef .tc main_v48) : (⟨S8192x2048, .f32⟩ : BufTy).Contents (Elt F)) = val_main_v48 (F := F) (V0 (Proc.devRef .tc main_arg3)) :=
  ((ssa (F := F)).unary_at 72 main_v47 main_v48 _ _ _ rfl rfl (by decide) V0).trans (by rw [at_main_v47 (F := F) V0]; rfl)
theorem at_main_v49 : (after (ops (F := F)) V0 (Proc.devRef .tc main_v49) : (⟨S8192x2048, .f32⟩ : BufTy).Contents (Elt F)) = val_main_v49 (F := F) (V0 (Proc.devRef .tc main_arg3)) :=
  ((ssa (F := F)).binary_at 73 main_arg3 main_v48 main_v49 _ _ _ _ rfl rfl (by decide) (by decide) V0).trans (by rw [at_main_arg3 (F := F) V0, at_main_v48 (F := F) V0]; rfl)
theorem at_main_v50 : (after (ops (F := F)) V0 (Proc.devRef .tc main_v50) : (⟨S8192x2048, .f32⟩ : BufTy).Contents (Elt F)) = val_main_v50 (F := F) (V0 (Proc.devRef .tc main_arg3)) :=
  ((ssa (F := F)).unary_at 74 main_v49 main_v50 _ _ _ rfl rfl (by decide) V0).trans (by rw [at_main_v49 (F := F) V0]; rfl)
theorem at_main_c_13 : (after (ops (F := F)) V0 (Proc.devRef .tc main_c_13) : (⟨S_, .i32⟩ : BufTy).Contents (Elt F)) = val_main_c_13 (F := F) :=
  ((ssa (F := F)).nullary_at 75 main_c_13 _ _ rfl rfl V0).trans rfl
theorem at_main_c_14 : (after (ops (F := F)) V0 (Proc.devRef .tc main_c_14) : (⟨S_, .i32⟩ : BufTy).Contents (Elt F)) = val_main_c_14 (F := F) :=
  ((ssa (F := F)).nullary_at 76 main_c_14 _ _ rfl rfl V0).trans rfl
theorem at_main_call6_v0 : (after (ops (F := F)) V0 (Proc.devRef .tc main_call6_v0) : (⟨S_, .f32⟩ : BufTy).Contents (Elt F)) = val_main_call6_v0 (F := F) :=
  ((ssa (F := F)).unary_at 77 main_c_13 main_call6_v0 _ _ _ rfl rfl (by decide) V0).trans (by rw [at_main_c_13 (F := F) V0]; rfl)
theorem at_main_call6_v1 : (after (ops (F := F)) V0 (Proc.devRef .tc main_call6_v1) : (⟨S8192x2048, .f32⟩ : BufTy).Contents (Elt F)) = val_main_call6_v1 (F := F) :=
  ((ssa (F := F)).unary_at 78 main_call6_v0 main_call6_v1 _ _ _ rfl rfl (by decide) V0).trans (by rw [at_main_call6_v0 (F := F) V0]; rfl)
theorem tr_main_call6_v2 (A0 : (⟨S8192x2048, .f32⟩ : BufTy).Contents (Elt F)) (A1 : (⟨S8192x2048, .f32⟩ : BufTy).Contents (Elt F)) :
    (((TRef.of (sig := sig) (T := ⟨S8192x2048, .f32⟩) main_call6_v2).toBuf (Val := Elt F) (maximumf ((TRef.of (sig := sig) (T := ⟨S8192x2048, .f32⟩) main_call6_v1).ofBuf (Val := Elt F) A0) ((TRef.of (sig := sig) (T := ⟨S8192x2048, .f32⟩) main_v50).ofBuf (Val := Elt F) A1))) : (⟨S8192x2048, .f32⟩ : BufTy).Contents (Elt F)) = maximumf A0 A1 := rfl
theorem at_main_call6_v2 : (after (ops (F := F)) V0 (Proc.devRef .tc main_call6_v2) : (⟨S8192x2048, .f32⟩ : BufTy).Contents (Elt F)) = val_main_call6_v2 (F := F) (V0 (Proc.devRef .tc main_arg3)) :=
  ((ssa (F := F)).binary_at 79 main_call6_v1 main_v50 main_call6_v2 _ _ _ _ rfl rfl (by decide) (by decide) V0).trans (by rw [at_main_call6_v1 (F := F) V0, at_main_v50 (F := F) V0]; exact tr_main_call6_v2 (F := F) _ _)
theorem at_main_call6_v3 : (after (ops (F := F)) V0 (Proc.devRef .tc main_call6_v3) : (⟨S_, .f32⟩ : BufTy).Contents (Elt F)) = val_main_call6_v3 (F := F) :=
  ((ssa (F := F)).unary_at 80 main_c_14 main_call6_v3 _ _ _ rfl rfl (by decide) V0).trans (by rw [at_main_c_14 (F := F) V0]; rfl)
theorem at_main_call6_v4 : (after (ops (F := F)) V0 (Proc.devRef .tc main_call6_v4) : (⟨S8192x2048, .f32⟩ : BufTy).Contents (Elt F)) = val_main_call6_v4 (F := F) :=
  ((ssa (F := F)).unary_at 81 main_call6_v3 main_call6_v4 _ _ _ rfl rfl (by decide) V0).trans (by rw [at_main_call6_v3 (F := F) V0]; rfl)
theorem tr_main_v51 (A0 : (⟨S8192x2048, .f32⟩ : BufTy).Contents (Elt F)) (A1 : (⟨S8192x2048, .f32⟩ : BufTy).Contents (Elt F)) :
    (((TRef.of (sig := sig) (T := ⟨S8192x2048, .f32⟩) main_v51).toBuf (Val := Elt F) (minimumf ((TRef.of (sig := sig) (T := ⟨S8192x2048, .f32⟩) main_call6_v4).ofBuf (Val := Elt F) A0) ((TRef.of (sig := sig) (T := ⟨S8192x2048, .f32⟩) main_call6_v2).ofBuf (Val := Elt F) A1))) : (⟨S8192x2048, .f32⟩ : BufTy).Contents (Elt F)) = minimumf A0 A1 := rfl
theorem at_main_v51 : (after (ops (F := F)) V0 (Proc.devRef .tc main_v51) : (⟨S8192x2048, .f32⟩ : BufTy).Contents (Elt F)) = val_main_v51 (F := F) (V0 (Proc.devRef .tc main_arg3)) :=
  ((ssa (F := F)).binary_at 82 main_call6_v4 main_call6_v2 main_v51 _ _ _ _ rfl rfl (by decide) (by decide) V0).trans (by rw [at_main_call6_v4 (F := F) V0, at_main_call6_v2 (F := F) V0]; exact tr_main_v51 (F := F) _ _)
theorem at_main_v52 : (after (ops (F := F)) V0 (Proc.devRef .tc main_v52) : (⟨S8192x2048, .f32⟩ : BufTy).Contents (Elt F)) = val_main_v52 (F := F) (V0 (Proc.devRef .tc main_arg3)) :=
  ((ssa (F := F)).unary_at 83 main_v47 main_v52 _ _ _ rfl rfl (by decide) V0).trans (by rw [at_main_v47 (F := F) V0]; rfl)
theorem at_main_v53 : (after (ops (F := F)) V0 (Proc.devRef .tc main_v53) : (⟨S8192x2048, .f32⟩ : BufTy).Contents (Elt F)) = val_main_v53 (F := F) (V0 (Proc.devRef .tc main_arg3)) :=
  ((ssa (F := F)).binary_at 84 main_v51 main_v52 main_v53 _ _ _ _ rfl rfl (by decide) (by decide) V0).trans (by rw [at_main_v51 (F := F) V0, at_main_v52 (F := F) V0]; rfl)
theorem at_main_v54 : (after (ops (F := F)) V0 (Proc.devRef .tc main_v54) : (⟨S8192x2048, .f32⟩ : BufTy).Contents (Elt F)) = val_main_v54 (F := F) (V0 (Proc.devRef .tc main_arg3)) :=
  ((ssa (F := F)).binary_at 85 main_v53 main_arg3 main_v54 _ _ _ _ rfl rfl (by decide) (by decide) V0).trans (by rw [at_main_v53 (F := F) V0, at_main_arg3 (F := F) V0]; rfl)
theorem at_main_v55 : (after (ops (F := F)) V0 (Proc.devRef .tc main_v55) : (⟨S8192x2048, .f32⟩ : BufTy).Contents (Elt F)) = val_main_v55 (F := F) (V0 (Proc.devRef .tc main_arg3)) :=
  ((ssa (F := F)).binary_at 86 main_arg3 main_v54 main_v55 _ _ _ _ rfl rfl (by decide) (by decide) V0).trans (by rw [at_main_arg3 (F := F) V0, at_main_v54 (F := F) V0]; rfl)
theorem at_main_v56 : (after (ops (F := F)) V0 (Proc.devRef .tc main_v56) : (⟨S4x2048x8192, .f32⟩ : BufTy).Contents (Elt F)) = val_main_v56 (F := F) (V0 (Proc.devRef .tc main_arg0)) (V0 (Proc.devRef .tc main_arg1)) (V0 (Proc.devRef .tc main_arg3)) (V0 (Proc.devRef .tc main_arg6)) :=
  ((ssa (F := F)).binary_at 87 main_v42 main_v55 main_v56 _ _ _ _ rfl rfl (by decide) (by decide) V0).trans (by rw [at_main_v42 (F := F) V0, at_main_v55 (F := F) V0]; rfl)
theorem at_main_call7_cst : (after (ops (F := F)) V0 (Proc.devRef .tc main_call7_cst) : (⟨S_, .f32⟩ : BufTy).Contents (Elt F)) = val_main_call7_cst (F := F) :=
  ((ssa (F := F)).nullary_at 88 main_call7_cst _ _ rfl rfl V0).trans rfl
theorem at_main_call7_v0 : (after (ops (F := F)) V0 (Proc.devRef .tc main_call7_v0) : (⟨S4x2048x8192, .f32⟩ : BufTy).Contents (Elt F)) = val_main_call7_v0 (F := F) :=
  ((ssa (F := F)).unary_at 89 main_call7_cst main_call7_v0 _ _ _ rfl rfl (by decide) V0).trans (by rw [at_main_call7_cst (F := F) V0]; rfl)
theorem tr_main_v57 (A0 : (⟨S4x2048x8192, .f32⟩ : BufTy).Contents (Elt F)) (A1 : (⟨S4x2048x8192, .f32⟩ : BufTy).Contents (Elt F)) :
    (((TRef.of (sig := sig) (T := ⟨S4x2048x8192, .f32⟩) main_v57).toBuf (Val := Elt F) (maximumf ((TRef.of (sig := sig) (T := ⟨S4x2048x8192, .f32⟩) main_v56).ofBuf (Val := Elt F) A0) ((TRef.of (sig := sig) (T := ⟨S4x2048x8192, .f32⟩) main_call7_v0).ofBuf (Val := Elt F) A1))) : (⟨S4x2048x8192, .f32⟩ : BufTy).Contents (Elt F)) = maximumf A0 A1 := rfl
theorem at_main_v57 : (after (ops (F := F)) V0 (Proc.devRef .tc main_v57) : (⟨S4x2048x8192, .f32⟩ : BufTy).Contents (Elt F)) = val_main_v57 (F := F) (V0 (Proc.devRef .tc main_arg0)) (V0 (Proc.devRef .tc main_arg1)) (V0 (Proc.devRef .tc main_arg3)) (V0 (Proc.devRef .tc main_arg6)) :=
  ((ssa (F := F)).binary_at 90 main_v56 main_call7_v0 main_v57 _ _ _ _ rfl rfl (by decide) (by decide) V0).trans (by rw [at_main_v56 (F := F) V0, at_main_call7_v0 (F := F) V0]; exact tr_main_v57 (F := F) _ _)
theorem at_main_v58 : (after (ops (F := F)) V0 (Proc.devRef .tc main_v58) : (⟨S4x2048x8192, .f32⟩ : BufTy).Contents (Elt F)) = val_main_v58 (F := F) (V0 (Proc.devRef .tc main_arg0)) (V0 (Proc.devRef .tc main_arg1)) (V0 (Proc.devRef .tc main_arg3)) (V0 (Proc.devRef .tc main_arg6)) :=
  ((ssa (F := F)).binary_at 91 main_v57 main_v57 main_v58 _ _ _ _ rfl rfl (by decide) (by decide) V0).trans (by rw [at_main_v57 (F := F) V0]; rfl)
theorem at_main_v59 : (after (ops (F := F)) V0 (Proc.devRef .tc main_v59) : (⟨S4x2048x8192, .f32⟩ : BufTy).Contents (Elt F)) = val_main_v59 (F := F) (V0 (Proc.devRef .tc main_arg0)) (V0 (Proc.devRef .tc main_arg1)) (V0 (Proc.devRef .tc main_arg3)) (V0 (Proc.devRef .tc main_arg6)) :=
  ((ssa (F := F)).binary_at 92 main_v58 main_v58 main_v59 _ _ _ _ rfl rfl (by decide) (by decide) V0).trans (by rw [at_main_v58 (F := F) V0]; rfl)
theorem at_main_cst_15 : (after (ops (F := F)) V0 (Proc.devRef .tc main_cst_15) : (⟨S_, .f32⟩ : BufTy).Contents (Elt F)) = val_main_cst_15 (F := F) :=
  ((ssa (F := F)).nullary_at 93 main_cst_15 _ _ rfl rfl V0).trans rfl
theorem at_main_v60 : (after (ops (F := F)) V0 (Proc.devRef .tc main_v60) : (⟨S4x2048, .f32⟩ : BufTy).Contents (Elt F)) = val_main_v60 (F := F) (V0 (Proc.devRef .tc main_arg0)) (V0 (Proc.devRef .tc main_arg1)) (V0 (Proc.devRef .tc main_arg3)) (V0 (Proc.devRef .tc main_arg6)) :=
  ((ssa (F := F)).binary_at 94 main_v59 main_cst_15 main_v60 _ _ _ _ rfl rfl (by decide) (by decide) V0).trans (by rw [at_main_v59 (F := F) V0, at_main_cst_15 (F := F) V0]; rfl)
theorem at_main_v61 : (after (ops (F := F)) V0 (Proc.devRef .tc main_v61) : (⟨S4x2048x1, .f32⟩ : BufTy).Contents (Elt F)) = val_main_v61 (F := F) (V0 (Proc.devRef .tc main_arg0)) (V0 (Proc.devRef .tc main_arg1)) (V0 (Proc.devRef .tc main_arg3)) (V0 (Proc.devRef .tc main_arg6)) :=
  ((ssa (F := F)).unary_at 95 main_v60 main_v61 _ _ _ rfl rfl (by decide) V0).trans (by rw [at_main_v60 (F := F) V0]; rfl)
theorem at_main_cst_16 : (after (ops (F := F)) V0 (Proc.devRef .tc main_cst_16) : (⟨S_, .f32⟩ : BufTy).Contents (Elt F)) = val_main_cst_16 (F := F) :=
  ((ssa (F := F)).nullary_at 96 main_cst_16 _ _ rfl rfl V0).trans rfl
theorem at_main_v62 : (after (ops (F := F)) V0 (Proc.devRef .tc main_v62) : (⟨S4x2048x1, .f32⟩ : BufTy).Contents (Elt F)) = val_main_v62 (F := F) :=
  ((ssa (F := F)).unary_at 97 main_cst_16 main_v62 _ _ _ rfl rfl (by decide) V0).trans (by rw [at_main_cst_16 (F := F) V0]; rfl)
theorem at_main_v63 : (after (ops (F := F)) V0 (Proc.devRef .tc main_v63) : (⟨S4x2048x1, .f32⟩ : BufTy).Contents (Elt F)) = val_main_v63 (F := F) (V0 (Proc.devRef .tc main_arg0)) (V0 (Proc.devRef .tc main_arg1)) (V0 (Proc.devRef .tc main_arg3)) (V0 (Proc.devRef .tc main_arg6)) :=
  ((ssa (F := F)).binary_at 98 main_v61 main_v62 main_v63 _ _ _ _ rfl rfl (by decide) (by decide) V0).trans (by rw [at_main_v61 (F := F) V0, at_main_v62 (F := F) V0]; rfl)
theorem at_main_cst_17 : (after (ops (F := F)) V0 (Proc.devRef .tc main_cst_17) : (⟨S_, .f32⟩ : BufTy).Contents (Elt F)) = val_main_cst_17 (F := F) :=
  ((ssa (F := F)).nullary_at 99 main_cst_17 _ _ rfl rfl V0).trans rfl
theorem at_main_v64 : (after (ops (F := F)) V0 (Proc.devRef .tc main_v64) : (⟨S4x2048x1, .f32⟩ : BufTy).Contents (Elt F)) = val_main_v64 (F := F) :=
  ((ssa (F := F)).unary_at 100 main_cst_17 main_v64 _ _ _ rfl rfl (by decide) V0).trans (by rw [at_main_cst_17 (F := F) V0]; rfl)
theorem at_main_v65 : (after (ops (F := F)) V0 (Proc.devRef .tc main_v65) : (⟨S4x2048x1, .f32⟩ : BufTy).Contents (Elt F)) = val_main_v65 (F := F) (V0 (Proc.devRef .tc main_arg0)) (V0 (Proc.devRef .tc main_arg1)) (V0 (Proc.devRef .tc main_arg3)) (V0 (Proc.devRef .tc main_arg6)) :=
  ((ssa (F := F)).binary_at 101 main_v63 main_v64 main_v65 _ _ _ _ rfl rfl (by decide) (by decide) V0).trans (by rw [at_main_v63 (F := F) V0, at_main_v64 (F := F) V0]; rfl)
theorem at_main_v66 : (after (ops (F := F)) V0 (Proc.devRef .tc main_v66) : (⟨S4x2048x1, .f32⟩ : BufTy).Contents (Elt F)) = val_main_v66 (F := F) (V0 (Proc.devRef .tc main_arg0)) (V0 (Proc.devRef .tc main_arg1)) (V0 (Proc.devRef .tc main_arg3)) (V0 (Proc.devRef .tc main_arg6)) :=
  ((ssa (F := F)).unary_at 102 main_v65 main_v66 _ _ _ rfl rfl (by decide) V0).trans (by rw [at_main_v65 (F := F) V0]; rfl)
theorem at_main_v67 : (after (ops (F := F)) V0 (Proc.devRef .tc main_v67) : (⟨S4x2048x8192, .f32⟩ : BufTy).Contents (Elt F)) = val_main_v67 (F := F) (V0 (Proc.devRef .tc main_arg0)) (V0 (Proc.devRef .tc main_arg1)) (V0 (Proc.devRef .tc main_arg3)) (V0 (Proc.devRef .tc main_arg6)) :=
  ((ssa (F := F)).unary_at 103 main_v66 main_v67 _ _ _ rfl rfl (by decide) V0).trans (by rw [at_main_v66 (F := F) V0]; rfl)
theorem at_main_v68 : (after (ops (F := F)) V0 (Proc.devRef .tc main_v68) : (⟨S4x2048x8192, .f32⟩ : BufTy).Contents (Elt F)) = val_main_v68 (F := F) (V0 (Proc.devRef .tc main_arg0)) (V0 (Proc.devRef .tc main_arg1)) (V0 (Proc.devRef .tc main_arg3)) (V0 (Proc.devRef .tc main_arg6)) :=
  ((ssa (F := F)).binary_at 104 main_v58 main_v67 main_v68 _ _ _ _ rfl rfl (by decide) (by decide) V0).trans (by rw [at_main_v58 (F := F) V0, at_main_v67 (F := F) V0]; rfl)
theorem at_main_v69 : (after (ops (F := F)) V0 (Proc.devRef .tc main_v69) : (⟨S1x1x8192, .f32⟩ : BufTy).Contents (Elt F)) = val_main_v69 (F := F) (V0 (Proc.devRef .tc main_arg8)) :=
  ((ssa (F := F)).unary_at 105 main_arg8 main_v69 _ _ _ rfl rfl (by decide) V0).trans (by rw [at_main_arg8 (F := F) V0]; rfl)
theorem at_main_v70 : (after (ops (F := F)) V0 (Proc.devRef .tc main_v70) : (⟨S4x2048x8192, .f32⟩ : BufTy).Contents (Elt F)) = val_main_v70 (F := F) (V0 (Proc.devRef .tc main_arg8)) :=
  ((ssa (F := F)).unary_at 106 main_v69 main_v70 _ _ _ rfl rfl (by decide) V0).trans (by rw [at_main_v69 (F := F) V0]; rfl)
theorem at_main_v71 : (after (ops (F := F)) V0 (Proc.devRef .tc main_v71) : (⟨S4x2048x8192, .f32⟩ : BufTy).Contents (Elt F)) = val_main_v71 (F := F) (V0 (Proc.devRef .tc main_arg0)) (V0 (Proc.devRef .tc main_arg1)) (V0 (Proc.devRef .tc main_arg3)) (V0 (Proc.devRef .tc main_arg6)) (V0 (Proc.devRef .tc main_arg8)) :=
  ((ssa (F := F)).binary_at 107 main_v68 main_v70 main_v71 _ _ _ _ rfl rfl (by decide) (by decide) V0).trans (by rw [at_main_v68 (F := F) V0, at_main_v70 (F := F) V0]; rfl)
theorem at_main_v72 : (after (ops (F := F)) V0 (Proc.devRef .tc main_v72) : (⟨S4x2048x8192, .f32⟩ : BufTy).Contents (Elt F)) = val_main_v72 (F := F) (V0 (Proc.devRef .tc main_arg0)) (V0 (Proc.devRef .tc main_arg1)) (V0 (Proc.devRef .tc main_arg3)) (V0 (Proc.devRef .tc main_arg6)) (V0 (Proc.devRef .tc main_arg8)) :=
  ((ssa (F := F)).unary_at 108 main_v71 main_v72 _ _ _ rfl rfl (by decide) V0).trans (by rw [at_main_v71 (F := F) V0]; rfl)
theorem at_main_cst_18 : (after (ops (F := F)) V0 (Proc.devRef .tc main_cst_18) : (⟨S_, .f32⟩ : BufTy).Contents (Elt F)) = val_main_cst_18 (F := F) :=
  ((ssa (F := F)).nullary_at 109 main_cst_18 _ _ rfl rfl V0).trans rfl
theorem at_main_v73 : (after (ops (F := F)) V0 (Proc.devRef .tc main_v73) : (⟨S4x2048, .f32⟩ : BufTy).Contents (Elt F)) = val_main_v73 (F := F) (V0 (Proc.devRef .tc main_arg0)) (V0 (Proc.devRef .tc main_arg1)) (V0 (Proc.devRef .tc main_arg3)) (V0 (Proc.devRef .tc main_arg6)) (V0 (Proc.devRef .tc main_arg8)) :=
  ((ssa (F := F)).binary_at 110 main_v72 main_cst_18 main_v73 _ _ _ _ rfl rfl (by decide) (by decide) V0).trans (by rw [at_main_v72 (F := F) V0, at_main_cst_18 (F := F) V0]; rfl)
theorem at_main_v74 : (after (ops (F := F)) V0 (Proc.devRef .tc main_v74) : (⟨S4x2048x1, .f32⟩ : BufTy).Contents (Elt F)) = val_main_v74 (F := F) (V0 (Proc.devRef .tc main_arg0)) (V0 (Proc.devRef .tc main_arg1)) (V0 (Proc.devRef .tc main_arg3)) (V0 (Proc.devRef .tc main_arg6)) (V0 (Proc.devRef .tc main_arg8)) :=
  ((ssa (F := F)).unary_at 111 main_v73 main_v74 _ _ _ rfl rfl (by decide) V0).trans (by rw [at_main_v73 (F := F) V0]; rfl)
theorem at_main_cst_19 : (after (ops (F := F)) V0 (Proc.devRef .tc main_cst_19) : (⟨S_, .f32⟩ : BufTy).Contents (Elt F)) = val_main_cst_19 (F := F) :=
  ((ssa (F := F)).nullary_at 112 main_cst_19 _ _ rfl rfl V0).trans rfl
theorem at_main_call8_v0 : (after (ops (F := F)) V0 (Proc.devRef .tc main_call8_v0) : (⟨S_, .f32⟩ : BufTy).Contents (Elt F)) = val_main_call8_v0 (F := F) :=
  ((ssa (F := F)).unary_at 113 main_cst_19 main_call8_v0 _ _ _ rfl rfl (by decide) V0).trans (by rw [at_main_cst_19 (F := F) V0]; rfl)
theorem at_main_call8_v1 : (after (ops (F := F)) V0 (Proc.devRef .tc main_call8_v1) : (⟨S4x2048x1, .f32⟩ : BufTy).Contents (Elt F)) = val_main_call8_v1 (F := F) :=
  ((ssa (F := F)).unary_at 114 main_call8_v0 main_call8_v1 _ _ _ rfl rfl (by decide) V0).trans (by rw [at_main_call8_v0 (F := F) V0]; rfl)
theorem tr_main_v75 (A0 : (⟨S4x2048x1, .f32⟩ : BufTy).Contents (Elt F)) (A1 : (⟨S4x2048x1, .f32⟩ : BufTy).Contents (Elt F)) :
    (((TRef.of (sig := sig) (T := ⟨S4x2048x1, .f32⟩) main_v75).toBuf (Val := Elt F) (maximumf ((TRef.of (sig := sig) (T := ⟨S4x2048x1, .f32⟩) main_call8_v1).ofBuf (Val := Elt F) A0) ((TRef.of (sig := sig) (T := ⟨S4x2048x1, .f32⟩) main_v74).ofBuf (Val := Elt F) A1))) : (⟨S4x2048x1, .f32⟩ : BufTy).Contents (Elt F)) = maximumf A0 A1 := rfl
theorem at_main_v75 : (after (ops (F := F)) V0 (Proc.devRef .tc main_v75) : (⟨S4x2048x1, .f32⟩ : BufTy).Contents (Elt F)) = val_main_v75 (F := F) (V0 (Proc.devRef .tc main_arg0)) (V0 (Proc.devRef .tc main_arg1)) (V0 (Proc.devRef .tc main_arg3)) (V0 (Proc.devRef .tc main_arg6)) (V0 (Proc.devRef .tc main_arg8)) :=
  ((ssa (F := F)).binary_at 115 main_call8_v1 main_v74 main_v75 _ _ _ _ rfl rfl (by decide) (by decide) V0).trans (by rw [at_main_call8_v1 (F := F) V0, at_main_v74 (F := F) V0]; exact tr_main_v75 (F := F) _ _)
theorem at_main_cst_20 : (after (ops (F := F)) V0 (Proc.devRef .tc main_cst_20) : (⟨S_, .f32⟩ : BufTy).Contents (Elt F)) = val_main_cst_20 (F := F) :=
  ((ssa (F := F)).nullary_at 116 main_cst_20 _ _ rfl rfl V0).trans rfl
theorem at_main_v76 : (after (ops (F := F)) V0 (Proc.devRef .tc main_v76) : (⟨S4x2048x1, .f32⟩ : BufTy).Contents (Elt F)) = val_main_v76 (F := F) :=
  ((ssa (F := F)).unary_at 117 main_cst_20 main_v76 _ _ _ rfl rfl (by decide) V0).trans (by rw [at_main_cst_20 (F := F) V0]; rfl)
theorem at_main_v77 : (after (ops (F := F)) V0 (Proc.devRef .tc main_v77) : (⟨S4x2048x1, .f32⟩ : BufTy).Contents (Elt F)) = val_main_v77 (F := F) (V0 (Proc.devRef .tc main_arg0)) (V0 (Proc.devRef .tc main_arg1)) (V0 (Proc.devRef .tc main_arg3)) (V0 (Proc.devRef .tc main_arg6)) (V0 (Proc.devRef .tc main_arg8)) :=
  ((ssa (F := F)).binary_at 118 main_v76 main_v75 main_v77 _ _ _ _ rfl rfl (by decide) (by decide) V0).trans (by rw [at_main_v76 (F := F) V0, at_main_v75 (F := F) V0]; rfl)
theorem at_main_v78 : (after (ops (F := F)) V0 (Proc.devRef .tc main_v78) : (⟨S4x2048x8192, .f32⟩ : BufTy).Contents (Elt F)) = val_main_v78 (F := F) (V0 (Proc.devRef .tc main_arg0)) (V0 (Proc.devRef .tc main_arg1)) (V0 (Proc.devRef .tc main_arg3)) (V0 (Proc.devRef .tc main_arg6)) (V0 (Proc.devRef .tc main_arg8)) :=
  ((ssa (F := F)).unary_at 119 main_v77 main_v78 _ _ _ rfl rfl (by decide) V0).trans (by rw [at_main_v77 (F := F) V0]; rfl)
theorem at_main_v79 : (after (ops (F := F)) V0 (Proc.devRef .tc main_v79) : (⟨S4x2048x8192, .f32⟩ : BufTy).Contents (Elt F)) = val_main_v79 (F := F) (V0 (Proc.devRef .tc main_arg0)) (V0 (Proc.devRef .tc main_arg1)) (V0 (Proc.devRef .tc main_arg3)) (V0 (Proc.devRef .tc main_arg6)) (V0 (Proc.devRef .tc main_arg8)) :=
  ((ssa (F := F)).binary_at 120 main_v71 main_v78 main_v79 _ _ _ _ rfl rfl (by decide) (by decide) V0).trans (by rw [at_main_v71 (F := F) V0, at_main_v78 (F := F) V0]; rfl)
theorem at_main_v80 : (after (ops (F := F)) V0 (Proc.devRef .tc main_v80) : (⟨S4x2048x8192, .f32⟩ : BufTy).Contents (Elt F)) = val_main_v80 (F := F) (V0 (Proc.devRef .tc main_arg0)) (V0 (Proc.devRef .tc main_arg1)) (V0 (Proc.devRef .tc main_arg3)) (V0 (Proc.devRef .tc main_arg6)) (V0 (Proc.devRef .tc main_arg8)) :=
  ((ssa (F := F)).unary_at 121 main_v79 main_v80 _ _ _ rfl rfl (by decide) V0).trans (by rw [at_main_v79 (F := F) V0]; rfl)
theorem at_main_c_21 : (after (ops (F := F)) V0 (Proc.devRef .tc main_c_21) : (⟨S_, .i32⟩ : BufTy).Contents (Elt F)) = val_main_c_21 (F := F) :=
  ((ssa (F := F)).nullary_at 122 main_c_21 _ _ rfl rfl V0).trans rfl
theorem at_main_c_22 : (after (ops (F := F)) V0 (Proc.devRef .tc main_c_22) : (⟨S_, .i32⟩ : BufTy).Contents (Elt F)) = val_main_c_22 (F := F) :=
  ((ssa (F := F)).nullary_at 123 main_c_22 _ _ rfl rfl V0).trans rfl
theorem at_main_call10_v0 : (after (ops (F := F)) V0 (Proc.devRef .tc main_call10_v0) : (⟨S_, .f32⟩ : BufTy).Contents (Elt F)) = val_main_call10_v0 (F := F) :=
  ((ssa (F := F)).unary_at 124 main_c_21 main_call10_v0 _ _ _ rfl rfl (by decide) V0).trans (by rw [at_main_c_21 (F := F) V0]; rfl)
theorem at_main_call10_v1 : (after (ops (F := F)) V0 (Proc.devRef .tc main_call10_v1) : (⟨S4x2048x8192, .f32⟩ : BufTy).Contents (Elt F)) = val_main_call10_v1 (F := F) :=
  ((ssa (F := F)).unary_at 125 main_call10_v0 main_call10_v1 _ _ _ rfl rfl (by decide) V0).trans (by rw [at_main_call10_v0 (F := F) V0]; rfl)
theorem tr_main_call10_v2 (A0 : (⟨S4x2048x8192, .f32⟩ : BufTy).Contents (Elt F)) (A1 : (⟨S4x2048x8192, .f32⟩ : BufTy).Contents (Elt F)) :
    (((TRef.of (sig := sig) (T := ⟨S4x2048x8192, .f32⟩) main_call10_v2).toBuf (Val := Elt F) (maximumf ((TRef.of (sig := sig) (T := ⟨S4x2048x8192, .f32⟩) main_call10_v1).ofBuf (Val := Elt F) A0) ((TRef.of (sig := sig) (T := ⟨S4x2048x8192, .f32⟩) main_v80).ofBuf (Val := Elt F) A1))) : (⟨S4x2048x8192, .f32⟩ : BufTy).Contents (Elt F)) = maximumf A0 A1 := rfl
theorem at_main_call10_v2 : (after (ops (F := F)) V0 (Proc.devRef .tc main_call10_v2) : (⟨S4x2048x8192, .f32⟩ : BufTy).Contents (Elt F)) = val_main_call10_v2 (F := F) (V0 (Proc.devRef .tc main_arg0)) (V0 (Proc.devRef .tc main_arg1)) (V0 (Proc.devRef .tc main_arg3)) (V0 (Proc.devRef .tc main_arg6)) (V0 (Proc.devRef .tc main_arg8)) :=
  ((ssa (F := F)).binary_at 126 main_call10_v1 main_v80 main_call10_v2 _ _ _ _ rfl rfl (by decide) (by decide) V0).trans (by rw [at_main_call10_v1 (F := F) V0, at_main_v80 (F := F) V0]; exact tr_main_call10_v2 (F := F) _ _)
theorem at_main_call10_v3 : (after (ops (F := F)) V0 (Proc.devRef .tc main_call10_v3) : (⟨S_, .f32⟩ : BufTy).Contents (Elt F)) = val_main_call10_v3 (F := F) :=
  ((ssa (F := F)).unary_at 127 main_c_22 main_call10_v3 _ _ _ rfl rfl (by decide) V0).trans (by rw [at_main_c_22 (F := F) V0]; rfl)
theorem at_main_call10_v4 : (after (ops (F := F)) V0 (Proc.devRef .tc main_call10_v4) : (⟨S4x2048x8192, .f32⟩ : BufTy).Contents (Elt F)) = val_main_call10_v4 (F := F) :=
  ((ssa (F := F)).unary_at 128 main_call10_v3 main_call10_v4 _ _ _ rfl rfl (by decide) V0).trans (by rw [at_main_call10_v3 (F := F) V0]; rfl)
theorem tr_main_v81 (A0 : (⟨S4x2048x8192, .f32⟩ : BufTy).Contents (Elt F)) (A1 : (⟨S4x2048x8192, .f32⟩ : BufTy).Contents (Elt F)) :
    (((TRef.of (sig := sig) (T := ⟨S4x2048x8192, .f32⟩) main_v81).toBuf (Val := Elt F) (minimumf ((TRef.of (sig := sig) (T := ⟨S4x2048x8192, .f32⟩) main_call10_v4).ofBuf (Val := Elt F) A0) ((TRef.of (sig := sig) (T := ⟨S4x2048x8192, .f32⟩) main_call10_v2).ofBuf (Val := Elt F) A1))) : (⟨S4x2048x8192, .f32⟩ : BufTy).Contents (Elt F)) = minimumf A0 A1 := rfl
theorem at_main_v81 : (after (ops (F := F)) V0 (Proc.devRef .tc main_v81) : (⟨S4x2048x8192, .f32⟩ : BufTy).Contents (Elt F)) = val_main_v81 (F := F) (V0 (Proc.devRef .tc main_arg0)) (V0 (Proc.devRef .tc main_arg1)) (V0 (Proc.devRef .tc main_arg3)) (V0 (Proc.devRef .tc main_arg6)) (V0 (Proc.devRef .tc main_arg8)) :=
  ((ssa (F := F)).binary_at 129 main_call10_v4 main_call10_v2 main_v81 _ _ _ _ rfl rfl (by decide) (by decide) V0).trans (by rw [at_main_call10_v4 (F := F) V0, at_main_call10_v2 (F := F) V0]; exact tr_main_v81 (F := F) _ _)
theorem at_main_v82 : (after (ops (F := F)) V0 (Proc.devRef .tc main_v82) : (⟨S4x2048x8192, .f32⟩ : BufTy).Contents (Elt F)) = val_main_v82 (F := F) (V0 (Proc.devRef .tc main_arg0)) (V0 (Proc.devRef .tc main_arg1)) (V0 (Proc.devRef .tc main_arg3)) (V0 (Proc.devRef .tc main_arg6)) (V0 (Proc.devRef .tc main_arg8)) :=
  ((ssa (F := F)).unary_at 130 main_v77 main_v82 _ _ _ rfl rfl (by decide) V0).trans (by rw [at_main_v77 (F := F) V0]; rfl)
theorem at_main_v83 : (after (ops (F := F)) V0 (Proc.devRef .tc main_v83) : (⟨S4x2048x8192, .f32⟩ : BufTy).Contents (Elt F)) = val_main_v83 (F := F) (V0 (Proc.devRef .tc main_arg0)) (V0 (Proc.devRef .tc main_arg1)) (V0 (Proc.devRef .tc main_arg3)) (V0 (Proc.devRef .tc main_arg6)) (V0 (Proc.devRef .tc main_arg8)) :=
  ((ssa (F := F)).binary_at 131 main_v81 main_v82 main_v83 _ _ _ _ rfl rfl (by decide) (by decide) V0).trans (by rw [at_main_v81 (F := F) V0, at_main_v82 (F := F) V0]; rfl)
theorem at_main_v84 : (after (ops (F := F)) V0 (Proc.devRef .tc main_v84) : (⟨S4x2048x8192, .f32⟩ : BufTy).Contents (Elt F)) = val_main_v84 (F := F) (V0 (Proc.devRef .tc main_arg0)) (V0 (Proc.devRef .tc main_arg1)) (V0 (Proc.devRef .tc main_arg3)) (V0 (Proc.devRef .tc main_arg6)) (V0 (Proc.devRef .tc main_arg8)) :=
  ((ssa (F := F)).binary_at 132 main_v83 main_v71 main_v84 _ _ _ _ rfl rfl (by decide) (by decide) V0).trans (by rw [at_main_v83 (F := F) V0, at_main_v71 (F := F) V0]; rfl)
theorem at_main_v85 : (after (ops (F := F)) V0 (Proc.devRef .tc main_v85) : (⟨S4x2048x8192, .f32⟩ : BufTy).Contents (Elt F)) = val_main_v85 (F := F) (V0 (Proc.devRef .tc main_arg0)) (V0 (Proc.devRef .tc main_arg1)) (V0 (Proc.devRef .tc main_arg3)) (V0 (Proc.devRef .tc main_arg6)) (V0 (Proc.devRef .tc main_arg8)) :=
  ((ssa (F := F)).binary_at 133 main_v71 main_v84 main_v85 _ _ _ _ rfl rfl (by decide) (by decide) V0).trans (by rw [at_main_v71 (F := F) V0, at_main_v84 (F := F) V0]; rfl)
theorem at_main_v86 : (after (ops (F := F)) V0 (Proc.devRef .tc main_v86) : (⟨S2048x8192, .f32⟩ : BufTy).Contents (Elt F)) = val_main_v86 (F := F) (V0 (Proc.devRef .tc main_arg5)) :=
  ((ssa (F := F)).unary_at 134 main_arg5 main_v86 _ _ _ rfl rfl (by decide) V0).trans (by rw [at_main_arg5 (F := F) V0]; rfl)
theorem at_main_cst_23 : (after (ops (F := F)) V0 (Proc.devRef .tc main_cst_23) : (⟨S_, .f32⟩ : BufTy).Contents (Elt F)) = val_main_cst_23 (F := F) :=
  ((ssa (F := F)).nullary_at 135 main_cst_23 _ _ rfl rfl V0).trans rfl
theorem at_main_v87 : (after (ops (F := F)) V0 (Proc.devRef .tc main_v87) : (⟨S_, .f32⟩ : BufTy).Contents (Elt F)) = val_main_v87 (F := F) (V0 (Proc.devRef .tc main_arg5)) :=
  ((ssa (F := F)).binary_at 136 main_v86 main_cst_23 main_v87 _ _ _ _ rfl rfl (by decide) (by decide) V0).trans (by rw [at_main_v86 (F := F) V0, at_main_cst_23 (F := F) V0]; rfl)
theorem at_main_cst_24 : (after (ops (F := F)) V0 (Proc.devRef .tc main_cst_24) : (⟨S_, .f32⟩ : BufTy).Contents (Elt F)) = val_main_cst_24 (F := F) :=
  ((ssa (F := F)).nullary_at 137 main_cst_24 _ _ rfl rfl V0).trans rfl
theorem at_main_v88 : (after (ops (F := F)) V0 (Proc.devRef .tc main_v88) : (⟨S_, .f32⟩ : BufTy).Contents (Elt F)) = val_main_v88 (F := F) (V0 (Proc.devRef .tc main_arg5)) :=
  ((ssa (F := F)).binary_at 138 main_v87 main_cst_24 main_v88 _ _ _ _ rfl rfl (by decide) (by decide) V0).trans (by rw [at_main_v87 (F := F) V0, at_main_cst_24 (F := F) V0]; rfl)
theorem at_main_cst_25 : (after (ops (F := F)) V0 (Proc.devRef .tc main_cst_25) : (⟨S_, .f32⟩ : BufTy).Contents (Elt F)) = val_main_cst_25 (F := F) :=
  ((ssa (F := F)).nullary_at 139 main_cst_25 _ _ rfl rfl V0).trans rfl
theorem at_main_call11_v0 : (after (ops (F := F)) V0 (Proc.devRef .tc main_call11_v0) : (⟨S_, .f32⟩ : BufTy).Contents (Elt F)) = val_main_call11_v0 (F := F) :=
  ((ssa (F := F)).unary_at 140 main_cst_25 main_call11_v0 _ _ _ rfl rfl (by decide) V0).trans (by rw [at_main_cst_25 (F := F) V0]; rfl)
theorem tr_main_v89 (A0 : (⟨S_, .f32⟩ : BufTy).Contents (Elt F)) (A1 : (⟨S_, .f32⟩ : BufTy).Contents (Elt F)) :
    (((TRef.of (sig := sig) (T := ⟨S_, .f32⟩) main_v89).toBuf (Val := Elt F) (maximumf ((TRef.of (sig := sig) (T := ⟨S_, .f32⟩) main_call11_v0).ofBuf (Val := Elt F) A0) ((TRef.of (sig := sig) (T := ⟨S_, .f32⟩) main_v88).ofBuf (Val := Elt F) A1))) : (⟨S_, .f32⟩ : BufTy).Contents (Elt F)) = maximumf A0 A1 := rfl
theorem at_main_v89 : (after (ops (F := F)) V0 (Proc.devRef .tc main_v89) : (⟨S_, .f32⟩ : BufTy).Contents (Elt F)) = val_main_v89 (F := F) (V0 (Proc.devRef .tc main_arg5)) :=
  ((ssa (F := F)).binary_at 141 main_call11_v0 main_v88 main_v89 _ _ _ _ rfl rfl (by decide) (by decide) V0).trans (by rw [at_main_call11_v0 (F := F) V0, at_main_v88 (F := F) V0]; exact tr_main_v89 (F := F) _ _)
theorem at_main_cst_26 : (after (ops (F := F)) V0 (Proc.devRef .tc main_cst_26) : (⟨S_, .f32⟩ : BufTy).Contents (Elt F)) = val_main_cst_26 (F := F) :=
  ((ssa (F := F)).nullary_at 142 main_cst_26 _ _ rfl rfl V0).trans rfl
theorem at_main_v90 : (after (ops (F := F)) V0 (Proc.devRef .tc main_v90) : (⟨S_, .f32⟩ : BufTy).Contents (Elt F)) = val_main_v90 (F := F) (V0 (Proc.devRef .tc main_arg5)) :=
  ((ssa (F := F)).binary_at 143 main_cst_26 main_v89 main_v90 _ _ _ _ rfl rfl (by decide) (by decide) V0).trans (by rw [at_main_cst_26 (F := F) V0, at_main_v89 (F := F) V0]; rfl)
theorem at_main_v91 : (after (ops (F := F)) V0 (Proc.devRef .tc main_v91) : (⟨S2048x8192, .f32⟩ : BufTy).Contents (Elt F)) = val_main_v91 (F := F) (V0 (Proc.devRef .tc main_arg5)) :=
  ((ssa (F := F)).unary_at 144 main_v90 main_v91 _ _ _ rfl rfl (by decide) V0).trans (by rw [at_main_v90 (F := F) V0]; rfl)
theorem at_main_v92 : (after (ops (F := F)) V0 (Proc.devRef .tc main_v92) : (⟨S2048x8192, .f32⟩ : BufTy).Contents (Elt F)) = val_main_v92 (F := F) (V0 (Proc.devRef .tc main_arg5)) :=
  ((ssa (F := F)).binary_at 145 main_arg5 main_v91 main_v92 _ _ _ _ rfl rfl (by decide) (by decide) V0).trans (by rw [at_main_arg5 (F := F) V0, at_main_v91 (F := F) V0]; rfl)
theorem at_main_v93 : (after (ops (F := F)) V0 (Proc.devRef .tc main_v93) : (⟨S2048x8192, .f32⟩ : BufTy).Contents (Elt F)) = val_main_v93 (F := F) (V0 (Proc.devRef .tc main_arg5)) :=
  ((ssa (F := F)).unary_at 146 main_v92 main_v93 _ _ _ rfl rfl (by decide) V0).trans (by rw [at_main_v92 (F := F) V0]; rfl)
theorem at_main_c_27 : (after (ops (F := F)) V0 (Proc.devRef .tc main_c_27) : (⟨S_, .i32⟩ : BufTy).Contents (Elt F)) = val_main_c_27 (F := F) :=
  ((ssa (F := F)).nullary_at 147 main_c_27 _ _ rfl rfl V0).trans rfl
theorem at_main_c_28 : (after (ops (F := F)) V0 (Proc.devRef .tc main_c_28) : (⟨S_, .i32⟩ : BufTy).Contents (Elt F)) = val_main_c_28 (F := F) :=
  ((ssa (F := F)).nullary_at 148 main_c_28 _ _ rfl rfl V0).trans rfl
theorem at_main_call13_v0 : (after (ops (F := F)) V0 (Proc.devRef .tc main_call13_v0) : (⟨S_, .f32⟩ : BufTy).Contents (Elt F)) = val_main_call13_v0 (F := F) :=
  ((ssa (F := F)).unary_at 149 main_c_27 main_call13_v0 _ _ _ rfl rfl (by decide) V0).trans (by rw [at_main_c_27 (F := F) V0]; rfl)
theorem at_main_call13_v1 : (after (ops (F := F)) V0 (Proc.devRef .tc main_call13_v1) : (⟨S2048x8192, .f32⟩ : BufTy).Contents (Elt F)) = val_main_call13_v1 (F := F) :=
  ((ssa (F := F)).unary_at 150 main_call13_v0 main_call13_v1 _ _ _ rfl rfl (by decide) V0).trans (by rw [at_main_call13_v0 (F := F) V0]; rfl)
theorem tr_main_call13_v2 (A0 : (⟨S2048x8192, .f32⟩ : BufTy).Contents (Elt F)) (A1 : (⟨S2048x8192, .f32⟩ : BufTy).Contents (Elt F)) :
    (((TRef.of (sig := sig) (T := ⟨S2048x8192, .f32⟩) main_call13_v2).toBuf (Val := Elt F) (maximumf ((TRef.of (sig := sig) (T := ⟨S2048x8192, .f32⟩) main_call13_v1).ofBuf (Val := Elt F) A0) ((TRef.of (sig := sig) (T := ⟨S2048x8192, .f32⟩) main_v93).ofBuf (Val := Elt F) A1))) : (⟨S2048x8192, .f32⟩ : BufTy).Contents (Elt F)) = maximumf A0 A1 := rfl
theorem at_main_call13_v2 : (after (ops (F := F)) V0 (Proc.devRef .tc main_call13_v2) : (⟨S2048x8192, .f32⟩ : BufTy).Contents (Elt F)) = val_main_call13_v2 (F := F) (V0 (Proc.devRef .tc main_arg5)) :=
  ((ssa (F := F)).binary_at 151 main_call13_v1 main_v93 main_call13_v2 _ _ _ _ rfl rfl (by decide) (by decide) V0).trans (by rw [at_main_call13_v1 (F := F) V0, at_main_v93 (F := F) V0]; exact tr_main_call13_v2 (F := F) _ _)
theorem at_main_call13_v3 : (after (ops (F := F)) V0 (Proc.devRef .tc main_call13_v3) : (⟨S_, .f32⟩ : BufTy).Contents (Elt F)) = val_main_call13_v3 (F := F) :=
  ((ssa (F := F)).unary_at 152 main_c_28 main_call13_v3 _ _ _ rfl rfl (by decide) V0).trans (by rw [at_main_c_28 (F := F) V0]; rfl)
theorem at_main_call13_v4 : (after (ops (F := F)) V0 (Proc.devRef .tc main_call13_v4) : (⟨S2048x8192, .f32⟩ : BufTy).Contents (Elt F)) = val_main_call13_v4 (F := F) :=
  ((ssa (F := F)).unary_at 153 main_call13_v3 main_call13_v4 _ _ _ rfl rfl (by decide) V0).trans (by rw [at_main_call13_v3 (F := F) V0]; rfl)
theorem tr_main_v94 (A0 : (⟨S2048x8192, .f32⟩ : BufTy).Contents (Elt F)) (A1 : (⟨S2048x8192, .f32⟩ : BufTy).Contents (Elt F)) :
    (((TRef.of (sig := sig) (T := ⟨S2048x8192, .f32⟩) main_v94).toBuf (Val := Elt F) (minimumf ((TRef.of (sig := sig) (T := ⟨S2048x8192, .f32⟩) main_call13_v4).ofBuf (Val := Elt F) A0) ((TRef.of (sig := sig) (T := ⟨S2048x8192, .f32⟩) main_call13_v2).ofBuf (Val := Elt F) A1))) : (⟨S2048x8192, .f32⟩ : BufTy).Contents (Elt F)) = minimumf A0 A1 := rfl
theorem at_main_v94 : (after (ops (F := F)) V0 (Proc.devRef .tc main_v94) : (⟨S2048x8192, .f32⟩ : BufTy).Contents (Elt F)) = val_main_v94 (F := F) (V0 (Proc.devRef .tc main_arg5)) :=
  ((ssa (F := F)).binary_at 154 main_call13_v4 main_call13_v2 main_v94 _ _ _ _ rfl rfl (by decide) (by decide) V0).trans (by rw [at_main_call13_v4 (F := F) V0, at_main_call13_v2 (F := F) V0]; exact tr_main_v94 (F := F) _ _)
theorem at_main_v95 : (after (ops (F := F)) V0 (Proc.devRef .tc main_v95) : (⟨S2048x8192, .f32⟩ : BufTy).Contents (Elt F)) = val_main_v95 (F := F) (V0 (Proc.devRef .tc main_arg5)) :=
  ((ssa (F := F)).unary_at 155 main_v90 main_v95 _ _ _ rfl rfl (by decide) V0).trans (by rw [at_main_v90 (F := F) V0]; rfl)
theorem at_main_v96 : (after (ops (F := F)) V0 (Proc.devRef .tc main_v96) : (⟨S2048x8192, .f32⟩ : BufTy).Contents (Elt F)) = val_main_v96 (F := F) (V0 (Proc.devRef .tc main_arg5)) :=
  ((ssa (F := F)).binary_at 156 main_v94 main_v95 main_v96 _ _ _ _ rfl rfl (by decide) (by decide) V0).trans (by rw [at_main_v94 (F := F) V0, at_main_v95 (F := F) V0]; rfl)
theorem at_main_v97 : (after (ops (F := F)) V0 (Proc.devRef .tc main_v97) : (⟨S2048x8192, .f32⟩ : BufTy).Contents (Elt F)) = val_main_v97 (F := F) (V0 (Proc.devRef .tc main_arg5)) :=
  ((ssa (F := F)).binary_at 157 main_v96 main_arg5 main_v97 _ _ _ _ rfl rfl (by decide) (by decide) V0).trans (by rw [at_main_v96 (F := F) V0, at_main_arg5 (F := F) V0]; rfl)
theorem at_main_v98 : (after (ops (F := F)) V0 (Proc.devRef .tc main_v98) : (⟨S2048x8192, .f32⟩ : BufTy).Contents (Elt F)) = val_main_v98 (F := F) (V0 (Proc.devRef .tc main_arg5)) :=
  ((ssa (F := F)).binary_at 158 main_arg5 main_v97 main_v98 _ _ _ _ rfl rfl (by decide) (by decide) V0).trans (by rw [at_main_arg5 (F := F) V0, at_main_v97 (F := F) V0]; rfl)
theorem at_main_v99 : (after (ops (F := F)) V0 (Proc.devRef .tc main_v99) : (⟨S4x2048x2048, .f32⟩ : BufTy).Contents (Elt F)) = val_main_v99 (F := F) (V0 (Proc.devRef .tc main_arg0)) (V0 (Proc.devRef .tc main_arg1)) (V0 (Proc.devRef .tc main_arg3)) (V0 (Proc.devRef .tc main_arg5)) (V0 (Proc.devRef .tc main_arg6)) (V0 (Proc.devRef .tc main_arg8)) :=
  ((ssa (F := F)).binary_at 159 main_v85 main_v98 main_v99 _ _ _ _ rfl rfl (by decide) (by decide) V0).trans (by rw [at_main_v85 (F := F) V0, at_main_v98 (F := F) V0]; rfl)
theorem at_main_v100 : (after (ops (F := F)) V0 (Proc.devRef .tc main_v100) : (⟨S4x2048x2048, .f32⟩ : BufTy).Contents (Elt F)) = val_main_v100 (F := F) (V0 (Proc.devRef .tc main_arg0)) (V0 (Proc.devRef .tc main_arg2)) :=
  ((ssa (F := F)).binary_at 160 main_v15 main_v15 main_v100 _ _ _ _ rfl rfl (by decide) (by decide) V0).trans (by rw [at_main_v15 (F := F) V0]; rfl)
theorem at_main_cst_29 : (after (ops (F := F)) V0 (Proc.devRef .tc main_cst_29) : (⟨S_, .f32⟩ : BufTy).Contents (Elt F)) = val_main_cst_29 (F := F) :=
  ((ssa (F := F)).nullary_at 161 main_cst_29 _ _ rfl rfl V0).trans rfl
theorem at_main_v101 : (after (ops (F := F)) V0 (Proc.devRef .tc main_v101) : (⟨S4x2048, .f32⟩ : BufTy).Contents (Elt F)) = val_main_v101 (F := F) (V0 (Proc.devRef .tc main_arg0)) (V0 (Proc.devRef .tc main_arg2)) :=
  ((ssa (F := F)).binary_at 162 main_v100 main_cst_29 main_v101 _ _ _ _ rfl rfl (by decide) (by decide) V0).trans (by rw [at_main_v100 (F := F) V0, at_main_cst_29 (F := F) V0]; rfl)
theorem at_main_v102 : (after (ops (F := F)) V0 (Proc.devRef .tc main_v102) : (⟨S4x2048x1, .f32⟩ : BufTy).Contents (Elt F)) = val_main_v102 (F := F) (V0 (Proc.devRef .tc main_arg0)) (V0 (Proc.devRef .tc main_arg2)) :=
  ((ssa (F := F)).unary_at 163 main_v101 main_v102 _ _ _ rfl rfl (by decide) V0).trans (by rw [at_main_v101 (F := F) V0]; rfl)
theorem at_main_cst_30 : (after (ops (F := F)) V0 (Proc.devRef .tc main_cst_30) : (⟨S_, .f32⟩ : BufTy).Contents (Elt F)) = val_main_cst_30 (F := F) :=
  ((ssa (F := F)).nullary_at 164 main_cst_30 _ _ rfl rfl V0).trans rfl
theorem at_main_v103 : (after (ops (F := F)) V0 (Proc.devRef .tc main_v103) : (⟨S4x2048x1, .f32⟩ : BufTy).Contents (Elt F)) = val_main_v103 (F := F) :=
  ((ssa (F := F)).unary_at 165 main_cst_30 main_v103 _ _ _ rfl rfl (by decide) V0).trans (by rw [at_main_cst_30 (F := F) V0]; rfl)
theorem at_main_v104 : (after (ops (F := F)) V0 (Proc.devRef .tc main_v104) : (⟨S4x2048x1, .f32⟩ : BufTy).Contents (Elt F)) = val_main_v104 (F := F) (V0 (Proc.devRef .tc main_arg0)) (V0 (Proc.devRef .tc main_arg2)) :=
  ((ssa (F := F)).binary_at 166 main_v102 main_v103 main_v104 _ _ _ _ rfl rfl (by decide) (by decide) V0).trans (by rw [at_main_v102 (F := F) V0, at_main_v103 (F := F) V0]; rfl)
theorem at_main_cst_31 : (after (ops (F := F)) V0 (Proc.devRef .tc main_cst_31) : (⟨S_, .f32⟩ : BufTy).Contents (Elt F)) = val_main_cst_31 (F := F) :=
  ((ssa (F := F)).nullary_at 167 main_cst_31 _ _ rfl rfl V0).trans rfl
theorem at_main_v105 : (after (ops (F := F)) V0 (Proc.devRef .tc main_v105) : (⟨S4x2048x1, .f32⟩ : BufTy).Contents (Elt F)) = val_main_v105 (F := F) :=
  ((ssa (F := F)).unary_at 168 main_cst_31 main_v105 _ _ _ rfl rfl (by decide) V0).trans (by rw [at_main_cst_31 (F := F) V0]; rfl)
theorem at_main_v106 : (after (ops (F := F)) V0 (Proc.devRef .tc main_v106) : (⟨S4x2048x1, .f32⟩ : BufTy).Contents (Elt F)) = val_main_v106 (F := F) (V0 (Proc.devRef .tc main_arg0)) (V0 (Proc.devRef .tc main_arg2)) :=
  ((ssa (F := F)).binary_at 169 main_v104 main_v105 main_v106 _ _ _ _ rfl rfl (by decide) (by decide) V0).trans (by rw [at_main_v104 (F := F) V0, at_main_v105 (F := F) V0]; rfl)
theorem at_main_v107 : (after (ops (F := F)) V0 (Proc.devRef .tc main_v107) : (⟨S4x2048x1, .f32⟩ : BufTy).Contents (Elt F)) = val_main_v107 (F := F) (V0 (Proc.devRef .tc main_arg0)) (V0 (Proc.devRef .tc main_arg2)) :=
  ((ssa (F := F)).unary_at 170 main_v106 main_v107 _ _ _ rfl rfl (by decide) V0).trans (by rw [at_main_v106 (F := F) V0]; rfl)
theorem at_main_v108 : (after (ops (F := F)) V0 (Proc.devRef .tc main_v108) : (⟨S4x2048x2048, .f32⟩ : BufTy).Contents (Elt F)) = val_main_v108 (F := F) (V0 (Proc.devRef .tc main_arg0)) (V0 (Proc.devRef .tc main_arg2)) :=
  ((ssa (F := F)).unary_at 171 main_v107 main_v108 _ _ _ rfl rfl (by decide) V0).trans (by rw [at_main_v107 (F := F) V0]; rfl)
theorem at_main_v109 : (after (ops (F := F)) V0 (Proc.devRef .tc main_v109) : (⟨S4x2048x2048, .f32⟩ : BufTy).Contents (Elt F)) = val_main_v109 (F := F) (V0 (Proc.devRef .tc main_arg0)) (V0 (Proc.devRef .tc main_arg2)) :=
  ((ssa (F := F)).binary_at 172 main_v15 main_v108 main_v109 _ _ _ _ rfl rfl (by decide) (by decide) V0).trans (by rw [at_main_v15 (F := F) V0, at_main_v108 (F := F) V0]; rfl)
theorem at_main_v110 : (after (ops (F := F)) V0 (Proc.devRef .tc main_v110) : (⟨S1x1x2048, .f32⟩ : BufTy).Contents (Elt F)) = val_main_v110 (F := F) (V0 (Proc.devRef .tc main_arg7)) :=
  ((ssa (F := F)).unary_at 173 main_arg7 main_v110 _ _ _ rfl rfl (by decide) V0).trans (by rw [at_main_arg7 (F := F) V0]; rfl)
theorem at_main_v111 : (after (ops (F := F)) V0 (Proc.devRef .tc main_v111) : (⟨S4x2048x2048, .f32⟩ : BufTy).Contents (Elt F)) = val_main_v111 (F := F) (V0 (Proc.devRef .tc main_arg7)) :=
  ((ssa (F := F)).unary_at 174 main_v110 main_v111 _ _ _ rfl rfl (by decide) V0).trans (by rw [at_main_v110 (F := F) V0]; rfl)
theorem at_main_v112 : (after (ops (F := F)) V0 (Proc.devRef .tc main_v112) : (⟨S4x2048x2048, .f32⟩ : BufTy).Contents (Elt F)) = val_main_v112 (F := F) (V0 (Proc.devRef .tc main_arg0)) (V0 (Proc.devRef .tc main_arg2)) (V0 (Proc.devRef .tc main_arg7)) :=
  ((ssa (F := F)).binary_at 175 main_v109 main_v111 main_v112 _ _ _ _ rfl rfl (by decide) (by decide) V0).trans (by rw [at_main_v109 (F := F) V0, at_main_v111 (F := F) V0]; rfl)
theorem at_main_v113 : (after (ops (F := F)) V0 (Proc.devRef .tc main_v113) : (⟨S4x2048x2048, .f32⟩ : BufTy).Contents (Elt F)) = val_main_v113 (F := F) (V0 (Proc.devRef .tc main_arg0)) (V0 (Proc.devRef .tc main_arg2)) (V0 (Proc.devRef .tc main_arg7)) :=
  ((ssa (F := F)).unary_at 176 main_v112 main_v113 _ _ _ rfl rfl (by decide) V0).trans (by rw [at_main_v112 (F := F) V0]; rfl)
theorem at_main_cst_32 : (after (ops (F := F)) V0 (Proc.devRef .tc main_cst_32) : (⟨S_, .f32⟩ : BufTy).Contents (Elt F)) = val_main_cst_32 (F := F) :=
  ((ssa (F := F)).nullary_at 177 main_cst_32 _ _ rfl rfl V0).trans rfl
theorem at_main_v114 : (after (ops (F := F)) V0 (Proc.devRef .tc main_v114) : (⟨S4x2048, .f32⟩ : BufTy).Contents (Elt F)) = val_main_v114 (F := F) (V0 (Proc.devRef .tc main_arg0)) (V0 (Proc.devRef .tc main_arg2)) (V0 (Proc.devRef .tc main_arg7)) :=
  ((ssa (F := F)).binary_at 178 main_v113 main_cst_32 main_v114 _ _ _ _ rfl rfl (by decide) (by decide) V0).trans (by rw [at_main_v113 (F := F) V0, at_main_cst_32 (F := F) V0]; rfl)
theorem at_main_v115 : (after (ops (F := F)) V0 (Proc.devRef .tc main_v115) : (⟨S4x2048x1, .f32⟩ : BufTy).Contents (Elt F)) = val_main_v115 (F := F) (V0 (Proc.devRef .tc main_arg0)) (V0 (Proc.devRef .tc main_arg2)) (V0 (Proc.devRef .tc main_arg7)) :=
  ((ssa (F := F)).unary_at 179 main_v114 main_v115 _ _ _ rfl rfl (by decide) V0).trans (by rw [at_main_v114 (F := F) V0]; rfl)
theorem at_main_cst_33 : (after (ops (F := F)) V0 (Proc.devRef .tc main_cst_33) : (⟨S_, .f32⟩ : BufTy).Contents (Elt F)) = val_main_cst_33 (F := F) :=
  ((ssa (F := F)).nullary_at 180 main_cst_33 _ _ rfl rfl V0).trans rfl
theorem at_main_call14_v0 : (after (ops (F := F)) V0 (Proc.devRef .tc main_call14_v0) : (⟨S_, .f32⟩ : BufTy).Contents (Elt F)) = val_main_call14_v0 (F := F) :=
  ((ssa (F := F)).unary_at 181 main_cst_33 main_call14_v0 _ _ _ rfl rfl (by decide) V0).trans (by rw [at_main_cst_33 (F := F) V0]; rfl)
theorem at_main_call14_v1 : (after (ops (F := F)) V0 (Proc.devRef .tc main_call14_v1) : (⟨S4x2048x1, .f32⟩ : BufTy).Contents (Elt F)) = val_main_call14_v1 (F := F) :=
  ((ssa (F := F)).unary_at 182 main_call14_v0 main_call14_v1 _ _ _ rfl rfl (by decide) V0).trans (by rw [at_main_call14_v0 (F := F) V0]; rfl)
theorem tr_main_v116 (A0 : (⟨S4x2048x1, .f32⟩ : BufTy).Contents (Elt F)) (A1 : (⟨S4x2048x1, .f32⟩ : BufTy).Contents (Elt F)) :
    (((TRef.of (sig := sig) (T := ⟨S4x2048x1, .f32⟩) main_v116).toBuf (Val := Elt F) (maximumf ((TRef.of (sig := sig) (T := ⟨S4x2048x1, .f32⟩) main_call14_v1).ofBuf (Val := Elt F) A0) ((TRef.of (sig := sig) (T := ⟨S4x2048x1, .f32⟩) main_v115).ofBuf (Val := Elt F) A1))) : (⟨S4x2048x1, .f32⟩ : BufTy).Contents (Elt F)) = maximumf A0 A1 := rfl
theorem at_main_v116 : (after (ops (F := F)) V0 (Proc.devRef .tc main_v116) : (⟨S4x2048x1, .f32⟩ : BufTy).Contents (Elt F)) = val_main_v116 (F := F) (V0 (Proc.devRef .tc main_arg0)) (V0 (Proc.devRef .tc main_arg2)) (V0 (Proc.devRef .tc main_arg7)) :=
  ((ssa (F := F)).binary_at 183 main_call14_v1 main_v115 main_v116 _ _ _ _ rfl rfl (by decide) (by decide) V0).trans (by rw [at_main_call14_v1 (F := F) V0, at_main_v115 (F := F) V0]; exact tr_main_v116 (F := F) _ _)
theorem at_main_cst_34 : (after (ops (F := F)) V0 (Proc.devRef .tc main_cst_34) : (⟨S_, .f32⟩ : BufTy).Contents (Elt F)) = val_main_cst_34 (F := F) :=
  ((ssa (F := F)).nullary_at 184 main_cst_34 _ _ rfl rfl V0).trans rfl
theorem at_main_v117 : (after (ops (F := F)) V0 (Proc.devRef .tc main_v117) : (⟨S4x2048x1, .f32⟩ : BufTy).Contents (Elt F)) = val_main_v117 (F := F) :=
  ((ssa (F := F)).unary_at 185 main_cst_34 main_v117 _ _ _ rfl rfl (by decide) V0).trans (by rw [at_main_cst_34 (F := F) V0]; rfl)
theorem at_main_v118 : (after (ops (F := F)) V0 (Proc.devRef .tc main_v118) : (⟨S4x2048x1, .f32⟩ : BufTy).Contents (Elt F)) = val_main_v118 (F := F) (V0 (Proc.devRef .tc main_arg0)) (V0 (Proc.devRef .tc main_arg2)) (V0 (Proc.devRef .tc main_arg7)) :=
  ((ssa (F := F)).binary_at 186 main_v117 main_v116 main_v118 _ _ _ _ rfl rfl (by decide) (by decide) V0).trans (by rw [at_main_v117 (F := F) V0, at_main_v116 (F := F) V0]; rfl)
theorem at_main_v119 : (after (ops (F := F)) V0 (Proc.devRef .tc main_v119) : (⟨S4x2048x2048, .f32⟩ : BufTy).Contents (Elt F)) = val_main_v119 (F := F) (V0 (Proc.devRef .tc main_arg0)) (V0 (Proc.devRef .tc main_arg2)) (V0 (Proc.devRef .tc main_arg7)) :=
  ((ssa (F := F)).unary_at 187 main_v118 main_v119 _ _ _ rfl rfl (by decide) V0).trans (by rw [at_main_v118 (F := F) V0]; rfl)
theorem at_main_v120 : (after (ops (F := F)) V0 (Proc.devRef .tc main_v120) : (⟨S4x2048x2048, .f32⟩ : BufTy).Contents (Elt F)) = val_main_v120 (F := F) (V0 (Proc.devRef .tc main_arg0)) (V0 (Proc.devRef .tc main_arg2)) (V0 (Proc.devRef .tc main_arg7)) :=
  ((ssa (F := F)).binary_at 188 main_v112 main_v119 main_v120 _ _ _ _ rfl rfl (by decide) (by decide) V0).trans (by rw [at_main_v112 (F := F) V0, at_main_v119 (F := F) V0]; rfl)
theorem at_main_v121 : (after (ops (F := F)) V0 (Proc.devRef .tc main_v121) : (⟨S4x2048x2048, .f32⟩ : BufTy).Contents (Elt F)) = val_main_v121 (F := F) (V0 (Proc.devRef .tc main_arg0)) (V0 (Proc.devRef .tc main_arg2)) (V0 (Proc.devRef .tc main_arg7)) :=
  ((ssa (F := F)).unary_at 189 main_v120 main_v121 _ _ _ rfl rfl (by decide) V0).trans (by rw [at_main_v120 (F := F) V0]; rfl)
theorem at_main_c_35 : (after (ops (F := F)) V0 (Proc.devRef .tc main_c_35) : (⟨S_, .i32⟩ : BufTy).Contents (Elt F)) = val_main_c_35 (F := F) :=
  ((ssa (F := F)).nullary_at 190 main_c_35 _ _ rfl rfl V0).trans rfl
theorem at_main_c_36 : (after (ops (F := F)) V0 (Proc.devRef .tc main_c_36) : (⟨S_, .i32⟩ : BufTy).Contents (Elt F)) = val_main_c_36 (F := F) :=
  ((ssa (F := F)).nullary_at 191 main_c_36 _ _ rfl rfl V0).trans rfl
theorem at_main_call16_v0 : (after (ops (F := F)) V0 (Proc.devRef .tc main_call16_v0) : (⟨S_, .f32⟩ : BufTy).Contents (Elt F)) = val_main_call16_v0 (F := F) :=
  ((ssa (F := F)).unary_at 192 main_c_35 main_call16_v0 _ _ _ rfl rfl (by decide) V0).trans (by rw [at_main_c_35 (F := F) V0]; rfl)
theorem at_main_call16_v1 : (after (ops (F := F)) V0 (Proc.devRef .tc main_call16_v1) : (⟨S4x2048x2048, .f32⟩ : BufTy).Contents (Elt F)) = val_main_call16_v1 (F := F) :=
  ((ssa (F := F)).unary_at 193 main_call16_v0 main_call16_v1 _ _ _ rfl rfl (by decide) V0).trans (by rw [at_main_call16_v0 (F := F) V0]; rfl)
theorem tr_main_call16_v2 (A0 : (⟨S4x2048x2048, .f32⟩ : BufTy).Contents (Elt F)) (A1 : (⟨S4x2048x2048, .f32⟩ : BufTy).Contents (Elt F)) :
    (((TRef.of (sig := sig) (T := ⟨S4x2048x2048, .f32⟩) main_call16_v2).toBuf (Val := Elt F) (maximumf ((TRef.of (sig := sig) (T := ⟨S4x2048x2048, .f32⟩) main_call16_v1).ofBuf (Val := Elt F) A0) ((TRef.of (sig := sig) (T := ⟨S4x2048x2048, .f32⟩) main_v121).ofBuf (Val := Elt F) A1))) : (⟨S4x2048x2048, .f32⟩ : BufTy).Contents (Elt F)) = maximumf A0 A1 := rfl
theorem at_main_call16_v2 : (after (ops (F := F)) V0 (Proc.devRef .tc main_call16_v2) : (⟨S4x2048x2048, .f32⟩ : BufTy).Contents (Elt F)) = val_main_call16_v2 (F := F) (V0 (Proc.devRef .tc main_arg0)) (V0 (Proc.devRef .tc main_arg2)) (V0 (Proc.devRef .tc main_arg7)) :=
  ((ssa (F := F)).binary_at 194 main_call16_v1 main_v121 main_call16_v2 _ _ _ _ rfl rfl (by decide) (by decide) V0).trans (by rw [at_main_call16_v1 (F := F) V0, at_main_v121 (F := F) V0]; exact tr_main_call16_v2 (F := F) _ _)
theorem at_main_call16_v3 : (after (ops (F := F)) V0 (Proc.devRef .tc main_call16_v3) : (⟨S_, .f32⟩ : BufTy).Contents (Elt F)) = val_main_call16_v3 (F := F) :=
  ((ssa (F := F)).unary_at 195 main_c_36 main_call16_v3 _ _ _ rfl rfl (by decide) V0).trans (by rw [at_main_c_36 (F := F) V0]; rfl)
theorem at_main_call16_v4 : (after (ops (F := F)) V0 (Proc.devRef .tc main_call16_v4) : (⟨S4x2048x2048, .f32⟩ : BufTy).Contents (Elt F)) = val_main_call16_v4 (F := F) :=
  ((ssa (F := F)).unary_at 196 main_call16_v3 main_call16_v4 _ _ _ rfl rfl (by decide) V0).trans (by rw [at_main_call16_v3 (F := F) V0]; rfl)
theorem tr_main_v122 (A0 : (⟨S4x2048x2048, .f32⟩ : BufTy).Contents (Elt F)) (A1 : (⟨S4x2048x2048, .f32⟩ : BufTy).Contents (Elt F)) :
    (((TRef.of (sig := sig) (T := ⟨S4x2048x2048, .f32⟩) main_v122).toBuf (Val := Elt F) (minimumf ((TRef.of (sig := sig) (T := ⟨S4x2048x2048, .f32⟩) main_call16_v4).ofBuf (Val := Elt F) A0) ((TRef.of (sig := sig) (T := ⟨S4x2048x2048, .f32⟩) main_call16_v2).ofBuf (Val := Elt F) A1))) : (⟨S4x2048x2048, .f32⟩ : BufTy).Contents (Elt F)) = minimumf A0 A1 := rfl
theorem at_main_v122 : (after (ops (F := F)) V0 (Proc.devRef .tc main_v122) : (⟨S4x2048x2048, .f32⟩ : BufTy).Contents (Elt F)) = val_main_v122 (F := F) (V0 (Proc.devRef .tc main_arg0)) (V0 (Proc.devRef .tc main_arg2)) (V0 (Proc.devRef .tc main_arg7)) :=
  ((ssa (F := F)).binary_at 197 main_call16_v4 main_call16_v2 main_v122 _ _ _ _ rfl rfl (by decide) (by decide) V0).trans (by rw [at_main_call16_v4 (F := F) V0, at_main_call16_v2 (F := F) V0]; exact tr_main_v122 (F := F) _ _)
theorem at_main_v123 : (after (ops (F := F)) V0 (Proc.devRef .tc main_v123) : (⟨S4x2048x2048, .f32⟩ : BufTy).Contents (Elt F)) = val_main_v123 (F := F) (V0 (Proc.devRef .tc main_arg0)) (V0 (Proc.devRef .tc main_arg2)) (V0 (Proc.devRef .tc main_arg7)) :=
  ((ssa (F := F)).unary_at 198 main_v118 main_v123 _ _ _ rfl rfl (by decide) V0).trans (by rw [at_main_v118 (F := F) V0]; rfl)
theorem at_main_v124 : (after (ops (F := F)) V0 (Proc.devRef .tc main_v124) : (⟨S4x2048x2048, .f32⟩ : BufTy).Contents (Elt F)) = val_main_v124 (F := F) (V0 (Proc.devRef .tc main_arg0)) (V0 (Proc.devRef .tc main_arg2)) (V0 (Proc.devRef .tc main_arg7)) :=
  ((ssa (F := F)).binary_at 199 main_v122 main_v123 main_v124 _ _ _ _ rfl rfl (by decide) (by decide) V0).trans (by rw [at_main_v122 (F := F) V0, at_main_v123 (F := F) V0]; rfl)
theorem at_main_v125 : (after (ops (F := F)) V0 (Proc.devRef .tc main_v125) : (⟨S4x2048x2048, .f32⟩ : BufTy).Contents (Elt F)) = val_main_v125 (F := F) (V0 (Proc.devRef .tc main_arg0)) (V0 (Proc.devRef .tc main_arg2)) (V0 (Proc.devRef .tc main_arg7)) :=
  ((ssa (F := F)).binary_at 200 main_v124 main_v112 main_v125 _ _ _ _ rfl rfl (by decide) (by decide) V0).trans (by rw [at_main_v124 (F := F) V0, at_main_v112 (F := F) V0]; rfl)
theorem at_main_v126 : (after (ops (F := F)) V0 (Proc.devRef .tc main_v126) : (⟨S4x2048x2048, .f32⟩ : BufTy).Contents (Elt F)) = val_main_v126 (F := F) (V0 (Proc.devRef .tc main_arg0)) (V0 (Proc.devRef .tc main_arg2)) (V0 (Proc.devRef .tc main_arg7)) :=
  ((ssa (F := F)).binary_at 201 main_v112 main_v125 main_v126 _ _ _ _ rfl rfl (by decide) (by decide) V0).trans (by rw [at_main_v112 (F := F) V0, at_main_v125 (F := F) V0]; rfl)
theorem at_main_v127 : (after (ops (F := F)) V0 (Proc.devRef .tc main_v127) : (⟨S2048x2048, .f32⟩ : BufTy).Contents (Elt F)) = val_main_v127 (F := F) (V0 (Proc.devRef .tc main_arg4)) :=
  ((ssa (F := F)).unary_at 202 main_arg4 main_v127 _ _ _ rfl rfl (by decide) V0).trans (by rw [at_main_arg4 (F := F) V0]; rfl)
theorem at_main_cst_37 : (after (ops (F := F)) V0 (Proc.devRef .tc main_cst_37) : (⟨S_, .f32⟩ : BufTy).Contents (Elt F)) = val_main_cst_37 (F := F) :=
  ((ssa (F := F)).nullary_at 203 main_cst_37 _ _ rfl rfl V0).trans rfl
theorem at_main_v128 : (after (ops (F := F)) V0 (Proc.devRef .tc main_v128) : (⟨S_, .f32⟩ : BufTy).Contents (Elt F)) = val_main_v128 (F := F) (V0 (Proc.devRef .tc main_arg4)) :=
  ((ssa (F := F)).binary_at 204 main_v127 main_cst_37 main_v128 _ _ _ _ rfl rfl (by decide) (by decide) V0).trans (by rw [at_main_v127 (F := F) V0, at_main_cst_37 (F := F) V0]; rfl)
theorem at_main_cst_38 : (after (ops (F := F)) V0 (Proc.devRef .tc main_cst_38) : (⟨S_, .f32⟩ : BufTy).Contents (Elt F)) = val_main_cst_38 (F := F) :=
  ((ssa (F := F)).nullary_at 205 main_cst_38 _ _ rfl rfl V0).trans rfl
theorem at_main_v129 : (after (ops (F := F)) V0 (Proc.devRef .tc main_v129) : (⟨S_, .f32⟩ : BufTy).Contents (Elt F)) = val_main_v129 (F := F) (V0 (Proc.devRef .tc main_arg4)) :=
  ((ssa (F := F)).binary_at 206 main_v128 main_cst_38 main_v129 _ _ _ _ rfl rfl (by decide) (by decide) V0).trans (by rw [at_main_v128 (F := F) V0, at_main_cst_38 (F := F) V0]; rfl)
theorem at_main_cst_39 : (after (ops (F := F)) V0 (Proc.devRef .tc main_cst_39) : (⟨S_, .f32⟩ : BufTy).Contents (Elt F)) = val_main_cst_39 (F := F) :=
  ((ssa (F := F)).nullary_at 207 main_cst_39 _ _ rfl rfl V0).trans rfl
theorem at_main_call17_v0 : (after (ops (F := F)) V0 (Proc.devRef .tc main_call17_v0) : (⟨S_, .f32⟩ : BufTy).Contents (Elt F)) = val_main_call17_v0 (F := F) :=
  ((ssa (F := F)).unary_at 208 main_cst_39 main_call17_v0 _ _ _ rfl rfl (by decide) V0).trans (by rw [at_main_cst_39 (F := F) V0]; rfl)
theorem tr_main_v130 (A0 : (⟨S_, .f32⟩ : BufTy).Contents (Elt F)) (A1 : (⟨S_, .f32⟩ : BufTy).Contents (Elt F)) :
    (((TRef.of (sig := sig) (T := ⟨S_, .f32⟩) main_v130).toBuf (Val := Elt F) (maximumf ((TRef.of (sig := sig) (T := ⟨S_, .f32⟩) main_call17_v0).ofBuf (Val := Elt F) A0) ((TRef.of (sig := sig) (T := ⟨S_, .f32⟩) main_v129).ofBuf (Val := Elt F) A1))) : (⟨S_, .f32⟩ : BufTy).Contents (Elt F)) = maximumf A0 A1 := rfl
theorem at_main_v130 : (after (ops (F := F)) V0 (Proc.devRef .tc main_v130) : (⟨S_, .f32⟩ : BufTy).Contents (Elt F)) = val_main_v130 (F := F) (V0 (Proc.devRef .tc main_arg4)) :=
  ((ssa (F := F)).binary_at 209 main_call17_v0 main_v129 main_v130 _ _ _ _ rfl rfl (by decide) (by decide) V0).trans (by rw [at_main_call17_v0 (F := F) V0, at_main_v129 (F := F) V0]; exact tr_main_v130 (F := F) _ _)
theorem at_main_cst_40 : (after (ops (F := F)) V0 (Proc.devRef .tc main_cst_40) : (⟨S_, .f32⟩ : BufTy).Contents (Elt F)) = val_main_cst_40 (F := F) :=
  ((ssa (F := F)).nullary_at 210 main_cst_40 _ _ rfl rfl V0).trans rfl
theorem at_main_v131 : (after (ops (F := F)) V0 (Proc.devRef .tc main_v131) : (⟨S_, .f32⟩ : BufTy).Contents (Elt F)) = val_main_v131 (F := F) (V0 (Proc.devRef .tc main_arg4)) :=
  ((ssa (F := F)).binary_at 211 main_cst_40 main_v130 main_v131 _ _ _ _ rfl rfl (by decide) (by decide) V0).trans (by rw [at_main_cst_40 (F := F) V0, at_main_v130 (F := F) V0]; rfl)
theorem at_main_v132 : (after (ops (F := F)) V0 (Proc.devRef .tc main_v132) : (⟨S2048x2048, .f32⟩ : BufTy).Contents (Elt F)) = val_main_v132 (F := F) (V0 (Proc.devRef .tc main_arg4)) :=
  ((ssa (F := F)).unary_at 212 main_v131 main_v132 _ _ _ rfl rfl (by decide) V0).trans (by rw [at_main_v131 (F := F) V0]; rfl)
theorem at_main_v133 : (after (ops (F := F)) V0 (Proc.devRef .tc main_v133) : (⟨S2048x2048, .f32⟩ : BufTy).Contents (Elt F)) = val_main_v133 (F := F) (V0 (Proc.devRef .tc main_arg4)) :=
  ((ssa (F := F)).binary_at 213 main_arg4 main_v132 main_v133 _ _ _ _ rfl rfl (by decide) (by decide) V0).trans (by rw [at_main_arg4 (F := F) V0, at_main_v132 (F := F) V0]; rfl)
theorem at_main_v134 : (after (ops (F := F)) V0 (Proc.devRef .tc main_v134) : (⟨S2048x2048, .f32⟩ : BufTy).Contents (Elt F)) = val_main_v134 (F := F) (V0 (Proc.devRef .tc main_arg4)) :=
  ((ssa (F := F)).unary_at 214 main_v133 main_v134 _ _ _ rfl rfl (by decide) V0).trans (by rw [at_main_v133 (F := F) V0]; rfl)
theorem at_main_c_41 : (after (ops (F := F)) V0 (Proc.devRef .tc main_c_41) : (⟨S_, .i32⟩ : BufTy).Contents (Elt F)) = val_main_c_41 (F := F) :=
  ((ssa (F := F)).nullary_at 215 main_c_41 _ _ rfl rfl V0).trans rfl
theorem at_main_c_42 : (after (ops (F := F)) V0 (Proc.devRef .tc main_c_42) : (⟨S_, .i32⟩ : BufTy).Contents (Elt F)) = val_main_c_42 (F := F) :=
  ((ssa (F := F)).nullary_at 216 main_c_42 _ _ rfl rfl V0).trans rfl
theorem at_main_call19_v0 : (after (ops (F := F)) V0 (Proc.devRef .tc main_call19_v0) : (⟨S_, .f32⟩ : BufTy).Contents (Elt F)) = val_main_call19_v0 (F := F) :=
  ((ssa (F := F)).unary_at 217 main_c_41 main_call19_v0 _ _ _ rfl rfl (by decide) V0).trans (by rw [at_main_c_41 (F := F) V0]; rfl)
theorem at_main_call19_v1 : (after (ops (F := F)) V0 (Proc.devRef .tc main_call19_v1) : (⟨S2048x2048, .f32⟩ : BufTy).Contents (Elt F)) = val_main_call19_v1 (F := F) :=
  ((ssa (F := F)).unary_at 218 main_call19_v0 main_call19_v1 _ _ _ rfl rfl (by decide) V0).trans (by rw [at_main_call19_v0 (F := F) V0]; rfl)
theorem tr_main_call19_v2 (A0 : (⟨S2048x2048, .f32⟩ : BufTy).Contents (Elt F)) (A1 : (⟨S2048x2048, .f32⟩ : BufTy).Contents (Elt F)) :
    (((TRef.of (sig := sig) (T := ⟨S2048x2048, .f32⟩) main_call19_v2).toBuf (Val := Elt F) (maximumf ((TRef.of (sig := sig) (T := ⟨S2048x2048, .f32⟩) main_call19_v1).ofBuf (Val := Elt F) A0) ((TRef.of (sig := sig) (T := ⟨S2048x2048, .f32⟩) main_v134).ofBuf (Val := Elt F) A1))) : (⟨S2048x2048, .f32⟩ : BufTy).Contents (Elt F)) = maximumf A0 A1 := rfl
theorem at_main_call19_v2 : (after (ops (F := F)) V0 (Proc.devRef .tc main_call19_v2) : (⟨S2048x2048, .f32⟩ : BufTy).Contents (Elt F)) = val_main_call19_v2 (F := F) (V0 (Proc.devRef .tc main_arg4)) :=
  ((ssa (F := F)).binary_at 219 main_call19_v1 main_v134 main_call19_v2 _ _ _ _ rfl rfl (by decide) (by decide) V0).trans (by rw [at_main_call19_v1 (F := F) V0, at_main_v134 (F := F) V0]; exact tr_main_call19_v2 (F := F) _ _)
theorem at_main_call19_v3 : (after (ops (F := F)) V0 (Proc.devRef .tc main_call19_v3) : (⟨S_, .f32⟩ : BufTy).Contents (Elt F)) = val_main_call19_v3 (F := F) :=
  ((ssa (F := F)).unary_at 220 main_c_42 main_call19_v3 _ _ _ rfl rfl (by decide) V0).trans (by rw [at_main_c_42 (F := F) V0]; rfl)
theorem at_main_call19_v4 : (after (ops (F := F)) V0 (Proc.devRef .tc main_call19_v4) : (⟨S2048x2048, .f32⟩ : BufTy).Contents (Elt F)) = val_main_call19_v4 (F := F) :=
  ((ssa (F := F)).unary_at 221 main_call19_v3 main_call19_v4 _ _ _ rfl rfl (by decide) V0).trans (by rw [at_main_call19_v3 (F := F) V0]; rfl)
theorem tr_main_v135 (A0 : (⟨S2048x2048, .f32⟩ : BufTy).Contents (Elt F)) (A1 : (⟨S2048x2048, .f32⟩ : BufTy).Contents (Elt F)) :
    (((TRef.of (sig := sig) (T := ⟨S2048x2048, .f32⟩) main_v135).toBuf (Val := Elt F) (minimumf ((TRef.of (sig := sig) (T := ⟨S2048x2048, .f32⟩) main_call19_v4).ofBuf (Val := Elt F) A0) ((TRef.of (sig := sig) (T := ⟨S2048x2048, .f32⟩) main_call19_v2).ofBuf (Val := Elt F) A1))) : (⟨S2048x2048, .f32⟩ : BufTy).Contents (Elt F)) = minimumf A0 A1 := rfl
theorem at_main_v135 : (after (ops (F := F)) V0 (Proc.devRef .tc main_v135) : (⟨S2048x2048, .f32⟩ : BufTy).Contents (Elt F)) = val_main_v135 (F := F) (V0 (Proc.devRef .tc main_arg4)) :=
  ((ssa (F := F)).binary_at 222 main_call19_v4 main_call19_v2 main_v135 _ _ _ _ rfl rfl (by decide) (by decide) V0).trans (by rw [at_main_call19_v4 (F := F) V0, at_main_call19_v2 (F := F) V0]; exact tr_main_v135 (F := F) _ _)
theorem at_main_v136 : (after (ops (F := F)) V0 (Proc.devRef .tc main_v136) : (⟨S2048x2048, .f32⟩ : BufTy).Contents (Elt F)) = val_main_v136 (F := F) (V0 (Proc.devRef .tc main_arg4)) :=
  ((ssa (F := F)).unary_at 223 main_v131 main_v136 _ _ _ rfl rfl (by decide) V0).trans (by rw [at_main_v131 (F := F) V0]; rfl)
theorem at_main_v137 : (after (ops (F := F)) V0 (Proc.devRef .tc main_v137) : (⟨S2048x2048, .f32⟩ : BufTy).Contents (Elt F)) = val_main_v137 (F := F) (V0 (Proc.devRef .tc main_arg4)) :=
  ((ssa (F := F)).binary_at 224 main_v135 main_v136 main_v137 _ _ _ _ rfl rfl (by decide) (by decide) V0).trans (by rw [at_main_v135 (F := F) V0, at_main_v136 (F := F) V0]; rfl)
theorem at_main_v138 : (after (ops (F := F)) V0 (Proc.devRef .tc main_v138) : (⟨S2048x2048, .f32⟩ : BufTy).Contents (Elt F)) = val_main_v138 (F := F) (V0 (Proc.devRef .tc main_arg4)) :=
  ((ssa (F := F)).binary_at 225 main_v137 main_arg4 main_v138 _ _ _ _ rfl rfl (by decide) (by decide) V0).trans (by rw [at_main_v137 (F := F) V0, at_main_arg4 (F := F) V0]; rfl)
theorem at_main_v139 : (after (ops (F := F)) V0 (Proc.devRef .tc main_v139) : (⟨S2048x2048, .f32⟩ : BufTy).Contents (Elt F)) = val_main_v139 (F := F) (V0 (Proc.devRef .tc main_arg4)) :=
  ((ssa (F := F)).binary_at 226 main_arg4 main_v138 main_v139 _ _ _ _ rfl rfl (by decide) (by decide) V0).trans (by rw [at_main_arg4 (F := F) V0, at_main_v138 (F := F) V0]; rfl)
theorem at_main_v140 : (after (ops (F := F)) V0 (Proc.devRef .tc main_v140) : (⟨S4x2048x2048, .f32⟩ : BufTy).Contents (Elt F)) = val_main_v140 (F := F) (V0 (Proc.devRef .tc main_arg0)) (V0 (Proc.devRef .tc main_arg2)) (V0 (Proc.devRef .tc main_arg4)) (V0 (Proc.devRef .tc main_arg7)) :=
  ((ssa (F := F)).binary_at 227 main_v126 main_v139 main_v140 _ _ _ _ rfl rfl (by decide) (by decide) V0).trans (by rw [at_main_v126 (F := F) V0, at_main_v139 (F := F) V0]; rfl)
theorem at_main_v141 : (after (ops (F := F)) V0 (Proc.devRef .tc main_v141) : (⟨S4x2048x2048, .f32⟩ : BufTy).Contents (Elt F)) = val_main_v141 (F := F) (V0 (Proc.devRef .tc main_arg0)) (V0 (Proc.devRef .tc main_arg2)) (V0 (Proc.devRef .tc main_arg4)) (V0 (Proc.devRef .tc main_arg7)) :=
  ((ssa (F := F)).unary_at 228 main_v140 main_v141 _ _ _ rfl rfl (by decide) V0).trans (by rw [at_main_v140 (F := F) V0]; rfl)
theorem at_main_v142 : (after (ops (F := F)) V0 (Proc.devRef .tc main_v142) : (⟨S4x2048x2048, .f32⟩ : BufTy).Contents (Elt F)) = val_main_v142 (F := F) (V0 (Proc.devRef .tc main_arg0)) (V0 (Proc.devRef .tc main_arg2)) (V0 (Proc.devRef .tc main_arg4)) (V0 (Proc.devRef .tc main_arg7)) :=
  ((ssa (F := F)).unary_at 229 main_v141 main_v142 _ _ _ rfl rfl (by decide) V0).trans (by rw [at_main_v141 (F := F) V0]; rfl)
theorem at_main_cst_43 : (after (ops (F := F)) V0 (Proc.devRef .tc main_cst_43) : (⟨S_, .f32⟩ : BufTy).Contents (Elt F)) = val_main_cst_43 (F := F) :=
  ((ssa (F := F)).nullary_at 230 main_cst_43 _ _ rfl rfl V0).trans rfl
theorem at_main_v143 : (after (ops (F := F)) V0 (Proc.devRef .tc main_v143) : (⟨S4x2048x2048, .f32⟩ : BufTy).Contents (Elt F)) = val_main_v143 (F := F) :=
  ((ssa (F := F)).unary_at 231 main_cst_43 main_v143 _ _ _ rfl rfl (by decide) V0).trans (by rw [at_main_cst_43 (F := F) V0]; rfl)
theorem at_main_v144 : (after (ops (F := F)) V0 (Proc.devRef .tc main_v144) : (⟨S4x2048x2048, .f32⟩ : BufTy).Contents (Elt F)) = val_main_v144 (F := F) (V0 (Proc.devRef .tc main_arg0)) (V0 (Proc.devRef .tc main_arg2)) (V0 (Proc.devRef .tc main_arg4)) (V0 (Proc.devRef .tc main_arg7)) :=
  ((ssa (F := F)).binary_at 232 main_v143 main_v142 main_v144 _ _ _ _ rfl rfl (by decide) (by decide) V0).trans (by rw [at_main_v143 (F := F) V0, at_main_v142 (F := F) V0]; rfl)
theorem at_main_cst_44 : (after (ops (F := F)) V0 (Proc.devRef .tc main_cst_44) : (⟨S_, .f32⟩ : BufTy).Contents (Elt F)) = val_main_cst_44 (F := F) :=
  ((ssa (F := F)).nullary_at 233 main_cst_44 _ _ rfl rfl V0).trans rfl
theorem at_main_v145 : (after (ops (F := F)) V0 (Proc.devRef .tc main_v145) : (⟨S4x2048x2048, .f32⟩ : BufTy).Contents (Elt F)) = val_main_v145 (F := F) :=
  ((ssa (F := F)).unary_at 234 main_cst_44 main_v145 _ _ _ rfl rfl (by decide) V0).trans (by rw [at_main_cst_44 (F := F) V0]; rfl)
theorem at_main_v146 : (after (ops (F := F)) V0 (Proc.devRef .tc main_v146) : (⟨S4x2048x2048, .f32⟩ : BufTy).Contents (Elt F)) = val_main_v146 (F := F) (V0 (Proc.devRef .tc main_arg0)) (V0 (Proc.devRef .tc main_arg2)) (V0 (Proc.devRef .tc main_arg4)) (V0 (Proc.devRef .tc main_arg7)) :=
  ((ssa (F := F)).binary_at 235 main_v145 main_v144 main_v146 _ _ _ _ rfl rfl (by decide) (by decide) V0).trans (by rw [at_main_v145 (F := F) V0, at_main_v144 (F := F) V0]; rfl)
theorem at_main_v147 : (after (ops (F := F)) V0 (Proc.devRef .tc main_v147) : (⟨S4x2048x2048, .f32⟩ : BufTy).Contents (Elt F)) = val_main_v147 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) :=
  ((ssa (F := F)).binary_at 236 main_v146 main_v99 main_v147 _ _ _ _ rfl rfl (by decide) (by decide) V0).trans (by rw [at_main_v146 (F := F) V0, at_main_v99 (F := F) V0]; rfl)

/-- The line's result buffer ends at the last stage function of the nine argument arrays. -/
theorem after_v147 : after (ops (F := F)) V0 (Proc.devRef .tc main_v147) = val_main_v147 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) :=
  at_main_v147 (F := F) V0

end Cert.ReferenceIdeal.RefBridge
-- ==== Proof.LibReal.lean ====
/-
  Extended reals that are real numbers.

  The extended reals are not a ring: distributivity, cancellation and moving a sign across a sum fail at `⊤ + ⊥`. A
  comparison of two arrangements of one real computation is therefore made on entries known to be real, and this file
  keeps the book: the predicate "is a real number", its closure under the arithmetic operations and finite sums, the
  coercion of a finite sum, the fact that `tanh` of ANY extended real is real, and negation pulled out of a sum of reals.
-/
import Mathlib.Algebra.BigOperators.Fin
import Mathlib.Tactic.NormNum
import Idealize.ShloMosaic.PureOps.Ideal

noncomputable section

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.one : IsReal (1 : EReal) := ⟨1, EReal.coe_one.symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.neg {x : EReal} (hx : IsReal x) : IsReal (-x) := by
  obtain ⟨a, rfl⟩ := hx; exact ⟨-a, (EReal.coe_neg a).symm⟩

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) (f : ι → EReal) (h : ∀ i, IsReal (f i)) : IsReal (∑ i ∈ s, f i) := by
  choose r hr using h
  exact ⟨∑ i ∈ s, r i, by rw [coe_sum]; exact Finset.sum_congr rfl fun i _ => hr i⟩

/-- `tanh` of any extended real is a real number: `∓1` at the infinities. -/
theorem IsReal.tanh (x : EReal) : IsReal (Ideal.tanh x) := by
  induction x using EReal.rec with
  | bot => exact ⟨-1, by rw [Ideal.tanh_bot, EReal.coe_neg, EReal.coe_one]⟩
  | coe r => exact ⟨Real.tanh r, Ideal.tanh_coe r⟩
  | top => exact ⟨1, by rw [Ideal.tanh_top, EReal.coe_one]⟩

/-- Negation comes out of a finite sum of REAL terms. -/
theorem sum_neg_of_real {ι : Type} (s : Finset ι) (f : ι → EReal) (h : ∀ i, IsReal (f i)) :
    ∑ i ∈ s, -(f i) = -(∑ i ∈ s, f i) := by
  choose r hr using h
  have e : f = fun i => (r i : EReal) := funext hr
  subst e
  simp only [← EReal.coe_neg, ← coe_sum]
  rw [Finset.sum_neg_distrib]

end Cert.LibReal

end
-- ==== Proof.SpecLaws.lean ====
/-
  Laws of the specification: every stage of the block maps arrays of real numbers to arrays of real
  numbers, and on real numbers the straight-through arrangement x + (q - x) is q.

  The extended reals are not a ring, so the second law is false at x = ±∞ and has to be carried through
  the stages: the normalised row is real because the mean square plus a positive constant is a positive
  real, the quantisation scale is a positive real because it is a positive constant over the larger of a
  positive constant and a real (or -∞), and so on down the block.
-/
import proofs.«174982_j50740743635387_2_alg».proof.Proof.Spec
import proofs.«174982_j50740743635387_2_alg».proof.Proof.LibReal

noncomputable section

open scoped BigOperators

namespace Cert.Spec

open Idealize.ShloMosaic Cert.LibReal

/-- A positive real number among the extended reals. -/
abbrev PosReal (x : EReal) : Prop := ∃ r : ℝ, 0 < r ∧ x = (r : EReal)

theorem PosReal.isReal {x : EReal} (h : PosReal x) : IsReal x := by
  obtain ⟨r, _, rfl⟩ := h; exact ⟨r, rfl⟩

/-! ## The two collapse laws -/

/-- x + (q - x) = q when x is real; q may be anything. -/
theorem add_sub_cancel_real {a : EReal} (ha : IsReal a) (y : EReal) : a + (y - a) = y := by
  obtain ⟨r, rfl⟩ := ha
  induction y using EReal.rec with
  | bot => simp
  | coe s => rw [← EReal.coe_sub, ← EReal.coe_add]; congr 1; ring
  | top => simp

/-! ## Closure of the reals under the lattice operations, division and rounding -/

theorem isReal_max {x y : EReal} (hx : IsReal x) (hy : IsReal y) : IsReal (max x y) := by
  rcases le_total x y with h | h
  · rw [max_eq_right h]; exact hy
  · rw [max_eq_left h]; exact hx

theorem isReal_min {x y : EReal} (hx : IsReal x) (hy : IsReal y) : IsReal (min x y) := by
  rcases le_total x y with h | h
  · rw [min_eq_left h]; exact hx
  · rw [min_eq_right h]; exact hy

theorem isReal_zero : IsReal (0 : EReal) := ⟨0, EReal.coe_zero.symm⟩

theorem isReal_eabs {x : EReal} (hx : IsReal x) : IsReal (eabs x) := isReal_max hx hx.neg

/-- A positive real dominates: the larger of a positive real and a real is a positive real. -/
theorem posReal_max_left {x y : EReal} (hx : PosReal x) (hy : IsReal y) : PosReal (max x y) := by
  obtain ⟨a, ha, rfl⟩ := hx
  obtain ⟨b, rfl⟩ := hy
  exact ⟨max a b, lt_max_of_lt_left ha, (EReal.coe_strictMono.monotone.map_max).symm⟩

/-- The larger of a positive real and -∞ is that positive real. -/
theorem posReal_max_bot {x : EReal} (hx : PosReal x) : PosReal (max x ⊥) := by
  rw [max_eq_left bot_le]; exact hx

/-- A real over a positive real is real. -/
theorem isReal_div {x y : EReal} (hx : IsReal x) (hy : PosReal y) : IsReal (Ideal.div x y) := by
  obtain ⟨a, rfl⟩ := hx
  obtain ⟨b, hb, rfl⟩ := hy
  rw [Ideal.div_coe (ne_of_gt hb)]
  exact ⟨a * (1 / b), (EReal.coe_mul _ _).symm⟩

/-- A positive real over a positive real is a positive real. -/
theorem posReal_div {x y : EReal} (hx : PosReal x) (hy : PosReal y) : PosReal (Ideal.div x y) := by
  obtain ⟨a, ha, rfl⟩ := hx
  obtain ⟨b, hb, rfl⟩ := hy
  rw [Ideal.div_coe (ne_of_gt hb)]
  exact ⟨a * (1 / b), by positivity, (EReal.coe_mul _ _).symm⟩

/-- Rounding a real to an integer gives a real. -/
theorem isReal_liftRound (f : ℝ → ℤ) {x : EReal} (hx : IsReal x) : IsReal (Ideal.liftRound f x) := by
  obtain ⟨a, rfl⟩ := hx; exact ⟨(f a : ℝ), rfl⟩

/-! ## The literal words -/

/-- A 32-bit word whose exponent field is not all ones denotes a real number. -/
theorem ieee_f32_real (b : BitVec 32) (he : (b.extractLsb' 23 8).toNat ≠ 2 ^ 8 - 1) :
    IsReal (Ideal.ofBits .f32 b) := by
  show IsReal (Ideal.ieee 8 23 b)
  unfold Ideal.ieee
  dsimp only
  rw [if_neg he]
  split_ifs <;> exact ⟨_, rfl⟩

/-- A 32-bit word with sign bit clear and exponent field neither zero nor all ones denotes a positive real. -/
theorem ieee_f32_pos (b : BitVec 32) (hs : (b.extractLsb' (8 + 23) 1 == 1#1) = false)
    (he : (b.extractLsb' 23 8).toNat ≠ 2 ^ 8 - 1) (h0 : (b.extractLsb' 23 8).toNat ≠ 0) :
    PosReal (Ideal.ofBits .f32 b) := by
  show PosReal (Ideal.ieee 8 23 b)
  unfold Ideal.ieee
  dsimp only
  rw [if_neg he, if_neg h0, hs]
  exact ⟨_, by simp only [Bool.false_eq_true, if_false]; positivity, rfl⟩

theorem lit_epsNorm_pos : PosReal (Ideal.ofBits .f32 0x322BCC77#32) := ieee_f32_pos _ (by decide) (by decide) (by decide)
theorem lit_epsScale_pos : PosReal (Ideal.ofBits .f32 0x3727C5AC#32) := ieee_f32_pos _ (by decide) (by decide) (by decide)
theorem lit127_pos : PosReal (Ideal.ofBits .f32 0x42FE0000#32) := ieee_f32_pos _ (by decide) (by decide) (by decide)
theorem lit_one_pos : PosReal (Ideal.ofBits .f32 0x3F800000#32) := ieee_f32_pos _ (by decide) (by decide) (by decide)
theorem lit2048_pos : PosReal (Ideal.ofBits .f32 0x45000000#32) := ieee_f32_pos _ (by decide) (by decide) (by decide)
theorem lit8192_pos : PosReal (Ideal.ofBits .f32 0x46000000#32) := ieee_f32_pos _ (by decide) (by decide) (by decide)
theorem litCntK_pos : PosReal (Ideal.ofBits .f32 0x4B800000#32) := ieee_f32_pos _ (by decide) (by decide) (by decide)
theorem litCntR_pos : PosReal (Ideal.ofBits .f32 0x4A800000#32) := ieee_f32_pos _ (by decide) (by decide) (by decide)
theorem litNeg128_real : IsReal (Ideal.ofBits .f32 0xC3000000#32) := ieee_f32_real _ (by decide)
theorem lit_zero : Ideal.ofBits .f32 0x00000000#32 = (0 : EReal) := by simp [Ideal.ofBits, Ideal.ieee]
theorem lit_negInf : Ideal.ofBits .f32 0xFF800000#32 = (⊥ : EReal) := by simp [Ideal.ofBits, Ideal.ieee]

/-! ## Row-wise normalisation and quantisation: real rows stay real -/

section Actq

variable {K : ℕ} (n : EReal) (x g : Fin K → EReal)

/-- The mean square of a real row over a positive count is a nonnegative real. -/
theorem actqVar_nonneg (hn : PosReal n) (hx : ∀ j, IsReal (x j)) :
    ∃ r : ℝ, 0 ≤ r ∧ actqVar n x = (r : EReal) := by
  obtain ⟨c, hc, rfl⟩ := hn
  choose a ha using hx
  obtain rfl : x = fun j => (a j : EReal) := funext ha
  refine ⟨(∑ j, a j * a j) * (1 / c),
    mul_nonneg (Finset.sum_nonneg fun j _ => mul_self_nonneg (a j)) (by positivity), ?_⟩
  unfold actqVar
  rw [Ideal.div_coe (ne_of_gt hc)]
  simp only [← EReal.coe_mul, ← coe_sum]

/-- The reciprocal root of the mean square plus the positive constant is real. -/
theorem actqRs_real (hn : PosReal n) (hx : ∀ j, IsReal (x j)) : IsReal (actqRs n x) := by
  obtain ⟨v, hv, hvar⟩ := actqVar_nonneg n x hn hx
  obtain ⟨e, he, hlit⟩ := lit_epsNorm_pos
  unfold actqRs
  rw [hvar, hlit, ← EReal.coe_add, Ideal.rsqrt_coe]
  have hpos : 0 < v + e := add_pos_of_nonneg_of_pos hv he
  rw [if_neg (not_lt.mpr hpos.le), if_neg (ne_of_gt hpos)]
  exact ⟨_, rfl⟩

/-- The normalised row is real. -/
theorem actqXn_real (hn : PosReal n) (hx : ∀ j, IsReal (x j)) (hg : ∀ j, IsReal (g j)) :
    ∀ j, IsReal (actqXn n x g j) :=
  fun j => ((hx j).mul (actqRs_real n x hn hx)).mul (hg j)

/-- A maximum started from -∞ over reals is -∞ or real; under the larger with a positive real it is a
    positive real. -/
theorem posReal_max_fold {ι : Type} (s : Finset ι) (f : ι → EReal) (hf : ∀ i, IsReal (f i))
    {l : EReal} (hl : PosReal l) : PosReal (max l (s.fold max (Ideal.ofBits .f32 0xFF800000#32) f)) := by
  classical
  induction s using Finset.induction_on with
  | empty => rw [Finset.fold_empty, lit_negInf]; exact posReal_max_bot hl
  | insert a s ha ih =>
    rw [Finset.fold_insert ha, max_left_comm]
    rw [max_comm]
    exact posReal_max_left ih (hf a)

/-- The quantisation scale of a real row is a positive real. -/
theorem actqScale_pos (hn : PosReal n) (hx : ∀ j, IsReal (x j)) (hg : ∀ j, IsReal (g j)) :
    PosReal (actqScale n x g) :=
  posReal_div lit127_pos
    (posReal_max_fold _ _ (fun j => isReal_eabs (actqXn_real n x g hn hx hg j)) lit_epsScale_pos)

/-- The quantised row is real. -/
theorem actqRow_real (hn : PosReal n) (hx : ∀ j, IsReal (x j)) (hg : ∀ j, IsReal (g j)) :
    ∀ k, IsReal (actqRow n x g k) :=
  fun k => isReal_div
    (isReal_min lit127_pos.isReal
      (isReal_max litNeg128_real
        (isReal_liftRound _ ((actqXn_real n x g hn hx hg k).mul (actqScale_pos n x g hn hx hg).isReal))))
    (actqScale_pos n x g hn hx hg)

/-- The straight-through arrangement of the quantised row is the quantised row. -/
theorem actq_ste (hn : PosReal n) (hx : ∀ j, IsReal (x j)) (hg : ∀ j, IsReal (g j)) (k : Fin K) :
    actqXn n x g k + (actqRow n x g k - actqXn n x g k) = actqRow n x g k :=
  add_sub_cancel_real (actqXn_real n x g hn hx hg k) _

end Actq

/-! ## Ternary weights: real matrices stay real -/

section Wq

variable {O I : ℕ} (cnt : EReal) (w : Fin O → Fin I → EReal)

theorem wqMean_real (hc : PosReal cnt) (hw : ∀ o i, IsReal (w o i)) : IsReal (wqMean cnt w) := by
  unfold wqMean
  refine isReal_div (IsReal.add ?_ ?_) hc
  · rw [lit_zero]; exact isReal_zero
  · exact IsReal.sum _ _ fun o => IsReal.sum _ _ fun i => isReal_eabs (hw o i)

theorem wqScale_pos (hc : PosReal cnt) (hw : ∀ o i, IsReal (w o i)) : PosReal (wqScale cnt w) :=
  posReal_div lit_one_pos (posReal_max_left lit_epsScale_pos (wqMean_real cnt w hc hw))

theorem wquant_real (hc : PosReal cnt) (hw : ∀ o i, IsReal (w o i)) : ∀ o i, IsReal (wquant cnt w o i) :=
  fun o i => isReal_div
    (isReal_min (IsReal.coe 1)
      (isReal_max (IsReal.coe (-1))
        (isReal_liftRound _ ((hw o i).mul (wqScale_pos cnt w hc hw).isReal))))
    (wqScale_pos cnt w hc hw)

/-- The straight-through arrangement of a quantised weight is the quantised weight. -/
theorem wq_ste {o : Fin O} {i : Fin I} (hw : IsReal (w o i)) :
    w o i + (wquant cnt w o i - w o i) = wquant cnt w o i :=
  add_sub_cancel_real hw _

end Wq

/-! ## Products, the rectifier, the gate -/

theorem mmT_real {M N K : ℕ} (x : Fin M → Fin K → EReal) (w : Fin N → Fin K → EReal)
    (hx : ∀ r k, IsReal (x r k)) (hw : ∀ o k, IsReal (w o k)) : ∀ r o, IsReal (mmT x w r o) :=
  fun r o => IsReal.sum _ _ fun k => (hx r k).mul (hw o k)

theorem relu2_real {x : EReal} (hx : IsReal x) : IsReal (relu2 x) := by
  unfold relu2; rw [lit_zero]
  exact (isReal_max hx isReal_zero).mul (isReal_max hx isReal_zero)

/-- The gate written with the literal words is the logistic function times the value. -/
theorem sigv_eq_logistic (x v : EReal) : sigv x v = Ideal.logistic x * v := by
  unfold sigv Ideal.logistic
  have h1 : Ideal.ofBits .f32 0x3F800000#32 = (1 : EReal) := by
    rw [show (1 : EReal) = ((1 : ℝ) : EReal) by norm_cast]
    simp [Ideal.ofBits, Ideal.ieee, -EReal.coe_mul]; norm_num
  rw [h1, lit_zero, zero_sub]

/-! ## The token shift and the mix -/

section Stages

variable (hid : Fin 4 → Fin 2048 → Fin 2048 → EReal) (tmk tmr : Fin 2048 → EReal)
  (wk : Fin 8192 → Fin 2048 → EReal) (wr : Fin 2048 → Fin 2048 → EReal) (wv : Fin 2048 → Fin 8192 → EReal)
  (nk nr : Fin 2048 → EReal) (nv : Fin 8192 → EReal)

theorem shifted_real (hh : ∀ b t h, IsReal (hid b t h)) : ∀ b t h, IsReal (shifted hid b t h) := by
  intro b t h; unfold shifted
  split_ifs
  · exact isReal_zero
  · exact hh _ _ _

theorem mix_real (tm : Fin 2048 → EReal) (hh : ∀ b t h, IsReal (hid b t h)) (ht : ∀ h, IsReal (tm h)) :
    ∀ b t h, IsReal (mix hid tm b t h) :=
  fun b t h => ((hh b t h).mul (ht h)).add ((shifted_real hid hh b t h).mul (lit_one_pos.isReal.sub (ht h)))

theorem keyIn_real (hh : ∀ b t h, IsReal (hid b t h)) (ht : ∀ h, IsReal (tmk h)) :
    ∀ r h, IsReal (keyIn hid tmk r h) :=
  fun r h => mix_real hid tmk hh ht _ _ h

theorem recIn_real (hh : ∀ b t h, IsReal (hid b t h)) (ht : ∀ h, IsReal (tmr h)) :
    ∀ r h, IsReal (recIn hid tmr r h) :=
  fun r h => mix_real hid tmr hh ht _ _ h

theorem xqKey_real (hh : ∀ b t h, IsReal (hid b t h)) (ht : ∀ h, IsReal (tmk h)) (hnk : ∀ h, IsReal (nk h)) :
    ∀ r h, IsReal (xqKey hid tmk nk r h) :=
  fun r => actqRow_real _ _ _ lit2048_pos (keyIn_real hid tmk hh ht r) hnk

theorem wqKey_real (hwk : ∀ o i, IsReal (wk o i)) : ∀ o i, IsReal (wqKey wk o i) :=
  wquant_real _ _ litCntK_pos hwk

theorem kAct_real (hh : ∀ b t h, IsReal (hid b t h)) (ht : ∀ h, IsReal (tmk h)) (hnk : ∀ h, IsReal (nk h))
    (hwk : ∀ o i, IsReal (wk o i)) : ∀ r o, IsReal (kAct hid tmk wk nk r o) :=
  fun r o => relu2_real (mmT_real _ _ (xqKey_real hid tmk nk hh ht hnk) (wqKey_real wk hwk) r o)

theorem xqVal_real (hh : ∀ b t h, IsReal (hid b t h)) (ht : ∀ h, IsReal (tmk h)) (hnk : ∀ h, IsReal (nk h))
    (hwk : ∀ o i, IsReal (wk o i)) (hnv : ∀ h, IsReal (nv h)) : ∀ r o, IsReal (xqVal hid tmk wk nk nv r o) :=
  fun r => actqRow_real _ _ _ lit8192_pos (kAct_real hid tmk wk nk hh ht hnk hwk r) hnv

theorem wqVal_real (hwv : ∀ o i, IsReal (wv o i)) : ∀ o i, IsReal (wqVal wv o i) :=
  wquant_real _ _ litCntK_pos hwv

theorem vAct_real (hh : ∀ b t h, IsReal (hid b t h)) (ht : ∀ h, IsReal (tmk h)) (hnk : ∀ h, IsReal (nk h))
    (hwk : ∀ o i, IsReal (wk o i)) (hnv : ∀ h, IsReal (nv h)) (hwv : ∀ o i, IsReal (wv o i)) :
    ∀ r o, IsReal (vAct hid tmk wk wv nk nv r o) :=
  mmT_real _ _ (xqVal_real hid tmk wk nk nv hh ht hnk hwk hnv) (wqVal_real wv hwv)

theorem xqRec_real (hh : ∀ b t h, IsReal (hid b t h)) (ht : ∀ h, IsReal (tmr h)) (hnr : ∀ h, IsReal (nr h)) :
    ∀ r h, IsReal (xqRec hid tmr nr r h) :=
  fun r => actqRow_real _ _ _ lit2048_pos (recIn_real hid tmr hh ht r) hnr

theorem wqRec_real (hwr : ∀ o i, IsReal (wr o i)) : ∀ o i, IsReal (wqRec wr o i) :=
  wquant_real _ _ litCntR_pos hwr

end Stages

end Cert.Spec
-- ==== Proof.RefValue.lean ====
/- The reference's result as the specification's function of the nine argument arrays, at the exact instance.

   The reference is read one host operation at a time, at an index. It shifts the sequence by one position (a slice
   padded in front with the integer 0 read as a float), mixes each position with its predecessor twice (key and
   receptance mixes), and then applies the same chain three times: per row, the reciprocal root mean square (the sum of
   squares started from the word 0, over the row length, plus a small constant), the gain, the row's largest absolute
   value (a maximum started from the word of -∞), the scale 127 over the larger of a small constant and that maximum,
   rounding to nearest-even and clipping to [-128, 127] (the bounds are integers read as floats: the same numbers as
   the words 0x42FE0000 and 0xC3000000), division by the scale; and per weight matrix, the scale one over the larger of
   a small constant and the mean absolute entry (a sum over every entry: a double sum over rows and columns), rounding
   and clipping to [-1, 1], division by the scale. The reference does not use the quantised value directly: it adds to
   the unquantised entry the difference (quantised - unquantised). In the extended reals a + (y - a) = y exactly when a
   is a real number, so each of these six sites needs the entry there to be real, which follows stage by stage from the
   nine argument arrays holding only real numbers. The three products are sums over the contracted channel; the key
   product goes through the squared rectifier, the receptance product through 1 / (1 + exp (-x)) (the reference negates,
   the specification subtracts from the word 0: the same number), and the gate multiplies the value rows. Rows are
   indexed by (sequence, position) in the reference and by the flat row 2048 * sequence + position in the
   specification. -/
import proofs.«174982_j50740743635387_2_alg».proof.Proof.RefReadGen
import proofs.«174982_j50740743635387_2_alg».proof.Proof.Spec
import proofs.«174982_j50740743635387_2_alg».proof.Proof.SpecLaws
import proofs.«174982_j50740743635387_2_alg».proof.Proof.SpecArrays
import Idealize.ShloMosaic.Lib.KernelVsHost

set_option maxRecDepth 16384

noncomputable section

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx
open scoped BigOperators

namespace Cert.ReferenceIdeal.RefLit

/-- The signed 32-bit word 127 read as a float is the number the word 0x42FE0000 denotes: (2^23 + 8257536) * 2^(-17) = 127. -/
theorem sitofp_127 : FloatOps.sitofp (F := Ideal) .f32 (127#32 : BitVec 32) = Ideal.ofBits .f32 0x42FE0000#32 := by
  show (((127#32 : BitVec 32).toInt : ℝ) : EReal) = Ideal.ofBits .f32 0x42FE0000#32
  simp [Ideal.ofBits, Ideal.ieee]
  rw [← EReal.coe_mul]
  exact congrArg _ (by norm_num)

/-- The signed 32-bit word 2^32 - 128 is -128, the number the word 0xC3000000 denotes: -(2^23) * 2^(-16). -/
theorem sitofp_m128 : FloatOps.sitofp (F := Ideal) .f32 (4294967168#32 : BitVec 32) = Ideal.ofBits .f32 0xC3000000#32 := by
  show (((4294967168#32 : BitVec 32).toInt : ℝ) : EReal) = Ideal.ofBits .f32 0xC3000000#32
  simp [Ideal.ofBits, Ideal.ieee]
  rw [← EReal.coe_mul]
  exact congrArg _ (by norm_num)

theorem sitofp_1 : FloatOps.sitofp (F := Ideal) .f32 (1#32 : BitVec 32) = ((1 : ℝ) : EReal) := by
  show (((1#32 : BitVec 32).toInt : ℝ) : EReal) = ((1 : ℝ) : EReal)
  norm_num

theorem sitofp_m1 : FloatOps.sitofp (F := Ideal) .f32 (4294967295#32 : BitVec 32) = ((-1 : ℝ) : EReal) := by
  show (((4294967295#32 : BitVec 32).toInt : ℝ) : EReal) = ((-1 : ℝ) : EReal)
  have e : (4294967295#32 : BitVec 32).toInt = -1 := by decide
  rw [e]
  norm_num

theorem sitofp_0 : FloatOps.sitofp (F := Ideal) .f32 (0#32 : BitVec 32) = (0 : EReal) := by
  show (((0#32 : BitVec 32).toInt : ℝ) : EReal) = (0 : EReal)
  norm_num

end Cert.ReferenceIdeal.RefLit

namespace Cert.ReferenceIdeal.RefValue

/-- The padded slice is the sequence moved one position later: position 0 holds the padding value, which is the
    integer 0 read as a float, and position t > 0 holds the entry of position t - 1. -/
theorem shifted_at (x0 : (⟨S4x2048x2048, .f32⟩ : BufTy).Contents (Elt Ideal)) (b : Fin 4) (t h : Fin 2048) :
    val_main_v1 (F := Ideal) x0 (ix3 b t h) = Cert.Spec.shifted (fun b t h => x0 (ix3 b t h)) b t h := by
  unfold val_main_v1 Cert.Spec.shifted
  by_cases ht : t.val = 0
  · rw [dif_pos ht]
    refine (pad_apply_of_not_inside _ _ _ _ _ _ _ (ix3 b t h) (1 : Fin 3) ?_).trans ?_
    · intro hc
      have h1 : (1 : Nat) ≤ t.val := hc.1
      omega
    · exact Cert.ReferenceIdeal.RefLit.sitofp_0
  · rw [dif_neg ht]
    refine (pad_apply_of_inside _ _ _ _ _ _ _ (ix3 b t h) (ix3 b (⟨t.val - 1, by omega⟩ : Fin 2047) h) (fun a => ?_)).trans ?_
    · match a with
      | ⟨0, _⟩ => show b.val = 0 + b.val * (0 + 1); omega
      | ⟨1, _⟩ => show t.val = 1 + (t.val - 1) * (0 + 1); omega
      | ⟨2, _⟩ => show h.val = 0 + h.val * (0 + 1); omega
    · rw [val_main_v0_apply]
      exact congrArg x0 (funext fun a => by match a with | ⟨0, _⟩ => rfl | ⟨1, _⟩ => rfl | ⟨2, _⟩ => rfl)

/-! ## The key path's activations -/
section KeyAct
variable (x0 : (⟨S4x2048x2048, .f32⟩ : BufTy).Contents (Elt Ideal)) (x1 : (⟨S1x1x2048, .f32⟩ : BufTy).Contents (Elt Ideal)) (x6 : (⟨S2048, .f32⟩ : BufTy).Contents (Elt Ideal))

/-- The reciprocal root mean square of row (b, t): the sum of squares over the row, started from the word 0,
    divided by the row length, plus the small constant, under the reciprocal square root. -/
theorem key_rs (b : Fin 4) (t : Fin 2048) :
    val_main_v23 (F := Ideal) x0 x1 (ix3 b t (0 : Fin 1)) = Cert.Spec.actqRs (Ideal.ofBits .f32 0x45000000#32) (fun k : Fin 2048 => val_main_v8 (F := Ideal) x0 x1 (ix3 b t k)) := by
  rw [val_main_v23_apply, val_main_v22_apply, val_main_v20_apply, val_main_v21_apply, val_main_cst_3_apply, val_main_v18_apply, val_main_v19_apply,
    val_main_cst_2_apply, val_main_v17_apply, val_main_cst_1_apply]
  have e : ∀ k : Fin 2048, idx_main_v17 (idx_main_v18 (ix3 b t (0 : Fin 1))) k = ix3 b t k := fun k => funext fun a => by match a with | ⟨0, _⟩ => rfl | ⟨1, _⟩ => rfl | ⟨2, _⟩ => rfl
  simp only [val_main_v16_apply, e]
  simp only [Ideal.hostUnary_rsqrt_def, Ideal.addf_def, Ideal.hostDivf_def, Ideal.mulf_def, Ideal.ofBits_def,
    Ideal.ofBits_zero_f32, zero_add]
  rfl

/-- The normalised entry (b, t, h): the entry times the row's factor times the gain of channel h. -/
theorem key_xn (b : Fin 4) (t : Fin 2048) (h : Fin 2048) :
    val_main_v28 (F := Ideal) x0 x1 x6 (ix3 b t h) = Cert.Spec.actqXn (Ideal.ofBits .f32 0x45000000#32) (fun k : Fin 2048 => val_main_v8 (F := Ideal) x0 x1 (ix3 b t k)) (fun k : Fin 2048 => x6 (ix1 k)) h := by
  rw [val_main_v28_apply, val_main_v25_apply, val_main_v27_apply, val_main_v26_apply, val_main_v24_apply]
  have e1 : idx_main_v24 (ix3 b t h) = ix3 b t (0 : Fin 1) := funext fun a => by match a with | ⟨0, _⟩ => rfl | ⟨1, _⟩ => rfl | ⟨2, _⟩ => rfl
  have e2 : idx_main_v26 (idx_main_v27 (ix3 b t h)) = ix1 h := funext fun a => by match a with | ⟨0, _⟩ => rfl
  rw [e1, e2, key_rs]
  simp only [Ideal.mulf_def]
  rfl

/-- The largest absolute normalised entry of row (b, t): the maximum over the row, started from the word of -∞. -/
theorem key_amax (b : Fin 4) (t : Fin 2048) :
    val_main_v30 (F := Ideal) x0 x1 x6 (ix2 b t) = Cert.Spec.actqAmax (Ideal.ofBits .f32 0x45000000#32) (fun k : Fin 2048 => val_main_v8 (F := Ideal) x0 x1 (ix3 b t k)) (fun k : Fin 2048 => x6 (ix1 k)) := by
  have hR : S4x2048x2048.Reduces [2] S4x2048 := by decide
  unfold val_main_v30
  refine (Host.reduce_eq_fold_single (FloatOps.maximumf (F := Ideal) (φ := .f32)) (val_main_v29 (F := Ideal) x0 x1 x6)
    (val_main_cst_4 (F := Ideal)) reducesTo_S4x2048x2048_S4x2048_d2 hR h_S_ (ix2 b t)).trans ?_
  have hf : (val_main_v29 (F := Ideal) x0 x1 x6 ∘ hR.lift (ix2 b t)) = fun k : Fin 2048 => Cert.Spec.eabs (Cert.Spec.actqXn (Ideal.ofBits .f32 0x45000000#32) (fun k : Fin 2048 => val_main_v8 (F := Ideal) x0 x1 (ix3 b t k)) (fun k : Fin 2048 => x6 (ix1 k)) k) :=
    funext fun k => by
      have hl : hR.lift (ix2 b t) k = ix3 b t (⟨k.val, k.isLt⟩ : Fin 2048) :=
        funext fun c => Fin.ext (by match c with | ⟨0, _⟩ => rfl | ⟨1, _⟩ => rfl | ⟨2, _⟩ => rfl)
      show val_main_v29 (F := Ideal) x0 x1 x6 (hR.lift (ix2 b t) k) = _
      rw [hl, val_main_v29_apply, key_xn]
      rfl
  exact congrArg (fun f => Finset.fold max (Ideal.ofBits .f32 0xFF800000#32) f (Finset.univ : Finset (Fin 2048))) hf

/-- The quantisation scale of row (b, t): 127 over the larger of the small constant and the row's maximum. -/
theorem key_scale (b : Fin 4) (t : Fin 2048) :
    val_main_v34 (F := Ideal) x0 x1 x6 (ix3 b t (0 : Fin 1)) = Cert.Spec.actqScale (Ideal.ofBits .f32 0x45000000#32) (fun k : Fin 2048 => val_main_v8 (F := Ideal) x0 x1 (ix3 b t k)) (fun k : Fin 2048 => x6 (ix1 k)) := by
  rw [val_main_v34_apply, val_main_v33_apply, val_main_cst_6_apply, val_main_v32_apply, val_main_call1_v1_apply, val_main_call1_v0_apply, val_main_cst_5_apply, val_main_v31_apply]
  have e : idx_main_v31 (ix3 b t (0 : Fin 1)) = ix2 b t := funext fun a => by match a with | ⟨0, _⟩ => rfl | ⟨1, _⟩ => rfl
  rw [e, key_amax]
  simp only [Ideal.hostDivf_def, Ideal.maximumf_def, Ideal.ofBits_def]
  rfl

/-- The entry the product reads: the normalised entry plus (its quantised value minus itself), which is the quantised
    value because the normalised entry is a real number. -/
theorem key_xq (b : Fin 4) (t : Fin 2048)
    (hx : ∀ k : Fin 2048, Cert.LibReal.IsReal (val_main_v8 (F := Ideal) x0 x1 (ix3 b t k))) (hg : ∀ k : Fin 2048, Cert.LibReal.IsReal (x6 (ix1 k))) (h : Fin 2048) :
    val_main_v42 (F := Ideal) x0 x1 x6 (ix3 b t h) = Cert.Spec.actqRow (Ideal.ofBits .f32 0x45000000#32) (fun k : Fin 2048 => val_main_v8 (F := Ideal) x0 x1 (ix3 b t k)) (fun k : Fin 2048 => x6 (ix1 k)) h := by
  rw [val_main_v42_apply, val_main_v41_apply, val_main_v40_apply, val_main_v39_apply, val_main_v38_apply, val_main_call3_v4_apply, val_main_call3_v3_apply, val_main_c_8_apply,
    val_main_call3_v2_apply, val_main_call3_v1_apply, val_main_call3_v0_apply, val_main_c_7_apply, val_main_v37_apply, val_main_v36_apply, val_main_v35_apply]
  have e1 : idx_main_v39 (ix3 b t h) = ix3 b t (0 : Fin 1) := funext fun a => by match a with | ⟨0, _⟩ => rfl | ⟨1, _⟩ => rfl | ⟨2, _⟩ => rfl
  have e2 : idx_main_v35 (ix3 b t h) = ix3 b t (0 : Fin 1) := funext fun a => by match a with | ⟨0, _⟩ => rfl | ⟨1, _⟩ => rfl | ⟨2, _⟩ => rfl
  rw [e1, e2, key_scale, key_xn]
  simp only [Ideal.addf_def, Ideal.subf_def, Ideal.hostDivf_def, Ideal.minimumf_def, Ideal.maximumf_def,
    Ideal.hostUnary_roundeven_def, Ideal.mulf_def, Cert.ReferenceIdeal.RefLit.sitofp_127, Cert.ReferenceIdeal.RefLit.sitofp_m128]
  exact Cert.Spec.actq_ste (Ideal.ofBits .f32 0x45000000#32) (fun k : Fin 2048 => val_main_v8 (F := Ideal) x0 x1 (ix3 b t k)) (fun k : Fin 2048 => x6 (ix1 k)) Cert.Spec.lit2048_pos hx hg h

end KeyAct

/-! ## The value path's activations -/
section ValAct
variable (x0 : (⟨S4x2048x2048, .f32⟩ : BufTy).Contents (Elt Ideal)) (x1 : (⟨S1x1x2048, .f32⟩ : BufTy).Contents (Elt Ideal)) (x3 : (⟨S8192x2048, .f32⟩ : BufTy).Contents (Elt Ideal)) (x6 : (⟨S2048, .f32⟩ : BufTy).Contents (Elt Ideal)) (x8 : (⟨S8192, .f32⟩ : BufTy).Contents (Elt Ideal))

/-- The reciprocal root mean square of row (b, t): the sum of squares over the row, started from the word 0,
    divided by the row length, plus the small constant, under the reciprocal square root. -/
theorem val_rs (b : Fin 4) (t : Fin 2048) :
    val_main_v66 (F := Ideal) x0 x1 x3 x6 (ix3 b t (0 : Fin 1)) = Cert.Spec.actqRs (Ideal.ofBits .f32 0x46000000#32) (fun k : Fin 8192 => val_main_v58 (F := Ideal) x0 x1 x3 x6 (ix3 b t k)) := by
  rw [val_main_v66_apply, val_main_v65_apply, val_main_v63_apply, val_main_v64_apply, val_main_cst_17_apply, val_main_v61_apply, val_main_v62_apply,
    val_main_cst_16_apply, val_main_v60_apply, val_main_cst_15_apply]
  have e : ∀ k : Fin 8192, idx_main_v60 (idx_main_v61 (ix3 b t (0 : Fin 1))) k = ix3 b t k := fun k => funext fun a => by match a with | ⟨0, _⟩ => rfl | ⟨1, _⟩ => rfl | ⟨2, _⟩ => rfl
  simp only [val_main_v59_apply, e]
  simp only [Ideal.hostUnary_rsqrt_def, Ideal.addf_def, Ideal.hostDivf_def, Ideal.mulf_def, Ideal.ofBits_def,
    Ideal.ofBits_zero_f32, zero_add]
  rfl

/-- The normalised entry (b, t, h): the entry times the row's factor times the gain of channel h. -/
theorem val_xn (b : Fin 4) (t : Fin 2048) (h : Fin 8192) :
    val_main_v71 (F := Ideal) x0 x1 x3 x6 x8 (ix3 b t h) = Cert.Spec.actqXn (Ideal.ofBits .f32 0x46000000#32) (fun k : Fin 8192 => val_main_v58 (F := Ideal) x0 x1 x3 x6 (ix3 b t k)) (fun k : Fin 8192 => x8 (ix1 k)) h := by
  rw [val_main_v71_apply, val_main_v68_apply, val_main_v70_apply, val_main_v69_apply, val_main_v67_apply]
  have e1 : idx_main_v67 (ix3 b t h) = ix3 b t (0 : Fin 1) := funext fun a => by match a with | ⟨0, _⟩ => rfl | ⟨1, _⟩ => rfl | ⟨2, _⟩ => rfl
  have e2 : idx_main_v69 (idx_main_v70 (ix3 b t h)) = ix1 h := funext fun a => by match a with | ⟨0, _⟩ => rfl
  rw [e1, e2, val_rs]
  simp only [Ideal.mulf_def]
  rfl

/-- The largest absolute normalised entry of row (b, t): the maximum over the row, started from the word of -∞. -/
theorem val_amax (b : Fin 4) (t : Fin 2048) :
    val_main_v73 (F := Ideal) x0 x1 x3 x6 x8 (ix2 b t) = Cert.Spec.actqAmax (Ideal.ofBits .f32 0x46000000#32) (fun k : Fin 8192 => val_main_v58 (F := Ideal) x0 x1 x3 x6 (ix3 b t k)) (fun k : Fin 8192 => x8 (ix1 k)) := by
  have hR : S4x2048x8192.Reduces [2] S4x2048 := by decide
  unfold val_main_v73
  refine (Host.reduce_eq_fold_single (FloatOps.maximumf (F := Ideal) (φ := .f32)) (val_main_v72 (F := Ideal) x0 x1 x3 x6 x8)
    (val_main_cst_18 (F := Ideal)) reducesTo_S4x2048x8192_S4x2048_d2 hR h_S_ (ix2 b t)).trans ?_
  have hf : (val_main_v72 (F := Ideal) x0 x1 x3 x6 x8 ∘ hR.lift (ix2 b t)) = fun k : Fin 8192 => Cert.Spec.eabs (Cert.Spec.actqXn (Ideal.ofBits .f32 0x46000000#32) (fun k : Fin 8192 => val_main_v58 (F := Ideal) x0 x1 x3 x6 (ix3 b t k)) (fun k : Fin 8192 => x8 (ix1 k)) k) :=
    funext fun k => by
      have hl : hR.lift (ix2 b t) k = ix3 b t (⟨k.val, k.isLt⟩ : Fin 8192) :=
        funext fun c => Fin.ext (by match c with | ⟨0, _⟩ => rfl | ⟨1, _⟩ => rfl | ⟨2, _⟩ => rfl)
      show val_main_v72 (F := Ideal) x0 x1 x3 x6 x8 (hR.lift (ix2 b t) k) = _
      rw [hl, val_main_v72_apply, val_xn]
      rfl
  exact congrArg (fun f => Finset.fold max (Ideal.ofBits .f32 0xFF800000#32) f (Finset.univ : Finset (Fin 8192))) hf

/-- The quantisation scale of row (b, t): 127 over the larger of the small constant and the row's maximum. -/
theorem val_scale (b : Fin 4) (t : Fin 2048) :
    val_main_v77 (F := Ideal) x0 x1 x3 x6 x8 (ix3 b t (0 : Fin 1)) = Cert.Spec.actqScale (Ideal.ofBits .f32 0x46000000#32) (fun k : Fin 8192 => val_main_v58 (F := Ideal) x0 x1 x3 x6 (ix3 b t k)) (fun k : Fin 8192 => x8 (ix1 k)) := by
  rw [val_main_v77_apply, val_main_v76_apply, val_main_cst_20_apply, val_main_v75_apply, val_main_call8_v1_apply, val_main_call8_v0_apply, val_main_cst_19_apply, val_main_v74_apply]
  have e : idx_main_v74 (ix3 b t (0 : Fin 1)) = ix2 b t := funext fun a => by match a with | ⟨0, _⟩ => rfl | ⟨1, _⟩ => rfl
  rw [e, val_amax]
  simp only [Ideal.hostDivf_def, Ideal.maximumf_def, Ideal.ofBits_def]
  rfl

/-- The entry the product reads: the normalised entry plus (its quantised value minus itself), which is the quantised
    value because the normalised entry is a real number. -/
theorem val_xq (b : Fin 4) (t : Fin 2048)
    (hx : ∀ k : Fin 8192, Cert.LibReal.IsReal (val_main_v58 (F := Ideal) x0 x1 x3 x6 (ix3 b t k))) (hg : ∀ k : Fin 8192, Cert.LibReal.IsReal (x8 (ix1 k))) (h : Fin 8192) :
    val_main_v85 (F := Ideal) x0 x1 x3 x6 x8 (ix3 b t h) = Cert.Spec.actqRow (Ideal.ofBits .f32 0x46000000#32) (fun k : Fin 8192 => val_main_v58 (F := Ideal) x0 x1 x3 x6 (ix3 b t k)) (fun k : Fin 8192 => x8 (ix1 k)) h := by
  rw [val_main_v85_apply, val_main_v84_apply, val_main_v83_apply, val_main_v82_apply, val_main_v81_apply, val_main_call10_v4_apply, val_main_call10_v3_apply, val_main_c_22_apply,
    val_main_call10_v2_apply, val_main_call10_v1_apply, val_main_call10_v0_apply, val_main_c_21_apply, val_main_v80_apply, val_main_v79_apply, val_main_v78_apply]
  have e1 : idx_main_v82 (ix3 b t h) = ix3 b t (0 : Fin 1) := funext fun a => by match a with | ⟨0, _⟩ => rfl | ⟨1, _⟩ => rfl | ⟨2, _⟩ => rfl
  have e2 : idx_main_v78 (ix3 b t h) = ix3 b t (0 : Fin 1) := funext fun a => by match a with | ⟨0, _⟩ => rfl | ⟨1, _⟩ => rfl | ⟨2, _⟩ => rfl
  rw [e1, e2, val_scale, val_xn]
  simp only [Ideal.addf_def, Ideal.subf_def, Ideal.hostDivf_def, Ideal.minimumf_def, Ideal.maximumf_def,
    Ideal.hostUnary_roundeven_def, Ideal.mulf_def, Cert.ReferenceIdeal.RefLit.sitofp_127, Cert.ReferenceIdeal.RefLit.sitofp_m128]
  exact Cert.Spec.actq_ste (Ideal.ofBits .f32 0x46000000#32) (fun k : Fin 8192 => val_main_v58 (F := Ideal) x0 x1 x3 x6 (ix3 b t k)) (fun k : Fin 8192 => x8 (ix1 k)) Cert.Spec.lit8192_pos hx hg h

end ValAct

/-! ## The receptance path's activations -/
section RecAct
variable (x0 : (⟨S4x2048x2048, .f32⟩ : BufTy).Contents (Elt Ideal)) (x2 : (⟨S1x1x2048, .f32⟩ : BufTy).Contents (Elt Ideal)) (x7 : (⟨S2048, .f32⟩ : BufTy).Contents (Elt Ideal))

/-- The reciprocal root mean square of row (b, t): the sum of squares over the row, started from the word 0,
    divided by the row length, plus the small constant, under the reciprocal square root. -/
theorem rec_rs (b : Fin 4) (t : Fin 2048) :
    val_main_v107 (F := Ideal) x0 x2 (ix3 b t (0 : Fin 1)) = Cert.Spec.actqRs (Ideal.ofBits .f32 0x45000000#32) (fun k : Fin 2048 => val_main_v15 (F := Ideal) x0 x2 (ix3 b t k)) := by
  rw [val_main_v107_apply, val_main_v106_apply, val_main_v104_apply, val_main_v105_apply, val_main_cst_31_apply, val_main_v102_apply, val_main_v103_apply,
    val_main_cst_30_apply, val_main_v101_apply, val_main_cst_29_apply]
  have e : ∀ k : Fin 2048, idx_main_v101 (idx_main_v102 (ix3 b t (0 : Fin 1))) k = ix3 b t k := fun k => funext fun a => by match a with | ⟨0, _⟩ => rfl | ⟨1, _⟩ => rfl | ⟨2, _⟩ => rfl
  simp only [val_main_v100_apply, e]
  simp only [Ideal.hostUnary_rsqrt_def, Ideal.addf_def, Ideal.hostDivf_def, Ideal.mulf_def, Ideal.ofBits_def,
    Ideal.ofBits_zero_f32, zero_add]
  rfl

/-- The normalised entry (b, t, h): the entry times the row's factor times the gain of channel h. -/
theorem rec_xn (b : Fin 4) (t : Fin 2048) (h : Fin 2048) :
    val_main_v112 (F := Ideal) x0 x2 x7 (ix3 b t h) = Cert.Spec.actqXn (Ideal.ofBits .f32 0x45000000#32) (fun k : Fin 2048 => val_main_v15 (F := Ideal) x0 x2 (ix3 b t k)) (fun k : Fin 2048 => x7 (ix1 k)) h := by
  rw [val_main_v112_apply, val_main_v109_apply, val_main_v111_apply, val_main_v110_apply, val_main_v108_apply]
  have e1 : idx_main_v108 (ix3 b t h) = ix3 b t (0 : Fin 1) := funext fun a => by match a with | ⟨0, _⟩ => rfl | ⟨1, _⟩ => rfl | ⟨2, _⟩ => rfl
  have e2 : idx_main_v110 (idx_main_v111 (ix3 b t h)) = ix1 h := funext fun a => by match a with | ⟨0, _⟩ => rfl
  rw [e1, e2, rec_rs]
  simp only [Ideal.mulf_def]
  rfl

/-- The largest absolute normalised entry of row (b, t): the maximum over the row, started from the word of -∞. -/
theorem rec_amax (b : Fin 4) (t : Fin 2048) :
    val_main_v114 (F := Ideal) x0 x2 x7 (ix2 b t) = Cert.Spec.actqAmax (Ideal.ofBits .f32 0x45000000#32) (fun k : Fin 2048 => val_main_v15 (F := Ideal) x0 x2 (ix3 b t k)) (fun k : Fin 2048 => x7 (ix1 k)) := by
  have hR : S4x2048x2048.Reduces [2] S4x2048 := by decide
  unfold val_main_v114
  refine (Host.reduce_eq_fold_single (FloatOps.maximumf (F := Ideal) (φ := .f32)) (val_main_v113 (F := Ideal) x0 x2 x7)
    (val_main_cst_32 (F := Ideal)) reducesTo_S4x2048x2048_S4x2048_d2 hR h_S_ (ix2 b t)).trans ?_
  have hf : (val_main_v113 (F := Ideal) x0 x2 x7 ∘ hR.lift (ix2 b t)) = fun k : Fin 2048 => Cert.Spec.eabs (Cert.Spec.actqXn (Ideal.ofBits .f32 0x45000000#32) (fun k : Fin 2048 => val_main_v15 (F := Ideal) x0 x2 (ix3 b t k)) (fun k : Fin 2048 => x7 (ix1 k)) k) :=
    funext fun k => by
      have hl : hR.lift (ix2 b t) k = ix3 b t (⟨k.val, k.isLt⟩ : Fin 2048) :=
        funext fun c => Fin.ext (by match c with | ⟨0, _⟩ => rfl | ⟨1, _⟩ => rfl | ⟨2, _⟩ => rfl)
      show val_main_v113 (F := Ideal) x0 x2 x7 (hR.lift (ix2 b t) k) = _
      rw [hl, val_main_v113_apply, rec_xn]
      rfl
  exact congrArg (fun f => Finset.fold max (Ideal.ofBits .f32 0xFF800000#32) f (Finset.univ : Finset (Fin 2048))) hf

/-- The quantisation scale of row (b, t): 127 over the larger of the small constant and the row's maximum. -/
theorem rec_scale (b : Fin 4) (t : Fin 2048) :
    val_main_v118 (F := Ideal) x0 x2 x7 (ix3 b t (0 : Fin 1)) = Cert.Spec.actqScale (Ideal.ofBits .f32 0x45000000#32) (fun k : Fin 2048 => val_main_v15 (F := Ideal) x0 x2 (ix3 b t k)) (fun k : Fin 2048 => x7 (ix1 k)) := by
  rw [val_main_v118_apply, val_main_v117_apply, val_main_cst_34_apply, val_main_v116_apply, val_main_call14_v1_apply, val_main_call14_v0_apply, val_main_cst_33_apply, val_main_v115_apply]
  have e : idx_main_v115 (ix3 b t (0 : Fin 1)) = ix2 b t := funext fun a => by match a with | ⟨0, _⟩ => rfl | ⟨1, _⟩ => rfl
  rw [e, rec_amax]
  simp only [Ideal.hostDivf_def, Ideal.maximumf_def, Ideal.ofBits_def]
  rfl

/-- The entry the product reads: the normalised entry plus (its quantised value minus itself), which is the quantised
    value because the normalised entry is a real number. -/
theorem rec_xq (b : Fin 4) (t : Fin 2048)
    (hx : ∀ k : Fin 2048, Cert.LibReal.IsReal (val_main_v15 (F := Ideal) x0 x2 (ix3 b t k))) (hg : ∀ k : Fin 2048, Cert.LibReal.IsReal (x7 (ix1 k))) (h : Fin 2048) :
    val_main_v126 (F := Ideal) x0 x2 x7 (ix3 b t h) = Cert.Spec.actqRow (Ideal.ofBits .f32 0x45000000#32) (fun k : Fin 2048 => val_main_v15 (F := Ideal) x0 x2 (ix3 b t k)) (fun k : Fin 2048 => x7 (ix1 k)) h := by
  rw [val_main_v126_apply, val_main_v125_apply, val_main_v124_apply, val_main_v123_apply, val_main_v122_apply, val_main_call16_v4_apply, val_main_call16_v3_apply, val_main_c_36_apply,
    val_main_call16_v2_apply, val_main_call16_v1_apply, val_main_call16_v0_apply, val_main_c_35_apply, val_main_v121_apply, val_main_v120_apply, val_main_v119_apply]
  have e1 : idx_main_v123 (ix3 b t h) = ix3 b t (0 : Fin 1) := funext fun a => by match a with | ⟨0, _⟩ => rfl | ⟨1, _⟩ => rfl | ⟨2, _⟩ => rfl
  have e2 : idx_main_v119 (ix3 b t h) = ix3 b t (0 : Fin 1) := funext fun a => by match a with | ⟨0, _⟩ => rfl | ⟨1, _⟩ => rfl | ⟨2, _⟩ => rfl
  rw [e1, e2, rec_scale, rec_xn]
  simp only [Ideal.addf_def, Ideal.subf_def, Ideal.hostDivf_def, Ideal.minimumf_def, Ideal.maximumf_def,
    Ideal.hostUnary_roundeven_def, Ideal.mulf_def, Cert.ReferenceIdeal.RefLit.sitofp_127, Cert.ReferenceIdeal.RefLit.sitofp_m128]
  exact Cert.Spec.actq_ste (Ideal.ofBits .f32 0x45000000#32) (fun k : Fin 2048 => val_main_v15 (F := Ideal) x0 x2 (ix3 b t k)) (fun k : Fin 2048 => x7 (ix1 k)) Cert.Spec.lit2048_pos hx hg h

end RecAct

/-! ## The key weights -/
section KeyW
variable (x3 : (⟨S8192x2048, .f32⟩ : BufTy).Contents (Elt Ideal))

/-- The weight scale: one over the larger of the small constant and the mean absolute entry, the mean being the sum
    over every entry, started from the word 0, over the number of entries. -/
theorem wk_scale (j : S_.Idx) :
    val_main_v47 (F := Ideal) x3 j = Cert.Spec.wqScale (Ideal.ofBits .f32 0x4B800000#32) (fun (o : Fin 8192) (i : Fin 2048) => x3 (ix2 o i)) := by
  rw [val_main_v47_apply, val_main_cst_12_apply, val_main_v46_apply, val_main_call4_v0_apply, val_main_cst_11_apply, val_main_v45_apply, val_main_cst_10_apply, val_main_v44_apply,
    val_main_cst_9_apply, sum_idx2]
  simp only [val_main_v43_apply, Ideal.hostDivf_def, Ideal.maximumf_def, Ideal.ofBits_def, Ideal.hostAbsf_def]
  rfl

/-- The weight the product reads: the weight plus (its ternary value minus itself), which is the ternary value
    because the weight is a real number. -/
theorem wk_at (o : Fin 8192) (i : Fin 2048) (hw : Cert.LibReal.IsReal (x3 (ix2 o i))) :
    val_main_v55 (F := Ideal) x3 (ix2 o i) = Cert.Spec.wquant (Ideal.ofBits .f32 0x4B800000#32) (fun (o : Fin 8192) (i : Fin 2048) => x3 (ix2 o i)) o i := by
  rw [val_main_v55_apply, val_main_v54_apply, val_main_v53_apply, val_main_v52_apply, val_main_v51_apply, val_main_call6_v4_apply, val_main_call6_v3_apply, val_main_c_14_apply,
    val_main_call6_v2_apply, val_main_call6_v1_apply, val_main_call6_v0_apply, val_main_c_13_apply, val_main_v50_apply, val_main_v49_apply, val_main_v48_apply]
  simp only [wk_scale]
  simp only [Ideal.addf_def, Ideal.subf_def, Ideal.hostDivf_def, Ideal.minimumf_def, Ideal.maximumf_def,
    Ideal.hostUnary_roundeven_def, Ideal.mulf_def, Cert.ReferenceIdeal.RefLit.sitofp_1, Cert.ReferenceIdeal.RefLit.sitofp_m1]
  exact Cert.Spec.wq_ste (Ideal.ofBits .f32 0x4B800000#32) (fun (o : Fin 8192) (i : Fin 2048) => x3 (ix2 o i)) hw

end KeyW

/-! ## The value weights -/
section ValW
variable (x5 : (⟨S2048x8192, .f32⟩ : BufTy).Contents (Elt Ideal))

/-- The weight scale: one over the larger of the small constant and the mean absolute entry, the mean being the sum
    over every entry, started from the word 0, over the number of entries. -/
theorem wv_scale (j : S_.Idx) :
    val_main_v90 (F := Ideal) x5 j = Cert.Spec.wqScale (Ideal.ofBits .f32 0x4B800000#32) (fun (o : Fin 2048) (i : Fin 8192) => x5 (ix2 o i)) := by
  rw [val_main_v90_apply, val_main_cst_26_apply, val_main_v89_apply, val_main_call11_v0_apply, val_main_cst_25_apply, val_main_v88_apply, val_main_cst_24_apply, val_main_v87_apply,
    val_main_cst_23_apply, sum_idx2]
  simp only [val_main_v86_apply, Ideal.hostDivf_def, Ideal.maximumf_def, Ideal.ofBits_def, Ideal.hostAbsf_def]
  rfl

/-- The weight the product reads: the weight plus (its ternary value minus itself), which is the ternary value
    because the weight is a real number. -/
theorem wv_at (o : Fin 2048) (i : Fin 8192) (hw : Cert.LibReal.IsReal (x5 (ix2 o i))) :
    val_main_v98 (F := Ideal) x5 (ix2 o i) = Cert.Spec.wquant (Ideal.ofBits .f32 0x4B800000#32) (fun (o : Fin 2048) (i : Fin 8192) => x5 (ix2 o i)) o i := by
  rw [val_main_v98_apply, val_main_v97_apply, val_main_v96_apply, val_main_v95_apply, val_main_v94_apply, val_main_call13_v4_apply, val_main_call13_v3_apply, val_main_c_28_apply,
    val_main_call13_v2_apply, val_main_call13_v1_apply, val_main_call13_v0_apply, val_main_c_27_apply, val_main_v93_apply, val_main_v92_apply, val_main_v91_apply]
  simp only [wv_scale]
  simp only [Ideal.addf_def, Ideal.subf_def, Ideal.hostDivf_def, Ideal.minimumf_def, Ideal.maximumf_def,
    Ideal.hostUnary_roundeven_def, Ideal.mulf_def, Cert.ReferenceIdeal.RefLit.sitofp_1, Cert.ReferenceIdeal.RefLit.sitofp_m1]
  exact Cert.Spec.wq_ste (Ideal.ofBits .f32 0x4B800000#32) (fun (o : Fin 2048) (i : Fin 8192) => x5 (ix2 o i)) hw

end ValW

/-! ## The receptance weights -/
section RecW
variable (x4 : (⟨S2048x2048, .f32⟩ : BufTy).Contents (Elt Ideal))

/-- The weight scale: one over the larger of the small constant and the mean absolute entry, the mean being the sum
    over every entry, started from the word 0, over the number of entries. -/
theorem wr_scale (j : S_.Idx) :
    val_main_v131 (F := Ideal) x4 j = Cert.Spec.wqScale (Ideal.ofBits .f32 0x4A800000#32) (fun (o : Fin 2048) (i : Fin 2048) => x4 (ix2 o i)) := by
  rw [val_main_v131_apply, val_main_cst_40_apply, val_main_v130_apply, val_main_call17_v0_apply, val_main_cst_39_apply, val_main_v129_apply, val_main_cst_38_apply, val_main_v128_apply,
    val_main_cst_37_apply, sum_idx2]
  simp only [val_main_v127_apply, Ideal.hostDivf_def, Ideal.maximumf_def, Ideal.ofBits_def, Ideal.hostAbsf_def]
  rfl

/-- The weight the product reads: the weight plus (its ternary value minus itself), which is the ternary value
    because the weight is a real number. -/
theorem wr_at (o : Fin 2048) (i : Fin 2048) (hw : Cert.LibReal.IsReal (x4 (ix2 o i))) :
    val_main_v139 (F := Ideal) x4 (ix2 o i) = Cert.Spec.wquant (Ideal.ofBits .f32 0x4A800000#32) (fun (o : Fin 2048) (i : Fin 2048) => x4 (ix2 o i)) o i := by
  rw [val_main_v139_apply, val_main_v138_apply, val_main_v137_apply, val_main_v136_apply, val_main_v135_apply, val_main_call19_v4_apply, val_main_call19_v3_apply, val_main_c_42_apply,
    val_main_call19_v2_apply, val_main_call19_v1_apply, val_main_call19_v0_apply, val_main_c_41_apply, val_main_v134_apply, val_main_v133_apply, val_main_v132_apply]
  simp only [wr_scale]
  simp only [Ideal.addf_def, Ideal.subf_def, Ideal.hostDivf_def, Ideal.minimumf_def, Ideal.maximumf_def,
    Ideal.hostUnary_roundeven_def, Ideal.mulf_def, Cert.ReferenceIdeal.RefLit.sitofp_1, Cert.ReferenceIdeal.RefLit.sitofp_m1]
  exact Cert.Spec.wq_ste (Ideal.ofBits .f32 0x4A800000#32) (fun (o : Fin 2048) (i : Fin 2048) => x4 (ix2 o i)) hw

end RecW

/-! ## The three products -/
section Products
variable (x0 : (⟨S4x2048x2048, .f32⟩ : BufTy).Contents (Elt Ideal)) (x1 x2 : (⟨S1x1x2048, .f32⟩ : BufTy).Contents (Elt Ideal)) (x3 : (⟨S8192x2048, .f32⟩ : BufTy).Contents (Elt Ideal)) (x4 : (⟨S2048x2048, .f32⟩ : BufTy).Contents (Elt Ideal)) (x5 : (⟨S2048x8192, .f32⟩ : BufTy).Contents (Elt Ideal)) (x6 x7 : (⟨S2048, .f32⟩ : BufTy).Contents (Elt Ideal)) (x8 : (⟨S8192, .f32⟩ : BufTy).Contents (Elt Ideal))

/-- The key product at (b, t, o): the sum over the 2048 channels of the quantised activation times the quantised weight. -/
theorem key_dot (b : Fin 4) (t : Fin 2048) (o : Fin 8192) :
    val_main_v56 (F := Ideal) x0 x1 x3 x6 (ix3 b t o) =
      ∑ k : Fin 2048, val_main_v42 (F := Ideal) x0 x1 x6 (ix3 b t k) * val_main_v55 (F := Ideal) x3 (ix2 o k) := by
  rw [val_main_v56_apply]
  refine Finset.sum_congr rfl fun k _ => ?_
  have e1 : lidx_main_v56 (ix3 b t o) k = ix3 b t k := funext fun a => by match a with | ⟨0, _⟩ => rfl | ⟨1, _⟩ => rfl | ⟨2, _⟩ => rfl
  have e2 : ridx_main_v56 (ix3 b t o) k = ix2 o k := funext fun a => by match a with | ⟨0, _⟩ => rfl | ⟨1, _⟩ => rfl
  rw [e1, e2]

/-- The value product at (b, t, o): the sum over the 8192 hidden channels. -/
theorem val_dot (b : Fin 4) (t : Fin 2048) (o : Fin 2048) :
    val_main_v99 (F := Ideal) x0 x1 x3 x5 x6 x8 (ix3 b t o) =
      ∑ k : Fin 8192, val_main_v85 (F := Ideal) x0 x1 x3 x6 x8 (ix3 b t k) * val_main_v98 (F := Ideal) x5 (ix2 o k) := by
  rw [val_main_v99_apply]
  refine Finset.sum_congr rfl fun k _ => ?_
  have e1 : lidx_main_v99 (ix3 b t o) k = ix3 b t k := funext fun a => by match a with | ⟨0, _⟩ => rfl | ⟨1, _⟩ => rfl | ⟨2, _⟩ => rfl
  have e2 : ridx_main_v99 (ix3 b t o) k = ix2 o k := funext fun a => by match a with | ⟨0, _⟩ => rfl | ⟨1, _⟩ => rfl
  rw [e1, e2]

/-- The receptance product at (b, t, o): the sum over the 2048 channels. -/
theorem rec_dot (b : Fin 4) (t : Fin 2048) (o : Fin 2048) :
    val_main_v140 (F := Ideal) x0 x2 x4 x7 (ix3 b t o) =
      ∑ k : Fin 2048, val_main_v126 (F := Ideal) x0 x2 x7 (ix3 b t k) * val_main_v139 (F := Ideal) x4 (ix2 o k) := by
  rw [val_main_v140_apply]
  refine Finset.sum_congr rfl fun k _ => ?_
  have e1 : lidx_main_v140 (ix3 b t o) k = ix3 b t k := funext fun a => by match a with | ⟨0, _⟩ => rfl | ⟨1, _⟩ => rfl | ⟨2, _⟩ => rfl
  have e2 : ridx_main_v140 (ix3 b t o) k = ix2 o k := funext fun a => by match a with | ⟨0, _⟩ => rfl | ⟨1, _⟩ => rfl
  rw [e1, e2]

end Products

/-! ## The stages as the specification's, and the whole -/
section Whole
open Cert.LibReal
variable (x0 : (⟨S4x2048x2048, .f32⟩ : BufTy).Contents (Elt Ideal)) (x1 x2 : (⟨S1x1x2048, .f32⟩ : BufTy).Contents (Elt Ideal)) (x3 : (⟨S8192x2048, .f32⟩ : BufTy).Contents (Elt Ideal)) (x4 : (⟨S2048x2048, .f32⟩ : BufTy).Contents (Elt Ideal)) (x5 : (⟨S2048x8192, .f32⟩ : BufTy).Contents (Elt Ideal)) (x6 x7 : (⟨S2048, .f32⟩ : BufTy).Contents (Elt Ideal)) (x8 : (⟨S8192, .f32⟩ : BufTy).Contents (Elt Ideal))

/-- The key path's input at (b, t, h): the entry times the key mix plus the shifted entry times one minus the mix. -/
theorem mix_key_at (b : Fin 4) (t h : Fin 2048) :
    val_main_v8 (F := Ideal) x0 x1 (ix3 b t h) = Cert.Spec.mix (fun (b : Fin 4) (t h : Fin 2048) => x0 (ix3 b t h)) (fun h : Fin 2048 => x1 (ix3 (0 : Fin 1) (0 : Fin 1) h)) b t h := by
  rw [val_main_v8_apply, val_main_v3_apply, val_main_v7_apply, val_main_v2_apply, val_main_v6_apply, val_main_v5_apply,
    val_main_v4_apply, val_main_cst_apply, shifted_at]
  have e2 : idx_main_v2 (ix3 b t h) = ix3 (0 : Fin 1) (0 : Fin 1) h := funext fun a => by match a with | ⟨0, _⟩ => rfl | ⟨1, _⟩ => rfl | ⟨2, _⟩ => rfl
  have e6 : idx_main_v6 (ix3 b t h) = ix3 (0 : Fin 1) (0 : Fin 1) h := funext fun a => by match a with | ⟨0, _⟩ => rfl | ⟨1, _⟩ => rfl | ⟨2, _⟩ => rfl
  rw [e2, e6]
  simp only [Ideal.addf_def, Ideal.mulf_def, Ideal.subf_def, Ideal.ofBits_def]
  rfl

/-- The receptance path's input at (b, t, h), with the receptance mix. -/
theorem mix_rec_at (b : Fin 4) (t h : Fin 2048) :
    val_main_v15 (F := Ideal) x0 x2 (ix3 b t h) = Cert.Spec.mix (fun (b : Fin 4) (t h : Fin 2048) => x0 (ix3 b t h)) (fun h : Fin 2048 => x2 (ix3 (0 : Fin 1) (0 : Fin 1) h)) b t h := by
  rw [val_main_v15_apply, val_main_v10_apply, val_main_v14_apply, val_main_v9_apply, val_main_v13_apply, val_main_v12_apply,
    val_main_v11_apply, val_main_cst_0_apply, shifted_at]
  have e9 : idx_main_v9 (ix3 b t h) = ix3 (0 : Fin 1) (0 : Fin 1) h := funext fun a => by match a with | ⟨0, _⟩ => rfl | ⟨1, _⟩ => rfl | ⟨2, _⟩ => rfl
  have e13 : idx_main_v13 (ix3 b t h) = ix3 (0 : Fin 1) (0 : Fin 1) h := funext fun a => by match a with | ⟨0, _⟩ => rfl | ⟨1, _⟩ => rfl | ⟨2, _⟩ => rfl
  rw [e9, e13]
  simp only [Ideal.addf_def, Ideal.mulf_def, Ideal.subf_def, Ideal.ofBits_def]
  rfl

/-- Row (b, t) of the key path's input is the specification's flat row 2048 b + t. -/
theorem key_row (b : Fin 4) (t : Fin 2048) :
    (fun k : Fin 2048 => val_main_v8 (F := Ideal) x0 x1 (ix3 b t k)) = Cert.Spec.keyIn (fun (b : Fin 4) (t h : Fin 2048) => x0 (ix3 b t h)) (fun h : Fin 2048 => x1 (ix3 (0 : Fin 1) (0 : Fin 1) h)) (Cert.Spec.flatRow b t) := by
  funext k
  rw [mix_key_at]
  show _ = Cert.Spec.mix (fun (b : Fin 4) (t h : Fin 2048) => x0 (ix3 b t h)) (fun h : Fin 2048 => x1 (ix3 (0 : Fin 1) (0 : Fin 1) h)) (Cert.Spec.rowB (Cert.Spec.flatRow b t)) (Cert.Spec.rowT (Cert.Spec.flatRow b t)) k
  rw [Cert.Spec.rowB_flatRow, Cert.Spec.rowT_flatRow]

/-- Row (b, t) of the receptance path's input likewise. -/
theorem rec_row (b : Fin 4) (t : Fin 2048) :
    (fun k : Fin 2048 => val_main_v15 (F := Ideal) x0 x2 (ix3 b t k)) = Cert.Spec.recIn (fun (b : Fin 4) (t h : Fin 2048) => x0 (ix3 b t h)) (fun h : Fin 2048 => x2 (ix3 (0 : Fin 1) (0 : Fin 1) h)) (Cert.Spec.flatRow b t) := by
  funext k
  rw [mix_rec_at]
  show _ = Cert.Spec.mix (fun (b : Fin 4) (t h : Fin 2048) => x0 (ix3 b t h)) (fun h : Fin 2048 => x2 (ix3 (0 : Fin 1) (0 : Fin 1) h)) (Cert.Spec.rowB (Cert.Spec.flatRow b t)) (Cert.Spec.rowT (Cert.Spec.flatRow b t)) k
  rw [Cert.Spec.rowB_flatRow, Cert.Spec.rowT_flatRow]

variable (h0 : ∀ i, IsReal (x0 i)) (h1 : ∀ i, IsReal (x1 i)) (h2 : ∀ i, IsReal (x2 i)) (h3 : ∀ i, IsReal (x3 i))
  (h4 : ∀ i, IsReal (x4 i)) (h5 : ∀ i, IsReal (x5 i)) (h6 : ∀ i, IsReal (x6 i)) (h7 : ∀ i, IsReal (x7 i))
  (h8 : ∀ i, IsReal (x8 i))
include h0 h1 h6 in
/-- The quantised key activations are the specification's. -/
theorem xqKey_at (b : Fin 4) (t h : Fin 2048) :
    val_main_v42 (F := Ideal) x0 x1 x6 (ix3 b t h) = Cert.Spec.xqKey (fun (b : Fin 4) (t h : Fin 2048) => x0 (ix3 b t h)) (fun h : Fin 2048 => x1 (ix3 (0 : Fin 1) (0 : Fin 1) h)) (fun k : Fin 2048 => x6 (ix1 k)) (Cert.Spec.flatRow b t) h := by
  have hrow := key_row x0 x1 b t
  have hx : ∀ k : Fin 2048, IsReal (val_main_v8 (F := Ideal) x0 x1 (ix3 b t k)) := fun k => by
    rw [show val_main_v8 (F := Ideal) x0 x1 (ix3 b t k) = Cert.Spec.keyIn (fun (b : Fin 4) (t h : Fin 2048) => x0 (ix3 b t h)) (fun h : Fin 2048 => x1 (ix3 (0 : Fin 1) (0 : Fin 1) h)) (Cert.Spec.flatRow b t) k from congrFun hrow k]
    exact Cert.Spec.keyIn_real _ _ (fun b t h => h0 (ix3 b t h)) (fun h => h1 (ix3 (0 : Fin 1) (0 : Fin 1) h)) _ _
  rw [key_xq x0 x1 x6 b t hx (fun k => h6 (ix1 k)) h, hrow]
  rfl

include h3 in
/-- The quantised key weights are the specification's. -/
theorem wqKey_at (o : Fin 8192) (i : Fin 2048) :
    val_main_v55 (F := Ideal) x3 (ix2 o i) = Cert.Spec.wqKey (fun (o : Fin 8192) (i : Fin 2048) => x3 (ix2 o i)) o i :=
  wk_at x3 o i (h3 _)

include h0 h1 h3 h6 in
/-- The key activations after the squared rectifier are the specification's. -/
theorem kAct_at (b : Fin 4) (t : Fin 2048) (o : Fin 8192) :
    val_main_v58 (F := Ideal) x0 x1 x3 x6 (ix3 b t o) = Cert.Spec.kAct (fun (b : Fin 4) (t h : Fin 2048) => x0 (ix3 b t h)) (fun h : Fin 2048 => x1 (ix3 (0 : Fin 1) (0 : Fin 1) h)) (fun (o : Fin 8192) (i : Fin 2048) => x3 (ix2 o i)) (fun k : Fin 2048 => x6 (ix1 k)) (Cert.Spec.flatRow b t) o := by
  rw [val_main_v58_apply, val_main_v57_apply, val_main_call7_v0_apply, val_main_call7_cst_apply, key_dot]
  have hs : (∑ k : Fin 2048, val_main_v42 (F := Ideal) x0 x1 x6 (ix3 b t k) * val_main_v55 (F := Ideal) x3 (ix2 o k)) =
      ∑ k : Fin 2048, Cert.Spec.xqKey (fun (b : Fin 4) (t h : Fin 2048) => x0 (ix3 b t h)) (fun h : Fin 2048 => x1 (ix3 (0 : Fin 1) (0 : Fin 1) h)) (fun k : Fin 2048 => x6 (ix1 k)) (Cert.Spec.flatRow b t) k * Cert.Spec.wqKey (fun (o : Fin 8192) (i : Fin 2048) => x3 (ix2 o i)) o k :=
    Finset.sum_congr rfl fun k _ => by rw [xqKey_at x0 x1 x6 h0 h1 h6 b t k, wqKey_at x3 h3 o k]
  rw [hs]
  simp only [Ideal.maximumf_def, Ideal.mulf_def, Ideal.ofBits_def]
  rfl

include h0 h1 h3 h6 h8 in
/-- The quantised value-path activations are the specification's. -/
theorem xqVal_at (b : Fin 4) (t : Fin 2048) (h : Fin 8192) :
    val_main_v85 (F := Ideal) x0 x1 x3 x6 x8 (ix3 b t h) = Cert.Spec.xqVal (fun (b : Fin 4) (t h : Fin 2048) => x0 (ix3 b t h)) (fun h : Fin 2048 => x1 (ix3 (0 : Fin 1) (0 : Fin 1) h)) (fun (o : Fin 8192) (i : Fin 2048) => x3 (ix2 o i)) (fun k : Fin 2048 => x6 (ix1 k)) (fun k : Fin 8192 => x8 (ix1 k)) (Cert.Spec.flatRow b t) h := by
  have hrow : (fun k : Fin 8192 => val_main_v58 (F := Ideal) x0 x1 x3 x6 (ix3 b t k)) =
      Cert.Spec.kAct (fun (b : Fin 4) (t h : Fin 2048) => x0 (ix3 b t h)) (fun h : Fin 2048 => x1 (ix3 (0 : Fin 1) (0 : Fin 1) h)) (fun (o : Fin 8192) (i : Fin 2048) => x3 (ix2 o i)) (fun k : Fin 2048 => x6 (ix1 k)) (Cert.Spec.flatRow b t) := funext fun k => kAct_at x0 x1 x3 x6 h0 h1 h3 h6 b t k
  have hx : ∀ k : Fin 8192, IsReal (val_main_v58 (F := Ideal) x0 x1 x3 x6 (ix3 b t k)) := fun k => by
    rw [kAct_at x0 x1 x3 x6 h0 h1 h3 h6 b t k]
    exact Cert.Spec.kAct_real _ _ _ _ (fun b t h => h0 (ix3 b t h)) (fun h => h1 (ix3 (0 : Fin 1) (0 : Fin 1) h)) (fun k => h6 (ix1 k)) (fun o i => h3 (ix2 o i)) _ _
  rw [val_xq x0 x1 x3 x6 x8 b t hx (fun k => h8 (ix1 k)) h, hrow]
  rfl

include h5 in
/-- The quantised value weights are the specification's. -/
theorem wqVal_at (o : Fin 2048) (i : Fin 8192) :
    val_main_v98 (F := Ideal) x5 (ix2 o i) = Cert.Spec.wqVal (fun (o : Fin 2048) (i : Fin 8192) => x5 (ix2 o i)) o i :=
  wv_at x5 o i (h5 _)

include h0 h1 h3 h5 h6 h8 in
/-- The value rows are the specification's. -/
theorem vAct_at (b : Fin 4) (t : Fin 2048) (o : Fin 2048) :
    val_main_v99 (F := Ideal) x0 x1 x3 x5 x6 x8 (ix3 b t o) = Cert.Spec.vAct (fun (b : Fin 4) (t h : Fin 2048) => x0 (ix3 b t h)) (fun h : Fin 2048 => x1 (ix3 (0 : Fin 1) (0 : Fin 1) h)) (fun (o : Fin 8192) (i : Fin 2048) => x3 (ix2 o i)) (fun (o : Fin 2048) (i : Fin 8192) => x5 (ix2 o i)) (fun k : Fin 2048 => x6 (ix1 k)) (fun k : Fin 8192 => x8 (ix1 k)) (Cert.Spec.flatRow b t) o := by
  rw [val_dot]
  show _ = ∑ k : Fin 8192, Cert.Spec.xqVal (fun (b : Fin 4) (t h : Fin 2048) => x0 (ix3 b t h)) (fun h : Fin 2048 => x1 (ix3 (0 : Fin 1) (0 : Fin 1) h)) (fun (o : Fin 8192) (i : Fin 2048) => x3 (ix2 o i)) (fun k : Fin 2048 => x6 (ix1 k)) (fun k : Fin 8192 => x8 (ix1 k)) (Cert.Spec.flatRow b t) k * Cert.Spec.wqVal (fun (o : Fin 2048) (i : Fin 8192) => x5 (ix2 o i)) o k
  exact Finset.sum_congr rfl fun k _ => by
    rw [xqVal_at x0 x1 x3 x6 x8 h0 h1 h3 h6 h8 b t k, wqVal_at x5 h5 o k]

include h0 h2 h7 in
/-- The quantised receptance activations are the specification's. -/
theorem xqRec_at (b : Fin 4) (t h : Fin 2048) :
    val_main_v126 (F := Ideal) x0 x2 x7 (ix3 b t h) = Cert.Spec.xqRec (fun (b : Fin 4) (t h : Fin 2048) => x0 (ix3 b t h)) (fun h : Fin 2048 => x2 (ix3 (0 : Fin 1) (0 : Fin 1) h)) (fun k : Fin 2048 => x7 (ix1 k)) (Cert.Spec.flatRow b t) h := by
  have hrow := rec_row x0 x2 b t
  have hx : ∀ k : Fin 2048, IsReal (val_main_v15 (F := Ideal) x0 x2 (ix3 b t k)) := fun k => by
    rw [show val_main_v15 (F := Ideal) x0 x2 (ix3 b t k) = Cert.Spec.recIn (fun (b : Fin 4) (t h : Fin 2048) => x0 (ix3 b t h)) (fun h : Fin 2048 => x2 (ix3 (0 : Fin 1) (0 : Fin 1) h)) (Cert.Spec.flatRow b t) k from congrFun hrow k]
    exact Cert.Spec.recIn_real _ _ (fun b t h => h0 (ix3 b t h)) (fun h => h2 (ix3 (0 : Fin 1) (0 : Fin 1) h)) _ _
  rw [rec_xq x0 x2 x7 b t hx (fun k => h7 (ix1 k)) h, hrow]
  rfl

include h4 in
/-- The quantised receptance weights are the specification's. -/
theorem wqRec_at (o : Fin 2048) (i : Fin 2048) :
    val_main_v139 (F := Ideal) x4 (ix2 o i) = Cert.Spec.wqRec (fun (o : Fin 2048) (i : Fin 2048) => x4 (ix2 o i)) o i :=
  wr_at x4 o i (h4 _)

include h0 h1 h2 h3 h4 h5 h6 h7 h8 in
/-- The reference's result at (b, t, o) is the specification's whole block there: the logistic gate of the receptance
    product applied to the value row; the reference negates where the specification subtracts from the word 0. -/
theorem ref_value_at (b : Fin 4) (t o : Fin 2048) :
    val_main_v147 (F := Ideal) x0 x1 x2 x3 x4 x5 x6 x7 x8 (ix3 b t o) =
      Cert.Spec.whole (fun (b : Fin 4) (t h : Fin 2048) => x0 (ix3 b t h)) (fun h : Fin 2048 => x1 (ix3 (0 : Fin 1) (0 : Fin 1) h)) (fun h : Fin 2048 => x2 (ix3 (0 : Fin 1) (0 : Fin 1) h)) (fun (o : Fin 8192) (i : Fin 2048) => x3 (ix2 o i)) (fun (o : Fin 2048) (i : Fin 2048) => x4 (ix2 o i)) (fun (o : Fin 2048) (i : Fin 8192) => x5 (ix2 o i)) (fun k : Fin 2048 => x6 (ix1 k)) (fun k : Fin 2048 => x7 (ix1 k)) (fun k : Fin 8192 => x8 (ix1 k)) b t o := by
  rw [val_main_v147_apply, val_main_v146_apply, val_main_v145_apply, val_main_cst_44_apply, val_main_v144_apply, val_main_v143_apply,
    val_main_cst_43_apply, val_main_v142_apply, val_main_v141_apply, rec_dot,
    vAct_at x0 x1 x3 x5 x6 x8 h0 h1 h3 h5 h6 h8 b t o]
  have hs : (∑ k : Fin 2048, val_main_v126 (F := Ideal) x0 x2 x7 (ix3 b t k) * val_main_v139 (F := Ideal) x4 (ix2 o k)) =
      Cert.Spec.mmT (Cert.Spec.xqRec (fun (b : Fin 4) (t h : Fin 2048) => x0 (ix3 b t h)) (fun h : Fin 2048 => x2 (ix3 (0 : Fin 1) (0 : Fin 1) h)) (fun k : Fin 2048 => x7 (ix1 k))) (Cert.Spec.wqRec (fun (o : Fin 2048) (i : Fin 2048) => x4 (ix2 o i))) (Cert.Spec.flatRow b t) o :=
    Finset.sum_congr rfl fun k _ => by rw [xqRec_at x0 x2 x7 h0 h2 h7 b t k, wqRec_at x4 h4 o k]
  rw [hs]
  simp only [Ideal.mulf_def, Ideal.hostDivf_def, Ideal.addf_def, Ideal.hostUnary_exp_def, Ideal.hostNegf_def, Ideal.negf_def,
    Ideal.ofBits_def]
  unfold Cert.Spec.whole Cert.Spec.outFlat Cert.Spec.sigv
  rw [Ideal.ofBits_zero_f32, zero_sub]

include h0 h1 h2 h3 h4 h5 h6 h7 h8 in
/-- The reference's whole result array is the specification's function of the nine argument arrays. -/
theorem ref_value_arrays :
    val_main_v147 (F := Ideal) x0 x1 x2 x3 x4 x5 x6 x7 x8 = Cert.Spec.ofArrays x0 x1 x2 x3 x4 x5 x6 x7 x8 := by
  funext i
  exact (congrArg (val_main_v147 (F := Ideal) x0 x1 x2 x3 x4 x5 x6 x7 x8) (ValueIdx.eq_ix3 i)).trans
    (ref_value_at x0 x1 x2 x3 x4 x5 x6 x7 x8 h0 h1 h2 h3 h4 h5 h6 h7 h8 (i 0) (i 1) (i 2))

end Whole

end Cert.ReferenceIdeal.RefValue

end
-- ==== Proof.RefRunValue.lean ====
/- The reference's run with its result named. From a memory whose nine argument arrays hold only real numbers, every
   weakly fair execution of the reference ends without a fault with its result buffer holding the specification's
   function of those nine arrays, and the arrays unchanged: the result buffer is the last of 237 buffers each written
   once, so after the whole line it holds its operation applied to its operands' final contents, and so on down to the
   arguments; read that way it is the stage-by-stage composition, which is the specification's function wherever the
   arguments are real. -/
import proofs.«174982_j50740743635387_2_alg».proof.Defs
import proofs.«174982_j50740743635387_2_alg».proof.Proof.Gen.ReferenceIdeal
import proofs.«174982_j50740743635387_2_alg».proof.Proof.RefRunGen
import proofs.«174982_j50740743635387_2_alg».proof.Proof.RefBridge
import proofs.«174982_j50740743635387_2_alg».proof.Proof.RefValue

noncomputable section

namespace Cert.ReferenceIdeal.RefRun

open Cert.ReferenceIdeal Cert.ReferenceIdeal.Gen Cert.ReferenceIdeal.Value Idealize.ShloMosaic Idealize.ShloMosaic.TcCoe
  Idealize.SL.Sem Idealize.ShloMosaic.StableHlo

set_option maxHeartbeats 94800000 in
/-- The reference's run at the exact instance, its result as the specification's function of the argument arrays. -/
theorem run_value (m : (ℓ : Loc nD τ sig) → Buf (Elt Ideal) ℓ) (ρ : Dev nD → PrngReg)
    (h0 : ∀ (c : Dev nD) i, Cert.LibReal.IsReal (m ((c.tc : Thread nD τ).loc main_arg0) i))
    (h1 : ∀ (c : Dev nD) i, Cert.LibReal.IsReal (m ((c.tc : Thread nD τ).loc main_arg1) i))
    (h2 : ∀ (c : Dev nD) i, Cert.LibReal.IsReal (m ((c.tc : Thread nD τ).loc main_arg2) i))
    (h3 : ∀ (c : Dev nD) i, Cert.LibReal.IsReal (m ((c.tc : Thread nD τ).loc main_arg3) i))
    (h4 : ∀ (c : Dev nD) i, Cert.LibReal.IsReal (m ((c.tc : Thread nD τ).loc main_arg4) i))
    (h5 : ∀ (c : Dev nD) i, Cert.LibReal.IsReal (m ((c.tc : Thread nD τ).loc main_arg5) i))
    (h6 : ∀ (c : Dev nD) i, Cert.LibReal.IsReal (m ((c.tc : Thread nD τ).loc main_arg6) i))
    (h7 : ∀ (c : Dev nD) i, Cert.LibReal.IsReal (m ((c.tc : Thread nD τ).loc main_arg7) i))
    (h8 : ∀ (c : Dev nD) i, Cert.LibReal.IsReal (m ((c.tc : Thread nD τ).loc main_arg8) i)) :
    θ_run defs (onTc (τ := τ) (main (F := Ideal))) ⟨m, fun _ => 0, ρ⟩ fun r => ∀ c : Dev nD,
      r.2.mem ((c.tc : Thread nD τ).loc main_v147) =
        Cert.Spec.ofArrays (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v147).trans
        ((Cert.ReferenceIdeal.RefBridge.after_v147 (launchContents m c)).trans
          (Cert.ReferenceIdeal.RefValue.ref_value_arrays _ _ _ _ _ _ _ _ _
            (h0 c) (h1 c) (h2 c) (h3 c) (h4 c) (h5 c) (h6 c) (h7 c) (h8 c))),
      (h c main_arg0).trans (Cert.ReferenceIdeal.RefBridge.at_main_arg0 (launchContents m c)),
      (h c main_arg1).trans (Cert.ReferenceIdeal.RefBridge.at_main_arg1 (launchContents m c)),
      (h c main_arg2).trans (Cert.ReferenceIdeal.RefBridge.at_main_arg2 (launchContents m c)),
      (h c main_arg3).trans (Cert.ReferenceIdeal.RefBridge.at_main_arg3 (launchContents m c)),
      (h c main_arg4).trans (Cert.ReferenceIdeal.RefBridge.at_main_arg4 (launchContents m c)),
      (h c main_arg5).trans (Cert.ReferenceIdeal.RefBridge.at_main_arg5 (launchContents m c)),
      (h c main_arg6).trans (Cert.ReferenceIdeal.RefBridge.at_main_arg6 (launchContents m c)),
      (h c main_arg7).trans (Cert.ReferenceIdeal.RefBridge.at_main_arg7 (launchContents m c)),
      (h c main_arg8).trans (Cert.ReferenceIdeal.RefBridge.at_main_arg8 (launchContents m c))⟩)
    (run_seq scopedRefs_eq scopedSems_eq defs main (fun _ => ops) main_eq (fun _ => ops_sub) m ρ)

end Cert.ReferenceIdeal.RefRun

end
-- ==== Proof.LibFinite.lean ====
/-
  "Every entry is finite", read back: one array's conjunct of a finiteness precondition makes every entry real.

  The precondition "every |x| is below +∞" is a reduction by `and`, over all axes and from the constant 1, of
  the entrywise comparison of `|x|` with the word `0x7F800000` broadcast from a scalar. The word is `+∞`, and on extended
  reals `max a (−a) < ⊤` excludes exactly `⊤` and `⊥`: the entry is a real number.
-/
import proofs.«174982_j50740743635387_2_alg».proof.Proof.LibReal
import Idealize.ShloMosaic.Lib.ReduceAll
import Idealize.ShloMosaic.Lib.ValueIdx
import Idealize.ShloMosaic.PureOps.Ideal.Laws

noncomputable section

namespace Cert.LibFinite

open Idealize.ShloMosaic Idealize.ShloMosaic.ValueIdx Cert.LibReal

/-- The rank-0 shape has one index. -/
instance : Subsingleton (⟨0, ![]⟩ : Shape).Idx := ⟨fun a b => funext fun d => d.elim0⟩

/-- The word `0x7F800000` is +∞. -/
theorem inf_word : Ideal.ofBits .f32 0x7F800000#32 = (⊤ : EReal) := by simp [Ideal.ofBits, Ideal.ieee]

/-- An extended real whose absolute value compares below +∞ is a real number. -/
theorem isReal_of_abs_lt (a : EReal)
    (h : FloatOps.cmpf (F := Ideal) (φ := .f32) .olt (FloatOps.hostAbsf a) (FloatOps.ofBits .f32 0x7F800000#32) = 1#1) : IsReal a := by
  have hlt : max a (-a) < ⊤ := by
    by_contra hn
    have h0 : FloatOps.cmpf (F := Ideal) (φ := .f32) .olt (FloatOps.hostAbsf a) (FloatOps.ofBits .f32 0x7F800000#32) = 0#1 := by
      show Ideal.cmp .olt (max a (-a)) (Ideal.ofBits .f32 0x7F800000#32) = 0#1
      rw [inf_word]
      unfold Ideal.cmp
      simp [hn]
    rw [h0] at h
    exact absurd h (by decide)
  induction a using EReal.rec with
  | bot => exact absurd hlt (by simp)
  | coe r => exact ⟨r, rfl⟩
  | top => exact absurd hlt (by simp)

/-- One array's conjunct: "all entries' absolute values are below +∞" (the reduction read at its one index) makes every
    entry real. -/
theorem real_of_all {s : Shape} {axes : List (Fin s.rank)} (A : FVec Ideal s .f32)
    (bc : (⟨0, ![]⟩ : Shape).BroadcastsInDim s (![] : Fin 0 → Fin s.rank))
    (rd : s.ReducesTo axes ⟨0, ![]⟩) (hS : 0 < (⟨0, ![]⟩ : Shape).numel)
    (h : Host.reduce IntOp.andi (cmpf .olt (Host.absf A) (broadcastInDim s ![] bc (constant ⟨0, ![]⟩ .f32 0x7F800000#32)))
      (constantI ⟨0, ![]⟩ 1 1#1) rd hS ix0 = 1#1)
    (i : s.Idx) : IsReal (A i) :=
  isReal_of_abs_lt (A i) (Host.reduce_andi_all _ _ rd hS ix0 h i)

end Cert.LibFinite

end
-- ==== Proof.PreReal.lean ====
/-
  The finiteness precondition read back: when "every |x| is below +∞" holds of the nine argument arrays,
  every entry of every argument is a real number.

  The precondition is one conjunction, by `and` on one-bit words, of nine "all entries" reductions, one per
  argument; it is split conjunct by conjunct from the outside in, and each conjunct gives its array's entries.
-/
import proofs.«174982_j50740743635387_2_alg».proof.Pre_finite_inputs
import proofs.«174982_j50740743635387_2_alg».proof.Proof.LibFinite
import Idealize.ShloMosaic.Lib.Affine

noncomputable section

namespace Cert.PreReal

open Idealize.ShloMosaic Idealize.ShloMosaic.ValueIdx Cert.LibReal Cert.LibFinite Cert.Pre_finite_inputs

variable [hF : Cert.Pre_finite_inputs.Facts]
open Cert.Pre_finite_inputs.Facts

/-- Under the finiteness precondition every entry of every argument array is real. -/
theorem real_of_fn (x0 : FVec Ideal S4x2048x2048 .f32) (x1 x2 : FVec Ideal S1x1x2048 .f32)
    (x3 : FVec Ideal S8192x2048 .f32) (x4 : FVec Ideal S2048x2048 .f32) (x5 : FVec Ideal S2048x8192 .f32)
    (x6 x7 : FVec Ideal S2048 .f32) (x8 : FVec Ideal S8192 .f32)
    (h : Cert.Pre_finite_inputs.fn (F := Ideal) x0 x1 x2 x3 x4 x5 x6 x7 x8 = fun _ => 1#1) :
    (∀ i, IsReal (x0 i)) ∧ (∀ i, IsReal (x1 i)) ∧ (∀ i, IsReal (x2 i)) ∧ (∀ i, IsReal (x3 i)) ∧
    (∀ i, IsReal (x4 i)) ∧ (∀ i, IsReal (x5 i)) ∧ (∀ i, IsReal (x6 i)) ∧ (∀ i, IsReal (x7 i)) ∧
    (∀ i, IsReal (x8 i)) := by
  have h0 := congrFun h ix0
  dsimp only [Cert.Pre_finite_inputs.fn, Cert.Pre_finite_inputs.fn_part1, Cert.Pre_finite_inputs.fn_part2] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all x0 _ _ _ e0, real_of_all x1 _ _ _ e1, real_of_all x2 _ _ _ e2, real_of_all x3 _ _ _ e3,
    real_of_all x4 _ _ _ e4, real_of_all x5 _ _ _ e5, real_of_all x6 _ _ _ e6, real_of_all x7 _ _ _ e7,
    real_of_all x8 _ _ _ e8⟩

end Cert.PreReal
-- ==== Proof.PreArgs.lean ====
/-
  The finiteness precondition of the idealized kernel's memory gives: every entry of each of the nine argument
  arrays, on every device, is a real number.
-/
import proofs.«174982_j50740743635387_2_alg».proof.Defs
import proofs.«174982_j50740743635387_2_alg».proof.Proof.Gen.Pre_finite_inputs
import proofs.«174982_j50740743635387_2_alg».proof.Proof.PreReal

noncomputable section

namespace Cert.PreReal

open Idealize.ShloMosaic Idealize.ShloMosaic.TcCoe Cert.LibReal Cert.Pre_finite_inputs

/-- Under the precondition, on device `c`, every entry of every argument array of the idealized kernel's memory is real. -/
theorem real_of_pre (m : (ℓ : Loc Cert.KernelIdeal.nD Cert.KernelIdeal.τ Cert.KernelIdeal.sig) → Buf (Elt Ideal) ℓ)
    (hPre : Cert.Pre_KernelIdeal (hPre_finite_inputs := Cert.Pre_finite_inputs.Gen.facts) m)
    (c : Dev Cert.KernelIdeal.nD) :
    (∀ i, IsReal ((m ((c.tc : Thread Cert.KernelIdeal.nD Cert.KernelIdeal.τ).loc Cert.KernelIdeal.main_arg0) : S4x2048x2048.Idx → EReal) i)) ∧
    (∀ i, IsReal ((m ((c.tc : Thread Cert.KernelIdeal.nD Cert.KernelIdeal.τ).loc Cert.KernelIdeal.main_arg1) : S1x1x2048.Idx → EReal) i)) ∧
    (∀ i, IsReal ((m ((c.tc : Thread Cert.KernelIdeal.nD Cert.KernelIdeal.τ).loc Cert.KernelIdeal.main_arg2) : S1x1x2048.Idx → EReal) i)) ∧
    (∀ i, IsReal ((m ((c.tc : Thread Cert.KernelIdeal.nD Cert.KernelIdeal.τ).loc Cert.KernelIdeal.main_arg3) : S8192x2048.Idx → EReal) i)) ∧
    (∀ i, IsReal ((m ((c.tc : Thread Cert.KernelIdeal.nD Cert.KernelIdeal.τ).loc Cert.KernelIdeal.main_arg4) : S2048x2048.Idx → EReal) i)) ∧
    (∀ i, IsReal ((m ((c.tc : Thread Cert.KernelIdeal.nD Cert.KernelIdeal.τ).loc Cert.KernelIdeal.main_arg5) : S2048x8192.Idx → EReal) i)) ∧
    (∀ i, IsReal ((m ((c.tc : Thread Cert.KernelIdeal.nD Cert.KernelIdeal.τ).loc Cert.KernelIdeal.main_arg6) : S2048.Idx → EReal) i)) ∧
    (∀ i, IsReal ((m ((c.tc : Thread Cert.KernelIdeal.nD Cert.KernelIdeal.τ).loc Cert.KernelIdeal.main_arg7) : S2048.Idx → EReal) i)) ∧
    (∀ i, IsReal ((m ((c.tc : Thread Cert.KernelIdeal.nD Cert.KernelIdeal.τ).loc Cert.KernelIdeal.main_arg8) : S8192.Idx → EReal) i)) :=
  real_of_fn (hF := Cert.Pre_finite_inputs.Gen.facts) _ _ _ _ _ _ _ _ _ (hPre c)

end Cert.PreReal
-- ==== Proof.lean ====
/-
  The certificate of a channel-mix block with ternary weights and 8-bit activations: the kernel program (six pipelined regions —
  three row-wise normalise-and-quantise passes and three blocked matrix products with their epilogues fused — among host operations)
  against its plain reference.

  Frames. Each kernel program is run as thirty-one segments; every region is entered with the buffers' contents named and left with its
  windows' arrays at what its write-backs leave. No segment writes an argument, so each argument array ends as launched. The reference
  is a straight line of host operations, none of which writes an argument.

  Values, at the extended reals. A quantising region's output row is the row normalised by its root mean square, scaled by the gain,
  rounded to the grid of step 1/s and clipped; a product region's output block is the sum over the contracted axis (accumulated over four
  blocks in the value product) followed by its epilogue; changes of float format are the identity. Threaded through @main this gives the
  block's function of the nine arguments. The reference computes the quantised activations and weights as x + (q - x): on real (finite)
  entries this is q, and finiteness of every entry is carried from the precondition through each stage (a sum of reals is real, the
  reciprocal root of a positive real is real, the scale 127 / max(1e-5, ·) is real and positive). So both programs end with the same
  array.
-/
import proofs.«174982_j50740743635387_2_alg».proof.Defs
import proofs.«174982_j50740743635387_2_alg».proof.Proof.Gen.Kernel
import proofs.«174982_j50740743635387_2_alg».proof.Proof.Gen.KernelIdeal
import proofs.«174982_j50740743635387_2_alg».proof.Proof.Gen.ReferenceIdeal
import proofs.«174982_j50740743635387_2_alg».proof.Proof.Gen.Pre_finite_inputs
import proofs.«174982_j50740743635387_2_alg».proof.Proof.K_Halves
import proofs.«174982_j50740743635387_2_alg».proof.Proof.Halves
import proofs.«174982_j50740743635387_2_alg».proof.Proof.KValue
import proofs.«174982_j50740743635387_2_alg».proof.Proof.RefRun
import proofs.«174982_j50740743635387_2_alg».proof.Proof.RefRunValue
import proofs.«174982_j50740743635387_2_alg».proof.Proof.PreArgs

noncomputable section

namespace Cert.Proof

open Idealize.ShloMosaic Idealize.SL.Sem

theorem frame_p : Cert.frame_Kernel (hKernel := Cert.Kernel.Gen.facts) (hPre_finite_inputs := Cert.Pre_finite_inputs.Gen.facts) :=
  fun m ρ _ => Cert.Kernel.H.frame m ρ

theorem frame_pi : Cert.frame_KernelIdeal (hKernelIdeal := Cert.KernelIdeal.Gen.facts) (hPre_finite_inputs := Cert.Pre_finite_inputs.Gen.facts) :=
  fun m ρ _ => Cert.KernelIdeal.H.frame m ρ

/-- The two idealized programs, from memories agreeing on the arguments, end with the block's function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.ofArrays (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.H.kernel_value m ρ c), (h c).2⟩) (Cert.KernelIdeal.H.run_result m ρ)
  · have hr := fun c => Cert.PreReal.real_of_pre m hpre c
    refine (θ_run Cert.ReferenceIdeal.defs _ _).mono (fun r h c => ⟨(h c).1.trans ?_, (h c).2⟩)
      (Cert.ReferenceIdeal.RefRun.run_value m' ρ'
        (fun c i => by rw [(hagree c).1]; exact (hr c).1 i)
        (fun c i => by rw [(hagree c).2.1]; exact (hr c).2.1 i)
        (fun c i => by rw [(hagree c).2.2.1]; exact (hr c).2.2.1 i)
        (fun c i => by rw [(hagree c).2.2.2.1]; exact (hr c).2.2.2.1 i)
        (fun c i => by rw [(hagree c).2.2.2.2.1]; exact (hr c).2.2.2.2.1 i)
        (fun c i => by rw [(hagree c).2.2.2.2.2.1]; exact (hr c).2.2.2.2.2.1 i)
        (fun c i => by rw [(hagree c).2.2.2.2.2.2.1]; exact (hr c).2.2.2.2.2.2.1 i)
        (fun c i => by rw [(hagree c).2.2.2.2.2.2.2.1]; exact (hr c).2.2.2.2.2.2.2.1 i)
        (fun c i => by rw [(hagree c).2.2.2.2.2.2.2.2]; exact (hr c).2.2.2.2.2.2.2.2 i))
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_p, frame_pi, Cert.ReferenceIdeal.RefRun.frame_ri, trivial, algebraic⟩

end Cert.Proof

end
